-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S512x256 : Shape := ⟨2, ![512, 256]⟩
abbrev S1x256 : Shape := ⟨2, ![1, 256]⟩
abbrev S31x1x256 : Shape := ⟨3, ![31, 1, 256]⟩
abbrev S31 : Shape := ⟨1, ![31]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S31x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  { ofTc nBuf bufTy 1 64 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v414 : BitVec 32 := Scalar.addi v2 c1_i32_283
  let c32_i32_284 : BitVec 32 := 32#32
  let c0_i32_285 : BitVec 32 := 0#32
  let v415 : BitVec 1 := Scalar.cmpi .eq c32_i32_284 c0_i32_285
  let c1_i32_286 : BitVec 32 := 1#32
  let v416 : BitVec 32 := Scalar.select v415 c1_i32_286 c32_i32_284
  let v417 : BitVec 32 := Scalar.remsi v414 v416
  let c0_i32_288 : BitVec 32 := 0#32
  let v419 : BitVec 1 := Scalar.cmpi .slt v417 c0_i32_288
  let c0_i32_289 : BitVec 32 := 0#32
  let v420 : BitVec 1 := Scalar.cmpi .slt v416 c0_i32_289
  let v421 : BitVec 1 := Scalar.xori v419 v420
  let c0_i32_287 : BitVec 32 := 0#32
  let v418 : BitVec 1 := Scalar.cmpi .ne v417 c0_i32_287
  let v422 : BitVec 1 := Scalar.andi v421 v418
  let v423 : BitVec 32 := Scalar.addi v417 v416
  let v424 : BitVec 32 := Scalar.select v422 v423 v417
  let c1_i32_293 : BitVec 32 := 1#32
  let v425 : BitVec 32 := Scalar.muli v424 c1_i32_293
  let v426 : BitVec 32 := Scalar.addi c0_i32_294 v425
  v426.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_297 : BitVec 32 := 2#32
  let v433 : BitVec 32 := Scalar.addi v2 c2_i32_297
  let c32_i32_298 : BitVec 32 := 32#32
  let c0_i32_299 : BitVec 32 := 0#32
  let v434 : BitVec 1 := Scalar.cmpi .eq c32_i32_298 c0_i32_299
  let c1_i32_300 : BitVec 32 := 1#32
  let v435 : BitVec 32 := Scalar.select v434 c1_i32_300 c32_i32_298
  let v436 : BitVec 32 := Scalar.remsi v433 v435
  let c0_i32_302 : BitVec 32 := 0#32
  let v438 : BitVec 1 := Scalar.cmpi .slt v436 c0_i32_302
  let c0_i32_303 : BitVec 32 := 0#32
  let v439 : BitVec 1 := Scalar.cmpi .slt v435 c0_i32_303
  let v440 : BitVec 1 := Scalar.xori v438 v439
  let c0_i32_301 : BitVec 32 := 0#32
  let v437 : BitVec 1 := Scalar.cmpi .ne v436 c0_i32_301
  let v441 : BitVec 1 := Scalar.andi v440 v437
  let v442 : BitVec 32 := Scalar.addi v436 v435
  let v443 : BitVec 32 := Scalar.select v441 v442 v436
  let c1_i32_307 : BitVec 32 := 1#32
  let v444 : BitVec 32 := Scalar.muli v443 c1_i32_307
  let v445 : BitVec 32 := Scalar.addi c0_i32_308 v444
  v445.toNat
def k0_dev34 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_311 : BitVec 32 := 3#32
  let v452 : BitVec 32 := Scalar.addi v2 c3_i32_311
  let c32_i32_312 : BitVec 32 := 32#32
  let c0_i32_313 : BitVec 32 := 0#32
  let v453 : BitVec 1 := Scalar.cmpi .eq c32_i32_312 c0_i32_313
  let c1_i32_314 : BitVec 32 := 1#32
  let v454 : BitVec 32 := Scalar.select v453 c1_i32_314 c32_i32_312
  let v455 : BitVec 32 := Scalar.remsi v452 v454
  let c0_i32_316 : BitVec 32 := 0#32
  let v457 : BitVec 1 := Scalar.cmpi .slt v455 c0_i32_316
  let c0_i32_317 : BitVec 32 := 0#32
  let v458 : BitVec 1 := Scalar.cmpi .slt v454 c0_i32_317
  let v459 : BitVec 1 := Scalar.xori v457 v458
  let c0_i32_315 : BitVec 32 := 0#32
  let v456 : BitVec 1 := Scalar.cmpi .ne v455 c0_i32_315
  let v460 : BitVec 1 := Scalar.andi v459 v456
  let v461 : BitVec 32 := Scalar.addi v455 v454
  let v462 : BitVec 32 := Scalar.select v460 v461 v455
  let c1_i32_321 : BitVec 32 := 1#32
  let v463 : BitVec 32 := Scalar.muli v462 c1_i32_321
  let v464 : BitVec 32 := Scalar.addi c0_i32_322 v463
  v464.toNat
def k0_dev35 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_325 : BitVec 32 := 4#32
  let v471 : BitVec 32 := Scalar.addi v2 c4_i32_325
  let c32_i32_326 : BitVec 32 := 32#32
  let c0_i32_327 : BitVec 32 := 0#32
  let v472 : BitVec 1 := Scalar.cmpi .eq c32_i32_326 c0_i32_327
  let c1_i32_328 : BitVec 32 := 1#32
  let v473 : BitVec 32 := Scalar.select v472 c1_i32_328 c32_i32_326
  let v474 : BitVec 32 := Scalar.remsi v471 v473
  let c0_i32_330 : BitVec 32 := 0#32
  let v476 : BitVec 1 := Scalar.cmpi .slt v474 c0_i32_330
  let c0_i32_331 : BitVec 32 := 0#32
  let v477 : BitVec 1 := Scalar.cmpi .slt v473 c0_i32_331
  let v478 : BitVec 1 := Scalar.xori v476 v477
  let c0_i32_329 : BitVec 32 := 0#32
  let v475 : BitVec 1 := Scalar.cmpi .ne v474 c0_i32_329
  let v479 : BitVec 1 := Scalar.andi v478 v475
  let v480 : BitVec 32 := Scalar.addi v474 v473
  let v481 : BitVec 32 := Scalar.select v479 v480 v474
  let c1_i32_335 : BitVec 32 := 1#32
  let v482 : BitVec 32 := Scalar.muli v481 c1_i32_335
  let v483 : BitVec 32 := Scalar.addi c0_i32_336 v482
  v483.toNat
def k0_dev36 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_339 : BitVec 32 := 5#32
  let v490 : BitVec 32 := Scalar.addi v2 c5_i32_339
  let c32_i32_340 : BitVec 32 := 32#32
  let c0_i32_341 : BitVec 32 := 0#32
  let v491 : BitVec 1 := Scalar.cmpi .eq c32_i32_340 c0_i32_341
  let c1_i32_342 : BitVec 32 := 1#32
  let v492 : BitVec 32 := Scalar.select v491 c1_i32_342 c32_i32_340
  let v493 : BitVec 32 := Scalar.remsi v490 v492
  let c0_i32_344 : BitVec 32 := 0#32
  let v495 : BitVec 1 := Scalar.cmpi .slt v493 c0_i32_344
  let c0_i32_345 : BitVec 32 := 0#32
  let v496 : BitVec 1 := Scalar.cmpi .slt v492 c0_i32_345
  let v497 : BitVec 1 := Scalar.xori v495 v496
  let c0_i32_343 : BitVec 32 := 0#32
  let v494 : BitVec 1 := Scalar.cmpi .ne v493 c0_i32_343
  let v498 : BitVec 1 := Scalar.andi v497 v494
  let v499 : BitVec 32 := Scalar.addi v493 v492
  let v500 : BitVec 32 := Scalar.select v498 v499 v493
  let c1_i32_349 : BitVec 32 := 1#32
  let v501 : BitVec 32 := Scalar.muli v500 c1_i32_349
  let v502 : BitVec 32 := Scalar.addi c0_i32_350 v501
  v502.toNat
def k0_dev37 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_353 : BitVec 32 := 6#32
  let v509 : BitVec 32 := Scalar.addi v2 c6_i32_353
  let c32_i32_354 : BitVec 32 := 32#32
  let c0_i32_355 : BitVec 32 := 0#32
  let v510 : BitVec 1 := Scalar.cmpi .eq c32_i32_354 c0_i32_355
  let c1_i32_356 : BitVec 32 := 1#32
  let v511 : BitVec 32 := Scalar.select v510 c1_i32_356 c32_i32_354
  let v512 : BitVec 32 := Scalar.remsi v509 v511
  let c0_i32_358 : BitVec 32 := 0#32
  let v514 : BitVec 1 := Scalar.cmpi .slt v512 c0_i32_358
  let c0_i32_359 : BitVec 32 := 0#32
  let v515 : BitVec 1 := Scalar.cmpi .slt v511 c0_i32_359
  let v516 : BitVec 1 := Scalar.xori v514 v515
  let c0_i32_357 : BitVec 32 := 0#32
  let v513 : BitVec 1 := Scalar.cmpi .ne v512 c0_i32_357
  let v517 : BitVec 1 := Scalar.andi v516 v513
  let v518 : BitVec 32 := Scalar.addi v512 v511
  let v519 : BitVec 32 := Scalar.select v517 v518 v512
  let c1_i32_363 : BitVec 32 := 1#32
  let v520 : BitVec 32 := Scalar.muli v519 c1_i32_363
  let v521 : BitVec 32 := Scalar.addi c0_i32_364 v520
  v521.toNat
def k0_dev38 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_367 : BitVec 32 := 7#32
  let v528 : BitVec 32 := Scalar.addi v2 c7_i32_367
  let c32_i32_368 : BitVec 32 := 32#32
  let c0_i32_369 : BitVec 32 := 0#32
  let v529 : BitVec 1 := Scalar.cmpi .eq c32_i32_368 c0_i32_369
  let c1_i32_370 : BitVec 32 := 1#32
  let v530 : BitVec 32 := Scalar.select v529 c1_i32_370 c32_i32_368
  let v531 : BitVec 32 := Scalar.remsi v528 v530
  let c0_i32_372 : BitVec 32 := 0#32
  let v533 : BitVec 1 := Scalar.cmpi .slt v531 c0_i32_372
  let c0_i32_373 : BitVec 32 := 0#32
  let v534 : BitVec 1 := Scalar.cmpi .slt v530 c0_i32_373
  let v535 : BitVec 1 := Scalar.xori v533 v534
  let c0_i32_371 : BitVec 32 := 0#32
  let v532 : BitVec 1 := Scalar.cmpi .ne v531 c0_i32_371
  let v536 : BitVec 1 := Scalar.andi v535 v532
  let v537 : BitVec 32 := Scalar.addi v531 v530
  let v538 : BitVec 32 := Scalar.select v536 v537 v531
  let c1_i32_377 : BitVec 32 := 1#32
  let v539 : BitVec 32 := Scalar.muli v538 c1_i32_377
  let v540 : BitVec 32 := Scalar.addi c0_i32_378 v539
  v540.toNat
def k0_dev39 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_381 : BitVec 32 := 8#32
  let v547 : BitVec 32 := Scalar.addi v2 c8_i32_381
  let c32_i32_382 : BitVec 32 := 32#32
  let c0_i32_383 : BitVec 32 := 0#32
  let v548 : BitVec 1 := Scalar.cmpi .eq c32_i32_382 c0_i32_383
  let c1_i32_384 : BitVec 32 := 1#32
  let v549 : BitVec 32 := Scalar.select v548 c1_i32_384 c32_i32_382
  let v550 : BitVec 32 := Scalar.remsi v547 v549
  let c0_i32_386 : BitVec 32 := 0#32
  let v552 : BitVec 1 := Scalar.cmpi .slt v550 c0_i32_386
  let c0_i32_387 : BitVec 32 := 0#32
  let v553 : BitVec 1 := Scalar.cmpi .slt v549 c0_i32_387
  let v554 : BitVec 1 := Scalar.xori v552 v553
  let c0_i32_385 : BitVec 32 := 0#32
  let v551 : BitVec 1 := Scalar.cmpi .ne v550 c0_i32_385
  let v555 : BitVec 1 := Scalar.andi v554 v551
  let v556 : BitVec 32 := Scalar.addi v550 v549
  let v557 : BitVec 32 := Scalar.select v555 v556 v550
  let c1_i32_391 : BitVec 32 := 1#32
  let v558 : BitVec 32 := Scalar.muli v557 c1_i32_391
  let v559 : BitVec 32 := Scalar.addi c0_i32_392 v558
  v559.toNat
def k0_dev40 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_395 : BitVec 32 := 9#32
  let v566 : BitVec 32 := Scalar.addi v2 c9_i32_395
  let c32_i32_396 : BitVec 32 := 32#32
  let c0_i32_397 : BitVec 32 := 0#32
  let v567 : BitVec 1 := Scalar.cmpi .eq c32_i32_396 c0_i32_397
  let c1_i32_398 : BitVec 32 := 1#32
  let v568 : BitVec 32 := Scalar.select v567 c1_i32_398 c32_i32_396
  let v569 : BitVec 32 := Scalar.remsi v566 v568
  let c0_i32_400 : BitVec 32 := 0#32
  let v571 : BitVec 1 := Scalar.cmpi .slt v569 c0_i32_400
  let c0_i32_401 : BitVec 32 := 0#32
  let v572 : BitVec 1 := Scalar.cmpi .slt v568 c0_i32_401
  let v573 : BitVec 1 := Scalar.xori v571 v572
  let c0_i32_399 : BitVec 32 := 0#32
  let v570 : BitVec 1 := Scalar.cmpi .ne v569 c0_i32_399
  let v574 : BitVec 1 := Scalar.andi v573 v570
  let v575 : BitVec 32 := Scalar.addi v569 v568
  let v576 : BitVec 32 := Scalar.select v574 v575 v569
  let c1_i32_405 : BitVec 32 := 1#32
  let v577 : BitVec 32 := Scalar.muli v576 c1_i32_405
  let v578 : BitVec 32 := Scalar.addi c0_i32_406 v577
  v578.toNat
def k0_dev41 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_409 : BitVec 32 := 10#32
  let v585 : BitVec 32 := Scalar.addi v2 c10_i32_409
  let c32_i32_410 : BitVec 32 := 32#32
  let c0_i32_411 : BitVec 32 := 0#32
  let v586 : BitVec 1 := Scalar.cmpi .eq c32_i32_410 c0_i32_411
  let c1_i32_412 : BitVec 32 := 1#32
  let v587 : BitVec 32 := Scalar.select v586 c1_i32_412 c32_i32_410
  let v588 : BitVec 32 := Scalar.remsi v585 v587
  let c0_i32_414 : BitVec 32 := 0#32
  let v590 : BitVec 1 := Scalar.cmpi .slt v588 c0_i32_414
  let c0_i32_415 : BitVec 32 := 0#32
  let v591 : BitVec 1 := Scalar.cmpi .slt v587 c0_i32_415
  let v592 : BitVec 1 := Scalar.xori v590 v591
  let c0_i32_413 : BitVec 32 := 0#32
  let v589 : BitVec 1 := Scalar.cmpi .ne v588 c0_i32_413
  let v593 : BitVec 1 := Scalar.andi v592 v589
  let v594 : BitVec 32 := Scalar.addi v588 v587
  let v595 : BitVec 32 := Scalar.select v593 v594 v588
  let c1_i32_419 : BitVec 32 := 1#32
  let v596 : BitVec 32 := Scalar.muli v595 c1_i32_419
  let v597 : BitVec 32 := Scalar.addi c0_i32_420 v596
  v597.toNat
def k0_dev42 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_423 : BitVec 32 := 11#32
  let v604 : BitVec 32 := Scalar.addi v2 c11_i32_423
  let c32_i32_424 : BitVec 32 := 32#32
  let c0_i32_425 : BitVec 32 := 0#32
  let v605 : BitVec 1 := Scalar.cmpi .eq c32_i32_424 c0_i32_425
  let c1_i32_426 : BitVec 32 := 1#32
  let v606 : BitVec 32 := Scalar.select v605 c1_i32_426 c32_i32_424
  let v607 : BitVec 32 := Scalar.remsi v604 v606
  let c0_i32_428 : BitVec 32 := 0#32
  let v609 : BitVec 1 := Scalar.cmpi .slt v607 c0_i32_428
  let c0_i32_429 : BitVec 32 := 0#32
  let v610 : BitVec 1 := Scalar.cmpi .slt v606 c0_i32_429
  let v611 : BitVec 1 := Scalar.xori v609 v610
  let c0_i32_427 : BitVec 32 := 0#32
  let v608 : BitVec 1 := Scalar.cmpi .ne v607 c0_i32_427
  let v612 : BitVec 1 := Scalar.andi v611 v608
  let v613 : BitVec 32 := Scalar.addi v607 v606
  let v614 : BitVec 32 := Scalar.select v612 v613 v607
  let c1_i32_433 : BitVec 32 := 1#32
  let v615 : BitVec 32 := Scalar.muli v614 c1_i32_433
  let v616 : BitVec 32 := Scalar.addi c0_i32_434 v615
  v616.toNat
def k0_dev43 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_437 : BitVec 32 := 12#32
  let v623 : BitVec 32 := Scalar.addi v2 c12_i32_437
  let c32_i32_438 : BitVec 32 := 32#32
  let c0_i32_439 : BitVec 32 := 0#32
  let v624 : BitVec 1 := Scalar.cmpi .eq c32_i32_438 c0_i32_439
  let c1_i32_440 : BitVec 32 := 1#32
  let v625 : BitVec 32 := Scalar.select v624 c1_i32_440 c32_i32_438
  let v626 : BitVec 32 := Scalar.remsi v623 v625
  let c0_i32_442 : BitVec 32 := 0#32
  let v628 : BitVec 1 := Scalar.cmpi .slt v626 c0_i32_442
  let c0_i32_443 : BitVec 32 := 0#32
  let v629 : BitVec 1 := Scalar.cmpi .slt v625 c0_i32_443
  let v630 : BitVec 1 := Scalar.xori v628 v629
  let c0_i32_441 : BitVec 32 := 0#32
  let v627 : BitVec 1 := Scalar.cmpi .ne v626 c0_i32_441
  let v631 : BitVec 1 := Scalar.andi v630 v627
  let v632 : BitVec 32 := Scalar.addi v626 v625
  let v633 : BitVec 32 := Scalar.select v631 v632 v626
  let c1_i32_447 : BitVec 32 := 1#32
  let v634 : BitVec 32 := Scalar.muli v633 c1_i32_447
  let v635 : BitVec 32 := Scalar.addi c0_i32_448 v634
  v635.toNat
def k0_dev44 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_451 : BitVec 32 := 13#32
  let v642 : BitVec 32 := Scalar.addi v2 c13_i32_451
  let c32_i32_452 : BitVec 32 := 32#32
  let c0_i32_453 : BitVec 32 := 0#32
  let v643 : BitVec 1 := Scalar.cmpi .eq c32_i32_452 c0_i32_453
  let c1_i32_454 : BitVec 32 := 1#32
  let v644 : BitVec 32 := Scalar.select v643 c1_i32_454 c32_i32_452
  let v645 : BitVec 32 := Scalar.remsi v642 v644
  let c0_i32_456 : BitVec 32 := 0#32
  let v647 : BitVec 1 := Scalar.cmpi .slt v645 c0_i32_456
  let c0_i32_457 : BitVec 32 := 0#32
  let v648 : BitVec 1 := Scalar.cmpi .slt v644 c0_i32_457
  let v649 : BitVec 1 := Scalar.xori v647 v648
  let c0_i32_455 : BitVec 32 := 0#32
  let v646 : BitVec 1 := Scalar.cmpi .ne v645 c0_i32_455
  let v650 : BitVec 1 := Scalar.andi v649 v646
  let v651 : BitVec 32 := Scalar.addi v645 v644
  let v652 : BitVec 32 := Scalar.select v650 v651 v645
  let c1_i32_461 : BitVec 32 := 1#32
  let v653 : BitVec 32 := Scalar.muli v652 c1_i32_461
  let v654 : BitVec 32 := Scalar.addi c0_i32_462 v653
  v654.toNat
def k0_dev45 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_465 : BitVec 32 := 14#32
  let v661 : BitVec 32 := Scalar.addi v2 c14_i32_465
  let c32_i32_466 : BitVec 32 := 32#32
  let c0_i32_467 : BitVec 32 := 0#32
  let v662 : BitVec 1 := Scalar.cmpi .eq c32_i32_466 c0_i32_467
  let c1_i32_468 : BitVec 32 := 1#32
  let v663 : BitVec 32 := Scalar.select v662 c1_i32_468 c32_i32_466
  let v664 : BitVec 32 := Scalar.remsi v661 v663
  let c0_i32_470 : BitVec 32 := 0#32
  let v666 : BitVec 1 := Scalar.cmpi .slt v664 c0_i32_470
  let c0_i32_471 : BitVec 32 := 0#32
  let v667 : BitVec 1 := Scalar.cmpi .slt v663 c0_i32_471
  let v668 : BitVec 1 := Scalar.xori v666 v667
  let c0_i32_469 : BitVec 32 := 0#32
  let v665 : BitVec 1 := Scalar.cmpi .ne v664 c0_i32_469
  let v669 : BitVec 1 := Scalar.andi v668 v665
  let v670 : BitVec 32 := Scalar.addi v664 v663
  let v671 : BitVec 32 := Scalar.select v669 v670 v664
  let c1_i32_475 : BitVec 32 := 1#32
  let v672 : BitVec 32 := Scalar.muli v671 c1_i32_475
  let v673 : BitVec 32 := Scalar.addi c0_i32_476 v672
  v673.toNat
def k0_dev46 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_479 : BitVec 32 := 15#32
  let v680 : BitVec 32 := Scalar.addi v2 c15_i32_479
  let c32_i32_480 : BitVec 32 := 32#32
  let c0_i32_481 : BitVec 32 := 0#32
  let v681 : BitVec 1 := Scalar.cmpi .eq c32_i32_480 c0_i32_481
  let c1_i32_482 : BitVec 32 := 1#32
  let v682 : BitVec 32 := Scalar.select v681 c1_i32_482 c32_i32_480
  let v683 : BitVec 32 := Scalar.remsi v680 v682
  let c0_i32_484 : BitVec 32 := 0#32
  let v685 : BitVec 1 := Scalar.cmpi .slt v683 c0_i32_484
  let c0_i32_485 : BitVec 32 := 0#32
  let v686 : BitVec 1 := Scalar.cmpi .slt v682 c0_i32_485
  let v687 : BitVec 1 := Scalar.xori v685 v686
  let c0_i32_483 : BitVec 32 := 0#32
  let v684 : BitVec 1 := Scalar.cmpi .ne v683 c0_i32_483
  let v688 : BitVec 1 := Scalar.andi v687 v684
  let v689 : BitVec 32 := Scalar.addi v683 v682
  let v690 : BitVec 32 := Scalar.select v688 v689 v683
  let c1_i32_489 : BitVec 32 := 1#32
  let v691 : BitVec 32 := Scalar.muli v690 c1_i32_489
  let v692 : BitVec 32 := Scalar.addi c0_i32_490 v691
  v692.toNat
def k0_dev47 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_493 : BitVec 32 := 16#32
  let v699 : BitVec 32 := Scalar.addi v2 c16_i32_493
  let c32_i32_494 : BitVec 32 := 32#32
  let c0_i32_495 : BitVec 32 := 0#32
  let v700 : BitVec 1 := Scalar.cmpi .eq c32_i32_494 c0_i32_495
  let c1_i32_496 : BitVec 32 := 1#32
  let v701 : BitVec 32 := Scalar.select v700 c1_i32_496 c32_i32_494
  let v702 : BitVec 32 := Scalar.remsi v699 v701
  let c0_i32_498 : BitVec 32 := 0#32
  let v704 : BitVec 1 := Scalar.cmpi .slt v702 c0_i32_498
  let c0_i32_499 : BitVec 32 := 0#32
  let v705 : BitVec 1 := Scalar.cmpi .slt v701 c0_i32_499
  let v706 : BitVec 1 := Scalar.xori v704 v705
  let c0_i32_497 : BitVec 32 := 0#32
  let v703 : BitVec 1 := Scalar.cmpi .ne v702 c0_i32_497
  let v707 : BitVec 1 := Scalar.andi v706 v703
  let v708 : BitVec 32 := Scalar.addi v702 v701
  let v709 : BitVec 32 := Scalar.select v707 v708 v702
  let c1_i32_503 : BitVec 32 := 1#32
  let v710 : BitVec 32 := Scalar.muli v709 c1_i32_503
  let v711 : BitVec 32 := Scalar.addi c0_i32_504 v710
  v711.toNat
def k0_dev48 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_507 : BitVec 32 := 17#32
  let v718 : BitVec 32 := Scalar.addi v2 c17_i32_507
  let c32_i32_508 : BitVec 32 := 32#32
  let c0_i32_509 : BitVec 32 := 0#32
  let v719 : BitVec 1 := Scalar.cmpi .eq c32_i32_508 c0_i32_509
  let c1_i32_510 : BitVec 32 := 1#32
  let v720 : BitVec 32 := Scalar.select v719 c1_i32_510 c32_i32_508
  let v721 : BitVec 32 := Scalar.remsi v718 v720
  let c0_i32_512 : BitVec 32 := 0#32
  let v723 : BitVec 1 := Scalar.cmpi .slt v721 c0_i32_512
  let c0_i32_513 : BitVec 32 := 0#32
  let v724 : BitVec 1 := Scalar.cmpi .slt v720 c0_i32_513
  let v725 : BitVec 1 := Scalar.xori v723 v724
  let c0_i32_511 : BitVec 32 := 0#32
  let v722 : BitVec 1 := Scalar.cmpi .ne v721 c0_i32_511
  let v726 : BitVec 1 := Scalar.andi v725 v722
  let v727 : BitVec 32 := Scalar.addi v721 v720
  let v728 : BitVec 32 := Scalar.select v726 v727 v721
  let c1_i32_517 : BitVec 32 := 1#32
  let v729 : BitVec 32 := Scalar.muli v728 c1_i32_517
  let v730 : BitVec 32 := Scalar.addi c0_i32_518 v729
  v730.toNat
def k0_dev49 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_521 : BitVec 32 := 18#32
  let v737 : BitVec 32 := Scalar.addi v2 c18_i32_521
  let c32_i32_522 : BitVec 32 := 32#32
  let c0_i32_523 : BitVec 32 := 0#32
  let v738 : BitVec 1 := Scalar.cmpi .eq c32_i32_522 c0_i32_523
  let c1_i32_524 : BitVec 32 := 1#32
  let v739 : BitVec 32 := Scalar.select v738 c1_i32_524 c32_i32_522
  let v740 : BitVec 32 := Scalar.remsi v737 v739
  let c0_i32_526 : BitVec 32 := 0#32
  let v742 : BitVec 1 := Scalar.cmpi .slt v740 c0_i32_526
  let c0_i32_527 : BitVec 32 := 0#32
  let v743 : BitVec 1 := Scalar.cmpi .slt v739 c0_i32_527
  let v744 : BitVec 1 := Scalar.xori v742 v743
  let c0_i32_525 : BitVec 32 := 0#32
  let v741 : BitVec 1 := Scalar.cmpi .ne v740 c0_i32_525
  let v745 : BitVec 1 := Scalar.andi v744 v741
  let v746 : BitVec 32 := Scalar.addi v740 v739
  let v747 : BitVec 32 := Scalar.select v745 v746 v740
  let c1_i32_531 : BitVec 32 := 1#32
  let v748 : BitVec 32 := Scalar.muli v747 c1_i32_531
  let v749 : BitVec 32 := Scalar.addi c0_i32_532 v748
  v749.toNat
def k0_dev50 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_535 : BitVec 32 := 19#32
  let v756 : BitVec 32 := Scalar.addi v2 c19_i32_535
  let c32_i32_536 : BitVec 32 := 32#32
  let c0_i32_537 : BitVec 32 := 0#32
  let v757 : BitVec 1 := Scalar.cmpi .eq c32_i32_536 c0_i32_537
  let c1_i32_538 : BitVec 32 := 1#32
  let v758 : BitVec 32 := Scalar.select v757 c1_i32_538 c32_i32_536
  let v759 : BitVec 32 := Scalar.remsi v756 v758
  let c0_i32_540 : BitVec 32 := 0#32
  let v761 : BitVec 1 := Scalar.cmpi .slt v759 c0_i32_540
  let c0_i32_541 : BitVec 32 := 0#32
  let v762 : BitVec 1 := Scalar.cmpi .slt v758 c0_i32_541
  let v763 : BitVec 1 := Scalar.xori v761 v762
  let c0_i32_539 : BitVec 32 := 0#32
  let v760 : BitVec 1 := Scalar.cmpi .ne v759 c0_i32_539
  let v764 : BitVec 1 := Scalar.andi v763 v760
  let v765 : BitVec 32 := Scalar.addi v759 v758
  let v766 : BitVec 32 := Scalar.select v764 v765 v759
  let c1_i32_545 : BitVec 32 := 1#32
  let v767 : BitVec 32 := Scalar.muli v766 c1_i32_545
  let v768 : BitVec 32 := Scalar.addi c0_i32_546 v767
  v768.toNat
def k0_dev51 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_549 : BitVec 32 := 20#32
  let v775 : BitVec 32 := Scalar.addi v2 c20_i32_549
  let c32_i32_550 : BitVec 32 := 32#32
  let c0_i32_551 : BitVec 32 := 0#32
  let v776 : BitVec 1 := Scalar.cmpi .eq c32_i32_550 c0_i32_551
  let c1_i32_552 : BitVec 32 := 1#32
  let v777 : BitVec 32 := Scalar.select v776 c1_i32_552 c32_i32_550
  let v778 : BitVec 32 := Scalar.remsi v775 v777
  let c0_i32_554 : BitVec 32 := 0#32
  let v780 : BitVec 1 := Scalar.cmpi .slt v778 c0_i32_554
  let c0_i32_555 : BitVec 32 := 0#32
  let v781 : BitVec 1 := Scalar.cmpi .slt v777 c0_i32_555
  let v782 : BitVec 1 := Scalar.xori v780 v781
  let c0_i32_553 : BitVec 32 := 0#32
  let v779 : BitVec 1 := Scalar.cmpi .ne v778 c0_i32_553
  let v783 : BitVec 1 := Scalar.andi v782 v779
  let v784 : BitVec 32 := Scalar.addi v778 v777
  let v785 : BitVec 32 := Scalar.select v783 v784 v778
  let c1_i32_559 : BitVec 32 := 1#32
  let v786 : BitVec 32 := Scalar.muli v785 c1_i32_559
  let v787 : BitVec 32 := Scalar.addi c0_i32_560 v786
  v787.toNat
def k0_dev52 (d0 : Dev nD) : Nat :=
  let c0_i32_574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_563 : BitVec 32 := 21#32
  let v794 : BitVec 32 := Scalar.addi v2 c21_i32_563
  let c32_i32_564 : BitVec 32 := 32#32
  let c0_i32_565 : BitVec 32 := 0#32
  let v795 : BitVec 1 := Scalar.cmpi .eq c32_i32_564 c0_i32_565
  let c1_i32_566 : BitVec 32 := 1#32
  let v796 : BitVec 32 := Scalar.select v795 c1_i32_566 c32_i32_564
  let v797 : BitVec 32 := Scalar.remsi v794 v796
  let c0_i32_568 : BitVec 32 := 0#32
  let v799 : BitVec 1 := Scalar.cmpi .slt v797 c0_i32_568
  let c0_i32_569 : BitVec 32 := 0#32
  let v800 : BitVec 1 := Scalar.cmpi .slt v796 c0_i32_569
  let v801 : BitVec 1 := Scalar.xori v799 v800
  let c0_i32_567 : BitVec 32 := 0#32
  let v798 : BitVec 1 := Scalar.cmpi .ne v797 c0_i32_567
  let v802 : BitVec 1 := Scalar.andi v801 v798
  let v803 : BitVec 32 := Scalar.addi v797 v796
  let v804 : BitVec 32 := Scalar.select v802 v803 v797
  let c1_i32_573 : BitVec 32 := 1#32
  let v805 : BitVec 32 := Scalar.muli v804 c1_i32_573
  let v806 : BitVec 32 := Scalar.addi c0_i32_574 v805
  v806.toNat
def k0_dev53 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_577 : BitVec 32 := 22#32
  let v813 : BitVec 32 := Scalar.addi v2 c22_i32_577
  let c32_i32_578 : BitVec 32 := 32#32
  let c0_i32_579 : BitVec 32 := 0#32
  let v814 : BitVec 1 := Scalar.cmpi .eq c32_i32_578 c0_i32_579
  let c1_i32_580 : BitVec 32 := 1#32
  let v815 : BitVec 32 := Scalar.select v814 c1_i32_580 c32_i32_578
  let v816 : BitVec 32 := Scalar.remsi v813 v815
  let c0_i32_582 : BitVec 32 := 0#32
  let v818 : BitVec 1 := Scalar.cmpi .slt v816 c0_i32_582
  let c0_i32_583 : BitVec 32 := 0#32
  let v819 : BitVec 1 := Scalar.cmpi .slt v815 c0_i32_583
  let v820 : BitVec 1 := Scalar.xori v818 v819
  let c0_i32_581 : BitVec 32 := 0#32
  let v817 : BitVec 1 := Scalar.cmpi .ne v816 c0_i32_581
  let v821 : BitVec 1 := Scalar.andi v820 v817
  let v822 : BitVec 32 := Scalar.addi v816 v815
  let v823 : BitVec 32 := Scalar.select v821 v822 v816
  let c1_i32_587 : BitVec 32 := 1#32
  let v824 : BitVec 32 := Scalar.muli v823 c1_i32_587
  let v825 : BitVec 32 := Scalar.addi c0_i32_588 v824
  v825.toNat
def k0_dev54 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_591 : BitVec 32 := 23#32
  let v832 : BitVec 32 := Scalar.addi v2 c23_i32_591
  let c32_i32_592 : BitVec 32 := 32#32
  let c0_i32_593 : BitVec 32 := 0#32
  let v833 : BitVec 1 := Scalar.cmpi .eq c32_i32_592 c0_i32_593
  let c1_i32_594 : BitVec 32 := 1#32
  let v834 : BitVec 32 := Scalar.select v833 c1_i32_594 c32_i32_592
  let v835 : BitVec 32 := Scalar.remsi v832 v834
  let c0_i32_596 : BitVec 32 := 0#32
  let v837 : BitVec 1 := Scalar.cmpi .slt v835 c0_i32_596
  let c0_i32_597 : BitVec 32 := 0#32
  let v838 : BitVec 1 := Scalar.cmpi .slt v834 c0_i32_597
  let v839 : BitVec 1 := Scalar.xori v837 v838
  let c0_i32_595 : BitVec 32 := 0#32
  let v836 : BitVec 1 := Scalar.cmpi .ne v835 c0_i32_595
  let v840 : BitVec 1 := Scalar.andi v839 v836
  let v841 : BitVec 32 := Scalar.addi v835 v834
  let v842 : BitVec 32 := Scalar.select v840 v841 v835
  let c1_i32_601 : BitVec 32 := 1#32
  let v843 : BitVec 32 := Scalar.muli v842 c1_i32_601
  let v844 : BitVec 32 := Scalar.addi c0_i32_602 v843
  v844.toNat
def k0_dev55 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_605 : BitVec 32 := 24#32
  let v851 : BitVec 32 := Scalar.addi v2 c24_i32_605
  let c32_i32_606 : BitVec 32 := 32#32
  let c0_i32_607 : BitVec 32 := 0#32
  let v852 : BitVec 1 := Scalar.cmpi .eq c32_i32_606 c0_i32_607
  let c1_i32_608 : BitVec 32 := 1#32
  let v853 : BitVec 32 := Scalar.select v852 c1_i32_608 c32_i32_606
  let v854 : BitVec 32 := Scalar.remsi v851 v853
  let c0_i32_610 : BitVec 32 := 0#32
  let v856 : BitVec 1 := Scalar.cmpi .slt v854 c0_i32_610
  let c0_i32_611 : BitVec 32 := 0#32
  let v857 : BitVec 1 := Scalar.cmpi .slt v853 c0_i32_611
  let v858 : BitVec 1 := Scalar.xori v856 v857
  let c0_i32_609 : BitVec 32 := 0#32
  let v855 : BitVec 1 := Scalar.cmpi .ne v854 c0_i32_609
  let v859 : BitVec 1 := Scalar.andi v858 v855
  let v860 : BitVec 32 := Scalar.addi v854 v853
  let v861 : BitVec 32 := Scalar.select v859 v860 v854
  let c1_i32_615 : BitVec 32 := 1#32
  let v862 : BitVec 32 := Scalar.muli v861 c1_i32_615
  let v863 : BitVec 32 := Scalar.addi c0_i32_616 v862
  v863.toNat
def k0_dev56 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_619 : BitVec 32 := 25#32
  let v870 : BitVec 32 := Scalar.addi v2 c25_i32_619
  let c32_i32_620 : BitVec 32 := 32#32
  let c0_i32_621 : BitVec 32 := 0#32
  let v871 : BitVec 1 := Scalar.cmpi .eq c32_i32_620 c0_i32_621
  let c1_i32_622 : BitVec 32 := 1#32
  let v872 : BitVec 32 := Scalar.select v871 c1_i32_622 c32_i32_620
  let v873 : BitVec 32 := Scalar.remsi v870 v872
  let c0_i32_624 : BitVec 32 := 0#32
  let v875 : BitVec 1 := Scalar.cmpi .slt v873 c0_i32_624
  let c0_i32_625 : BitVec 32 := 0#32
  let v876 : BitVec 1 := Scalar.cmpi .slt v872 c0_i32_625
  let v877 : BitVec 1 := Scalar.xori v875 v876
  let c0_i32_623 : BitVec 32 := 0#32
  let v874 : BitVec 1 := Scalar.cmpi .ne v873 c0_i32_623
  let v878 : BitVec 1 := Scalar.andi v877 v874
  let v879 : BitVec 32 := Scalar.addi v873 v872
  let v880 : BitVec 32 := Scalar.select v878 v879 v873
  let c1_i32_629 : BitVec 32 := 1#32
  let v881 : BitVec 32 := Scalar.muli v880 c1_i32_629
  let v882 : BitVec 32 := Scalar.addi c0_i32_630 v881
  v882.toNat
def k0_dev57 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_633 : BitVec 32 := 26#32
  let v889 : BitVec 32 := Scalar.addi v2 c26_i32_633
  let c32_i32_634 : BitVec 32 := 32#32
  let c0_i32_635 : BitVec 32 := 0#32
  let v890 : BitVec 1 := Scalar.cmpi .eq c32_i32_634 c0_i32_635
  let c1_i32_636 : BitVec 32 := 1#32
  let v891 : BitVec 32 := Scalar.select v890 c1_i32_636 c32_i32_634
  let v892 : BitVec 32 := Scalar.remsi v889 v891
  let c0_i32_638 : BitVec 32 := 0#32
  let v894 : BitVec 1 := Scalar.cmpi .slt v892 c0_i32_638
  let c0_i32_639 : BitVec 32 := 0#32
  let v895 : BitVec 1 := Scalar.cmpi .slt v891 c0_i32_639
  let v896 : BitVec 1 := Scalar.xori v894 v895
  let c0_i32_637 : BitVec 32 := 0#32
  let v893 : BitVec 1 := Scalar.cmpi .ne v892 c0_i32_637
  let v897 : BitVec 1 := Scalar.andi v896 v893
  let v898 : BitVec 32 := Scalar.addi v892 v891
  let v899 : BitVec 32 := Scalar.select v897 v898 v892
  let c1_i32_643 : BitVec 32 := 1#32
  let v900 : BitVec 32 := Scalar.muli v899 c1_i32_643
  let v901 : BitVec 32 := Scalar.addi c0_i32_644 v900
  v901.toNat
def k0_dev58 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_647 : BitVec 32 := 27#32
  let v908 : BitVec 32 := Scalar.addi v2 c27_i32_647
  let c32_i32_648 : BitVec 32 := 32#32
  let c0_i32_649 : BitVec 32 := 0#32
  let v909 : BitVec 1 := Scalar.cmpi .eq c32_i32_648 c0_i32_649
  let c1_i32_650 : BitVec 32 := 1#32
  let v910 : BitVec 32 := Scalar.select v909 c1_i32_650 c32_i32_648
  let v911 : BitVec 32 := Scalar.remsi v908 v910
  let c0_i32_652 : BitVec 32 := 0#32
  let v913 : BitVec 1 := Scalar.cmpi .slt v911 c0_i32_652
  let c0_i32_653 : BitVec 32 := 0#32
  let v914 : BitVec 1 := Scalar.cmpi .slt v910 c0_i32_653
  let v915 : BitVec 1 := Scalar.xori v913 v914
  let c0_i32_651 : BitVec 32 := 0#32
  let v912 : BitVec 1 := Scalar.cmpi .ne v911 c0_i32_651
  let v916 : BitVec 1 := Scalar.andi v915 v912
  let v917 : BitVec 32 := Scalar.addi v911 v910
  let v918 : BitVec 32 := Scalar.select v916 v917 v911
  let c1_i32_657 : BitVec 32 := 1#32
  let v919 : BitVec 32 := Scalar.muli v918 c1_i32_657
  let v920 : BitVec 32 := Scalar.addi c0_i32_658 v919
  v920.toNat
def k0_dev59 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_661 : BitVec 32 := 28#32
  let v927 : BitVec 32 := Scalar.addi v2 c28_i32_661
  let c32_i32_662 : BitVec 32 := 32#32
  let c0_i32_663 : BitVec 32 := 0#32
  let v928 : BitVec 1 := Scalar.cmpi .eq c32_i32_662 c0_i32_663
  let c1_i32_664 : BitVec 32 := 1#32
  let v929 : BitVec 32 := Scalar.select v928 c1_i32_664 c32_i32_662
  let v930 : BitVec 32 := Scalar.remsi v927 v929
  let c0_i32_666 : BitVec 32 := 0#32
  let v932 : BitVec 1 := Scalar.cmpi .slt v930 c0_i32_666
  let c0_i32_667 : BitVec 32 := 0#32
  let v933 : BitVec 1 := Scalar.cmpi .slt v929 c0_i32_667
  let v934 : BitVec 1 := Scalar.xori v932 v933
  let c0_i32_665 : BitVec 32 := 0#32
  let v931 : BitVec 1 := Scalar.cmpi .ne v930 c0_i32_665
  let v935 : BitVec 1 := Scalar.andi v934 v931
  let v936 : BitVec 32 := Scalar.addi v930 v929
  let v937 : BitVec 32 := Scalar.select v935 v936 v930
  let c1_i32_671 : BitVec 32 := 1#32
  let v938 : BitVec 32 := Scalar.muli v937 c1_i32_671
  let v939 : BitVec 32 := Scalar.addi c0_i32_672 v938
  v939.toNat
def k0_dev60 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_675 : BitVec 32 := 29#32
  let v946 : BitVec 32 := Scalar.addi v2 c29_i32_675
  let c32_i32_676 : BitVec 32 := 32#32
  let c0_i32_677 : BitVec 32 := 0#32
  let v947 : BitVec 1 := Scalar.cmpi .eq c32_i32_676 c0_i32_677
  let c1_i32_678 : BitVec 32 := 1#32
  let v948 : BitVec 32 := Scalar.select v947 c1_i32_678 c32_i32_676
  let v949 : BitVec 32 := Scalar.remsi v946 v948
  let c0_i32_680 : BitVec 32 := 0#32
  let v951 : BitVec 1 := Scalar.cmpi .slt v949 c0_i32_680
  let c0_i32_681 : BitVec 32 := 0#32
  let v952 : BitVec 1 := Scalar.cmpi .slt v948 c0_i32_681
  let v953 : BitVec 1 := Scalar.xori v951 v952
  let c0_i32_679 : BitVec 32 := 0#32
  let v950 : BitVec 1 := Scalar.cmpi .ne v949 c0_i32_679
  let v954 : BitVec 1 := Scalar.andi v953 v950
  let v955 : BitVec 32 := Scalar.addi v949 v948
  let v956 : BitVec 32 := Scalar.select v954 v955 v949
  let c1_i32_685 : BitVec 32 := 1#32
  let v957 : BitVec 32 := Scalar.muli v956 c1_i32_685
  let v958 : BitVec 32 := Scalar.addi c0_i32_686 v957
  v958.toNat
def k0_dev61 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_689 : BitVec 32 := 30#32
  let v965 : BitVec 32 := Scalar.addi v2 c30_i32_689
  let c32_i32_690 : BitVec 32 := 32#32
  let c0_i32_691 : BitVec 32 := 0#32
  let v966 : BitVec 1 := Scalar.cmpi .eq c32_i32_690 c0_i32_691
  let c1_i32_692 : BitVec 32 := 1#32
  let v967 : BitVec 32 := Scalar.select v966 c1_i32_692 c32_i32_690
  let v968 : BitVec 32 := Scalar.remsi v965 v967
  let c0_i32_694 : BitVec 32 := 0#32
  let v970 : BitVec 1 := Scalar.cmpi .slt v968 c0_i32_694
  let c0_i32_695 : BitVec 32 := 0#32
  let v971 : BitVec 1 := Scalar.cmpi .slt v967 c0_i32_695
  let v972 : BitVec 1 := Scalar.xori v970 v971
  let c0_i32_693 : BitVec 32 := 0#32
  let v969 : BitVec 1 := Scalar.cmpi .ne v968 c0_i32_693
  let v973 : BitVec 1 := Scalar.andi v972 v969
  let v974 : BitVec 32 := Scalar.addi v968 v967
  let v975 : BitVec 32 := Scalar.select v973 v974 v968
  let c1_i32_699 : BitVec 32 := 1#32
  let v976 : BitVec 32 := Scalar.muli v975 c1_i32_699
  let v977 : BitVec 32 := Scalar.addi c0_i32_700 v976
  v977.toNat
def k0_dev62 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_703 : BitVec 32 := 31#32
  let v984 : BitVec 32 := Scalar.addi v2 c31_i32_703
  let c32_i32_704 : BitVec 32 := 32#32
  let c0_i32_705 : BitVec 32 := 0#32
  let v985 : BitVec 1 := Scalar.cmpi .eq c32_i32_704 c0_i32_705
  let c1_i32_706 : BitVec 32 := 1#32
  let v986 : BitVec 32 := Scalar.select v985 c1_i32_706 c32_i32_704
  let v987 : BitVec 32 := Scalar.remsi v984 v986
  let c0_i32_708 : BitVec 32 := 0#32
  let v989 : BitVec 1 := Scalar.cmpi .slt v987 c0_i32_708
  let c0_i32_709 : BitVec 32 := 0#32
  let v990 : BitVec 1 := Scalar.cmpi .slt v986 c0_i32_709
  let v991 : BitVec 1 := Scalar.xori v989 v990
  let c0_i32_707 : BitVec 32 := 0#32
  let v988 : BitVec 1 := Scalar.cmpi .ne v987 c0_i32_707
  let v992 : BitVec 1 := Scalar.andi v991 v988
  let v993 : BitVec 32 := Scalar.addi v987 v986
  let v994 : BitVec 32 := Scalar.select v992 v993 v987
  let c1_i32_713 : BitVec 32 := 1#32
  let v995 : BitVec 32 := Scalar.muli v994 c1_i32_713
  let v996 : BitVec 32 := Scalar.addi c0_i32_714 v995
  v996.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_31 : (31#32 : BitVec 32).msb = false
  inb_S31_S1_0 : ∀ a, (![0] : Fin 1 → Nat) a + S1.size a ≤ S31.size a
  squeezes_S1_S_ : S1.Squeezes S_
  inb_S31x1x256_S1x1x256_0_0_0 : ∀ a, (![0, 0, 0] : Fin 3 → Nat) a + S1x1x256.size a ≤ S31x1x256.size a
  squeezes_S1x1x256_S1x256 : S1x1x256.Squeezes S1x256
  inb_S31_S1_1 : ∀ a, (![1] : Fin 1 → Nat) a + S1.size a ≤ S31.size a
  inb_S31x1x256_S1x1x256_1_0_0 : ∀ a, (![1, 0, 0] : Fin 3 → Nat) a + S1x1x256.size a ≤ S31x1x256.size a
  inb_S31_S1_2 : ∀ a, (![2] : Fin 1 → Nat) a + S1.size a ≤ S31.size a
  inb_S31x1x256_S1x1x256_2_0_0 : ∀ a, (![2, 0, 0] : Fin 3 → Nat) a + S1x1x256.size a ≤ S31x1x256.size a
  inb_S31_S1_3 : ∀ a, (![3] : Fin 1 → Nat) a + S1.size a ≤ S31.size a
  inb_S31x1x256_S1x1x256_3_0_0 : ∀ a, (![3, 0, 0] : Fin 3 → Nat) a + S1x1x256.size a ≤ S31x1x256.size a
  inb_S31_S1_4 : ∀ a, (![4] : Fin 1 → Nat) a + S1.size a ≤ S31.size a
  inb_S31x1x256_S1x1x256_4_0_0 : ∀ a, (![4, 0, 0] : Fin 3 → Nat) a + S1x1x256.size a ≤ S31x1x256.size a
  inb_S31_S1_5 : ∀ a, (![5] : Fin 1 → Nat) a + S1.size a ≤ S31.size a
  inb_S31x1x256_S1x1x256_5_0_0 : ∀ a, (![5, 0, 0] : Fin 3 → Nat) a + S1x1x256.size a ≤ S31x1x256.size a
  inb_S31_S1_6 : ∀ a, (![6] : Fin 1 → Nat) a + S1.size a ≤ S31.size a
  inb_S31x1x256_S1x1x256_6_0_0 : ∀ a, (![6, 0, 0] : Fin 3 → Nat) a + S1x1x256.size a ≤ S31x1x256.size a
  inb_S31_S1_7 : ∀ a, (![7] : Fin 1 → Nat) a + S1.size a ≤ S31.size a
  inb_S31x1x256_S1x1x256_7_0_0 : ∀ a, (![7, 0, 0] : Fin 3 → Nat) a + S1x1x256.size a ≤ S31x1x256.size a
  inb_S31_S1_8 : ∀ a, (![8] : Fin 1 → Nat) a + S1.size a ≤ S31.size a
  inb_S31x1x256_S1x1x256_8_0_0 : ∀ a, (![8, 0, 0] : Fin 3 → Nat) a + S1x1x256.size a ≤ S31x1x256.size a
  inb_S31_S1_9 : ∀ a, (![9] : Fin 1 → Nat) a + S1.size a ≤ S31.size a
  inb_S31x1x256_S1x1x256_9_0_0 : ∀ a, (![9, 0, 0] : Fin 3 → Nat) a + S1x1x256.size a ≤ S31x1x256.size a
  inb_S31_S1_10 : ∀ a, (![10] : Fin 1 → Nat) a + S1.size a ≤ S31.size a
  inb_S31x1x256_S1x1x256_10_0_0 : ∀ a, (![10, 0, 0] : Fin 3 → Nat) a + S1x1x256.size a ≤ S31x1x256.size a
  inb_S31_S1_11 : ∀ a, (![11] : Fin 1 → Nat) a + S1.size a ≤ S31.size a
  inb_S31x1x256_S1x1x256_11_0_0 : ∀ a, (![11, 0, 0] : Fin 3 → Nat) a + S1x1x256.size a ≤ S31x1x256.size a
  inb_S31_S1_12 : ∀ a, (![12] : Fin 1 → Nat) a + S1.size a ≤ S31.size a
  inb_S31x1x256_S1x1x256_12_0_0 : ∀ a, (![12, 0, 0] : Fin 3 → Nat) a + S1x1x256.size a ≤ S31x1x256.size a
  inb_S31_S1_13 : ∀ a, (![13] : Fin 1 → Nat) a + S1.size a ≤ S31.size a
  inb_S31x1x256_S1x1x256_13_0_0 : ∀ a, (![13, 0, 0] : Fin 3 → Nat) a + S1x1x256.size a ≤ S31x1x256.size a
  inb_S31_S1_14 : ∀ a, (![14] : Fin 1 → Nat) a + S1.size a ≤ S31.size a
  inb_S31x1x256_S1x1x256_14_0_0 : ∀ a, (![14, 0, 0] : Fin 3 → Nat) a + S1x1x256.size a ≤ S31x1x256.size a
  inb_S31_S1_15 : ∀ a, (![15] : Fin 1 → Nat) a + S1.size a ≤ S31.size a
  inb_S31x1x256_S1x1x256_15_0_0 : ∀ a, (![15, 0, 0] : Fin 3 → Nat) a + S1x1x256.size a ≤ S31x1x256.size a
  inb_S31_S1_16 : ∀ a, (![16] : Fin 1 → Nat) a + S1.size a ≤ S31.size a
  inb_S31x1x256_S1x1x256_16_0_0 : ∀ a, (![16, 0, 0] : Fin 3 → Nat) a + S1x1x256.size a ≤ S31x1x256.size a
  inb_S31_S1_17 : ∀ a, (![17] : Fin 1 → Nat) a + S1.size a ≤ S31.size a
  inb_S31x1x256_S1x1x256_17_0_0 : ∀ a, (![17, 0, 0] : Fin 3 → Nat) a + S1x1x256.size a ≤ S31x1x256.size a
  inb_S31_S1_18 : ∀ a, (![18] : Fin 1 → Nat) a + S1.size a ≤ S31.size a
  inb_S31x1x256_S1x1x256_18_0_0 : ∀ a, (![18, 0, 0] : Fin 3 → Nat) a + S1x1x256.size a ≤ S31x1x256.size a
  inb_S31_S1_19 : ∀ a, (![19] : Fin 1 → Nat) a + S1.size a ≤ S31.size a
  inb_S31x1x256_S1x1x256_19_0_0 : ∀ a, (![19, 0, 0] : Fin 3 → Nat) a + S1x1x256.size a ≤ S31x1x256.size a
  inb_S31_S1_20 : ∀ a, (![20] : Fin 1 → Nat) a + S1.size a ≤ S31.size a
  inb_S31x1x256_S1x1x256_20_0_0 : ∀ a, (![20, 0, 0] : Fin 3 → Nat) a + S1x1x256.size a ≤ S31x1x256.size a
  inb_S31_S1_21 : ∀ a, (![21] : Fin 1 → Nat) a + S1.size a ≤ S31.size a
  inb_S31x1x256_S1x1x256_21_0_0 : ∀ a, (![21, 0, 0] : Fin 3 → Nat) a + S1x1x256.size a ≤ S31x1x256.size a
  inb_S31_S1_22 : ∀ a, (![22] : Fin 1 → Nat) a + S1.size a ≤ S31.size a
  inb_S31x1x256_S1x1x256_22_0_0 : ∀ a, (![22, 0, 0] : Fin 3 → Nat) a + S1x1x256.size a ≤ S31x1x256.size a
  inb_S31_S1_23 : ∀ a, (![23] : Fin 1 → Nat) a + S1.size a ≤ S31.size a
  inb_S31x1x256_S1x1x256_23_0_0 : ∀ a, (![23, 0, 0] : Fin 3 → Nat) a + S1x1x256.size a ≤ S31x1x256.size a
  inb_S31_S1_24 : ∀ a, (![24] : Fin 1 → Nat) a + S1.size a ≤ S31.size a
  inb_S31x1x256_S1x1x256_24_0_0 : ∀ a, (![24, 0, 0] : Fin 3 → Nat) a + S1x1x256.size a ≤ S31x1x256.size a
  inb_S31_S1_25 : ∀ a, (![25] : Fin 1 → Nat) a + S1.size a ≤ S31.size a
  inb_S31x1x256_S1x1x256_25_0_0 : ∀ a, (![25, 0, 0] : Fin 3 → Nat) a + S1x1x256.size a ≤ S31x1x256.size a
  inb_S31_S1_26 : ∀ a, (![26] : Fin 1 → Nat) a + S1.size a ≤ S31.size a
  inb_S31x1x256_S1x1x256_26_0_0 : ∀ a, (![26, 0, 0] : Fin 3 → Nat) a + S1x1x256.size a ≤ S31x1x256.size a
  inb_S31_S1_27 : ∀ a, (![27] : Fin 1 → Nat) a + S1.size a ≤ S31.size a
  inb_S31x1x256_S1x1x256_27_0_0 : ∀ a, (![27, 0, 0] : Fin 3 → Nat) a + S1x1x256.size a ≤ S31x1x256.size a
  inb_S31_S1_28 : ∀ a, (![28] : Fin 1 → Nat) a + S1.size a ≤ S31.size a
  inb_S31x1x256_S1x1x256_28_0_0 : ∀ a, (![28, 0, 0] : Fin 3 → Nat) a + S1x1x256.size a ≤ S31x1x256.size a
  inb_S31_S1_29 : ∀ a, (![29] : Fin 1 → Nat) a + S1.size a ≤ S31.size a
  inb_S31x1x256_S1x1x256_29_0_0 : ∀ a, (![29, 0, 0] : Fin 3 → Nat) a + S1x1x256.size a ≤ S31x1x256.size a
  inb_S31_S1_30 : ∀ a, (![30] : Fin 1 → Nat) a + S1.size a ≤ S31.size a
  inb_S31x1x256_S1x1x256_30_0_0 : ∀ a, (![30, 0, 0] : Fin 3 → Nat) a + S1x1x256.size a ≤ S31x1x256.size a
  inb_S31x1x256_S31x1x256_0_0_0 : ∀ a, (![0, 0, 0] : Fin 3 → Nat) a + S31x1x256.size a ≤ S31x1x256.size a
  h_S31x1x256 : 0 < S31x1x256.numel
  reduces_S31x1x256_S1x256 : S31x1x256.Reduces [0] S1x256
  hcc0_scratch2 : 2 + S31.numel ≤ 64
  hcc0_scratch3 : 33 + S31.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch2 : DmaSems sig S31 := SemArray.consecutive 2 S31 hcc0_scratch2
abbrev cc0_scratch3 : DmaSems sig S31 := SemArray.consecutive 33 S31 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S256, .f32⟩
  | .hbm, ⟨3, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x256_S256_d0 : S16384x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Kernel.Mesh.lean ====
import proofs.«900483_g7700000000000484_dist_sum_ax0_shard0_i_m512_n256_v7x_i32_f32_1_alg».proof.Proof.Gen.Kernel

/-!
# The mesh: who talks to whom

Thirty-two devices in a line, read cyclically. For `i : Fin 31`, device `c`'s `i`-th peer is the device
`i + 1` places after it, `peer c i = c + (i + 1) mod 32`; `src c i = c - (i + 1) mod 32` is the device whose
`i`-th peer is `c`. Every device address the kernel computes is one of these: its `i`-th signal and its
`i`-th copy both go to `peer c i`.
-/

set_option Elab.async false

namespace Cert.Kernel.Coll

open Idealize.ShloMosaic Idealize.SL.Sem Cert.Kernel Cert.Kernel.Gen

/-- The device `i + 1` places after `c`. -/
def peer (c : Dev nD) (i : Fin 31) : Dev nD := ⟨(c.val + (i.val + 1)) % 32, Nat.mod_lt _ (by decide)⟩
/-- The device `i + 1` places before `c`. -/
def src (c : Dev nD) (i : Fin 31) : Dev nD := ⟨(c.val + (31 - i.val)) % 32, Nat.mod_lt _ (by decide)⟩
/-- The index counted from the other end: `rev i = 30 - i`. Going `i + 1` places forward and then `rev i + 1`
    places forward is a full turn. -/
def rev (i : Fin 31) : Fin 31 := ⟨30 - i.val, by omega⟩

theorem rev_rev (i : Fin 31) : rev (rev i) = i := by revert i; decide
theorem src_peer (c : Dev nD) (i : Fin 31) : src (peer c i) i = c := by revert c i; decide
theorem peer_src (c : Dev nD) (i : Fin 31) : peer (src c i) i = c := by revert c i; decide
theorem peer_peer_rev (c : Dev nD) (i : Fin 31) : peer (peer c i) (rev i) = c := by revert c i; decide
theorem src_eq_peer_rev (c : Dev nD) (i : Fin 31) : src c i = peer c (rev i) := by revert c i; decide
theorem peer_injective (c : Dev nD) : Function.Injective (peer c) := by revert c; decide
theorem peer_ne_self (c : Dev nD) (i : Fin 31) : peer c i ≠ c := by revert c i; decide
theorem src_injective (c : Dev nD) : Function.Injective (src c) := by revert c; decide
theorem peer_left_injective (i : Fin 31) : Function.Injective (fun c => peer c i) := by revert i; decide
/-- Every device other than `c` is exactly one of `c`'s peers. -/
theorem exists_peer (c d : Dev nD) (h : d ≠ c) : ∃ i, d = peer c i := by revert c d; decide

/-! ## The kernel's device addresses -/

theorem k0_dev1_eq : ∀ c : Dev nD, k0_dev1 c = (peer c 0).val := by decide +kernel
theorem k0_dev2_eq : ∀ c : Dev nD, k0_dev2 c = (peer c 1).val := by decide +kernel
theorem k0_dev3_eq : ∀ c : Dev nD, k0_dev3 c = (peer c 2).val := by decide +kernel
theorem k0_dev4_eq : ∀ c : Dev nD, k0_dev4 c = (peer c 3).val := by decide +kernel
theorem k0_dev5_eq : ∀ c : Dev nD, k0_dev5 c = (peer c 4).val := by decide +kernel
theorem k0_dev6_eq : ∀ c : Dev nD, k0_dev6 c = (peer c 5).val := by decide +kernel
theorem k0_dev7_eq : ∀ c : Dev nD, k0_dev7 c = (peer c 6).val := by decide +kernel
theorem k0_dev8_eq : ∀ c : Dev nD, k0_dev8 c = (peer c 7).val := by decide +kernel
theorem k0_dev9_eq : ∀ c : Dev nD, k0_dev9 c = (peer c 8).val := by decide +kernel
theorem k0_dev10_eq : ∀ c : Dev nD, k0_dev10 c = (peer c 9).val := by decide +kernel
theorem k0_dev11_eq : ∀ c : Dev nD, k0_dev11 c = (peer c 10).val := by decide +kernel
theorem k0_dev12_eq : ∀ c : Dev nD, k0_dev12 c = (peer c 11).val := by decide +kernel
theorem k0_dev13_eq : ∀ c : Dev nD, k0_dev13 c = (peer c 12).val := by decide +kernel
theorem k0_dev14_eq : ∀ c : Dev nD, k0_dev14 c = (peer c 13).val := by decide +kernel
theorem k0_dev15_eq : ∀ c : Dev nD, k0_dev15 c = (peer c 14).val := by decide +kernel
theorem k0_dev16_eq : ∀ c : Dev nD, k0_dev16 c = (peer c 15).val := by decide +kernel
theorem k0_dev17_eq : ∀ c : Dev nD, k0_dev17 c = (peer c 16).val := by decide +kernel
theorem k0_dev18_eq : ∀ c : Dev nD, k0_dev18 c = (peer c 17).val := by decide +kernel
theorem k0_dev19_eq : ∀ c : Dev nD, k0_dev19 c = (peer c 18).val := by decide +kernel
theorem k0_dev20_eq : ∀ c : Dev nD, k0_dev20 c = (peer c 19).val := by decide +kernel
theorem k0_dev21_eq : ∀ c : Dev nD, k0_dev21 c = (peer c 20).val := by decide +kernel
theorem k0_dev22_eq : ∀ c : Dev nD, k0_dev22 c = (peer c 21).val := by decide +kernel
theorem k0_dev23_eq : ∀ c : Dev nD, k0_dev23 c = (peer c 22).val := by decide +kernel
theorem k0_dev24_eq : ∀ c : Dev nD, k0_dev24 c = (peer c 23).val := by decide +kernel
theorem k0_dev25_eq : ∀ c : Dev nD, k0_dev25 c = (peer c 24).val := by decide +kernel
theorem k0_dev26_eq : ∀ c : Dev nD, k0_dev26 c = (peer c 25).val := by decide +kernel
theorem k0_dev27_eq : ∀ c : Dev nD, k0_dev27 c = (peer c 26).val := by decide +kernel
theorem k0_dev28_eq : ∀ c : Dev nD, k0_dev28 c = (peer c 27).val := by decide +kernel
theorem k0_dev29_eq : ∀ c : Dev nD, k0_dev29 c = (peer c 28).val := by decide +kernel
theorem k0_dev30_eq : ∀ c : Dev nD, k0_dev30 c = (peer c 29).val := by decide +kernel
theorem k0_dev31_eq : ∀ c : Dev nD, k0_dev31 c = (peer c 30).val := by decide +kernel
theorem k0_dev32_eq : ∀ c : Dev nD, k0_dev32 c = (peer c 0).val := by decide +kernel
theorem k0_dev33_eq : ∀ c : Dev nD, k0_dev33 c = (peer c 1).val := by decide +kernel
theorem k0_dev34_eq : ∀ c : Dev nD, k0_dev34 c = (peer c 2).val := by decide +kernel
theorem k0_dev35_eq : ∀ c : Dev nD, k0_dev35 c = (peer c 3).val := by decide +kernel
theorem k0_dev36_eq : ∀ c : Dev nD, k0_dev36 c = (peer c 4).val := by decide +kernel
theorem k0_dev37_eq : ∀ c : Dev nD, k0_dev37 c = (peer c 5).val := by decide +kernel
theorem k0_dev38_eq : ∀ c : Dev nD, k0_dev38 c = (peer c 6).val := by decide +kernel
theorem k0_dev39_eq : ∀ c : Dev nD, k0_dev39 c = (peer c 7).val := by decide +kernel
theorem k0_dev40_eq : ∀ c : Dev nD, k0_dev40 c = (peer c 8).val := by decide +kernel
theorem k0_dev41_eq : ∀ c : Dev nD, k0_dev41 c = (peer c 9).val := by decide +kernel
theorem k0_dev42_eq : ∀ c : Dev nD, k0_dev42 c = (peer c 10).val := by decide +kernel
theorem k0_dev43_eq : ∀ c : Dev nD, k0_dev43 c = (peer c 11).val := by decide +kernel
theorem k0_dev44_eq : ∀ c : Dev nD, k0_dev44 c = (peer c 12).val := by decide +kernel
theorem k0_dev45_eq : ∀ c : Dev nD, k0_dev45 c = (peer c 13).val := by decide +kernel
theorem k0_dev46_eq : ∀ c : Dev nD, k0_dev46 c = (peer c 14).val := by decide +kernel
theorem k0_dev47_eq : ∀ c : Dev nD, k0_dev47 c = (peer c 15).val := by decide +kernel
theorem k0_dev48_eq : ∀ c : Dev nD, k0_dev48 c = (peer c 16).val := by decide +kernel
theorem k0_dev49_eq : ∀ c : Dev nD, k0_dev49 c = (peer c 17).val := by decide +kernel
theorem k0_dev50_eq : ∀ c : Dev nD, k0_dev50 c = (peer c 18).val := by decide +kernel
theorem k0_dev51_eq : ∀ c : Dev nD, k0_dev51 c = (peer c 19).val := by decide +kernel
theorem k0_dev52_eq : ∀ c : Dev nD, k0_dev52 c = (peer c 20).val := by decide +kernel
theorem k0_dev53_eq : ∀ c : Dev nD, k0_dev53 c = (peer c 21).val := by decide +kernel
theorem k0_dev54_eq : ∀ c : Dev nD, k0_dev54 c = (peer c 22).val := by decide +kernel
theorem k0_dev55_eq : ∀ c : Dev nD, k0_dev55 c = (peer c 23).val := by decide +kernel
theorem k0_dev56_eq : ∀ c : Dev nD, k0_dev56 c = (peer c 24).val := by decide +kernel
theorem k0_dev57_eq : ∀ c : Dev nD, k0_dev57 c = (peer c 25).val := by decide +kernel
theorem k0_dev58_eq : ∀ c : Dev nD, k0_dev58 c = (peer c 26).val := by decide +kernel
theorem k0_dev59_eq : ∀ c : Dev nD, k0_dev59 c = (peer c 27).val := by decide +kernel
theorem k0_dev60_eq : ∀ c : Dev nD, k0_dev60 c = (peer c 28).val := by decide +kernel
theorem k0_dev61_eq : ∀ c : Dev nD, k0_dev61 c = (peer c 29).val := by decide +kernel
theorem k0_dev62_eq : ∀ c : Dev nD, k0_dev62 c = (peer c 30).val := by decide +kernel

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 7 := Fin.ext (k0_dev8_eq c)
theorem dev9_eq (c : Dev nD) : (⟨k0_dev9 c, k0_dev9_lt c⟩ : Dev nD) = peer c 8 := Fin.ext (k0_dev9_eq c)
theorem dev10_eq (c : Dev nD) : (⟨k0_dev10 c, k0_dev10_lt c⟩ : Dev nD) = peer c 9 := Fin.ext (k0_dev10_eq c)
theorem dev11_eq (c : Dev nD) : (⟨k0_dev11 c, k0_dev11_lt c⟩ : Dev nD) = peer c 10 := Fin.ext (k0_dev11_eq c)
theorem dev12_eq (c : Dev nD) : (⟨k0_dev12 c, k0_dev12_lt c⟩ : Dev nD) = peer c 11 := Fin.ext (k0_dev12_eq c)
theorem dev13_eq (c : Dev nD) : (⟨k0_dev13 c, k0_dev13_lt c⟩ : Dev nD) = peer c 12 := Fin.ext (k0_dev13_eq c)
theorem dev14_eq (c : Dev nD) : (⟨k0_dev14 c, k0_dev14_lt c⟩ : Dev nD) = peer c 13 := Fin.ext (k0_dev14_eq c)
theorem dev15_eq (c : Dev nD) : (⟨k0_dev15 c, k0_dev15_lt c⟩ : Dev nD) = peer c 14 := Fin.ext (k0_dev15_eq c)
theorem dev16_eq (c : Dev nD) : (⟨k0_dev16 c, k0_dev16_lt c⟩ : Dev nD) = peer c 15 := Fin.ext (k0_dev16_eq c)
theorem dev17_eq (c : Dev nD) : (⟨k0_dev17 c, k0_dev17_lt c⟩ : Dev nD) = peer c 16 := Fin.ext (k0_dev17_eq c)
theorem dev18_eq (c : Dev nD) : (⟨k0_dev18 c, k0_dev18_lt c⟩ : Dev nD) = peer c 17 := Fin.ext (k0_dev18_eq c)
theorem dev19_eq (c : Dev nD) : (⟨k0_dev19 c, k0_dev19_lt c⟩ : Dev nD) = peer c 18 := Fin.ext (k0_dev19_eq c)
theorem dev20_eq (c : Dev nD) : (⟨k0_dev20 c, k0_dev20_lt c⟩ : Dev nD) = peer c 19 := Fin.ext (k0_dev20_eq c)
theorem dev21_eq (c : Dev nD) : (⟨k0_dev21 c, k0_dev21_lt c⟩ : Dev nD) = peer c 20 := Fin.ext (k0_dev21_eq c)
theorem dev22_eq (c : Dev nD) : (⟨k0_dev22 c, k0_dev22_lt c⟩ : Dev nD) = peer c 21 := Fin.ext (k0_dev22_eq c)
theorem dev23_eq (c : Dev nD) : (⟨k0_dev23 c, k0_dev23_lt c⟩ : Dev nD) = peer c 22 := Fin.ext (k0_dev23_eq c)
theorem dev24_eq (c : Dev nD) : (⟨k0_dev24 c, k0_dev24_lt c⟩ : Dev nD) = peer c 23 := Fin.ext (k0_dev24_eq c)
theorem dev25_eq (c : Dev nD) : (⟨k0_dev25 c, k0_dev25_lt c⟩ : Dev nD) = peer c 24 := Fin.ext (k0_dev25_eq c)
theorem dev26_eq (c : Dev nD) : (⟨k0_dev26 c, k0_dev26_lt c⟩ : Dev nD) = peer c 25 := Fin.ext (k0_dev26_eq c)
theorem dev27_eq (c : Dev nD) : (⟨k0_dev27 c, k0_dev27_lt c⟩ : Dev nD) = peer c 26 := Fin.ext (k0_dev27_eq c)
theorem dev28_eq (c : Dev nD) : (⟨k0_dev28 c, k0_dev28_lt c⟩ : Dev nD) = peer c 27 := Fin.ext (k0_dev28_eq c)
theorem dev29_eq (c : Dev nD) : (⟨k0_dev29 c, k0_dev29_lt c⟩ : Dev nD) = peer c 28 := Fin.ext (k0_dev29_eq c)
theorem dev30_eq (c : Dev nD) : (⟨k0_dev30 c, k0_dev30_lt c⟩ : Dev nD) = peer c 29 := Fin.ext (k0_dev30_eq c)
theorem dev31_eq (c : Dev nD) : (⟨k0_dev31 c, k0_dev31_lt c⟩ : Dev nD) = peer c 30 := Fin.ext (k0_dev31_eq c)
theorem dev32_eq (c : Dev nD) : (⟨k0_dev32 c, k0_dev32_lt c⟩ : Dev nD) = peer c 0 := Fin.ext (k0_dev32_eq c)
theorem dev33_eq (c : Dev nD) : (⟨k0_dev33 c, k0_dev33_lt c⟩ : Dev nD) = peer c 1 := Fin.ext (k0_dev33_eq c)
theorem dev34_eq (c : Dev nD) : (⟨k0_dev34 c, k0_dev34_lt c⟩ : Dev nD) = peer c 2 := Fin.ext (k0_dev34_eq c)
theorem dev35_eq (c : Dev nD) : (⟨k0_dev35 c, k0_dev35_lt c⟩ : Dev nD) = peer c 3 := Fin.ext (k0_dev35_eq c)
theorem dev36_eq (c : Dev nD) : (⟨k0_dev36 c, k0_dev36_lt c⟩ : Dev nD) = peer c 4 := Fin.ext (k0_dev36_eq c)
theorem dev37_eq (c : Dev nD) : (⟨k0_dev37 c, k0_dev37_lt c⟩ : Dev nD) = peer c 5 := Fin.ext (k0_dev37_eq c)
theorem dev38_eq (c : Dev nD) : (⟨k0_dev38 c, k0_dev38_lt c⟩ : Dev nD) = peer c 6 := Fin.ext (k0_dev38_eq c)
theorem dev39_eq (c : Dev nD) : (⟨k0_dev39 c, k0_dev39_lt c⟩ : Dev nD) = peer c 7 := Fin.ext (k0_dev39_eq c)
theorem dev40_eq (c : Dev nD) : (⟨k0_dev40 c, k0_dev40_lt c⟩ : Dev nD) = peer c 8 := Fin.ext (k0_dev40_eq c)
theorem dev41_eq (c : Dev nD) : (⟨k0_dev41 c, k0_dev41_lt c⟩ : Dev nD) = peer c 9 := Fin.ext (k0_dev41_eq c)
theorem dev42_eq (c : Dev nD) : (⟨k0_dev42 c, k0_dev42_lt c⟩ : Dev nD) = peer c 10 := Fin.ext (k0_dev42_eq c)
theorem dev43_eq (c : Dev nD) : (⟨k0_dev43 c, k0_dev43_lt c⟩ : Dev nD) = peer c 11 := Fin.ext (k0_dev43_eq c)
theorem dev44_eq (c : Dev nD) : (⟨k0_dev44 c, k0_dev44_lt c⟩ : Dev nD) = peer c 12 := Fin.ext (k0_dev44_eq c)
theorem dev45_eq (c : Dev nD) : (⟨k0_dev45 c, k0_dev45_lt c⟩ : Dev nD) = peer c 13 := Fin.ext (k0_dev45_eq c)
theorem dev46_eq (c : Dev nD) : (⟨k0_dev46 c, k0_dev46_lt c⟩ : Dev nD) = peer c 14 := Fin.ext (k0_dev46_eq c)
theorem dev47_eq (c : Dev nD) : (⟨k0_dev47 c, k0_dev47_lt c⟩ : Dev nD) = peer c 15 := Fin.ext (k0_dev47_eq c)
theorem dev48_eq (c : Dev nD) : (⟨k0_dev48 c, k0_dev48_lt c⟩ : Dev nD) = peer c 16 := Fin.ext (k0_dev48_eq c)
theorem dev49_eq (c : Dev nD) : (⟨k0_dev49 c, k0_dev49_lt c⟩ : Dev nD) = peer c 17 := Fin.ext (k0_dev49_eq c)
theorem dev50_eq (c : Dev nD) : (⟨k0_dev50 c, k0_dev50_lt c⟩ : Dev nD) = peer c 18 := Fin.ext (k0_dev50_eq c)
theorem dev51_eq (c : Dev nD) : (⟨k0_dev51 c, k0_dev51_lt c⟩ : Dev nD) = peer c 19 := Fin.ext (k0_dev51_eq c)
theorem dev52_eq (c : Dev nD) : (⟨k0_dev52 c, k0_dev52_lt c⟩ : Dev nD) = peer c 20 := Fin.ext (k0_dev52_eq c)
theorem dev53_eq (c : Dev nD) : (⟨k0_dev53 c, k0_dev53_lt c⟩ : Dev nD) = peer c 21 := Fin.ext (k0_dev53_eq c)
theorem dev54_eq (c : Dev nD) : (⟨k0_dev54 c, k0_dev54_lt c⟩ : Dev nD) = peer c 22 := Fin.ext (k0_dev54_eq c)
theorem dev55_eq (c : Dev nD) : (⟨k0_dev55 c, k0_dev55_lt c⟩ : Dev nD) = peer c 23 := Fin.ext (k0_dev55_eq c)
theorem dev56_eq (c : Dev nD) : (⟨k0_dev56 c, k0_dev56_lt c⟩ : Dev nD) = peer c 24 := Fin.ext (k0_dev56_eq c)
theorem dev57_eq (c : Dev nD) : (⟨k0_dev57 c, k0_dev57_lt c⟩ : Dev nD) = peer c 25 := Fin.ext (k0_dev57_eq c)
theorem dev58_eq (c : Dev nD) : (⟨k0_dev58 c, k0_dev58_lt c⟩ : Dev nD) = peer c 26 := Fin.ext (k0_dev58_eq c)
theorem dev59_eq (c : Dev nD) : (⟨k0_dev59 c, k0_dev59_lt c⟩ : Dev nD) = peer c 27 := Fin.ext (k0_dev59_eq c)
theorem dev60_eq (c : Dev nD) : (⟨k0_dev60 c, k0_dev60_lt c⟩ : Dev nD) = peer c 28 := Fin.ext (k0_dev60_eq c)
theorem dev61_eq (c : Dev nD) : (⟨k0_dev61 c, k0_dev61_lt c⟩ : Dev nD) = peer c 29 := Fin.ext (k0_dev61_eq c)
theorem dev62_eq (c : Dev nD) : (⟨k0_dev62 c, k0_dev62_lt c⟩ : Dev nD) = peer c 30 := Fin.ext (k0_dev62_eq c)

end Cert.Kernel.Coll
-- ==== Proof.Kernel.Sched.lean ====
import proofs.«900483_g7700000000000484_dist_sum_ax0_shard0_i_m512_n256_v7x_i32_f32_1_alg».proof.Proof.Kernel.Mesh
import proofs.«900483_g7700000000000484_dist_sum_ax0_shard0_i_m512_n256_v7x_i32_f32_1_alg».proof.Proof.Gen.Kernel.Skeleton
import proofs.«900483_g7700000000000484_dist_sum_ax0_shard0_i_m512_n256_v7x_i32_f32_1_alg».proof.Proof.Gen.Kernel.Launch
import proofs.«900483_g7700000000000484_dist_sum_ax0_shard0_i_m512_n256_v7x_i32_f32_1_alg».proof.Proof.Gen.Kernel.Points
import Idealize.ShloMosaic.Lib.Pipeline.Launch
import Idealize.ShloMosaic.Lib.Pipeline.Kit
import Idealize.ShloMosaic.Lib.Tactic

/-!
# The protocol

Per device there are 63 semaphore cells: the barrier semaphore, 31 send semaphores and 31 receive semaphores.

* The barrier cell of device `c` has one round of 31 duties of one unit. Duty `d` is paid by `peer c d`
  (its signal number `rev d`), and hands `c` slot `d` of `peer c d`'s receive buffer, at some contents, with
  the fact that `peer c d` is at round 0 of its receive cell `d`: what `c`'s copy `d` needs.
* Receive cell `i` of device `c` has one duty, paid by the copy `src c i` addresses to `c`. It hands `c` its own
  slot `i`, now holding `src c i`'s row sum.
* Send cell `i` of device `c` has one duty, paid by `c`'s own copy `i` once its source is read. It hands back
  the share of the send buffer the copy borrowed.

A device's send buffer is the source of 31 copies in flight at once and is loaded while they fly, so it is held
in 32 shares: one kept, 31 lent.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, slots and cells -/

abbrev xM : Memref sig .tc .vmem S512x256 .f32 := Memref.whole cc0_stg0_0
abbrev oM : Memref sig .tc .vmem S1x256 .f32 := Memref.whole cc0_stg1_0
/-- The send buffer: this device's row sum. -/
abbrev sM : Memref sig .tc .vmem S1x256 .f32 := Memref.whole cc0_scratch0
/-- The receive buffer: 31 rows, one per peer. -/
abbrev rM : Memref sig .tc .vmem S31x1x256 .f32 := Memref.whole cc0_scratch1

theorem slot_inb (i : Fin 31) : ∀ a, (![i.val, 0, 0] : Fin 3 → Nat) a + S1x1x256.size a ≤ S31x1x256.size a := by
  intro a
  have := i.isLt
  match a with
  | ⟨0, _⟩ => show i.val + 1 ≤ 31; omega
  | ⟨1, _⟩ => show 0 + 1 ≤ 1; omega
  | ⟨2, _⟩ => show 0 + 256 ≤ 256; omega
theorem sem_inb (i : Fin 31) : ∀ a, (![i.val] : Fin 1 → Nat) a + S1.size a ≤ S31.size a := by
  intro a
  have := i.isLt
  match a with
  | ⟨0, _⟩ => show i.val + 1 ≤ 31; omega

/-- Row `i` of the receive buffer as a 1×256 memref. -/
def slotM (i : Fin 31) : Memref sig .tc .vmem S1x256 .f32 :=
  (rM.slice (Rect.unit (s := S31x1x256) ![i.val, 0, 0] S1x1x256.size (slot_inb i)) (fun _ => rfl)).squeeze S1x256 squeezes_S1x1x256_S1x256
/-- Send semaphore `i`. -/
def sendSem (i : Fin 31) : DmaSem sig := ((cc0_scratch2.slice (Rect.unit (s := S31) ![i.val] S1.size (sem_inb i))).squeeze S_ squeezes_S1_S_).sem
/-- Receive semaphore `i`. -/
def recvSem (i : Fin 31) : DmaSem sig := ((cc0_scratch3.slice (Rect.unit (s := S31) ![i.val] S1.size (sem_inb i))).squeeze S_ squeezes_S1_S_).sem

theorem nDmaSem_eq : sig.nDmaSem = 64 := rfl
theorem sendSem_val (i : Fin 31) : (sendSem i).val = 2 + i.val := by revert i; decide
theorem recvSem_val (i : Fin 31) : (recvSem i).val = 33 + i.val := by revert i; decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (i : Fin 31) : GSem nD τ sig := ((c : Thread nD τ), .dma (sendSem i))
abbrev recvCell (c : Dev nD) (i : Fin 31) : GSem nD τ sig := ((c : Thread nD τ), .dma (recvSem i))

/-- The credit of one landed row. -/
abbrev N1 : ℕ := (slotM 0).view.dmaCredit
theorem N1_pos : 0 < N1 := View.dmaCredit_pos _ (by decide)
theorem slot_credit (i : Fin 31) : (slotM i).view.dmaCredit = N1 := rfl

/-! ## Contents -/

/-- Device `c`'s block of the input, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Device `c`'s row sum: what it stores in its send buffer. -/
def sendVal (c : Dev nD) : (cc0_scratch0 : Ref sig .tc).ty.Contents (Elt F) := k0_pay1 (xblk m ρ c)

/-- Row `i` of `c`'s receive buffer overwritten with `src c i`'s row sum, over contents `fd` elsewhere: what the
    landing of `src c i`'s copy leaves. -/
def rowFill (c : Dev nD) (i : Fin 31) (fd : Buf (Elt F) ((slotM i).view.loc (c : Thread nD τ))) : Buf (Elt F) ((slotM i).view.loc (c : Thread nD τ)) :=
  View.write (Elt F) (slotM i).view fd (View.read (Elt F) (sM : Memref sig .tc .vmem S1x256 .f32).view (sendVal m ρ (src c i))) Finset.univ

/-- What device `c`'s receive buffer holds once every row has landed: each element is what the landing on its row left there. -/
def recvVal (c : Dev nD) : (cc0_scratch1 : Ref sig .tc).ty.Contents (Elt F) :=
  fun x => rowFill m ρ c (x 0) (fun _ => sendVal m ρ c (fun a => match a with | ⟨0, _⟩ => (0 : Fin 1) | ⟨1, _⟩ => (0 : Fin 256))) x

/-- The result on device `c`: its own row sum plus the sum of the rows received. -/
def outVal (c : Dev nD) : (cc0_stg1_0 : Ref sig .tc).ty.Contents (Elt F) := k0_pay2 (sendVal m ρ c) (recvVal m ρ c)

/-! ## Points-to assertions -/

/-- Row `i` of `c`'s receive buffer, whole, at contents `f`. -/
def slotPts (c : Dev nD) (i : Fin 31) (f : Buf (Elt F) ((slotM i).view.loc (c : Thread nD τ))) : sProp 𝕄 :=
  (slotM i).view.loc (c : Thread nD τ) ↦[(slotM i).view.set]{fullShare} f
/-- Share `i` of `c`'s send buffer at its row sum. -/
def sendTokPts (c : Dev nD) (i : Fin 31) : sProp 𝕄 :=
  (sM : Memref sig .tc .vmem S1x256 .f32).view.loc (c : Thread nD τ) ↦[(sM : Memref sig .tc .vmem S1x256 .f32).view.set]{Transfers.shareTok fullShare 31 i} sendVal m ρ c

instance slotPts_storable (c : Dev nD) (i : Fin 31) (f) : BI.Storable (upEmb : UEmb _ 𝕄) (slotPts (F := F) c i f) := by unfold slotPts; infer_instance
instance sendTokPts_storable (c : Dev nD) (i : Fin 31) : BI.Storable (upEmb : UEmb _ 𝕄) (sendTokPts (F := F) m ρ c i) := by unfold sendTokPts; infer_instance

/-! ## The schedule -/

/-- What `peer c d`'s signal hands `c`. -/
def barPay (c : Dev nD) (d : Fin 31) : sProp 𝕄 := iprop((∃ f, slotPts (peer c d) d f) ∗ reached ER (recvCell (peer c d) d) 0)
/-- What the landing of `src c i`'s copy hands `c`: its row `i`, whatever it held, overwritten with `src c i`'s row sum. -/
def recvPay (c : Dev nD) (i : Fin 31) : sProp 𝕄 :=
  iprop(∃ fd : Buf (Elt F) ((slotM i).view.loc (c : Thread nD τ)),
    (slotM i).view.loc (c : Thread nD τ) ↦[(slotM i).view.set]{fullShare}
      View.write (Elt F) (slotM i).view fd (View.read (Elt F) (sM : Memref sig .tc .vmem S1x256 .f32).view (sendVal m ρ (src c i))) Finset.univ)
/-- What the departure of `c`'s copy `i` hands back. -/
def sendPay (c : Dev nD) (i : Fin 31) : sProp 𝕄 := sendTokPts m ρ c i

/-- Which of the protocol's DMA cells a semaphore is. -/
def isXfer : SemLoc sig → Bool
  | .dma q => decide (2 ≤ q.val)
  | .reg _ => false

def xferPay (c : Dev nD) : SemLoc sig → sProp 𝕄
  | .dma q =>
    if h : 33 ≤ q.val then recvPay m ρ c ⟨q.val - 33, by have : q.val < 64 := q.isLt; omega⟩
    else if h2 : 2 ≤ q.val then sendPay m ρ c ⟨q.val - 2, by omega⟩
    else iprop(emp)
  | .reg _ => iprop(emp)

/-- One round per cell. -/
def sched : Rounds.Schedule (GSem nD τ sig) (Fin 31) 𝕄 where
  duties g r := if r = 0 ∧ g.1.2 = .tc ∧ g.2 = .reg barS then Finset.univ else if r = 0 ∧ g.1.2 = .tc ∧ isXfer g.2 = true then {0} else ∅
  unitless _ := False
  amount g _ _ := if g.2 = .reg barS then 1 else N1
  payload g _ d := if g.2 = .reg barS then barPay g.1.1 d else xferPay m ρ g.1.1 g.2
  amount_pos g _ _ _ := by
    by_cases h : g.2 = .reg barS
    · rw [if_pos h]; exact Nat.one_pos
    · rw [if_neg h]; exact N1_pos

instance barPay_storable (c : Dev nD) (d : Fin 31) : BI.Storable (upEmb : UEmb _ 𝕄) (barPay (F := F) c d) := by unfold barPay; infer_instance
instance recvPay_storable (c : Dev nD) (i : Fin 31) : BI.Storable (upEmb : UEmb _ 𝕄) (recvPay (F := F) m ρ c i) := by unfold recvPay; infer_instance
instance sendPay_storable (c : Dev nD) (i : Fin 31) : BI.Storable (upEmb : UEmb _ 𝕄) (sendPay (F := F) m ρ c i) := sendTokPts_storable m ρ c i

instance xferPay_storable (c : Dev nD) (s : SemLoc sig) : BI.Storable (upEmb : UEmb _ 𝕄) (xferPay (F := F) m ρ c s) := by
  cases s with
  | reg _ => show BI.Storable upEmb (iprop(emp) : sProp 𝕄); infer_instance
  | dma q =>
    show BI.Storable upEmb (if h : 33 ≤ q.val then recvPay m ρ c ⟨q.val - 33, _⟩ else if h2 : 2 ≤ q.val then sendPay m ρ c ⟨q.val - 2, _⟩ else iprop(emp))
    split
    · exact recvPay_storable m ρ c _
    · split
      · exact sendPay_storable m ρ c _
      · infer_instance

instance sched_payload_storable (g : GSem nD τ sig) (r : ℕ) (d : Fin 31) :
    BI.Storable (upEmb : UEmb _ 𝕄) ((sched (F := F) m ρ).payload g r d) := by
  show BI.Storable upEmb (if g.2 = .reg barS then barPay g.1.1 d else xferPay m ρ g.1.1 g.2)
  split
  · exact barPay_storable g.1.1 d
  · exact xferPay_storable m ρ g.1.1 g.2

section Tables
variable (c : Dev nD) (i : Fin 31)

theorem dma_ne_bar (q : DmaSem sig) : (SemLoc.dma q : SemLoc sig) ≠ .reg barS := fun h => by cases h
theorem isXfer_send : isXfer (.dma (sendSem i) : SemLoc sig) = true := by
  show decide (2 ≤ (sendSem i).val) = true; rw [sendSem_val]; exact decide_eq_true (by omega)
theorem isXfer_recv : isXfer (.dma (recvSem i) : SemLoc sig) = true := by
  show decide (2 ≤ (recvSem i).val) = true; rw [recvSem_val]; exact decide_eq_true (by omega)

theorem duties_bar : (sched (F := F) m ρ).duties (barCell c) 0 = Finset.univ := by dsimp only [sched]; exact if_pos ⟨rfl, rfl, rfl⟩
theorem duties_send : (sched (F := F) m ρ).duties (sendCell c i) 0 = {0} := by
  dsimp only [sched]; rw [if_neg (fun h => dma_ne_bar _ h.2.2)]; exact if_pos ⟨rfl, rfl, isXfer_send i⟩
theorem duties_recv : (sched (F := F) m ρ).duties (recvCell c i) 0 = {0} := by
  dsimp only [sched]; rw [if_neg (fun h => dma_ne_bar _ h.2.2)]; exact if_pos ⟨rfl, rfl, isXfer_recv i⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 31) : (sched (F := F) m ρ).amount (barCell c) 0 d = 1 := by dsimp only [sched]; exact if_pos rfl
theorem amount_send (d : Fin 31) : (sched (F := F) m ρ).amount (sendCell c i) 0 d = N1 := by dsimp only [sched]; exact if_neg (dma_ne_bar _)
theorem amount_recv (d : Fin 31) : (sched (F := F) m ρ).amount (recvCell c i) 0 d = N1 := by dsimp only [sched]; exact if_neg (dma_ne_bar _)

theorem expect_bar : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c i) 0 = N1 := by
  unfold Schedule.expect Schedule.amountOf; rw [duties_send, Finset.sum_singleton, amount_send]
theorem expect_recv : (sched (F := F) m ρ).expect (recvCell c i) 0 = N1 := by
  unfold Schedule.expect Schedule.amountOf; rw [duties_recv, Finset.sum_singleton, amount_recv]

theorem payload_bar (d : Fin 31) : (sched (F := F) m ρ).payload (barCell c) 0 d = barPay c d := by dsimp only [sched]; rw [if_pos rfl]
theorem payload_recv (d : Fin 31) : (sched (F := F) m ρ).payload (recvCell c i) 0 d = recvPay m ρ c i := by
  dsimp only [sched]; rw [if_neg (dma_ne_bar _)]
  show (if h : 33 ≤ (recvSem i).val then recvPay m ρ c ⟨(recvSem i).val - 33, _⟩ else _) = _
  rw [dif_pos (by rw [recvSem_val]; omega)]
  congr 1; exact Fin.ext (by show (recvSem i).val - 33 = i.val; rw [recvSem_val]; omega)
theorem payload_send (d : Fin 31) : (sched (F := F) m ρ).payload (sendCell c i) 0 d = sendPay m ρ c i := by
  dsimp only [sched]; rw [if_neg (dma_ne_bar _)]
  show (if h : 33 ≤ (sendSem i).val then _ else if h2 : 2 ≤ (sendSem i).val then sendPay m ρ c ⟨(sendSem i).val - 2, _⟩ else _) = _
  rw [dif_neg (by rw [sendSem_val]; have := i.isLt; omega), dif_pos (by rw [sendSem_val]; omega)]
  congr 1; exact Fin.ext (by show (sendSem i).val - 2 = i.val; rw [sendSem_val]; omega)

end Tables

end Cert.Kernel.Coll

end
-- ==== Proof.Kernel.Tables.lean ====
import proofs.«900483_g7700000000000484_dist_sum_ax0_shard0_i_m512_n256_v7x_i32_f32_1_alg».proof.Proof.Kernel.Sched

/-!
# The schedule's tables, spelt out

What each duty hands over, as the points-to assertions themselves, with `peer (peer c s) (rev s) = c` already
resolved, at each literal index; a conjunction over the 31 indices written out; and the program's spelling of a
device, a row or a semaphore equated with this proof's name for it.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads, raw -/

theorem payload_recv_raw (c : Dev nD) (i d : Fin 31) :
    (sched (F := F) m ρ).payload (recvCell c i) 0 d
      = (iprop(∃ fd : Buf (Elt F) ((slotM i).view.loc (c : Thread nD τ)),
          (slotM i).view.loc (c : Thread nD τ) ↦[(slotM i).view.set]{fullShare}
            View.write (Elt F) (slotM i).view fd (View.read (Elt F) (sM : Memref sig .tc .vmem S1x256 .f32).view (sendVal m ρ (src c i))) Finset.univ) : sProp 𝕄) :=
  payload_recv m ρ c i d

/-- Device `c`'s copy `i` pays the one duty of `peer c i`'s receive cell `i`: row `i` there, overwritten with `c`'s row sum. -/
theorem payload_recv_peer (c : Dev nD) (i d : Fin 31) :
    (sched (F := F) m ρ).payload (recvCell (peer c i) i) 0 d
      = (iprop(∃ fd : Buf (Elt F) ((slotM i).view.loc (peer c i : Thread nD τ)),
          (slotM i).view.loc (peer c i : Thread nD τ) ↦[(slotM i).view.set]{fullShare}
            View.write (Elt F) (slotM i).view fd (View.read (Elt F) (sM : Memref sig .tc .vmem S1x256 .f32).view (sendVal m ρ c)) Finset.univ) : sProp 𝕄) := by
  rw [payload_recv_raw, src_peer]

theorem payload_send_raw (c : Dev nD) (i d : Fin 31) :
    (sched (F := F) m ρ).payload (sendCell c i) 0 d
      = ((sM : Memref sig .tc .vmem S1x256 .f32).view.loc (c : Thread nD τ) ↦[(sM : Memref sig .tc .vmem S1x256 .f32).view.set]{Transfers.shareTok fullShare 31 i} sendVal m ρ c : sProp 𝕄) :=
  payload_send m ρ c i d

/-- Device `c`'s signal `s` pays duty `rev s` of `peer c s`'s barrier cell: it hands over `c`'s own slot `rev s`. -/
theorem payload_bar_sig (c : Dev nD) (s : Fin 31) :
    (sched (F := F) m ρ).payload (barCell (peer c s)) 0 (rev s)
      = (iprop((∃ f, (slotM (rev s)).view.loc (c : Thread nD τ) ↦[(slotM (rev s)).view.set]{fullShare} f) ∗ reached ER (recvCell c (rev s)) 0) : sProp 𝕄) := by
  rw [payload_bar]; unfold barPay slotPts
  have h := peer_peer_rev c s
  generalize peer (peer c s) (rev s) = x at h ⊢
  subst h; rfl

theorem payload_bar_sig_0 (c : Dev nD) :
    (sched (F := F) m ρ).payload (barCell (peer c 0)) 0 30
      = (iprop((∃ f, (slotM 30).view.loc (c : Thread nD τ) ↦[(slotM 30).view.set]{fullShare} f) ∗ reached ER (recvCell c 30) 0) : sProp 𝕄) :=
  payload_bar_sig m ρ c 0
theorem payload_bar_sig_1 (c : Dev nD) :
    (sched (F := F) m ρ).payload (barCell (peer c 1)) 0 29
      = (iprop((∃ f, (slotM 29).view.loc (c : Thread nD τ) ↦[(slotM 29).view.set]{fullShare} f) ∗ reached ER (recvCell c 29) 0) : sProp 𝕄) :=
  payload_bar_sig m ρ c 1
theorem payload_bar_sig_2 (c : Dev nD) :
    (sched (F := F) m ρ).payload (barCell (peer c 2)) 0 28
      = (iprop((∃ f, (slotM 28).view.loc (c : Thread nD τ) ↦[(slotM 28).view.set]{fullShare} f) ∗ reached ER (recvCell c 28) 0) : sProp 𝕄) :=
  payload_bar_sig m ρ c 2
theorem payload_bar_sig_3 (c : Dev nD) :
    (sched (F := F) m ρ).payload (barCell (peer c 3)) 0 27
      = (iprop((∃ f, (slotM 27).view.loc (c : Thread nD τ) ↦[(slotM 27).view.set]{fullShare} f) ∗ reached ER (recvCell c 27) 0) : sProp 𝕄) :=
  payload_bar_sig m ρ c 3
theorem payload_bar_sig_4 (c : Dev nD) :
    (sched (F := F) m ρ).payload (barCell (peer c 4)) 0 26
      = (iprop((∃ f, (slotM 26).view.loc (c : Thread nD τ) ↦[(slotM 26).view.set]{fullShare} f) ∗ reached ER (recvCell c 26) 0) : sProp 𝕄) :=
  payload_bar_sig m ρ c 4
theorem payload_bar_sig_5 (c : Dev nD) :
    (sched (F := F) m ρ).payload (barCell (peer c 5)) 0 25
      = (iprop((∃ f, (slotM 25).view.loc (c : Thread nD τ) ↦[(slotM 25).view.set]{fullShare} f) ∗ reached ER (recvCell c 25) 0) : sProp 𝕄) :=
  payload_bar_sig m ρ c 5
theorem payload_bar_sig_6 (c : Dev nD) :
    (sched (F := F) m ρ).payload (barCell (peer c 6)) 0 24
      = (iprop((∃ f, (slotM 24).view.loc (c : Thread nD τ) ↦[(slotM 24).view.set]{fullShare} f) ∗ reached ER (recvCell c 24) 0) : sProp 𝕄) :=
  payload_bar_sig m ρ c 6
theorem payload_bar_sig_7 (c : Dev nD) :
    (sched (F := F) m ρ).payload (barCell (peer c 7)) 0 23
      = (iprop((∃ f, (slotM 23).view.loc (c : Thread nD τ) ↦[(slotM 23).view.set]{fullShare} f) ∗ reached ER (recvCell c 23) 0) : sProp 𝕄) :=
  payload_bar_sig m ρ c 7
theorem payload_bar_sig_8 (c : Dev nD) :
    (sched (F := F) m ρ).payload (barCell (peer c 8)) 0 22
      = (iprop((∃ f, (slotM 22).view.loc (c : Thread nD τ) ↦[(slotM 22).view.set]{fullShare} f) ∗ reached ER (recvCell c 22) 0) : sProp 𝕄) :=
  payload_bar_sig m ρ c 8
theorem payload_bar_sig_9 (c : Dev nD) :
    (sched (F := F) m ρ).payload (barCell (peer c 9)) 0 21
      = (iprop((∃ f, (slotM 21).view.loc (c : Thread nD τ) ↦[(slotM 21).view.set]{fullShare} f) ∗ reached ER (recvCell c 21) 0) : sProp 𝕄) :=
  payload_bar_sig m ρ c 9
theorem payload_bar_sig_10 (c : Dev nD) :
    (sched (F := F) m ρ).payload (barCell (peer c 10)) 0 20
      = (iprop((∃ f, (slotM 20).view.loc (c : Thread nD τ) ↦[(slotM 20).view.set]{fullShare} f) ∗ reached ER (recvCell c 20) 0) : sProp 𝕄) :=
  payload_bar_sig m ρ c 10
theorem payload_bar_sig_11 (c : Dev nD) :
    (sched (F := F) m ρ).payload (barCell (peer c 11)) 0 19
      = (iprop((∃ f, (slotM 19).view.loc (c : Thread nD τ) ↦[(slotM 19).view.set]{fullShare} f) ∗ reached ER (recvCell c 19) 0) : sProp 𝕄) :=
  payload_bar_sig m ρ c 11
theorem payload_bar_sig_12 (c : Dev nD) :
    (sched (F := F) m ρ).payload (barCell (peer c 12)) 0 18
      = (iprop((∃ f, (slotM 18).view.loc (c : Thread nD τ) ↦[(slotM 18).view.set]{fullShare} f) ∗ reached ER (recvCell c 18) 0) : sProp 𝕄) :=
  payload_bar_sig m ρ c 12
theorem payload_bar_sig_13 (c : Dev nD) :
    (sched (F := F) m ρ).payload (barCell (peer c 13)) 0 17
      = (iprop((∃ f, (slotM 17).view.loc (c : Thread nD τ) ↦[(slotM 17).view.set]{fullShare} f) ∗ reached ER (recvCell c 17) 0) : sProp 𝕄) :=
  payload_bar_sig m ρ c 13
theorem payload_bar_sig_14 (c : Dev nD) :
    (sched (F := F) m ρ).payload (barCell (peer c 14)) 0 16
      = (iprop((∃ f, (slotM 16).view.loc (c : Thread nD τ) ↦[(slotM 16).view.set]{fullShare} f) ∗ reached ER (recvCell c 16) 0) : sProp 𝕄) :=
  payload_bar_sig m ρ c 14
theorem payload_bar_sig_15 (c : Dev nD) :
    (sched (F := F) m ρ).payload (barCell (peer c 15)) 0 15
      = (iprop((∃ f, (slotM 15).view.loc (c : Thread nD τ) ↦[(slotM 15).view.set]{fullShare} f) ∗ reached ER (recvCell c 15) 0) : sProp 𝕄) :=
  payload_bar_sig m ρ c 15
theorem payload_bar_sig_16 (c : Dev nD) :
    (sched (F := F) m ρ).payload (barCell (peer c 16)) 0 14
      = (iprop((∃ f, (slotM 14).view.loc (c : Thread nD τ) ↦[(slotM 14).view.set]{fullShare} f) ∗ reached ER (recvCell c 14) 0) : sProp 𝕄) :=
  payload_bar_sig m ρ c 16
theorem payload_bar_sig_17 (c : Dev nD) :
    (sched (F := F) m ρ).payload (barCell (peer c 17)) 0 13
      = (iprop((∃ f, (slotM 13).view.loc (c : Thread nD τ) ↦[(slotM 13).view.set]{fullShare} f) ∗ reached ER (recvCell c 13) 0) : sProp 𝕄) :=
  payload_bar_sig m ρ c 17
theorem payload_bar_sig_18 (c : Dev nD) :
    (sched (F := F) m ρ).payload (barCell (peer c 18)) 0 12
      = (iprop((∃ f, (slotM 12).view.loc (c : Thread nD τ) ↦[(slotM 12).view.set]{fullShare} f) ∗ reached ER (recvCell c 12) 0) : sProp 𝕄) :=
  payload_bar_sig m ρ c 18
theorem payload_bar_sig_19 (c : Dev nD) :
    (sched (F := F) m ρ).payload (barCell (peer c 19)) 0 11
      = (iprop((∃ f, (slotM 11).view.loc (c : Thread nD τ) ↦[(slotM 11).view.set]{fullShare} f) ∗ reached ER (recvCell c 11) 0) : sProp 𝕄) :=
  payload_bar_sig m ρ c 19
theorem payload_bar_sig_20 (c : Dev nD) :
    (sched (F := F) m ρ).payload (barCell (peer c 20)) 0 10
      = (iprop((∃ f, (slotM 10).view.loc (c : Thread nD τ) ↦[(slotM 10).view.set]{fullShare} f) ∗ reached ER (recvCell c 10) 0) : sProp 𝕄) :=
  payload_bar_sig m ρ c 20
theorem payload_bar_sig_21 (c : Dev nD) :
    (sched (F := F) m ρ).payload (barCell (peer c 21)) 0 9
      = (iprop((∃ f, (slotM 9).view.loc (c : Thread nD τ) ↦[(slotM 9).view.set]{fullShare} f) ∗ reached ER (recvCell c 9) 0) : sProp 𝕄) :=
  payload_bar_sig m ρ c 21
theorem payload_bar_sig_22 (c : Dev nD) :
    (sched (F := F) m ρ).payload (barCell (peer c 22)) 0 8
      = (iprop((∃ f, (slotM 8).view.loc (c : Thread nD τ) ↦[(slotM 8).view.set]{fullShare} f) ∗ reached ER (recvCell c 8) 0) : sProp 𝕄) :=
  payload_bar_sig m ρ c 22
theorem payload_bar_sig_23 (c : Dev nD) :
    (sched (F := F) m ρ).payload (barCell (peer c 23)) 0 7
      = (iprop((∃ f, (slotM 7).view.loc (c : Thread nD τ) ↦[(slotM 7).view.set]{fullShare} f) ∗ reached ER (recvCell c 7) 0) : sProp 𝕄) :=
  payload_bar_sig m ρ c 23
theorem payload_bar_sig_24 (c : Dev nD) :
    (sched (F := F) m ρ).payload (barCell (peer c 24)) 0 6
      = (iprop((∃ f, (slotM 6).view.loc (c : Thread nD τ) ↦[(slotM 6).view.set]{fullShare} f) ∗ reached ER (recvCell c 6) 0) : sProp 𝕄) :=
  payload_bar_sig m ρ c 24
theorem payload_bar_sig_25 (c : Dev nD) :
    (sched (F := F) m ρ).payload (barCell (peer c 25)) 0 5
      = (iprop((∃ f, (slotM 5).view.loc (c : Thread nD τ) ↦[(slotM 5).view.set]{fullShare} f) ∗ reached ER (recvCell c 5) 0) : sProp 𝕄) :=
  payload_bar_sig m ρ c 25
theorem payload_bar_sig_26 (c : Dev nD) :
    (sched (F := F) m ρ).payload (barCell (peer c 26)) 0 4
      = (iprop((∃ f, (slotM 4).view.loc (c : Thread nD τ) ↦[(slotM 4).view.set]{fullShare} f) ∗ reached ER (recvCell c 4) 0) : sProp 𝕄) :=
  payload_bar_sig m ρ c 26
theorem payload_bar_sig_27 (c : Dev nD) :
    (sched (F := F) m ρ).payload (barCell (peer c 27)) 0 3
      = (iprop((∃ f, (slotM 3).view.loc (c : Thread nD τ) ↦[(slotM 3).view.set]{fullShare} f) ∗ reached ER (recvCell c 3) 0) : sProp 𝕄) :=
  payload_bar_sig m ρ c 27
theorem payload_bar_sig_28 (c : Dev nD) :
    (sched (F := F) m ρ).payload (barCell (peer c 28)) 0 2
      = (iprop((∃ f, (slotM 2).view.loc (c : Thread nD τ) ↦[(slotM 2).view.set]{fullShare} f) ∗ reached ER (recvCell c 2) 0) : sProp 𝕄) :=
  payload_bar_sig m ρ c 28
theorem payload_bar_sig_29 (c : Dev nD) :
    (sched (F := F) m ρ).payload (barCell (peer c 29)) 0 1
      = (iprop((∃ f, (slotM 1).view.loc (c : Thread nD τ) ↦[(slotM 1).view.set]{fullShare} f) ∗ reached ER (recvCell c 1) 0) : sProp 𝕄) :=
  payload_bar_sig m ρ c 29
theorem payload_bar_sig_30 (c : Dev nD) :
    (sched (F := F) m ρ).payload (barCell (peer c 30)) 0 0
      = (iprop((∃ f, (slotM 0).view.loc (c : Thread nD τ) ↦[(slotM 0).view.set]{fullShare} f) ∗ reached ER (recvCell c 0) 0) : sProp 𝕄) :=
  payload_bar_sig m ρ c 30

/-! ## A conjunction over the 31 indices, written out -/

theorem bigSep_fin31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

theorem bigSep_fin31_rev (Φ : Fin 31 → sProp 𝕄) :
    bigSep Finset.univ Φ = iprop(Φ 30 ∗ Φ 29 ∗ Φ 28 ∗ Φ 27 ∗ Φ 26 ∗ Φ 25 ∗ Φ 24 ∗ Φ 23 ∗ Φ 22 ∗ Φ 21 ∗ Φ 20 ∗ Φ 19 ∗ Φ 18 ∗ Φ 17 ∗ Φ 16 ∗ Φ 15 ∗ Φ 14 ∗ Φ 13 ∗ Φ 12 ∗ Φ 11 ∗ Φ 10 ∗ Φ 9 ∗ Φ 8 ∗ Φ 7 ∗ Φ 6 ∗ Φ 5 ∗ Φ 4 ∗ Φ 3 ∗ Φ 2 ∗ Φ 1 ∗ Φ 0) :=
  bigSep_univ_eq_bigSepL [30, 29, 28, 27, 26, 25, 24, 23, 22, 21, 20, 19, 18, 17, 16, 15, 14, 13, 12, 11, 10, 9, 8, 7, 6, 5, 4, 3, 2, 1, 0] (by decide) (by decide) Φ

theorem rev_0 : rev 0 = 30 := by decide
theorem rev_1 : rev 1 = 29 := by decide
theorem rev_2 : rev 2 = 28 := by decide
theorem rev_3 : rev 3 = 27 := by decide
theorem rev_4 : rev 4 = 26 := by decide
theorem rev_5 : rev 5 = 25 := by decide
theorem rev_6 : rev 6 = 24 := by decide
theorem rev_7 : rev 7 = 23 := by decide
theorem rev_8 : rev 8 = 22 := by decide
theorem rev_9 : rev 9 = 21 := by decide
theorem rev_10 : rev 10 = 20 := by decide
theorem rev_11 : rev 11 = 19 := by decide
theorem rev_12 : rev 12 = 18 := by decide
theorem rev_13 : rev 13 = 17 := by decide
theorem rev_14 : rev 14 = 16 := by decide
theorem rev_15 : rev 15 = 15 := by decide
theorem rev_16 : rev 16 = 14 := by decide
theorem rev_17 : rev 17 = 13 := by decide
theorem rev_18 : rev 18 = 12 := by decide
theorem rev_19 : rev 19 = 11 := by decide
theorem rev_20 : rev 20 = 10 := by decide
theorem rev_21 : rev 21 = 9 := by decide
theorem rev_22 : rev 22 = 8 := by decide
theorem rev_23 : rev 23 = 7 := by decide
theorem rev_24 : rev 24 = 6 := by decide
theorem rev_25 : rev 25 = 5 := by decide
theorem rev_26 : rev 26 = 4 := by decide
theorem rev_27 : rev 27 = 3 := by decide
theorem rev_28 : rev 28 = 2 := by decide
theorem rev_29 : rev 29 = 1 := by decide
theorem rev_30 : rev 30 = 0 := by decide

/-- What the barrier wait hands device `c`: from each peer, the peer's row for `c` and that the peer is at round 0 of the
    matching receive cell. -/
def barRest (c : Dev nD) : sProp 𝕄 :=
  iprop(((∃ f, (slotM 0).view.loc (peer c 0 : Thread nD τ) ↦[(slotM 0).view.set]{fullShare} f) ∗ reached ER (recvCell (peer c 0) 0) 0)
    ∗ ((∃ f, (slotM 1).view.loc (peer c 1 : Thread nD τ) ↦[(slotM 1).view.set]{fullShare} f) ∗ reached ER (recvCell (peer c 1) 1) 0)
    ∗ ((∃ f, (slotM 2).view.loc (peer c 2 : Thread nD τ) ↦[(slotM 2).view.set]{fullShare} f) ∗ reached ER (recvCell (peer c 2) 2) 0)
    ∗ ((∃ f, (slotM 3).view.loc (peer c 3 : Thread nD τ) ↦[(slotM 3).view.set]{fullShare} f) ∗ reached ER (recvCell (peer c 3) 3) 0)
    ∗ ((∃ f, (slotM 4).view.loc (peer c 4 : Thread nD τ) ↦[(slotM 4).view.set]{fullShare} f) ∗ reached ER (recvCell (peer c 4) 4) 0)
    ∗ ((∃ f, (slotM 5).view.loc (peer c 5 : Thread nD τ) ↦[(slotM 5).view.set]{fullShare} f) ∗ reached ER (recvCell (peer c 5) 5) 0)
    ∗ ((∃ f, (slotM 6).view.loc (peer c 6 : Thread nD τ) ↦[(slotM 6).view.set]{fullShare} f) ∗ reached ER (recvCell (peer c 6) 6) 0)
    ∗ ((∃ f, (slotM 7).view.loc (peer c 7 : Thread nD τ) ↦[(slotM 7).view.set]{fullShare} f) ∗ reached ER (recvCell (peer c 7) 7) 0)
    ∗ ((∃ f, (slotM 8).view.loc (peer c 8 : Thread nD τ) ↦[(slotM 8).view.set]{fullShare} f) ∗ reached ER (recvCell (peer c 8) 8) 0)
    ∗ ((∃ f, (slotM 9).view.loc (peer c 9 : Thread nD τ) ↦[(slotM 9).view.set]{fullShare} f) ∗ reached ER (recvCell (peer c 9) 9) 0)
    ∗ ((∃ f, (slotM 10).view.loc (peer c 10 : Thread nD τ) ↦[(slotM 10).view.set]{fullShare} f) ∗ reached ER (recvCell (peer c 10) 10) 0)
    ∗ ((∃ f, (slotM 11).view.loc (peer c 11 : Thread nD τ) ↦[(slotM 11).view.set]{fullShare} f) ∗ reached ER (recvCell (peer c 11) 11) 0)
    ∗ ((∃ f, (slotM 12).view.loc (peer c 12 : Thread nD τ) ↦[(slotM 12).view.set]{fullShare} f) ∗ reached ER (recvCell (peer c 12) 12) 0)
    ∗ ((∃ f, (slotM 13).view.loc (peer c 13 : Thread nD τ) ↦[(slotM 13).view.set]{fullShare} f) ∗ reached ER (recvCell (peer c 13) 13) 0)
    ∗ ((∃ f, (slotM 14).view.loc (peer c 14 : Thread nD τ) ↦[(slotM 14).view.set]{fullShare} f) ∗ reached ER (recvCell (peer c 14) 14) 0)
    ∗ ((∃ f, (slotM 15).view.loc (peer c 15 : Thread nD τ) ↦[(slotM 15).view.set]{fullShare} f) ∗ reached ER (recvCell (peer c 15) 15) 0)
    ∗ ((∃ f, (slotM 16).view.loc (peer c 16 : Thread nD τ) ↦[(slotM 16).view.set]{fullShare} f) ∗ reached ER (recvCell (peer c 16) 16) 0)
    ∗ ((∃ f, (slotM 17).view.loc (peer c 17 : Thread nD τ) ↦[(slotM 17).view.set]{fullShare} f) ∗ reached ER (recvCell (peer c 17) 17) 0)
    ∗ ((∃ f, (slotM 18).view.loc (peer c 18 : Thread nD τ) ↦[(slotM 18).view.set]{fullShare} f) ∗ reached ER (recvCell (peer c 18) 18) 0)
    ∗ ((∃ f, (slotM 19).view.loc (peer c 19 : Thread nD τ) ↦[(slotM 19).view.set]{fullShare} f) ∗ reached ER (recvCell (peer c 19) 19) 0)
    ∗ ((∃ f, (slotM 20).view.loc (peer c 20 : Thread nD τ) ↦[(slotM 20).view.set]{fullShare} f) ∗ reached ER (recvCell (peer c 20) 20) 0)
    ∗ ((∃ f, (slotM 21).view.loc (peer c 21 : Thread nD τ) ↦[(slotM 21).view.set]{fullShare} f) ∗ reached ER (recvCell (peer c 21) 21) 0)
    ∗ ((∃ f, (slotM 22).view.loc (peer c 22 : Thread nD τ) ↦[(slotM 22).view.set]{fullShare} f) ∗ reached ER (recvCell (peer c 22) 22) 0)
    ∗ ((∃ f, (slotM 23).view.loc (peer c 23 : Thread nD τ) ↦[(slotM 23).view.set]{fullShare} f) ∗ reached ER (recvCell (peer c 23) 23) 0)
    ∗ ((∃ f, (slotM 24).view.loc (peer c 24 : Thread nD τ) ↦[(slotM 24).view.set]{fullShare} f) ∗ reached ER (recvCell (peer c 24) 24) 0)
    ∗ ((∃ f, (slotM 25).view.loc (peer c 25 : Thread nD τ) ↦[(slotM 25).view.set]{fullShare} f) ∗ reached ER (recvCell (peer c 25) 25) 0)
    ∗ ((∃ f, (slotM 26).view.loc (peer c 26 : Thread nD τ) ↦[(slotM 26).view.set]{fullShare} f) ∗ reached ER (recvCell (peer c 26) 26) 0)
    ∗ ((∃ f, (slotM 27).view.loc (peer c 27 : Thread nD τ) ↦[(slotM 27).view.set]{fullShare} f) ∗ reached ER (recvCell (peer c 27) 27) 0)
    ∗ ((∃ f, (slotM 28).view.loc (peer c 28 : Thread nD τ) ↦[(slotM 28).view.set]{fullShare} f) ∗ reached ER (recvCell (peer c 28) 28) 0)
    ∗ ((∃ f, (slotM 29).view.loc (peer c 29 : Thread nD τ) ↦[(slotM 29).view.set]{fullShare} f) ∗ reached ER (recvCell (peer c 29) 29) 0)
    ∗ ((∃ f, (slotM 30).view.loc (peer c 30 : Thread nD τ) ↦[(slotM 30).view.set]{fullShare} f) ∗ reached ER (recvCell (peer c 30) 30) 0))

theorem rest_bar_univ (c : Dev nD) :
    bigSep Finset.univ (fun d => (sched (F := F) m ρ).payload (barCell c) 0 d) = barRest (F := F) c := by
  rw [bigSep_fin31]; simp only [payload_bar]; rfl
theorem rest_bar_sdiff (c : Dev nD) :
    bigSep (Finset.univ \ ∅) (fun d => (sched (F := F) m ρ).payload (barCell c) 0 d) = barRest (F := F) c := by
  rw [Finset.sdiff_empty]; exact rest_bar_univ m ρ c
theorem rest_bar (c : Dev nD) :
    bigSep ((sched (F := F) m ρ).duties (barCell c) 0 \ ∅) (fun d => (sched (F := F) m ρ).payload (barCell c) 0 d) = barRest (F := F) c := by
  rw [duties_bar]; exact rest_bar_sdiff m ρ c

/-! ## The program's spellings -/

theorem slot_canon_0 : ((Memref.whole cc0_scratch1 : Memref sig .tc .vmem S31x1x256 .f32).slice (Rect.unit (s := S31x1x256) ![0, 0, 0] S1x1x256.size inb_S31x1x256_S1x1x256_0_0_0) (fun _ => rfl)).squeeze S1x256 squeezes_S1x1x256_S1x256 = slotM 0 := id rfl
theorem sendSem_canon_0 : ((cc0_scratch2.slice (Rect.unit (s := S31) ![0] S1.size inb_S31_S1_0)).squeeze S_ squeezes_S1_S_).sem = sendSem 0 := id rfl
theorem recvSem_canon_0 : ((cc0_scratch3.slice (Rect.unit (s := S31) ![0] S1.size inb_S31_S1_0)).squeeze S_ squeezes_S1_S_).sem = recvSem 0 := id rfl
theorem slot_canon_1 : ((Memref.whole cc0_scratch1 : Memref sig .tc .vmem S31x1x256 .f32).slice (Rect.unit (s := S31x1x256) ![1, 0, 0] S1x1x256.size inb_S31x1x256_S1x1x256_1_0_0) (fun _ => rfl)).squeeze S1x256 squeezes_S1x1x256_S1x256 = slotM 1 := id rfl
theorem sendSem_canon_1 : ((cc0_scratch2.slice (Rect.unit (s := S31) ![1] S1.size inb_S31_S1_1)).squeeze S_ squeezes_S1_S_).sem = sendSem 1 := id rfl
theorem recvSem_canon_1 : ((cc0_scratch3.slice (Rect.unit (s := S31) ![1] S1.size inb_S31_S1_1)).squeeze S_ squeezes_S1_S_).sem = recvSem 1 := id rfl
theorem slot_canon_2 : ((Memref.whole cc0_scratch1 : Memref sig .tc .vmem S31x1x256 .f32).slice (Rect.unit (s := S31x1x256) ![2, 0, 0] S1x1x256.size inb_S31x1x256_S1x1x256_2_0_0) (fun _ => rfl)).squeeze S1x256 squeezes_S1x1x256_S1x256 = slotM 2 := id rfl
theorem sendSem_canon_2 : ((cc0_scratch2.slice (Rect.unit (s := S31) ![2] S1.size inb_S31_S1_2)).squeeze S_ squeezes_S1_S_).sem = sendSem 2 := id rfl
theorem recvSem_canon_2 : ((cc0_scratch3.slice (Rect.unit (s := S31) ![2] S1.size inb_S31_S1_2)).squeeze S_ squeezes_S1_S_).sem = recvSem 2 := id rfl
theorem slot_canon_3 : ((Memref.whole cc0_scratch1 : Memref sig .tc .vmem S31x1x256 .f32).slice (Rect.unit (s := S31x1x256) ![3, 0, 0] S1x1x256.size inb_S31x1x256_S1x1x256_3_0_0) (fun _ => rfl)).squeeze S1x256 squeezes_S1x1x256_S1x256 = slotM 3 := id rfl
theorem sendSem_canon_3 : ((cc0_scratch2.slice (Rect.unit (s := S31) ![3] S1.size inb_S31_S1_3)).squeeze S_ squeezes_S1_S_).sem = sendSem 3 := id rfl
theorem recvSem_canon_3 : ((cc0_scratch3.slice (Rect.unit (s := S31) ![3] S1.size inb_S31_S1_3)).squeeze S_ squeezes_S1_S_).sem = recvSem 3 := id rfl
theorem slot_canon_4 : ((Memref.whole cc0_scratch1 : Memref sig .tc .vmem S31x1x256 .f32).slice (Rect.unit (s := S31x1x256) ![4, 0, 0] S1x1x256.size inb_S31x1x256_S1x1x256_4_0_0) (fun _ => rfl)).squeeze S1x256 squeezes_S1x1x256_S1x256 = slotM 4 := id rfl
theorem sendSem_canon_4 : ((cc0_scratch2.slice (Rect.unit (s := S31) ![4] S1.size inb_S31_S1_4)).squeeze S_ squeezes_S1_S_).sem = sendSem 4 := id rfl
theorem recvSem_canon_4 : ((cc0_scratch3.slice (Rect.unit (s := S31) ![4] S1.size inb_S31_S1_4)).squeeze S_ squeezes_S1_S_).sem = recvSem 4 := id rfl
theorem slot_canon_5 : ((Memref.whole cc0_scratch1 : Memref sig .tc .vmem S31x1x256 .f32).slice (Rect.unit (s := S31x1x256) ![5, 0, 0] S1x1x256.size inb_S31x1x256_S1x1x256_5_0_0) (fun _ => rfl)).squeeze S1x256 squeezes_S1x1x256_S1x256 = slotM 5 := id rfl
theorem sendSem_canon_5 : ((cc0_scratch2.slice (Rect.unit (s := S31) ![5] S1.size inb_S31_S1_5)).squeeze S_ squeezes_S1_S_).sem = sendSem 5 := id rfl
theorem recvSem_canon_5 : ((cc0_scratch3.slice (Rect.unit (s := S31) ![5] S1.size inb_S31_S1_5)).squeeze S_ squeezes_S1_S_).sem = recvSem 5 := id rfl
theorem slot_canon_6 : ((Memref.whole cc0_scratch1 : Memref sig .tc .vmem S31x1x256 .f32).slice (Rect.unit (s := S31x1x256) ![6, 0, 0] S1x1x256.size inb_S31x1x256_S1x1x256_6_0_0) (fun _ => rfl)).squeeze S1x256 squeezes_S1x1x256_S1x256 = slotM 6 := id rfl
theorem sendSem_canon_6 : ((cc0_scratch2.slice (Rect.unit (s := S31) ![6] S1.size inb_S31_S1_6)).squeeze S_ squeezes_S1_S_).sem = sendSem 6 := id rfl
theorem recvSem_canon_6 : ((cc0_scratch3.slice (Rect.unit (s := S31) ![6] S1.size inb_S31_S1_6)).squeeze S_ squeezes_S1_S_).sem = recvSem 6 := id rfl
theorem slot_canon_7 : ((Memref.whole cc0_scratch1 : Memref sig .tc .vmem S31x1x256 .f32).slice (Rect.unit (s := S31x1x256) ![7, 0, 0] S1x1x256.size inb_S31x1x256_S1x1x256_7_0_0) (fun _ => rfl)).squeeze S1x256 squeezes_S1x1x256_S1x256 = slotM 7 := id rfl
theorem sendSem_canon_7 : ((cc0_scratch2.slice (Rect.unit (s := S31) ![7] S1.size inb_S31_S1_7)).squeeze S_ squeezes_S1_S_).sem = sendSem 7 := id rfl
theorem recvSem_canon_7 : ((cc0_scratch3.slice (Rect.unit (s := S31) ![7] S1.size inb_S31_S1_7)).squeeze S_ squeezes_S1_S_).sem = recvSem 7 := id rfl
theorem slot_canon_8 : ((Memref.whole cc0_scratch1 : Memref sig .tc .vmem S31x1x256 .f32).slice (Rect.unit (s := S31x1x256) ![8, 0, 0] S1x1x256.size inb_S31x1x256_S1x1x256_8_0_0) (fun _ => rfl)).squeeze S1x256 squeezes_S1x1x256_S1x256 = slotM 8 := id rfl
theorem sendSem_canon_8 : ((cc0_scratch2.slice (Rect.unit (s := S31) ![8] S1.size inb_S31_S1_8)).squeeze S_ squeezes_S1_S_).sem = sendSem 8 := id rfl
theorem recvSem_canon_8 : ((cc0_scratch3.slice (Rect.unit (s := S31) ![8] S1.size inb_S31_S1_8)).squeeze S_ squeezes_S1_S_).sem = recvSem 8 := id rfl
theorem slot_canon_9 : ((Memref.whole cc0_scratch1 : Memref sig .tc .vmem S31x1x256 .f32).slice (Rect.unit (s := S31x1x256) ![9, 0, 0] S1x1x256.size inb_S31x1x256_S1x1x256_9_0_0) (fun _ => rfl)).squeeze S1x256 squeezes_S1x1x256_S1x256 = slotM 9 := id rfl
theorem sendSem_canon_9 : ((cc0_scratch2.slice (Rect.unit (s := S31) ![9] S1.size inb_S31_S1_9)).squeeze S_ squeezes_S1_S_).sem = sendSem 9 := id rfl
theorem recvSem_canon_9 : ((cc0_scratch3.slice (Rect.unit (s := S31) ![9] S1.size inb_S31_S1_9)).squeeze S_ squeezes_S1_S_).sem = recvSem 9 := id rfl
theorem slot_canon_10 : ((Memref.whole cc0_scratch1 : Memref sig .tc .vmem S31x1x256 .f32).slice (Rect.unit (s := S31x1x256) ![10, 0, 0] S1x1x256.size inb_S31x1x256_S1x1x256_10_0_0) (fun _ => rfl)).squeeze S1x256 squeezes_S1x1x256_S1x256 = slotM 10 := id rfl
theorem sendSem_canon_10 : ((cc0_scratch2.slice (Rect.unit (s := S31) ![10] S1.size inb_S31_S1_10)).squeeze S_ squeezes_S1_S_).sem = sendSem 10 := id rfl
theorem recvSem_canon_10 : ((cc0_scratch3.slice (Rect.unit (s := S31) ![10] S1.size inb_S31_S1_10)).squeeze S_ squeezes_S1_S_).sem = recvSem 10 := id rfl
theorem slot_canon_11 : ((Memref.whole cc0_scratch1 : Memref sig .tc .vmem S31x1x256 .f32).slice (Rect.unit (s := S31x1x256) ![11, 0, 0] S1x1x256.size inb_S31x1x256_S1x1x256_11_0_0) (fun _ => rfl)).squeeze S1x256 squeezes_S1x1x256_S1x256 = slotM 11 := id rfl
theorem sendSem_canon_11 : ((cc0_scratch2.slice (Rect.unit (s := S31) ![11] S1.size inb_S31_S1_11)).squeeze S_ squeezes_S1_S_).sem = sendSem 11 := id rfl
theorem recvSem_canon_11 : ((cc0_scratch3.slice (Rect.unit (s := S31) ![11] S1.size inb_S31_S1_11)).squeeze S_ squeezes_S1_S_).sem = recvSem 11 := id rfl
theorem slot_canon_12 : ((Memref.whole cc0_scratch1 : Memref sig .tc .vmem S31x1x256 .f32).slice (Rect.unit (s := S31x1x256) ![12, 0, 0] S1x1x256.size inb_S31x1x256_S1x1x256_12_0_0) (fun _ => rfl)).squeeze S1x256 squeezes_S1x1x256_S1x256 = slotM 12 := id rfl
theorem sendSem_canon_12 : ((cc0_scratch2.slice (Rect.unit (s := S31) ![12] S1.size inb_S31_S1_12)).squeeze S_ squeezes_S1_S_).sem = sendSem 12 := id rfl
theorem recvSem_canon_12 : ((cc0_scratch3.slice (Rect.unit (s := S31) ![12] S1.size inb_S31_S1_12)).squeeze S_ squeezes_S1_S_).sem = recvSem 12 := id rfl
theorem slot_canon_13 : ((Memref.whole cc0_scratch1 : Memref sig .tc .vmem S31x1x256 .f32).slice (Rect.unit (s := S31x1x256) ![13, 0, 0] S1x1x256.size inb_S31x1x256_S1x1x256_13_0_0) (fun _ => rfl)).squeeze S1x256 squeezes_S1x1x256_S1x256 = slotM 13 := id rfl
theorem sendSem_canon_13 : ((cc0_scratch2.slice (Rect.unit (s := S31) ![13] S1.size inb_S31_S1_13)).squeeze S_ squeezes_S1_S_).sem = sendSem 13 := id rfl
theorem recvSem_canon_13 : ((cc0_scratch3.slice (Rect.unit (s := S31) ![13] S1.size inb_S31_S1_13)).squeeze S_ squeezes_S1_S_).sem = recvSem 13 := id rfl
theorem slot_canon_14 : ((Memref.whole cc0_scratch1 : Memref sig .tc .vmem S31x1x256 .f32).slice (Rect.unit (s := S31x1x256) ![14, 0, 0] S1x1x256.size inb_S31x1x256_S1x1x256_14_0_0) (fun _ => rfl)).squeeze S1x256 squeezes_S1x1x256_S1x256 = slotM 14 := id rfl
theorem sendSem_canon_14 : ((cc0_scratch2.slice (Rect.unit (s := S31) ![14] S1.size inb_S31_S1_14)).squeeze S_ squeezes_S1_S_).sem = sendSem 14 := id rfl
theorem recvSem_canon_14 : ((cc0_scratch3.slice (Rect.unit (s := S31) ![14] S1.size inb_S31_S1_14)).squeeze S_ squeezes_S1_S_).sem = recvSem 14 := id rfl
theorem slot_canon_15 : ((Memref.whole cc0_scratch1 : Memref sig .tc .vmem S31x1x256 .f32).slice (Rect.unit (s := S31x1x256) ![15, 0, 0] S1x1x256.size inb_S31x1x256_S1x1x256_15_0_0) (fun _ => rfl)).squeeze S1x256 squeezes_S1x1x256_S1x256 = slotM 15 := id rfl
theorem sendSem_canon_15 : ((cc0_scratch2.slice (Rect.unit (s := S31) ![15] S1.size inb_S31_S1_15)).squeeze S_ squeezes_S1_S_).sem = sendSem 15 := id rfl
theorem recvSem_canon_15 : ((cc0_scratch3.slice (Rect.unit (s := S31) ![15] S1.size inb_S31_S1_15)).squeeze S_ squeezes_S1_S_).sem = recvSem 15 := id rfl
theorem slot_canon_16 : ((Memref.whole cc0_scratch1 : Memref sig .tc .vmem S31x1x256 .f32).slice (Rect.unit (s := S31x1x256) ![16, 0, 0] S1x1x256.size inb_S31x1x256_S1x1x256_16_0_0) (fun _ => rfl)).squeeze S1x256 squeezes_S1x1x256_S1x256 = slotM 16 := id rfl
theorem sendSem_canon_16 : ((cc0_scratch2.slice (Rect.unit (s := S31) ![16] S1.size inb_S31_S1_16)).squeeze S_ squeezes_S1_S_).sem = sendSem 16 := id rfl
theorem recvSem_canon_16 : ((cc0_scratch3.slice (Rect.unit (s := S31) ![16] S1.size inb_S31_S1_16)).squeeze S_ squeezes_S1_S_).sem = recvSem 16 := id rfl
theorem slot_canon_17 : ((Memref.whole cc0_scratch1 : Memref sig .tc .vmem S31x1x256 .f32).slice (Rect.unit (s := S31x1x256) ![17, 0, 0] S1x1x256.size inb_S31x1x256_S1x1x256_17_0_0) (fun _ => rfl)).squeeze S1x256 squeezes_S1x1x256_S1x256 = slotM 17 := id rfl
theorem sendSem_canon_17 : ((cc0_scratch2.slice (Rect.unit (s := S31) ![17] S1.size inb_S31_S1_17)).squeeze S_ squeezes_S1_S_).sem = sendSem 17 := id rfl
theorem recvSem_canon_17 : ((cc0_scratch3.slice (Rect.unit (s := S31) ![17] S1.size inb_S31_S1_17)).squeeze S_ squeezes_S1_S_).sem = recvSem 17 := id rfl
theorem slot_canon_18 : ((Memref.whole cc0_scratch1 : Memref sig .tc .vmem S31x1x256 .f32).slice (Rect.unit (s := S31x1x256) ![18, 0, 0] S1x1x256.size inb_S31x1x256_S1x1x256_18_0_0) (fun _ => rfl)).squeeze S1x256 squeezes_S1x1x256_S1x256 = slotM 18 := id rfl
theorem sendSem_canon_18 : ((cc0_scratch2.slice (Rect.unit (s := S31) ![18] S1.size inb_S31_S1_18)).squeeze S_ squeezes_S1_S_).sem = sendSem 18 := id rfl
theorem recvSem_canon_18 : ((cc0_scratch3.slice (Rect.unit (s := S31) ![18] S1.size inb_S31_S1_18)).squeeze S_ squeezes_S1_S_).sem = recvSem 18 := id rfl
theorem slot_canon_19 : ((Memref.whole cc0_scratch1 : Memref sig .tc .vmem S31x1x256 .f32).slice (Rect.unit (s := S31x1x256) ![19, 0, 0] S1x1x256.size inb_S31x1x256_S1x1x256_19_0_0) (fun _ => rfl)).squeeze S1x256 squeezes_S1x1x256_S1x256 = slotM 19 := id rfl
theorem sendSem_canon_19 : ((cc0_scratch2.slice (Rect.unit (s := S31) ![19] S1.size inb_S31_S1_19)).squeeze S_ squeezes_S1_S_).sem = sendSem 19 := id rfl
theorem recvSem_canon_19 : ((cc0_scratch3.slice (Rect.unit (s := S31) ![19] S1.size inb_S31_S1_19)).squeeze S_ squeezes_S1_S_).sem = recvSem 19 := id rfl
theorem slot_canon_20 : ((Memref.whole cc0_scratch1 : Memref sig .tc .vmem S31x1x256 .f32).slice (Rect.unit (s := S31x1x256) ![20, 0, 0] S1x1x256.size inb_S31x1x256_S1x1x256_20_0_0) (fun _ => rfl)).squeeze S1x256 squeezes_S1x1x256_S1x256 = slotM 20 := id rfl
theorem sendSem_canon_20 : ((cc0_scratch2.slice (Rect.unit (s := S31) ![20] S1.size inb_S31_S1_20)).squeeze S_ squeezes_S1_S_).sem = sendSem 20 := id rfl
theorem recvSem_canon_20 : ((cc0_scratch3.slice (Rect.unit (s := S31) ![20] S1.size inb_S31_S1_20)).squeeze S_ squeezes_S1_S_).sem = recvSem 20 := id rfl
theorem slot_canon_21 : ((Memref.whole cc0_scratch1 : Memref sig .tc .vmem S31x1x256 .f32).slice (Rect.unit (s := S31x1x256) ![21, 0, 0] S1x1x256.size inb_S31x1x256_S1x1x256_21_0_0) (fun _ => rfl)).squeeze S1x256 squeezes_S1x1x256_S1x256 = slotM 21 := id rfl
theorem sendSem_canon_21 : ((cc0_scratch2.slice (Rect.unit (s := S31) ![21] S1.size inb_S31_S1_21)).squeeze S_ squeezes_S1_S_).sem = sendSem 21 := id rfl
theorem recvSem_canon_21 : ((cc0_scratch3.slice (Rect.unit (s := S31) ![21] S1.size inb_S31_S1_21)).squeeze S_ squeezes_S1_S_).sem = recvSem 21 := id rfl
theorem slot_canon_22 : ((Memref.whole cc0_scratch1 : Memref sig .tc .vmem S31x1x256 .f32).slice (Rect.unit (s := S31x1x256) ![22, 0, 0] S1x1x256.size inb_S31x1x256_S1x1x256_22_0_0) (fun _ => rfl)).squeeze S1x256 squeezes_S1x1x256_S1x256 = slotM 22 := id rfl
theorem sendSem_canon_22 : ((cc0_scratch2.slice (Rect.unit (s := S31) ![22] S1.size inb_S31_S1_22)).squeeze S_ squeezes_S1_S_).sem = sendSem 22 := id rfl
theorem recvSem_canon_22 : ((cc0_scratch3.slice (Rect.unit (s := S31) ![22] S1.size inb_S31_S1_22)).squeeze S_ squeezes_S1_S_).sem = recvSem 22 := id rfl
theorem slot_canon_23 : ((Memref.whole cc0_scratch1 : Memref sig .tc .vmem S31x1x256 .f32).slice (Rect.unit (s := S31x1x256) ![23, 0, 0] S1x1x256.size inb_S31x1x256_S1x1x256_23_0_0) (fun _ => rfl)).squeeze S1x256 squeezes_S1x1x256_S1x256 = slotM 23 := id rfl
theorem sendSem_canon_23 : ((cc0_scratch2.slice (Rect.unit (s := S31) ![23] S1.size inb_S31_S1_23)).squeeze S_ squeezes_S1_S_).sem = sendSem 23 := id rfl
theorem recvSem_canon_23 : ((cc0_scratch3.slice (Rect.unit (s := S31) ![23] S1.size inb_S31_S1_23)).squeeze S_ squeezes_S1_S_).sem = recvSem 23 := id rfl
theorem slot_canon_24 : ((Memref.whole cc0_scratch1 : Memref sig .tc .vmem S31x1x256 .f32).slice (Rect.unit (s := S31x1x256) ![24, 0, 0] S1x1x256.size inb_S31x1x256_S1x1x256_24_0_0) (fun _ => rfl)).squeeze S1x256 squeezes_S1x1x256_S1x256 = slotM 24 := id rfl
theorem sendSem_canon_24 : ((cc0_scratch2.slice (Rect.unit (s := S31) ![24] S1.size inb_S31_S1_24)).squeeze S_ squeezes_S1_S_).sem = sendSem 24 := id rfl
theorem recvSem_canon_24 : ((cc0_scratch3.slice (Rect.unit (s := S31) ![24] S1.size inb_S31_S1_24)).squeeze S_ squeezes_S1_S_).sem = recvSem 24 := id rfl
theorem slot_canon_25 : ((Memref.whole cc0_scratch1 : Memref sig .tc .vmem S31x1x256 .f32).slice (Rect.unit (s := S31x1x256) ![25, 0, 0] S1x1x256.size inb_S31x1x256_S1x1x256_25_0_0) (fun _ => rfl)).squeeze S1x256 squeezes_S1x1x256_S1x256 = slotM 25 := id rfl
theorem sendSem_canon_25 : ((cc0_scratch2.slice (Rect.unit (s := S31) ![25] S1.size inb_S31_S1_25)).squeeze S_ squeezes_S1_S_).sem = sendSem 25 := id rfl
theorem recvSem_canon_25 : ((cc0_scratch3.slice (Rect.unit (s := S31) ![25] S1.size inb_S31_S1_25)).squeeze S_ squeezes_S1_S_).sem = recvSem 25 := id rfl
theorem slot_canon_26 : ((Memref.whole cc0_scratch1 : Memref sig .tc .vmem S31x1x256 .f32).slice (Rect.unit (s := S31x1x256) ![26, 0, 0] S1x1x256.size inb_S31x1x256_S1x1x256_26_0_0) (fun _ => rfl)).squeeze S1x256 squeezes_S1x1x256_S1x256 = slotM 26 := id rfl
theorem sendSem_canon_26 : ((cc0_scratch2.slice (Rect.unit (s := S31) ![26] S1.size inb_S31_S1_26)).squeeze S_ squeezes_S1_S_).sem = sendSem 26 := id rfl
theorem recvSem_canon_26 : ((cc0_scratch3.slice (Rect.unit (s := S31) ![26] S1.size inb_S31_S1_26)).squeeze S_ squeezes_S1_S_).sem = recvSem 26 := id rfl
theorem slot_canon_27 : ((Memref.whole cc0_scratch1 : Memref sig .tc .vmem S31x1x256 .f32).slice (Rect.unit (s := S31x1x256) ![27, 0, 0] S1x1x256.size inb_S31x1x256_S1x1x256_27_0_0) (fun _ => rfl)).squeeze S1x256 squeezes_S1x1x256_S1x256 = slotM 27 := id rfl
theorem sendSem_canon_27 : ((cc0_scratch2.slice (Rect.unit (s := S31) ![27] S1.size inb_S31_S1_27)).squeeze S_ squeezes_S1_S_).sem = sendSem 27 := id rfl
theorem recvSem_canon_27 : ((cc0_scratch3.slice (Rect.unit (s := S31) ![27] S1.size inb_S31_S1_27)).squeeze S_ squeezes_S1_S_).sem = recvSem 27 := id rfl
theorem slot_canon_28 : ((Memref.whole cc0_scratch1 : Memref sig .tc .vmem S31x1x256 .f32).slice (Rect.unit (s := S31x1x256) ![28, 0, 0] S1x1x256.size inb_S31x1x256_S1x1x256_28_0_0) (fun _ => rfl)).squeeze S1x256 squeezes_S1x1x256_S1x256 = slotM 28 := id rfl
theorem sendSem_canon_28 : ((cc0_scratch2.slice (Rect.unit (s := S31) ![28] S1.size inb_S31_S1_28)).squeeze S_ squeezes_S1_S_).sem = sendSem 28 := id rfl
theorem recvSem_canon_28 : ((cc0_scratch3.slice (Rect.unit (s := S31) ![28] S1.size inb_S31_S1_28)).squeeze S_ squeezes_S1_S_).sem = recvSem 28 := id rfl
theorem slot_canon_29 : ((Memref.whole cc0_scratch1 : Memref sig .tc .vmem S31x1x256 .f32).slice (Rect.unit (s := S31x1x256) ![29, 0, 0] S1x1x256.size inb_S31x1x256_S1x1x256_29_0_0) (fun _ => rfl)).squeeze S1x256 squeezes_S1x1x256_S1x256 = slotM 29 := id rfl
theorem sendSem_canon_29 : ((cc0_scratch2.slice (Rect.unit (s := S31) ![29] S1.size inb_S31_S1_29)).squeeze S_ squeezes_S1_S_).sem = sendSem 29 := id rfl
theorem recvSem_canon_29 : ((cc0_scratch3.slice (Rect.unit (s := S31) ![29] S1.size inb_S31_S1_29)).squeeze S_ squeezes_S1_S_).sem = recvSem 29 := id rfl
theorem slot_canon_30 : ((Memref.whole cc0_scratch1 : Memref sig .tc .vmem S31x1x256 .f32).slice (Rect.unit (s := S31x1x256) ![30, 0, 0] S1x1x256.size inb_S31x1x256_S1x1x256_30_0_0) (fun _ => rfl)).squeeze S1x256 squeezes_S1x1x256_S1x256 = slotM 30 := id rfl
theorem sendSem_canon_30 : ((cc0_scratch2.slice (Rect.unit (s := S31) ![30] S1.size inb_S31_S1_30)).squeeze S_ squeezes_S1_S_).sem = sendSem 30 := id rfl
theorem recvSem_canon_30 : ((cc0_scratch3.slice (Rect.unit (s := S31) ![30] S1.size inb_S31_S1_30)).squeeze S_ squeezes_S1_S_).sem = recvSem 30 := id rfl

end Cert.Kernel.Coll

end
-- ==== Proof.Kernel.Levels.lean ====
import proofs.«900483_g7700000000000484_dist_sum_ax0_shard0_i_m512_n256_v7x_i32_f32_1_alg».proof.Proof.Kernel.Tables

/-!
# Levels and debts

A device waits on its barrier cell while it still owes its 31 copies' landing credit, and on the pipeline's staging
cells while it owes everything. So the barrier cells sit below the receive cells, and the staging and send cells
below both: a wait is always at a level below everything the waiter owes.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The landing credit device `c` owes its peers' receive cells, copy 0's last. -/
def Orecv (c : Dev nD) : CellTallies nD τ sig Unit :=
  tallyAt (recvCell (peer c 30) 30) () N1 + tallyAt (recvCell (peer c 29) 29) () N1 + tallyAt (recvCell (peer c 28) 28) () N1 + tallyAt (recvCell (peer c 27) 27) () N1 + tallyAt (recvCell (peer c 26) 26) () N1 + tallyAt (recvCell (peer c 25) 25) () N1 + tallyAt (recvCell (peer c 24) 24) () N1 + tallyAt (recvCell (peer c 23) 23) () N1 + tallyAt (recvCell (peer c 22) 22) () N1 + tallyAt (recvCell (peer c 21) 21) () N1 + tallyAt (recvCell (peer c 20) 20) () N1 + tallyAt (recvCell (peer c 19) 19) () N1 + tallyAt (recvCell (peer c 18) 18) () N1 + tallyAt (recvCell (peer c 17) 17) () N1 + tallyAt (recvCell (peer c 16) 16) () N1 + tallyAt (recvCell (peer c 15) 15) () N1 + tallyAt (recvCell (peer c 14) 14) () N1 + tallyAt (recvCell (peer c 13) 13) () N1 + tallyAt (recvCell (peer c 12) 12) () N1 + tallyAt (recvCell (peer c 11) 11) () N1 + tallyAt (recvCell (peer c 10) 10) () N1 + tallyAt (recvCell (peer c 9) 9) () N1 + tallyAt (recvCell (peer c 8) 8) () N1 + tallyAt (recvCell (peer c 7) 7) () N1 + tallyAt (recvCell (peer c 6) 6) () N1 + tallyAt (recvCell (peer c 5) 5) () N1 + tallyAt (recvCell (peer c 4) 4) () N1 + tallyAt (recvCell (peer c 3) 3) () N1 + tallyAt (recvCell (peer c 2) 2) () N1 + tallyAt (recvCell (peer c 1) 1) () N1 + tallyAt (recvCell (peer c 0) 0) () N1

/-- What device `c` owes at launch: the landing credits, then a unit to each peer's barrier cell, signal 0's last. -/
def O₀ (c : Dev nD) : CellTallies nD τ sig Unit :=
  Orecv c + tallyAt (barCell (peer c 30)) () 1 + tallyAt (barCell (peer c 29)) () 1 + tallyAt (barCell (peer c 28)) () 1 + tallyAt (barCell (peer c 27)) () 1 + tallyAt (barCell (peer c 26)) () 1 + tallyAt (barCell (peer c 25)) () 1 + tallyAt (barCell (peer c 24)) () 1 + tallyAt (barCell (peer c 23)) () 1 + tallyAt (barCell (peer c 22)) () 1 + tallyAt (barCell (peer c 21)) () 1 + tallyAt (barCell (peer c 20)) () 1 + tallyAt (barCell (peer c 19)) () 1 + tallyAt (barCell (peer c 18)) () 1 + tallyAt (barCell (peer c 17)) () 1 + tallyAt (barCell (peer c 16)) () 1 + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 + tallyAt (barCell (peer c 0)) () 1

def isRecv : SemLoc sig → Bool
  | .dma q => decide (33 ≤ q.val)
  | .reg _ => false

def L (g : GSem nD τ sig) : Finset Unit := if g.1.2 = .tc then {()} else ∅
/-- Barrier cells at 1, receive cells at 2, everything else at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (i : Fin 31) : lv (recvCell c i) () = 2 := by
  unfold lv; rw [if_neg (dma_ne_bar _), if_pos]
  show decide (33 ≤ (recvSem i).val) = true; rw [recvSem_val]; exact decide_eq_true (by omega)

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem Orecv_pos {c : Dev nD} {g : GSem nD τ sig} {u : Unit} (h : 0 < Orecv c g u) : ∃ i, g = recvCell (peer c i) i := by
  unfold Orecv at h
  rcases Pipeline.add_pos_cases h with h | h
  swap; · exact ⟨0, tally_pos h⟩
  rcases Pipeline.add_pos_cases h with h | h
  swap; · exact ⟨1, tally_pos h⟩
  rcases Pipeline.add_pos_cases h with h | h
  swap; · exact ⟨2, tally_pos h⟩
  rcases Pipeline.add_pos_cases h with h | h
  swap; · exact ⟨3, tally_pos h⟩
  rcases Pipeline.add_pos_cases h with h | h
  swap; · exact ⟨4, tally_pos h⟩
  rcases Pipeline.add_pos_cases h with h | h
  swap; · exact ⟨5, tally_pos h⟩
  rcases Pipeline.add_pos_cases h with h | h
  swap; · exact ⟨6, tally_pos h⟩
  rcases Pipeline.add_pos_cases h with h | h
  swap; · exact ⟨7, tally_pos h⟩
  rcases Pipeline.add_pos_cases h with h | h
  swap; · exact ⟨8, tally_pos h⟩
  rcases Pipeline.add_pos_cases h with h | h
  swap; · exact ⟨9, tally_pos h⟩
  rcases Pipeline.add_pos_cases h with h | h
  swap; · exact ⟨10, tally_pos h⟩
  rcases Pipeline.add_pos_cases h with h | h
  swap; · exact ⟨11, tally_pos h⟩
  rcases Pipeline.add_pos_cases h with h | h
  swap; · exact ⟨12, tally_pos h⟩
  rcases Pipeline.add_pos_cases h with h | h
  swap; · exact ⟨13, tally_pos h⟩
  rcases Pipeline.add_pos_cases h with h | h
  swap; · exact ⟨14, tally_pos h⟩
  rcases Pipeline.add_pos_cases h with h | h
  swap; · exact ⟨15, tally_pos h⟩
  rcases Pipeline.add_pos_cases h with h | h
  swap; · exact ⟨16, tally_pos h⟩
  rcases Pipeline.add_pos_cases h with h | h
  swap; · exact ⟨17, tally_pos h⟩
  rcases Pipeline.add_pos_cases h with h | h
  swap; · exact ⟨18, tally_pos h⟩
  rcases Pipeline.add_pos_cases h with h | h
  swap; · exact ⟨19, tally_pos h⟩
  rcases Pipeline.add_pos_cases h with h | h
  swap; · exact ⟨20, tally_pos h⟩
  rcases Pipeline.add_pos_cases h with h | h
  swap; · exact ⟨21, tally_pos h⟩
  rcases Pipeline.add_pos_cases h with h | h
  swap; · exact ⟨22, tally_pos h⟩
  rcases Pipeline.add_pos_cases h with h | h
  swap; · exact ⟨23, tally_pos h⟩
  rcases Pipeline.add_pos_cases h with h | h
  swap; · exact ⟨24, tally_pos h⟩
  rcases Pipeline.add_pos_cases h with h | h
  swap; · exact ⟨25, tally_pos h⟩
  rcases Pipeline.add_pos_cases h with h | h
  swap; · exact ⟨26, tally_pos h⟩
  rcases Pipeline.add_pos_cases h with h | h
  swap; · exact ⟨27, tally_pos h⟩
  rcases Pipeline.add_pos_cases h with h | h
  swap; · exact ⟨28, tally_pos h⟩
  rcases Pipeline.add_pos_cases h with h | h
  swap; · exact ⟨29, tally_pos h⟩
  exact ⟨30, tally_pos h⟩

theorem O₀_pos {c : Dev nD} {g : GSem nD τ sig} {u : Unit} (h : 0 < O₀ c g u) :
    (∃ i, g = recvCell (peer c i) i) ∨ (∃ s, g = barCell (peer c s)) := by
  unfold O₀ at h
  rcases Pipeline.add_pos_cases h with h | h
  swap; · exact .inr ⟨0, tally_pos h⟩
  rcases Pipeline.add_pos_cases h with h | h
  swap; · exact .inr ⟨1, tally_pos h⟩
  rcases Pipeline.add_pos_cases h with h | h
  swap; · exact .inr ⟨2, tally_pos h⟩
  rcases Pipeline.add_pos_cases h with h | h
  swap; · exact .inr ⟨3, tally_pos h⟩
  rcases Pipeline.add_pos_cases h with h | h
  swap; · exact .inr ⟨4, tally_pos h⟩
  rcases Pipeline.add_pos_cases h with h | h
  swap; · exact .inr ⟨5, tally_pos h⟩
  rcases Pipeline.add_pos_cases h with h | h
  swap; · exact .inr ⟨6, tally_pos h⟩
  rcases Pipeline.add_pos_cases h with h | h
  swap; · exact .inr ⟨7, tally_pos h⟩
  rcases Pipeline.add_pos_cases h with h | h
  swap; · exact .inr ⟨8, tally_pos h⟩
  rcases Pipeline.add_pos_cases h with h | h
  swap; · exact .inr ⟨9, tally_pos h⟩
  rcases Pipeline.add_pos_cases h with h | h
  swap; · exact .inr ⟨10, tally_pos h⟩
  rcases Pipeline.add_pos_cases h with h | h
  swap; · exact .inr ⟨11, tally_pos h⟩
  rcases Pipeline.add_pos_cases h with h | h
  swap; · exact .inr ⟨12, tally_pos h⟩
  rcases Pipeline.add_pos_cases h with h | h
  swap; · exact .inr ⟨13, tally_pos h⟩
  rcases Pipeline.add_pos_cases h with h | h
  swap; · exact .inr ⟨14, tally_pos h⟩
  rcases Pipeline.add_pos_cases h with h | h
  swap; · exact .inr ⟨15, tally_pos h⟩
  rcases Pipeline.add_pos_cases h with h | h
  swap; · exact .inr ⟨16, tally_pos h⟩
  rcases Pipeline.add_pos_cases h with h | h
  swap; · exact .inr ⟨17, tally_pos h⟩
  rcases Pipeline.add_pos_cases h with h | h
  swap; · exact .inr ⟨18, tally_pos h⟩
  rcases Pipeline.add_pos_cases h with h | h
  swap; · exact .inr ⟨19, tally_pos h⟩
  rcases Pipeline.add_pos_cases h with h | h
  swap; · exact .inr ⟨20, tally_pos h⟩
  rcases Pipeline.add_pos_cases h with h | h
  swap; · exact .inr ⟨21, tally_pos h⟩
  rcases Pipeline.add_pos_cases h with h | h
  swap; · exact .inr ⟨22, tally_pos h⟩
  rcases Pipeline.add_pos_cases h with h | h
  swap; · exact .inr ⟨23, tally_pos h⟩
  rcases Pipeline.add_pos_cases h with h | h
  swap; · exact .inr ⟨24, tally_pos h⟩
  rcases Pipeline.add_pos_cases h with h | h
  swap; · exact .inr ⟨25, tally_pos h⟩
  rcases Pipeline.add_pos_cases h with h | h
  swap; · exact .inr ⟨26, tally_pos h⟩
  rcases Pipeline.add_pos_cases h with h | h
  swap; · exact .inr ⟨27, tally_pos h⟩
  rcases Pipeline.add_pos_cases h with h | h
  swap; · exact .inr ⟨28, tally_pos h⟩
  rcases Pipeline.add_pos_cases h with h | h
  swap; · exact .inr ⟨29, tally_pos h⟩
  rcases Pipeline.add_pos_cases h with h | h
  swap; · exact .inr ⟨30, tally_pos h⟩
  exact .inl (Orecv_pos h)

/-- A wait on a cell at level 0 (a staging cell, a send cell), owing everything or nothing. -/
theorem mayWait_low (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    rw [h0]
    rcases O₀_pos hg with ⟨i, rfl⟩ | ⟨s, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

/-- At its barrier wait a device owes only landing credit: receive cells, above its barrier cell. -/
theorem mayWait_bar (c : Dev nD) :
    (levAts L lv : sProp 𝕄) ⊢ MayWait (c : Thread nD τ) (.reg barS) () (Orecv c) := by
  refine Pipeline.mayWait_of_levAts (by rw [L_tc]; exact Finset.mem_singleton_self _) fun g u hg => ?_
  obtain ⟨i, rfl⟩ := Orecv_pos hg
  exact ⟨by rw [L_tc]; exact Finset.mem_singleton_self _, by rw [lv_bar, lv_recv]; decide⟩

end Cert.Kernel.Coll

end
-- ==== Proof.Kernel.Ghost.lean ====
import proofs.«900483_g7700000000000484_dist_sum_ax0_shard0_i_m512_n256_v7x_i32_f32_1_alg».proof.Proof.Kernel.Levels

/-!
# The proof data

What a device's body starts from and what it leaves. At entry: the invariants of its own 63 cells and of the
cells it pays into (each peer's barrier cell, and the receive cell its copy to that peer lands on); its position
at round 0 of its own cells; the tokens of the 93 duties it pays (31 signals, 31 landings, 31 departures); the
launch credit of its barrier cell (31 units) and of its 31 receive cells; the level facts; the two scratch
buffers at some contents. At exit: the scratch buffers at some contents and its 62 own DMA semaphores at zero.
The result block is the device's row sum plus the sum of the 31 rows received.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- How this proof indexes a device's 63 cells: the barrier, then the send cells, then the receive cells. -/
def sendK (i : Fin 31) : Fin 63 := ⟨1 + i.val, by omega⟩
def recvK (i : Fin 31) : Fin 63 := ⟨32 + i.val, by omega⟩

/-- The invariants device `c`'s body opens, under the names `K` they were allocated at. -/
def invs (K : Dev nD × Fin 63 → ℕ) (c : Dev nD) : sProp 𝕄 :=
  iprop(cellInv ER (sched m ρ) (K (c, 0)) (barCell c)
    ∗ (bigSep Finset.univ fun i : Fin 31 => cellInv ER (sched m ρ) (K (c, sendK i)) (sendCell c i))
    ∗ (bigSep Finset.univ fun i : Fin 31 => cellInv ER (sched m ρ) (K (c, recvK i)) (recvCell c i))
    ∗ (bigSep Finset.univ fun s : Fin 31 => cellInv ER (sched m ρ) (K (peer c s, 0)) (barCell (peer c s)))
    ∗ (bigSep Finset.univ fun i : Fin 31 => cellInv ER (sched m ρ) (K (peer c i, recvK i)) (recvCell (peer c i) i)))

instance invs_persistent (K : Dev nD × Fin 63 → ℕ) (c : Dev nD) : BI.Persistent (invs m ρ K c) := by unfold invs; infer_instance

/-- The rounds reached that device `c` relies on: round 0 of every cell it pays into and of its own DMA cells. -/
def marks (c : Dev nD) : sProp 𝕄 :=
  iprop((bigSep Finset.univ fun s : Fin 31 => reached ER (barCell (peer c s)) 0)
    ∗ (bigSep Finset.univ fun i : Fin 31 => reached ER (recvCell (peer c i) i) 0)
    ∗ (bigSep Finset.univ fun i : Fin 31 => reached ER (sendCell c i) 0)
    ∗ (bigSep Finset.univ fun i : Fin 31 => reached ER (recvCell c i) 0))

instance marks_persistent (c : Dev nD) : BI.Persistent (marks (F := F) c) := by unfold marks; infer_instance

/-- Device `c`'s positions at round 0 of its own cells. -/
def positions (c : Dev nD) : sProp 𝕄 :=
  iprop(atPos ER (barCell c) 0 ∅ 0
    ∗ (bigSep Finset.univ fun i : Fin 31 => atPos ER (sendCell c i) 0 ∅ 0)
    ∗ (bigSep Finset.univ fun i : Fin 31 => atPos ER (recvCell c i) 0 ∅ 0))

/-- The tokens of the duties device `c` pays: signal `s` pays duty `rev s` of `peer c s`'s barrier cell; copy `i` pays
    the one duty of `peer c i`'s receive cell `i` and the one duty of `c`'s own send cell `i`. -/
def payToks (c : Dev nD) : sProp 𝕄 :=
  iprop((bigSep Finset.univ fun s : Fin 31 => dutyTok ER (barCell (peer c s)) 0 (rev s))
    ∗ (bigSep Finset.univ fun i : Fin 31 => dutyTok ER (recvCell (peer c i) i) 0 0)
    ∗ (bigSep Finset.univ fun i : Fin 31 => dutyTok ER (sendCell c i) 0 0))

def ghost (K : Dev nD × Fin 63 → ℕ) (c : Dev nD) : sProp 𝕄 :=
  iprop(invs m ρ K c ∗ marks c ∗ positions c ∗ payToks c)

/-- The launch credit of device `c`'s cells. -/
def credits (c : Dev nD) : sProp 𝕄 :=
  iprop(cred (tallyAt (barCell c) () 31) ∗ bigSep Finset.univ fun i : Fin 31 => cred (tallyAt (recvCell c i) () N1))

def start (c : Dev nD) : sProp 𝕄 :=
  iprop((∃ K, ghost m ρ K c) ∗ credits c ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The device's own DMA semaphores at zero, closed. -/
def ownZeros (c : Dev nD) : sProp 𝕄 :=
  iprop((bigSep Finset.univ fun i : Fin 31 => semVal (sendCell c i) 0) ∗ (bigSep Finset.univ fun i : Fin 31 => semVal (recvCell c i) 0))

def Φ₀ (c : Dev nD) : sProp 𝕄 := iprop(start m ρ c ∗ scratch c)
def Φ₁ (c : Dev nD) : sProp 𝕄 := iprop(scratch c ∗ ownZeros c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outVal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 63 → ℕ) (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m ρ c) ∗ stg c cc0_stg1_0 (outVal m ρ c))

end Cert.Kernel.Coll

end
-- ==== Proof.Kernel.Slots.lean ====
import proofs.«900483_g7700000000000484_dist_sum_ax0_shard0_i_m512_n256_v7x_i32_f32_1_alg».proof.Proof.Kernel.Ghost
import Idealize.ShloMosaic.Lib.Pipeline.Value

/-!
# The receive buffer as 31 rows

Row `i` of the 31×1×256 receive buffer is the set of elements whose first coordinate is `i`. The rows are pairwise
disjoint and together are the whole buffer, so holding the buffer is holding its 31 rows.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Row `i`'s element set, at the buffer's own index type. -/
def slotSet (i : Fin 31) : Finset S31x1x256.Idx := (slotM i).view.set

theorem slotSet_eq (i : Fin 31) :
    slotSet i = (Rect.unit (s := S31x1x256) ![i.val, 0, 0] S1x1x256.size (slot_inb i)).set := by
  show ((((Memref.whole cc0_scratch1 : Memref sig .tc .vmem S31x1x256 .f32).view.slice _).reshape _ _) : View sig .tc _ _ _).set = _
  rw [View.set_reshape]
  exact View.set_slice_whole cc0_scratch1 _

/-- An element is in row `i` exactly when its first coordinate is `i`. -/
theorem mem_slotSet (i : Fin 31) (x : S31x1x256.Idx) : x ∈ slotSet i ↔ (x 0).val = i.val := by
  rw [slotSet_eq, Rect.mem_set_unit]
  constructor
  · intro h
    have h0 := h 0
    have : (![i.val, 0, 0] : Fin 3 → Nat) 0 = i.val := rfl
    have hs : S1x1x256.size 0 = 1 := rfl
    rw [this, hs] at h0
    omega
  · intro h a
    match a with
    | ⟨0, _⟩ =>
      show i.val ≤ (x 0).val ∧ (x 0).val < i.val + 1
      omega
    | ⟨1, _⟩ =>
      have h1 : (x 1).val < 1 := (x 1).isLt
      show 0 ≤ (x 1).val ∧ (x 1).val < 0 + 1
      omega
    | ⟨2, _⟩ =>
      have h2 : (x 2).val < 256 := (x 2).isLt
      show 0 ≤ (x 2).val ∧ (x 2).val < 0 + 256
      omega

theorem slots_disjoint (i j : Fin 31) (h : i ≠ j) : Disjoint (slotSet i) (slotSet j) := by
  rw [Finset.disjoint_left]
  intro x hi hj
  rw [mem_slotSet] at hi hj
  exact h (Fin.ext (hi.symm.trans hj))

theorem slots_cover : (Finset.univ : Finset (Fin 31)).biUnion slotSet = Finset.univ := by
  ext x
  simp only [Finset.mem_biUnion, Finset.mem_univ, true_and, iff_true]
  exact ⟨⟨(x 0).val, (x 0).isLt⟩, (mem_slotSet _ x).mpr rfl⟩

/-- The receive buffer whole is its 31 rows. -/
theorem rM_split (c : Dev nD) (f : Buf (Elt F) ((c : Thread nD τ).loc cc0_scratch1)) :
    ((((c : Thread nD τ).loc cc0_scratch1) ↦{fullShare} f) : sProp 𝕄)
      = bigSep Finset.univ fun i : Fin 31 => ((slotM i).view.loc (c : Thread nD τ) ↦[(slotM i).view.set]{fullShare} f) := by
  have h := pointsTo_biUnion (Ix := Unit) (Name := ℕ) (U := UU) (Lvl := ℕ) (ℓ := (c : Thread nD τ).loc cc0_scratch1) (q := fullShare) (f := f) (Finset.univ : Finset (Fin 31))
    slotSet (fun i _ j _ hij => slots_disjoint i j hij)
  rw [slots_cover] at h
  exact h

variable (m : (ℓ : Loc nD τ sig) → Buf (Elt F) ℓ) (ρ : Dev nD → PrngReg)

/-- On a row's own elements, what a whole-row write leaves does not depend on what was there. -/
theorem write_row_congr (i : Fin 31) (fd fd' : S31x1x256.Idx → Elt F .f32) (w : S1x256.Idx → Elt F .f32)
    (x : S31x1x256.Idx) (hx : x ∈ slotSet i) :
    (View.write (Elt F) (slotM i).view fd w Finset.univ : S31x1x256.Idx → Elt F .f32) x
      = (View.write (Elt F) (slotM i).view fd' w Finset.univ : S31x1x256.Idx → Elt F .f32) x := by
  obtain ⟨y, rfl⟩ := View.exists_emb_of_mem_set (slotM i).view hx
  exact (View.write_emb_of_mem _ _ (Finset.mem_univ y)).trans (View.write_emb_of_mem _ _ (Finset.mem_univ y)).symm

/-- On row `i`'s elements the final contents are what the landing on row `i` left. -/
theorem recvVal_on_row (c : Dev nD) (i : Fin 31) (fd : S31x1x256.Idx → Elt F .f32) (x : S31x1x256.Idx) (hx : x ∈ slotSet i) :
    (View.write (Elt F) (slotM i).view fd (View.read (Elt F) (sM : Memref sig .tc .vmem S1x256 .f32).view (sendVal m ρ (src c i))) Finset.univ : S31x1x256.Idx → Elt F .f32) x
      = (recvVal m ρ c : S31x1x256.Idx → Elt F .f32) x := by
  have hx0 : (x 0 : Fin 31) = i := Fin.ext ((mem_slotSet i x).mp hx)
  unfold recvVal rowFill
  rw [hx0]
  exact write_row_congr i _ _ _ x hx

/-- A landed row is the final contents' row. -/
theorem row_landed (c : Dev nD) (i : Fin 31) (fd : Buf (Elt F) ((slotM i).view.loc (c : Thread nD τ))) :
    ((slotM i).view.loc (c : Thread nD τ) ↦[(slotM i).view.set]{fullShare}
        View.write (Elt F) (slotM i).view fd (View.read (Elt F) (sM : Memref sig .tc .vmem S1x256 .f32).view (sendVal m ρ (src c i))) Finset.univ : sProp 𝕄)
      = ((slotM i).view.loc (c : Thread nD τ) ↦[(slotM i).view.set]{fullShare} recvVal m ρ c) :=
  pointsTo_congr fun x hx => recvVal_on_row m ρ c i fd x hx

end Cert.Kernel.Coll

end
-- ==== Proof.Kernel.Launch1.lean ====
import proofs.«900483_g7700000000000484_dist_sum_ax0_shard0_i_m512_n256_v7x_i32_f32_1_alg».proof.Proof.Kernel.Slots

/-!
# The launch

The ghost state is allocated once for all devices: each device's 63 cells at round 0, with the tokens of their
duties; the invariants are allocated together, since a cell's invariant is shared by its owner and its payers;
then the tokens are dealt to the devices that pay them. A barrier duty's token goes to the peer that signals it,
a receive duty's token to the device whose copy lands there, a send duty's token stays.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- Cell `k` of a device: the barrier, then the 31 send cells, then the 31 receive cells. -/
def csem (k : Fin 63) : SemLoc sig :=
  if h : k.val = 0 then .reg barS
  else if h2 : k.val < 32 then .dma (sendSem ⟨k.val - 1, by omega⟩)
  else .dma (recvSem ⟨k.val - 32, by omega⟩)
abbrev kcell (ck : Dev nD × Fin 63) : GSem nD τ sig := ((ck.1 : Thread nD τ), csem ck.2)
/-- The kernel's own (scoped) semaphores: the send cells, then the receive cells. -/
def osem (k : Fin 62) : SemLoc sig := csem ⟨k.val + 1, by omega⟩

theorem csem_zero : csem 0 = .reg barS := rfl
theorem csem_send (i : Fin 31) : csem (sendK i) = .dma (sendSem i) := by
  unfold csem sendK
  rw [dif_neg (by show ¬ (1 + i.val = 0); omega), dif_pos (by show 1 + i.val < 32; omega)]
  congr 2; exact Fin.ext (by show 1 + i.val - 1 = i.val; omega)
theorem csem_recv (i : Fin 31) : csem (recvK i) = .dma (recvSem i) := by
  unfold csem recvK
  rw [dif_neg (by show ¬ (32 + i.val = 0); omega), dif_neg (by show ¬ (32 + i.val < 32); omega)]
  congr 2; exact Fin.ext (by show 32 + i.val - 32 = i.val; omega)
theorem kcell_bar (c : Dev nD) : kcell (c, 0) = barCell c := rfl
theorem kcell_send (c : Dev nD) (i : Fin 31) : kcell (c, sendK i) = sendCell c i := by unfold kcell; rw [csem_send]
theorem kcell_recv (c : Dev nD) (i : Fin 31) : kcell (c, recvK i) = recvCell c i := by unfold kcell; rw [csem_recv]

theorem csem_injective : Function.Injective csem := by decide
theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

theorem ownSemFacts : Pipeline.OwnSemFacts cfg0.spec osem := by decide

/-! ## The tokens as minted: each device's own cells' duties -/

abbrev tokOf (x : Dev nD × Fin 3 × Fin 31) : GSem nD τ sig × ℕ × Fin 31 := match x.2.1 with
  | 0 => (barCell x.1, 0, x.2.2) | 1 => (sendCell x.1 x.2.2, 0, 0) | 2 => (recvCell x.1 x.2.2, 0, 0)
theorem sendSem_injective : Function.Injective sendSem := by decide
theorem recvSem_injective : Function.Injective recvSem := by decide
theorem send_ne_recv (i j : Fin 31) : sendSem i ≠ recvSem j := by revert i j; decide
theorem tokOf_injective : Function.Injective (tokOf : Dev nD × Fin 3 × Fin 31 → GSem nD τ sig × ℕ × Fin 31) := by
  rintro ⟨c, t, i⟩ ⟨c', t', i'⟩ h
  have h1 : c = c' := by
    have := congrArg (fun x : GSem nD τ sig × ℕ × Fin 31 => x.1.1.1) h
    fin_cases t <;> fin_cases t' <;> exact this
  subst h1
  have hs := congrArg (fun x : GSem nD τ sig × ℕ × Fin 31 => x.1.2) h
  have hd := congrArg (fun x : GSem nD τ sig × ℕ × Fin 31 => x.2.2) h
  fin_cases t <;> fin_cases t'
  · have : i = i' := hd
    subst this; rfl
  · exact absurd hs (fun h' => by cases h')
  · exact absurd hs (fun h' => by cases h')
  · exact absurd hs (fun h' => by cases h')
  · have : i = i' := sendSem_injective (SemLoc.dma.inj hs)
    subst this; rfl
  · exact absurd (SemLoc.dma.inj hs) (send_ne_recv i i')
  · exact absurd hs (fun h' => by cases h')
  · exact absurd (SemLoc.dma.inj hs).symm (send_ne_recv i' i)
  · have : i = i' := recvSem_injective (SemLoc.dma.inj hs)
    subst this; rfl
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 31 => dutyTok ER (barCell c) 0 d)
    ∗ (bigSep Finset.univ fun i : Fin 31 => dutyTok ER (sendCell c i) 0 0)
    ∗ (bigSep Finset.univ fun i : Fin 31 => dutyTok ER (recvCell c i) 0 0))

/-- What the launch element deals device `c`. -/
def G (c : Dev nD) : sProp 𝕄 :=
  iprop((bigSep Finset.univ fun k : Fin 63 => roundState ER (sched m ρ) (kcell (c, k)) 0)
    ∗ (bigSep Finset.univ fun k : Fin 63 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      show bigSep Finset.univ (fun ti : Fin 3 × Fin 31 => (dutyTok ER (tokOf (c, ti)).1 (tokOf (c, ti)).2.1 (tokOf (c, ti)).2.2 : sProp 𝕄)) = _
      rw [bigSep_univ_prod, bigSep_fin3]
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Cert.Kernel.Coll

end
-- ==== Proof.Kernel.Launch2.lean ====
import proofs.«900483_g7700000000000484_dist_sum_ax0_shard0_i_m512_n256_v7x_i32_f32_1_alg».proof.Proof.Kernel.Launch1

/-!
# The launch, continued: the invariants allocated and the tokens dealt
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin63 (Φ : Fin 63 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62] (by decide) (by decide) Φ
theorem bigSep_fin62 (Φ : Fin 62 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61] (by decide) (by decide) Φ

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore are the device's 63 cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  unfold Pipeline.ownSems0
  rw [unscopedSems0_eq, bigSep_fin62, bigSep_fin63]
  iintro ⟨⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  iexact H61

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 63 → ℕ) : sProp 𝕄 :=
  iprop((bigSep Finset.univ fun ck : Dev nD × Fin 63 => cellInv ER (sched m ρ) (K ck) (kcell ck))
    ∗ bigSep Finset.univ fun ck : Dev nD × Fin 63 => reached ER (kcell ck) 0)

instance records_persistent (K : Dev nD × Fin 63 → ℕ) : BI.Persistent (records m ρ K) := by unfold records; infer_instance

theorem inv_at (K : Dev nD × Fin 63 → ℕ) (ck : Dev nD × Fin 63) : records m ρ K ⊢ cellInv ER (sched m ρ) (K ck) (kcell ck) := by
  unfold records; iintro ⟨HI, -⟩
  iapply (show (bigSep Finset.univ fun ck : Dev nD × Fin 63 => (cellInv ER (sched m ρ) (K ck) (kcell ck) : sProp 𝕄)) ⊢ cellInv ER (sched m ρ) (K ck) (kcell ck) from bigSep_elim (Finset.mem_univ ck))
  iexact HI
theorem reached_at (K : Dev nD × Fin 63 → ℕ) (ck : Dev nD × Fin 63) : records m ρ K ⊢ reached ER (kcell ck) 0 := by
  unfold records; iintro ⟨-, HR⟩
  iapply (show (bigSep Finset.univ fun ck : Dev nD × Fin 63 => (reached ER (kcell ck) 0 : sProp 𝕄)) ⊢ reached ER (kcell ck) 0 from bigSep_elim (Finset.mem_univ ck))
  iexact HR

/-- A persistent fact gives every member of a family it entails. -/
theorem family_of_persistent {R : sProp 𝕄} [BI.Persistent R] {Φ : Fin 31 → sProp 𝕄} (h : ∀ i, R ⊢ Φ i) : R ⊢ bigSep Finset.univ Φ :=
  (BI.bigSep_of_persistent Finset.univ R).trans (bigSep_mono fun i _ => h i)

/-- What stays with device `c`: its positions, and the tokens of the duties IT pays. -/
def linear (c : Dev nD) : sProp 𝕄 := iprop(positions c ∗ payToks c)

theorem invs_of_records (K : Dev nD × Fin 63 → ℕ) (c : Dev nD) : records m ρ K ⊢ invs m ρ K c := by
  unfold invs
  iintro #HR
  isplitr; · iapply (inv_at m ρ K (c, 0)); iexact HR
  isplitr
  · iapply (family_of_persistent (R := records m ρ K) fun i => by rw [← kcell_send c i]; exact inv_at m ρ K (c, sendK i)); iexact HR
  isplitr
  · iapply (family_of_persistent (R := records m ρ K) fun i => by rw [← kcell_recv c i]; exact inv_at m ρ K (c, recvK i)); iexact HR
  isplitr
  · iapply (family_of_persistent (R := records m ρ K) fun s => inv_at m ρ K (peer c s, 0)); iexact HR
  · iapply (family_of_persistent (R := records m ρ K) fun i => by rw [← kcell_recv (peer c i) i]; exact inv_at m ρ K (peer c i, recvK i)); iexact HR

theorem marks_of_records (K : Dev nD × Fin 63 → ℕ) (c : Dev nD) : records m ρ K ⊢ marks (F := F) c := by
  unfold marks
  iintro #HR
  isplitr
  · iapply (family_of_persistent (R := records m ρ K) fun s => reached_at m ρ K (peer c s, 0)); iexact HR
  isplitr
  · iapply (family_of_persistent (R := records m ρ K) fun i => by rw [← kcell_recv (peer c i) i]; exact reached_at m ρ K (peer c i, recvK i)); iexact HR
  isplitr
  · iapply (family_of_persistent (R := records m ρ K) fun i => by rw [← kcell_send c i]; exact reached_at m ρ K (c, sendK i)); iexact HR
  · iapply (family_of_persistent (R := records m ρ K) fun i => by rw [← kcell_recv c i]; exact reached_at m ρ K (c, recvK i)); iexact HR

theorem ghost_intro (K : Dev nD × Fin 63 → ℕ) (c : Dev nD) : iprop(records m ρ K ∗ linear c) ⊢ G' m ρ c := by
  unfold linear G' ghost
  iintro ⟨#HR, Hp, Ht⟩
  iexists K
  isplitr; · iapply (invs_of_records m ρ K c); iexact HR
  isplitr; · iapply (marks_of_records m ρ K c); iexact HR
  isplitl [Hp]; · iexact Hp
  iexact Ht

/-! ## The tokens dealt -/

/-- A barrier duty and the signal that pays it: `(c, s) ↦ (peer c s, rev s)`, its own inverse. -/
def sigSwap : Dev nD × Fin 31 ≃ Dev nD × Fin 31 where
  toFun x := (peer x.1 x.2, rev x.2)
  invFun x := (peer x.1 x.2, rev x.2)
  left_inv x := by obtain ⟨c, s⟩ := x; exact Prod.ext (peer_peer_rev c s) (rev_rev s)
  right_inv x := by obtain ⟨c, s⟩ := x; exact Prod.ext (peer_peer_rev c s) (rev_rev s)
/-- A receive duty and the copy that pays it: `(c, i) ↦ (peer c i, i)`. -/
def landSwap : Dev nD × Fin 31 ≃ Dev nD × Fin 31 where
  toFun x := (peer x.1 x.2, x.2)
  invFun x := (src x.1 x.2, x.2)
  left_inv x := by obtain ⟨c, i⟩ := x; exact Prod.ext (src_peer c i) rfl
  right_inv x := by obtain ⟨c, i⟩ := x; exact Prod.ext (peer_src c i) rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun x : Dev nD × Fin 31 => (dutyTok ER (barCell x.1) 0 x.2 : sProp 𝕄)),
    ← bigSep_univ_prod (fun x : Dev nD × Fin 31 => (dutyTok ER (recvCell x.1 x.2) 0 0 : sProp 𝕄)),
    ← bigSep_univ_prod (fun x : Dev nD × Fin 31 => (dutyTok ER (barCell (peer x.1 x.2)) 0 (rev x.2) : sProp 𝕄)),
    ← bigSep_univ_prod (fun x : Dev nD × Fin 31 => (dutyTok ER (recvCell (peer x.1 x.2) x.2) 0 0 : sProp 𝕄)),
    bigSep_univ_equiv sigSwap (fun x : Dev nD × Fin 31 => (dutyTok ER (barCell x.1) 0 x.2 : sProp 𝕄)),
    bigSep_univ_equiv landSwap (fun x : Dev nD × Fin 31 => (dutyTok ER (recvCell x.1 x.2) 0 0 : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's 63 positions are its barrier position, its 31 send positions and its 31 receive positions. -/
theorem positions_of_fin63 (c : Dev nD) :
    (bigSep Finset.univ fun k : Fin 63 => (atPos ER (kcell (c, k)) 0 ∅ 0 : sProp 𝕄)) ⊢ positions c := by
  unfold positions
  rw [bigSep_fin63, bigSep_fin31, bigSep_fin31]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62⟩
  isplitl [H0]; · iexact H0
  isplitl [H1 H2 H3 H4 H5 H6 H7 H8 H9 H10 H11 H12 H13 H14 H15 H16 H17 H18 H19 H20 H21 H22 H23 H24 H25 H26 H27 H28 H29 H30 H31]
  · isplitl [H1]; · (rw [← kcell_send c 0]; iexact H1)
    isplitl [H2]; · (rw [← kcell_send c 1]; iexact H2)
    isplitl [H3]; · (rw [← kcell_send c 2]; iexact H3)
    isplitl [H4]; · (rw [← kcell_send c 3]; iexact H4)
    isplitl [H5]; · (rw [← kcell_send c 4]; iexact H5)
    isplitl [H6]; · (rw [← kcell_send c 5]; iexact H6)
    isplitl [H7]; · (rw [← kcell_send c 6]; iexact H7)
    isplitl [H8]; · (rw [← kcell_send c 7]; iexact H8)
    isplitl [H9]; · (rw [← kcell_send c 8]; iexact H9)
    isplitl [H10]; · (rw [← kcell_send c 9]; iexact H10)
    isplitl [H11]; · (rw [← kcell_send c 10]; iexact H11)
    isplitl [H12]; · (rw [← kcell_send c 11]; iexact H12)
    isplitl [H13]; · (rw [← kcell_send c 12]; iexact H13)
    isplitl [H14]; · (rw [← kcell_send c 13]; iexact H14)
    isplitl [H15]; · (rw [← kcell_send c 14]; iexact H15)
    isplitl [H16]; · (rw [← kcell_send c 15]; iexact H16)
    isplitl [H17]; · (rw [← kcell_send c 16]; iexact H17)
    isplitl [H18]; · (rw [← kcell_send c 17]; iexact H18)
    isplitl [H19]; · (rw [← kcell_send c 18]; iexact H19)
    isplitl [H20]; · (rw [← kcell_send c 19]; iexact H20)
    isplitl [H21]; · (rw [← kcell_send c 20]; iexact H21)
    isplitl [H22]; · (rw [← kcell_send c 21]; iexact H22)
    isplitl [H23]; · (rw [← kcell_send c 22]; iexact H23)
    isplitl [H24]; · (rw [← kcell_send c 23]; iexact H24)
    isplitl [H25]; · (rw [← kcell_send c 24]; iexact H25)
    isplitl [H26]; · (rw [← kcell_send c 25]; iexact H26)
    isplitl [H27]; · (rw [← kcell_send c 26]; iexact H27)
    isplitl [H28]; · (rw [← kcell_send c 27]; iexact H28)
    isplitl [H29]; · (rw [← kcell_send c 28]; iexact H29)
    isplitl [H30]; · (rw [← kcell_send c 29]; iexact H30)
    rw [← kcell_send c 30]; iexact H31
  · isplitl [H32]; · (rw [← kcell_recv c 0]; iexact H32)
    isplitl [H33]; · (rw [← kcell_recv c 1]; iexact H33)
    isplitl [H34]; · (rw [← kcell_recv c 2]; iexact H34)
    isplitl [H35]; · (rw [← kcell_recv c 3]; iexact H35)
    isplitl [H36]; · (rw [← kcell_recv c 4]; iexact H36)
    isplitl [H37]; · (rw [← kcell_recv c 5]; iexact H37)
    isplitl [H38]; · (rw [← kcell_recv c 6]; iexact H38)
    isplitl [H39]; · (rw [← kcell_recv c 7]; iexact H39)
    isplitl [H40]; · (rw [← kcell_recv c 8]; iexact H40)
    isplitl [H41]; · (rw [← kcell_recv c 9]; iexact H41)
    isplitl [H42]; · (rw [← kcell_recv c 10]; iexact H42)
    isplitl [H43]; · (rw [← kcell_recv c 11]; iexact H43)
    isplitl [H44]; · (rw [← kcell_recv c 12]; iexact H44)
    isplitl [H45]; · (rw [← kcell_recv c 13]; iexact H45)
    isplitl [H46]; · (rw [← kcell_recv c 14]; iexact H46)
    isplitl [H47]; · (rw [← kcell_recv c 15]; iexact H47)
    isplitl [H48]; · (rw [← kcell_recv c 16]; iexact H48)
    isplitl [H49]; · (rw [← kcell_recv c 17]; iexact H49)
    isplitl [H50]; · (rw [← kcell_recv c 18]; iexact H50)
    isplitl [H51]; · (rw [← kcell_recv c 19]; iexact H51)
    isplitl [H52]; · (rw [← kcell_recv c 20]; iexact H52)
    isplitl [H53]; · (rw [← kcell_recv c 21]; iexact H53)
    isplitl [H54]; · (rw [← kcell_recv c 22]; iexact H54)
    isplitl [H55]; · (rw [← kcell_recv c 23]; iexact H55)
    isplitl [H56]; · (rw [← kcell_recv c 24]; iexact H56)
    isplitl [H57]; · (rw [← kcell_recv c 25]; iexact H57)
    isplitl [H58]; · (rw [← kcell_recv c 26]; iexact H58)
    isplitl [H59]; · (rw [← kcell_recv c 27]; iexact H59)
    isplitl [H60]; · (rw [← kcell_recv c 28]; iexact H60)
    isplitl [H61]; · (rw [← kcell_recv c 29]; iexact H61)
    rw [← kcell_recv c 30]; iexact H62

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 63 => iprop(∃ κ : ℕ, cellInv ER (sched m ρ) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 63 => (atPos ER (kcell (c, k)) 0 ∅ 0 : sProp 𝕄)) payToks).symm).trans
      (bigSep_mono fun c _ => show _ ⊢ linear c from sep_mono_left (positions_of_fin63 c)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Kernel.Coll

end
-- ==== Proof.Kernel.Closing.lean ====
import proofs.«900483_g7700000000000484_dist_sum_ax0_shard0_i_m512_n256_v7x_i32_f32_1_alg».proof.Proof.Kernel.Slots

/-!
# The end of the body

At the return the device holds its own 62 DMA cells at round 1 with nothing further due: they close, and their
counters at zero are the device's again. The send buffer's 32 shares rejoin.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body holds at its return. -/
def atReturn (K : Dev nD × Fin 63 → ℕ) (c : Dev nD) (W : Waits sig Unit) : sProp 𝕄 :=
  iprop((bigSep Finset.univ fun i : Fin 31 => cellInv ER (sched m ρ) (K (c, sendK i)) (sendCell c i))
    ∗ (bigSep Finset.univ fun i : Fin 31 => cellInv ER (sched m ρ) (K (c, recvK i)) (recvCell c i))
    ∗ (bigSep Finset.univ fun i : Fin 31 => atPos ER (sendCell c i) 1 ∅ 0)
    ∗ (bigSep Finset.univ fun i : Fin 31 => atPos ER (recvCell c i) 1 ∅ 0)
    ∗ ((sM : Memref sig .tc .vmem S1x256 .f32).view.loc (c : Thread nD τ) ↦[(sM : Memref sig .tc .vmem S1x256 .f32).view.set]{Transfers.shareDrop fullShare 31} sendVal m ρ c)
    ∗ (bigSep Finset.univ fun i : Fin 31 => ((sM : Memref sig .tc .vmem S1x256 .f32).view.loc (c : Thread nD τ) ↦[(sM : Memref sig .tc .vmem S1x256 .f32).view.set]{Transfers.shareTok fullShare 31 i} sendVal m ρ c))
    ∗ ((rM : Memref sig .tc .vmem S31x1x256 .f32).view.loc (c : Thread nD τ) ↦{fullShare} recvVal m ρ c)
    ∗ ((xM : Memref sig .tc .vmem S512x256 .f32).view.loc (c : Thread nD τ) ↦{fullShare} xblk m ρ c)
    ∗ ((oM : Memref sig .tc .vmem S1x256 .f32).view.loc (c : Thread nD τ) ↦{fullShare} outVal m ρ c)
    ∗ owes (c : Thread nD τ) 0 W)

/-- Cells with nothing further due close, each giving back its counter at zero. -/
theorem close_cells (c : Dev nD) (κ : Fin 31 → ℕ) (g : Fin 31 → GSem nD τ sig) :
    iprop((bigSep Finset.univ fun i : Fin 31 => cellInv ER (sched m ρ) (κ i) (g i)) ∗ (bigSep Finset.univ fun i : Fin 31 => atPos ER (g i) 1 ∅ 0))
      ⊢ (|={Set.univ}=> bigSep Finset.univ fun i : Fin 31 => semVal (g i) 0 : sProp 𝕄) := by
  rw [← bigSep_sep']
  exact (bigSep_mono fun i _ => Rounds.cell_close ER (sched m ρ) (Set.mem_univ (κ i)) (fun h => h) (R := 1) (duties_later m ρ (g i))).trans (bigSep_fupd _ _)

theorem closing (K : Dev nD × Fin 63 → ℕ) (c : Dev nD) (W : Waits sig Unit) (Kt : PUnit → sProp 𝕄) :
    iprop(atReturn m ρ K c W ∗ (bodyPost m ρ c -∗ Kt ⟨⟩))
      ⊢ wp frame (wpE (defs₀ (F := F)) 𝒱₀ c none) Set.univ (Prog.ret ⟨⟩) Kt := by
  unfold atReturn
  iintro ⟨⟨HIs, HIr, Hats, Hatr, Hkeep, Htoks, Hr, Hx, Hout, HO⟩, Hk⟩
  imod (close_cells m ρ c (fun i => K (c, sendK i)) (fun i => sendCell c i)) $$ [HIs Hats] with Zs
  · isplitl [HIs] <;> iassumption
  imod (close_cells m ρ c (fun i => K (c, recvK i)) (fun i => recvCell c i)) $$ [HIr Hatr] with Zr
  · isplitl [HIr] <;> iassumption
  ihave Hs := (Transfers.pointsTo_toks_join fullShare 31) $$ [Hkeep Htoks]
  · isplitl [Hkeep] <;> iassumption
  ihave Hs := (Entails.of_eq (show ((sM : Memref sig .tc .vmem S1x256 .f32).view.loc (c : Thread nD τ) ↦[(sM : Memref sig .tc .vmem S1x256 .f32).view.set]{fullShare} sendVal m ρ c : sProp 𝕄)
      = (((c : Thread nD τ).loc cc0_scratch0) ↦{fullShare} sendVal m ρ c) by simp only [Memref.view_whole, View.set_whole])) $$ Hs
  rw [wp_ret]; imodintro
  iapply Hk
  unfold bodyPost Φ₁ scratch ownZeros Dat.owesAt Pipeline.owesWithin
  rw [show (dats m ρ 0 c).owed t₀.succ = 0 from rfl]
  isplitl [Hs Hr Zs Zr]
  · isplitl [Hs Hr]
    · isplitl [Hs]
      · iexists (sendVal m ρ c); iexact Hs
      · iexists (recvVal m ρ c); iexact Hr
    · isplitl [Zs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Coll

end
-- ==== Proof.Kernel.Body.lean ====
import proofs.«900483_g7700000000000484_dist_sum_ax0_shard0_i_m512_n256_v7x_i32_f32_1_alg».proof.Proof.Kernel.Closing

/-!
# One device's body

The body is run once at a symbolic device `c`: 31 signals, the row sum stored, the barrier wait, 31 copies, 31
waits for the rows to land, the final sum stored, 31 waits for the copies to depart.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv payload_recv_raw payload_send_raw src_peer rest_bar rest_bar_sdiff rest_bar_univ payload_bar_sig_0 payload_bar_sig_1 payload_bar_sig_2 payload_bar_sig_3 payload_bar_sig_4 payload_bar_sig_5 payload_bar_sig_6 payload_bar_sig_7 payload_bar_sig_8 payload_bar_sig_9 payload_bar_sig_10 payload_bar_sig_11 payload_bar_sig_12 payload_bar_sig_13 payload_bar_sig_14 payload_bar_sig_15 payload_bar_sig_16 payload_bar_sig_17 payload_bar_sig_18 payload_bar_sig_19 payload_bar_sig_20 payload_bar_sig_21 payload_bar_sig_22 payload_bar_sig_23 payload_bar_sig_24 payload_bar_sig_25 payload_bar_sig_26 payload_bar_sig_27 payload_bar_sig_28 payload_bar_sig_29 payload_bar_sig_30
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq slot_canon_0 sendSem_canon_0 recvSem_canon_0 slot_canon_1 sendSem_canon_1 recvSem_canon_1 slot_canon_2 sendSem_canon_2 recvSem_canon_2 slot_canon_3 sendSem_canon_3 recvSem_canon_3 slot_canon_4 sendSem_canon_4 recvSem_canon_4 slot_canon_5 sendSem_canon_5 recvSem_canon_5 slot_canon_6 sendSem_canon_6 recvSem_canon_6 slot_canon_7 sendSem_canon_7 recvSem_canon_7 slot_canon_8 sendSem_canon_8 recvSem_canon_8 slot_canon_9 sendSem_canon_9 recvSem_canon_9 slot_canon_10 sendSem_canon_10 recvSem_canon_10 slot_canon_11 sendSem_canon_11 recvSem_canon_11 slot_canon_12 sendSem_canon_12 recvSem_canon_12 slot_canon_13 sendSem_canon_13 recvSem_canon_13 slot_canon_14 sendSem_canon_14 recvSem_canon_14 slot_canon_15 sendSem_canon_15 recvSem_canon_15 slot_canon_16 sendSem_canon_16 recvSem_canon_16 slot_canon_17 sendSem_canon_17 recvSem_canon_17 slot_canon_18 sendSem_canon_18 recvSem_canon_18 slot_canon_19 sendSem_canon_19 recvSem_canon_19 slot_canon_20 sendSem_canon_20 recvSem_canon_20 slot_canon_21 sendSem_canon_21 recvSem_canon_21 slot_canon_22 sendSem_canon_22 recvSem_canon_22 slot_canon_23 sendSem_canon_23 recvSem_canon_23 slot_canon_24 sendSem_canon_24 recvSem_canon_24 slot_canon_25 sendSem_canon_25 recvSem_canon_25 slot_canon_26 sendSem_canon_26 recvSem_canon_26 slot_canon_27 sendSem_canon_27 recvSem_canon_27 slot_canon_28 sendSem_canon_28 recvSem_canon_28 slot_canon_29 sendSem_canon_29 recvSem_canon_29 slot_canon_30 sendSem_canon_30 recvSem_canon_30

attribute [local irreducible] peer src sendSem recvSem

set_option sl_exec.stepHeartbeats 400000

set_option maxHeartbeats 16000000 in
set_option maxRecDepth 65536 in
theorem sound_body (K : Dev nD × Fin 63 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs marks positions payToks credits scratch
  simp only [bigSep_fin31, rev_0, rev_1, rev_2, rev_3, rev_4, rev_5, rev_6, rev_7, rev_8, rev_9, rev_10, rev_11, rev_12, rev_13, rev_14, rev_15, rev_16, rev_17, rev_18, rev_19, rev_20, rev_21, rev_22, rev_23, rev_24, rev_25, rev_26, rev_27, rev_28, rev_29, rev_30]
  iintro ⟨⟨⟨⟨⟨#HIbar, ⟨#HIs0, #HIs1, #HIs2, #HIs3, #HIs4, #HIs5, #HIs6, #HIs7, #HIs8, #HIs9, #HIs10, #HIs11, #HIs12, #HIs13, #HIs14, #HIs15, #HIs16, #HIs17, #HIs18, #HIs19, #HIs20, #HIs21, #HIs22, #HIs23, #HIs24, #HIs25, #HIs26, #HIs27, #HIs28, #HIs29, #HIs30⟩, ⟨#HIr0, #HIr1, #HIr2, #HIr3, #HIr4, #HIr5, #HIr6, #HIr7, #HIr8, #HIr9, #HIr10, #HIr11, #HIr12, #HIr13, #HIr14, #HIr15, #HIr16, #HIr17, #HIr18, #HIr19, #HIr20, #HIr21, #HIr22, #HIr23, #HIr24, #HIr25, #HIr26, #HIr27, #HIr28, #HIr29, #HIr30⟩, ⟨#HIbp0, #HIbp1, #HIbp2, #HIbp3, #HIbp4, #HIbp5, #HIbp6, #HIbp7, #HIbp8, #HIbp9, #HIbp10, #HIbp11, #HIbp12, #HIbp13, #HIbp14, #HIbp15, #HIbp16, #HIbp17, #HIbp18, #HIbp19, #HIbp20, #HIbp21, #HIbp22, #HIbp23, #HIbp24, #HIbp25, #HIbp26, #HIbp27, #HIbp28, #HIbp29, #HIbp30⟩, ⟨#HIrp0, #HIrp1, #HIrp2, #HIrp3, #HIrp4, #HIrp5, #HIrp6, #HIrp7, #HIrp8, #HIrp9, #HIrp10, #HIrp11, #HIrp12, #HIrp13, #HIrp14, #HIrp15, #HIrp16, #HIrp17, #HIrp18, #HIrp19, #HIrp20, #HIrp21, #HIrp22, #HIrp23, #HIrp24, #HIrp25, #HIrp26, #HIrp27, #HIrp28, #HIrp29, #HIrp30⟩⟩,
      ⟨⟨#Hmbp0, #Hmbp1, #Hmbp2, #Hmbp3, #Hmbp4, #Hmbp5, #Hmbp6, #Hmbp7, #Hmbp8, #Hmbp9, #Hmbp10, #Hmbp11, #Hmbp12, #Hmbp13, #Hmbp14, #Hmbp15, #Hmbp16, #Hmbp17, #Hmbp18, #Hmbp19, #Hmbp20, #Hmbp21, #Hmbp22, #Hmbp23, #Hmbp24, #Hmbp25, #Hmbp26, #Hmbp27, #Hmbp28, #Hmbp29, #Hmbp30⟩, ⟨#Hmrp0, #Hmrp1, #Hmrp2, #Hmrp3, #Hmrp4, #Hmrp5, #Hmrp6, #Hmrp7, #Hmrp8, #Hmrp9, #Hmrp10, #Hmrp11, #Hmrp12, #Hmrp13, #Hmrp14, #Hmrp15, #Hmrp16, #Hmrp17, #Hmrp18, #Hmrp19, #Hmrp20, #Hmrp21, #Hmrp22, #Hmrp23, #Hmrp24, #Hmrp25, #Hmrp26, #Hmrp27, #Hmrp28, #Hmrp29, #Hmrp30⟩, ⟨#Hms0, #Hms1, #Hms2, #Hms3, #Hms4, #Hms5, #Hms6, #Hms7, #Hms8, #Hms9, #Hms10, #Hms11, #Hms12, #Hms13, #Hms14, #Hms15, #Hms16, #Hms17, #Hms18, #Hms19, #Hms20, #Hms21, #Hms22, #Hms23, #Hms24, #Hms25, #Hms26, #Hms27, #Hms28, #Hms29, #Hms30⟩, ⟨#Hmr0, #Hmr1, #Hmr2, #Hmr3, #Hmr4, #Hmr5, #Hmr6, #Hmr7, #Hmr8, #Hmr9, #Hmr10, #Hmr11, #Hmr12, #Hmr13, #Hmr14, #Hmr15, #Hmr16, #Hmr17, #Hmr18, #Hmr19, #Hmr20, #Hmr21, #Hmr22, #Hmr23, #Hmr24, #Hmr25, #Hmr26, #Hmr27, #Hmr28, #Hmr29, #Hmr30⟩⟩,
      ⟨HatB, ⟨Hats0, Hats1, Hats2, Hats3, Hats4, Hats5, Hats6, Hats7, Hats8, Hats9, Hats10, Hats11, Hats12, Hats13, Hats14, Hats15, Hats16, Hats17, Hats18, Hats19, Hats20, Hats21, Hats22, Hats23, Hats24, Hats25, Hats26, Hats27, Hats28, Hats29, Hats30⟩, ⟨Hatr0, Hatr1, Hatr2, Hatr3, Hatr4, Hatr5, Hatr6, Hatr7, Hatr8, Hatr9, Hatr10, Hatr11, Hatr12, Hatr13, Hatr14, Hatr15, Hatr16, Hatr17, Hatr18, Hatr19, Hatr20, Hatr21, Hatr22, Hatr23, Hatr24, Hatr25, Hatr26, Hatr27, Hatr28, Hatr29, Hatr30⟩⟩,
      ⟨⟨Htb0, Htb1, Htb2, Htb3, Htb4, Htb5, Htb6, Htb7, Htb8, Htb9, Htb10, Htb11, Htb12, Htb13, Htb14, Htb15, Htb16, Htb17, Htb18, Htb19, Htb20, Htb21, Htb22, Htb23, Htb24, Htb25, Htb26, Htb27, Htb28, Htb29, Htb30⟩, ⟨Htr0, Htr1, Htr2, Htr3, Htr4, Htr5, Htr6, Htr7, Htr8, Htr9, Htr10, Htr11, Htr12, Htr13, Htr14, Htr15, Htr16, Htr17, Htr18, Htr19, Htr20, Htr21, Htr22, Htr23, Htr24, Htr25, Htr26, Htr27, Htr28, Htr29, Htr30⟩, ⟨Hts0, Hts1, Hts2, Hts3, Hts4, Hts5, Hts6, Hts7, Hts8, Hts9, Hts10, Hts11, Hts12, Hts13, Hts14, Hts15, Hts16, Hts17, Hts18, Hts19, Hts20, Hts21, Hts22, Hts23, Hts24, Hts25, Hts26, Hts27, Hts28, Hts29, Hts30⟩⟩⟩,
      ⟨HcB, ⟨Hcr0, Hcr1, Hcr2, Hcr3, Hcr4, Hcr5, Hcr6, Hcr7, Hcr8, Hcr9, Hcr10, Hcr11, Hcr12, Hcr13, Hcr14, Hcr15, Hcr16, Hcr17, Hcr18, Hcr19, Hcr20, Hcr21, Hcr22, Hcr23, Hcr24, Hcr25, Hcr26, Hcr27, Hcr28, Hcr29, Hcr30⟩⟩, #Hlev, ⟨⟨%fs, Hs⟩, ⟨%fr, Hr⟩⟩⟩,
    Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Orecv
  -- the receive buffer as its 31 rows
  ihave Hrows := (Entails.of_eq ((rM_split c fr).trans (bigSep_fin31_rev _))) $$ Hr
  icases Hrows with ⟨Hrow30, Hrow29, Hrow28, Hrow27, Hrow26, Hrow25, Hrow24, Hrow23, Hrow22, Hrow21, Hrow20, Hrow19, Hrow18, Hrow17, Hrow16, Hrow15, Hrow14, Hrow13, Hrow12, Hrow11, Hrow10, Hrow9, Hrow8, Hrow7, Hrow6, Hrow5, Hrow4, Hrow3, Hrow2, Hrow1, Hrow0⟩
  -- the staging and send buffers, spelt through their memrefs
  ihave Hx := (show ((c : Thread nD τ).loc cc0_stg0_0 ↦{fullShare} xblk m ρ c : sProp 𝕄) ⊢ ((xM : Memref sig .tc .vmem S512x256 .f32).view.loc (c : Thread nD τ) ↦{fullShare} xblk m ρ c) from BI.Entails.refl _) $$ Hx
  ihave Hout := (show ((c : Thread nD τ).loc cc0_stg1_0 ↦{fullShare} g1 : sProp 𝕄) ⊢ ((oM : Memref sig .tc .vmem S1x256 .f32).view.loc (c : Thread nD τ) ↦{fullShare} g1) from BI.Entails.refl _) $$ Hout
  ihave Hs := (show ((c : Thread nD τ).loc cc0_scratch0 ↦{fullShare} fs : sProp 𝕄) ⊢ ((sM : Memref sig .tc .vmem S1x256 .f32).view.loc (c : Thread nD τ) ↦{fullShare} fs) from BI.Entails.refl _) $$ Hs
  have hmw := mayWait_bar (F := F) c
  unfold Orecv at hmw
  set_option sl_exec.maxSteps 142 in sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- what the send buffer holds after the store is this device's row sum
  have hz2 : (![0, 0] : Fin 2 → Nat) = fun _ => 0 := funext fun a => by fin_cases a <;> rfl
  have hstore : (sM : Memref sig .tc .vmem S1x256 .f32).view.writes (Elt F) fs (sound_body.sl.Hs_1 m ρ c) = sendVal m ρ c := by
    unfold sound_body.sl.Hs_1
    rw [View.writes_singleton]
    refine (Memref.write_access_unit_zero_univ (Elt F) cc0_scratch0 hz2 _ fs _).trans ?_
    unfold sendVal
    exact congrArg k0_pay1 (Memref.readAt_unit_zero (Elt F) cc0_stg0_0 hz2 _ _)
  ihave Hs := (Entails.of_eq (congrArg (fun f => ((sM : Memref sig .tc .vmem S1x256 .f32).view.loc (c : Thread nD τ) ↦{fullShare} f : sProp 𝕄)) hstore)) $$ Hs
  -- held in 32 shares: one kept for the final load, one lent to each copy
  ihave Hs := (Entails.of_eq (show ((sM : Memref sig .tc .vmem S1x256 .f32).view.loc (c : Thread nD τ) ↦{fullShare} sendVal m ρ c : sProp 𝕄)
      = ((sM : Memref sig .tc .vmem S1x256 .f32).view.loc (c : Thread nD τ) ↦[(sM : Memref sig .tc .vmem S1x256 .f32).view.set]{fullShare} sendVal m ρ c) by simp only [Memref.view_whole, View.set_whole])) $$ Hs
  ihave Hsh := (Transfers.pointsTo_toks_split fullShare 31) $$ Hs
  icases Hsh with ⟨Hkeep, Hsh⟩
  ihave Hsh := (Entails.of_eq (bigSep_fin31 _)) $$ Hsh
  icases Hsh with ⟨Hsh0, Hsh1, Hsh2, Hsh3, Hsh4, Hsh5, Hsh6, Hsh7, Hsh8, Hsh9, Hsh10, Hsh11, Hsh12, Hsh13, Hsh14, Hsh15, Hsh16, Hsh17, Hsh18, Hsh19, Hsh20, Hsh21, Hsh22, Hsh23, Hsh24, Hsh25, Hsh26, Hsh27, Hsh28, Hsh29, Hsh30⟩
  -- what the barrier wait handed over: each peer's row for this device
  unfold barRest
  icases HatB_pay1 with ⟨⟨⟨%fp0, Hp0⟩, #Hq0⟩, ⟨⟨%fp1, Hp1⟩, #Hq1⟩, ⟨⟨%fp2, Hp2⟩, #Hq2⟩, ⟨⟨%fp3, Hp3⟩, #Hq3⟩, ⟨⟨%fp4, Hp4⟩, #Hq4⟩, ⟨⟨%fp5, Hp5⟩, #Hq5⟩, ⟨⟨%fp6, Hp6⟩, #Hq6⟩, ⟨⟨%fp7, Hp7⟩, #Hq7⟩, ⟨⟨%fp8, Hp8⟩, #Hq8⟩, ⟨⟨%fp9, Hp9⟩, #Hq9⟩, ⟨⟨%fp10, Hp10⟩, #Hq10⟩, ⟨⟨%fp11, Hp11⟩, #Hq11⟩, ⟨⟨%fp12, Hp12⟩, #Hq12⟩, ⟨⟨%fp13, Hp13⟩, #Hq13⟩, ⟨⟨%fp14, Hp14⟩, #Hq14⟩, ⟨⟨%fp15, Hp15⟩, #Hq15⟩, ⟨⟨%fp16, Hp16⟩, #Hq16⟩, ⟨⟨%fp17, Hp17⟩, #Hq17⟩, ⟨⟨%fp18, Hp18⟩, #Hq18⟩, ⟨⟨%fp19, Hp19⟩, #Hq19⟩, ⟨⟨%fp20, Hp20⟩, #Hq20⟩, ⟨⟨%fp21, Hp21⟩, #Hq21⟩, ⟨⟨%fp22, Hp22⟩, #Hq22⟩, ⟨⟨%fp23, Hp23⟩, #Hq23⟩, ⟨⟨%fp24, Hp24⟩, #Hq24⟩, ⟨⟨%fp25, Hp25⟩, #Hq25⟩, ⟨⟨%fp26, Hp26⟩, #Hq26⟩, ⟨⟨%fp27, Hp27⟩, #Hq27⟩, ⟨⟨%fp28, Hp28⟩, #Hq28⟩, ⟨⟨%fp29, Hp29⟩, #Hq29⟩, ⟨⟨%fp30, Hp30⟩, #Hq30⟩⟩
  sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- the 31 landed rows are the receive buffer at its final contents
  ihave R0 := (Entails.of_eq (row_landed m ρ c 0 _)) $$ Hatr0_pay1
  ihave R1 := (Entails.of_eq (row_landed m ρ c 1 _)) $$ Hatr1_pay1
  ihave R2 := (Entails.of_eq (row_landed m ρ c 2 _)) $$ Hatr2_pay1
  ihave R3 := (Entails.of_eq (row_landed m ρ c 3 _)) $$ Hatr3_pay1
  ihave R4 := (Entails.of_eq (row_landed m ρ c 4 _)) $$ Hatr4_pay1
  ihave R5 := (Entails.of_eq (row_landed m ρ c 5 _)) $$ Hatr5_pay1
  ihave R6 := (Entails.of_eq (row_landed m ρ c 6 _)) $$ Hatr6_pay1
  ihave R7 := (Entails.of_eq (row_landed m ρ c 7 _)) $$ Hatr7_pay1
  ihave R8 := (Entails.of_eq (row_landed m ρ c 8 _)) $$ Hatr8_pay1
  ihave R9 := (Entails.of_eq (row_landed m ρ c 9 _)) $$ Hatr9_pay1
  ihave R10 := (Entails.of_eq (row_landed m ρ c 10 _)) $$ Hatr10_pay1
  ihave R11 := (Entails.of_eq (row_landed m ρ c 11 _)) $$ Hatr11_pay1
  ihave R12 := (Entails.of_eq (row_landed m ρ c 12 _)) $$ Hatr12_pay1
  ihave R13 := (Entails.of_eq (row_landed m ρ c 13 _)) $$ Hatr13_pay1
  ihave R14 := (Entails.of_eq (row_landed m ρ c 14 _)) $$ Hatr14_pay1
  ihave R15 := (Entails.of_eq (row_landed m ρ c 15 _)) $$ Hatr15_pay1
  ihave R16 := (Entails.of_eq (row_landed m ρ c 16 _)) $$ Hatr16_pay1
  ihave R17 := (Entails.of_eq (row_landed m ρ c 17 _)) $$ Hatr17_pay1
  ihave R18 := (Entails.of_eq (row_landed m ρ c 18 _)) $$ Hatr18_pay1
  ihave R19 := (Entails.of_eq (row_landed m ρ c 19 _)) $$ Hatr19_pay1
  ihave R20 := (Entails.of_eq (row_landed m ρ c 20 _)) $$ Hatr20_pay1
  ihave R21 := (Entails.of_eq (row_landed m ρ c 21 _)) $$ Hatr21_pay1
  ihave R22 := (Entails.of_eq (row_landed m ρ c 22 _)) $$ Hatr22_pay1
  ihave R23 := (Entails.of_eq (row_landed m ρ c 23 _)) $$ Hatr23_pay1
  ihave R24 := (Entails.of_eq (row_landed m ρ c 24 _)) $$ Hatr24_pay1
  ihave R25 := (Entails.of_eq (row_landed m ρ c 25 _)) $$ Hatr25_pay1
  ihave R26 := (Entails.of_eq (row_landed m ρ c 26 _)) $$ Hatr26_pay1
  ihave R27 := (Entails.of_eq (row_landed m ρ c 27 _)) $$ Hatr27_pay1
  ihave R28 := (Entails.of_eq (row_landed m ρ c 28 _)) $$ Hatr28_pay1
  ihave R29 := (Entails.of_eq (row_landed m ρ c 29 _)) $$ Hatr29_pay1
  ihave R30 := (Entails.of_eq (row_landed m ρ c 30 _)) $$ Hatr30_pay1
  ihave Hr := (Entails.of_eq ((rM_split c (recvVal m ρ c)).trans (bigSep_fin31 _)).symm) $$ [R0 R1 R2 R3 R4 R5 R6 R7 R8 R9 R10 R11 R12 R13 R14 R15 R16 R17 R18 R19 R20 R21 R22 R23 R24 R25 R26 R27 R28 R29 R30]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    iexact R30
  ihave Hr := (show ((c : Thread nD τ).loc cc0_scratch1 ↦{fullShare} recvVal m ρ c : sProp 𝕄) ⊢ ((rM : Memref sig .tc .vmem S31x1x256 .f32).view.loc (c : Thread nD τ) ↦{fullShare} recvVal m ρ c) from BI.Entails.refl _) $$ Hr
  sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- the result block holds the device's row sum plus the rows received
  have hz3 : (![0, 0, 0] : Fin 3 → Nat) = fun _ => 0 := funext fun a => by fin_cases a <;> rfl
  have hout : (oM : Memref sig .tc .vmem S1x256 .f32).view.writes (Elt F) (oM : Memref sig .tc .vmem S1x256 .f32).view.junk (sound_body.sl.Hout_1 m ρ c) = outVal m ρ c := by
    unfold sound_body.sl.Hout_1
    rw [View.writes_singleton]
    refine (Memref.write_access_unit_zero_univ (Elt F) cc0_stg1_0 hz2 _ _ _).trans ?_
    unfold outVal
    exact congrArg₂ k0_pay2 (Memref.readAt_unit_zero (Elt F) cc0_scratch0 hz2 _ _) (Memref.readAt_unit_zero (Elt F) cc0_scratch1 hz3 _ _)
  ihave Hout := (Entails.of_eq (congrArg (fun f => ((oM : Memref sig .tc .vmem S1x256 .f32).view.loc (c : Thread nD τ) ↦{fullShare} f : sProp 𝕄)) hout)) $$ Hout
  -- the return: the own cells close, the shares rejoin
  iapply (closing m ρ K c _ Kt)
  unfold atReturn
  simp only [bigSep_fin31]
  isplitr [Hk]
  · isplitr
    ·
      isplitr; · iexact HIs0
      isplitr; · iexact HIs1
      isplitr; · iexact HIs2
      isplitr; · iexact HIs3
      isplitr; · iexact HIs4
      isplitr; · iexact HIs5
      isplitr; · iexact HIs6
      isplitr; · iexact HIs7
      isplitr; · iexact HIs8
      isplitr; · iexact HIs9
      isplitr; · iexact HIs10
      isplitr; · iexact HIs11
      isplitr; · iexact HIs12
      isplitr; · iexact HIs13
      isplitr; · iexact HIs14
      isplitr; · iexact HIs15
      isplitr; · iexact HIs16
      isplitr; · iexact HIs17
      isplitr; · iexact HIs18
      isplitr; · iexact HIs19
      isplitr; · iexact HIs20
      isplitr; · iexact HIs21
      isplitr; · iexact HIs22
      isplitr; · iexact HIs23
      isplitr; · iexact HIs24
      isplitr; · iexact HIs25
      isplitr; · iexact HIs26
      isplitr; · iexact HIs27
      isplitr; · iexact HIs28
      isplitr; · iexact HIs29
      iexact HIs30
    isplitr
    ·
      isplitr; · iexact HIr0
      isplitr; · iexact HIr1
      isplitr; · iexact HIr2
      isplitr; · iexact HIr3
      isplitr; · iexact HIr4
      isplitr; · iexact HIr5
      isplitr; · iexact HIr6
      isplitr; · iexact HIr7
      isplitr; · iexact HIr8
      isplitr; · iexact HIr9
      isplitr; · iexact HIr10
      isplitr; · iexact HIr11
      isplitr; · iexact HIr12
      isplitr; · iexact HIr13
      isplitr; · iexact HIr14
      isplitr; · iexact HIr15
      isplitr; · iexact HIr16
      isplitr; · iexact HIr17
      isplitr; · iexact HIr18
      isplitr; · iexact HIr19
      isplitr; · iexact HIr20
      isplitr; · iexact HIr21
      isplitr; · iexact HIr22
      isplitr; · iexact HIr23
      isplitr; · iexact HIr24
      isplitr; · iexact HIr25
      isplitr; · iexact HIr26
      isplitr; · iexact HIr27
      isplitr; · iexact HIr28
      isplitr; · iexact HIr29
      iexact HIr30
    isplitl [Hats0 Hats1 Hats2 Hats3 Hats4 Hats5 Hats6 Hats7 Hats8 Hats9 Hats10 Hats11 Hats12 Hats13 Hats14 Hats15 Hats16 Hats17 Hats18 Hats19 Hats20 Hats21 Hats22 Hats23 Hats24 Hats25 Hats26 Hats27 Hats28 Hats29 Hats30]
    ·
      isplitl [Hats0]; · iexact Hats0
      isplitl [Hats1]; · iexact Hats1
      isplitl [Hats2]; · iexact Hats2
      isplitl [Hats3]; · iexact Hats3
      isplitl [Hats4]; · iexact Hats4
      isplitl [Hats5]; · iexact Hats5
      isplitl [Hats6]; · iexact Hats6
      isplitl [Hats7]; · iexact Hats7
      isplitl [Hats8]; · iexact Hats8
      isplitl [Hats9]; · iexact Hats9
      isplitl [Hats10]; · iexact Hats10
      isplitl [Hats11]; · iexact Hats11
      isplitl [Hats12]; · iexact Hats12
      isplitl [Hats13]; · iexact Hats13
      isplitl [Hats14]; · iexact Hats14
      isplitl [Hats15]; · iexact Hats15
      isplitl [Hats16]; · iexact Hats16
      isplitl [Hats17]; · iexact Hats17
      isplitl [Hats18]; · iexact Hats18
      isplitl [Hats19]; · iexact Hats19
      isplitl [Hats20]; · iexact Hats20
      isplitl [Hats21]; · iexact Hats21
      isplitl [Hats22]; · iexact Hats22
      isplitl [Hats23]; · iexact Hats23
      isplitl [Hats24]; · iexact Hats24
      isplitl [Hats25]; · iexact Hats25
      isplitl [Hats26]; · iexact Hats26
      isplitl [Hats27]; · iexact Hats27
      isplitl [Hats28]; · iexact Hats28
      isplitl [Hats29]; · iexact Hats29
      iexact Hats30
    isplitl [Hatr0 Hatr1 Hatr2 Hatr3 Hatr4 Hatr5 Hatr6 Hatr7 Hatr8 Hatr9 Hatr10 Hatr11 Hatr12 Hatr13 Hatr14 Hatr15 Hatr16 Hatr17 Hatr18 Hatr19 Hatr20 Hatr21 Hatr22 Hatr23 Hatr24 Hatr25 Hatr26 Hatr27 Hatr28 Hatr29 Hatr30]
    ·
      isplitl [Hatr0]; · iexact Hatr0
      isplitl [Hatr1]; · iexact Hatr1
      isplitl [Hatr2]; · iexact Hatr2
      isplitl [Hatr3]; · iexact Hatr3
      isplitl [Hatr4]; · iexact Hatr4
      isplitl [Hatr5]; · iexact Hatr5
      isplitl [Hatr6]; · iexact Hatr6
      isplitl [Hatr7]; · iexact Hatr7
      isplitl [Hatr8]; · iexact Hatr8
      isplitl [Hatr9]; · iexact Hatr9
      isplitl [Hatr10]; · iexact Hatr10
      isplitl [Hatr11]; · iexact Hatr11
      isplitl [Hatr12]; · iexact Hatr12
      isplitl [Hatr13]; · iexact Hatr13
      isplitl [Hatr14]; · iexact Hatr14
      isplitl [Hatr15]; · iexact Hatr15
      isplitl [Hatr16]; · iexact Hatr16
      isplitl [Hatr17]; · iexact Hatr17
      isplitl [Hatr18]; · iexact Hatr18
      isplitl [Hatr19]; · iexact Hatr19
      isplitl [Hatr20]; · iexact Hatr20
      isplitl [Hatr21]; · iexact Hatr21
      isplitl [Hatr22]; · iexact Hatr22
      isplitl [Hatr23]; · iexact Hatr23
      isplitl [Hatr24]; · iexact Hatr24
      isplitl [Hatr25]; · iexact Hatr25
      isplitl [Hatr26]; · iexact Hatr26
      isplitl [Hatr27]; · iexact Hatr27
      isplitl [Hatr28]; · iexact Hatr28
      isplitl [Hatr29]; · iexact Hatr29
      iexact Hatr30
    isplitl [Hkeep]; · iexact Hkeep
    isplitl [Hats0_pay1 Hats1_pay1 Hats2_pay1 Hats3_pay1 Hats4_pay1 Hats5_pay1 Hats6_pay1 Hats7_pay1 Hats8_pay1 Hats9_pay1 Hats10_pay1 Hats11_pay1 Hats12_pay1 Hats13_pay1 Hats14_pay1 Hats15_pay1 Hats16_pay1 Hats17_pay1 Hats18_pay1 Hats19_pay1 Hats20_pay1 Hats21_pay1 Hats22_pay1 Hats23_pay1 Hats24_pay1 Hats25_pay1 Hats26_pay1 Hats27_pay1 Hats28_pay1 Hats29_pay1 Hats30_pay1]
    ·
      isplitl [Hats0_pay1]; · iexact Hats0_pay1
      isplitl [Hats1_pay1]; · iexact Hats1_pay1
      isplitl [Hats2_pay1]; · iexact Hats2_pay1
      isplitl [Hats3_pay1]; · iexact Hats3_pay1
      isplitl [Hats4_pay1]; · iexact Hats4_pay1
      isplitl [Hats5_pay1]; · iexact Hats5_pay1
      isplitl [Hats6_pay1]; · iexact Hats6_pay1
      isplitl [Hats7_pay1]; · iexact Hats7_pay1
      isplitl [Hats8_pay1]; · iexact Hats8_pay1
      isplitl [Hats9_pay1]; · iexact Hats9_pay1
      isplitl [Hats10_pay1]; · iexact Hats10_pay1
      isplitl [Hats11_pay1]; · iexact Hats11_pay1
      isplitl [Hats12_pay1]; · iexact Hats12_pay1
      isplitl [Hats13_pay1]; · iexact Hats13_pay1
      isplitl [Hats14_pay1]; · iexact Hats14_pay1
      isplitl [Hats15_pay1]; · iexact Hats15_pay1
      isplitl [Hats16_pay1]; · iexact Hats16_pay1
      isplitl [Hats17_pay1]; · iexact Hats17_pay1
      isplitl [Hats18_pay1]; · iexact Hats18_pay1
      isplitl [Hats19_pay1]; · iexact Hats19_pay1
      isplitl [Hats20_pay1]; · iexact Hats20_pay1
      isplitl [Hats21_pay1]; · iexact Hats21_pay1
      isplitl [Hats22_pay1]; · iexact Hats22_pay1
      isplitl [Hats23_pay1]; · iexact Hats23_pay1
      isplitl [Hats24_pay1]; · iexact Hats24_pay1
      isplitl [Hats25_pay1]; · iexact Hats25_pay1
      isplitl [Hats26_pay1]; · iexact Hats26_pay1
      isplitl [Hats27_pay1]; · iexact Hats27_pay1
      isplitl [Hats28_pay1]; · iexact Hats28_pay1
      isplitl [Hats29_pay1]; · iexact Hats29_pay1
      iexact Hats30_pay1
    isplitl [Hr]; · iexact Hr
    isplitl [Hx]; · iexact Hx
    isplitl [Hout]; · iexact Hout
    iexact HO
  · iexact Hk

end Cert.Kernel.Coll

end
-- ==== Proof.Kernel.Launch3.lean ====
import proofs.«900483_g7700000000000484_dist_sum_ax0_shard0_i_m512_n256_v7x_i32_f32_1_alg».proof.Proof.Kernel.Launch2
import proofs.«900483_g7700000000000484_dist_sum_ax0_shard0_i_m512_n256_v7x_i32_f32_1_alg».proof.Proof.Kernel.Body
import Idealize.ShloMosaic.Lib.Pipeline.Value

/-!
# The launch, concluded: the credit dealt, the body obligation, and the run
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

/-- The last summand of what the devices owe, a tally on the cell of each device's `k`-th peer, comes to device `c` as
    that credit on its own cell. -/
theorem cred_peel (A : Dev nD → CellTallies nD τ sig Unit) (sm : SemLoc sig) (k : Fin 31) (n : ℕ) (c : Dev nD) :
    (Pipeline.launchCred (fun d => A d + tallyAt (((peer d k : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm (fun d => peer d k) (fun d => src d k) (fun x => peer_src x k) (fun x => src_peer x k) () n c)

/-- What the devices owe device `c`'s cells comes to it as credit: a unit from each of its 31 peers on its barrier
    cell, and a row's landing credit on each receive cell. -/
theorem creds (c : Dev nD) : (Pipeline.launchCred O₀ c : sProp 𝕄) ⊢ credits c := by
  unfold O₀ Orecv credits
  rw [bigSep_fin31]
  iintro H
  ihave H := (cred_peel _ (.reg barS) 0 1 c) $$ H
  icases H with ⟨H, Hb0⟩
  ihave H := (cred_peel _ (.reg barS) 1 1 c) $$ H
  icases H with ⟨H, Hb1⟩
  ihave H := (cred_peel _ (.reg barS) 2 1 c) $$ H
  icases H with ⟨H, Hb2⟩
  ihave H := (cred_peel _ (.reg barS) 3 1 c) $$ H
  icases H with ⟨H, Hb3⟩
  ihave H := (cred_peel _ (.reg barS) 4 1 c) $$ H
  icases H with ⟨H, Hb4⟩
  ihave H := (cred_peel _ (.reg barS) 5 1 c) $$ H
  icases H with ⟨H, Hb5⟩
  ihave H := (cred_peel _ (.reg barS) 6 1 c) $$ H
  icases H with ⟨H, Hb6⟩
  ihave H := (cred_peel _ (.reg barS) 7 1 c) $$ H
  icases H with ⟨H, Hb7⟩
  ihave H := (cred_peel _ (.reg barS) 8 1 c) $$ H
  icases H with ⟨H, Hb8⟩
  ihave H := (cred_peel _ (.reg barS) 9 1 c) $$ H
  icases H with ⟨H, Hb9⟩
  ihave H := (cred_peel _ (.reg barS) 10 1 c) $$ H
  icases H with ⟨H, Hb10⟩
  ihave H := (cred_peel _ (.reg barS) 11 1 c) $$ H
  icases H with ⟨H, Hb11⟩
  ihave H := (cred_peel _ (.reg barS) 12 1 c) $$ H
  icases H with ⟨H, Hb12⟩
  ihave H := (cred_peel _ (.reg barS) 13 1 c) $$ H
  icases H with ⟨H, Hb13⟩
  ihave H := (cred_peel _ (.reg barS) 14 1 c) $$ H
  icases H with ⟨H, Hb14⟩
  ihave H := (cred_peel _ (.reg barS) 15 1 c) $$ H
  icases H with ⟨H, Hb15⟩
  ihave H := (cred_peel _ (.reg barS) 16 1 c) $$ H
  icases H with ⟨H, Hb16⟩
  ihave H := (cred_peel _ (.reg barS) 17 1 c) $$ H
  icases H with ⟨H, Hb17⟩
  ihave H := (cred_peel _ (.reg barS) 18 1 c) $$ H
  icases H with ⟨H, Hb18⟩
  ihave H := (cred_peel _ (.reg barS) 19 1 c) $$ H
  icases H with ⟨H, Hb19⟩
  ihave H := (cred_peel _ (.reg barS) 20 1 c) $$ H
  icases H with ⟨H, Hb20⟩
  ihave H := (cred_peel _ (.reg barS) 21 1 c) $$ H
  icases H with ⟨H, Hb21⟩
  ihave H := (cred_peel _ (.reg barS) 22 1 c) $$ H
  icases H with ⟨H, Hb22⟩
  ihave H := (cred_peel _ (.reg barS) 23 1 c) $$ H
  icases H with ⟨H, Hb23⟩
  ihave H := (cred_peel _ (.reg barS) 24 1 c) $$ H
  icases H with ⟨H, Hb24⟩
  ihave H := (cred_peel _ (.reg barS) 25 1 c) $$ H
  icases H with ⟨H, Hb25⟩
  ihave H := (cred_peel _ (.reg barS) 26 1 c) $$ H
  icases H with ⟨H, Hb26⟩
  ihave H := (cred_peel _ (.reg barS) 27 1 c) $$ H
  icases H with ⟨H, Hb27⟩
  ihave H := (cred_peel _ (.reg barS) 28 1 c) $$ H
  icases H with ⟨H, Hb28⟩
  ihave H := (cred_peel _ (.reg barS) 29 1 c) $$ H
  icases H with ⟨H, Hb29⟩
  ihave H := (cred_peel _ (.reg barS) 30 1 c) $$ H
  icases H with ⟨H, Hb30⟩
  ihave H := (cred_peel _ (.dma (recvSem 0)) 0 N1 c) $$ H
  icases H with ⟨H, Hr0⟩
  ihave H := (cred_peel _ (.dma (recvSem 1)) 1 N1 c) $$ H
  icases H with ⟨H, Hr1⟩
  ihave H := (cred_peel _ (.dma (recvSem 2)) 2 N1 c) $$ H
  icases H with ⟨H, Hr2⟩
  ihave H := (cred_peel _ (.dma (recvSem 3)) 3 N1 c) $$ H
  icases H with ⟨H, Hr3⟩
  ihave H := (cred_peel _ (.dma (recvSem 4)) 4 N1 c) $$ H
  icases H with ⟨H, Hr4⟩
  ihave H := (cred_peel _ (.dma (recvSem 5)) 5 N1 c) $$ H
  icases H with ⟨H, Hr5⟩
  ihave H := (cred_peel _ (.dma (recvSem 6)) 6 N1 c) $$ H
  icases H with ⟨H, Hr6⟩
  ihave H := (cred_peel _ (.dma (recvSem 7)) 7 N1 c) $$ H
  icases H with ⟨H, Hr7⟩
  ihave H := (cred_peel _ (.dma (recvSem 8)) 8 N1 c) $$ H
  icases H with ⟨H, Hr8⟩
  ihave H := (cred_peel _ (.dma (recvSem 9)) 9 N1 c) $$ H
  icases H with ⟨H, Hr9⟩
  ihave H := (cred_peel _ (.dma (recvSem 10)) 10 N1 c) $$ H
  icases H with ⟨H, Hr10⟩
  ihave H := (cred_peel _ (.dma (recvSem 11)) 11 N1 c) $$ H
  icases H with ⟨H, Hr11⟩
  ihave H := (cred_peel _ (.dma (recvSem 12)) 12 N1 c) $$ H
  icases H with ⟨H, Hr12⟩
  ihave H := (cred_peel _ (.dma (recvSem 13)) 13 N1 c) $$ H
  icases H with ⟨H, Hr13⟩
  ihave H := (cred_peel _ (.dma (recvSem 14)) 14 N1 c) $$ H
  icases H with ⟨H, Hr14⟩
  ihave H := (cred_peel _ (.dma (recvSem 15)) 15 N1 c) $$ H
  icases H with ⟨H, Hr15⟩
  ihave H := (cred_peel _ (.dma (recvSem 16)) 16 N1 c) $$ H
  icases H with ⟨H, Hr16⟩
  ihave H := (cred_peel _ (.dma (recvSem 17)) 17 N1 c) $$ H
  icases H with ⟨H, Hr17⟩
  ihave H := (cred_peel _ (.dma (recvSem 18)) 18 N1 c) $$ H
  icases H with ⟨H, Hr18⟩
  ihave H := (cred_peel _ (.dma (recvSem 19)) 19 N1 c) $$ H
  icases H with ⟨H, Hr19⟩
  ihave H := (cred_peel _ (.dma (recvSem 20)) 20 N1 c) $$ H
  icases H with ⟨H, Hr20⟩
  ihave H := (cred_peel _ (.dma (recvSem 21)) 21 N1 c) $$ H
  icases H with ⟨H, Hr21⟩
  ihave H := (cred_peel _ (.dma (recvSem 22)) 22 N1 c) $$ H
  icases H with ⟨H, Hr22⟩
  ihave H := (cred_peel _ (.dma (recvSem 23)) 23 N1 c) $$ H
  icases H with ⟨H, Hr23⟩
  ihave H := (cred_peel _ (.dma (recvSem 24)) 24 N1 c) $$ H
  icases H with ⟨H, Hr24⟩
  ihave H := (cred_peel _ (.dma (recvSem 25)) 25 N1 c) $$ H
  icases H with ⟨H, Hr25⟩
  ihave H := (cred_peel _ (.dma (recvSem 26)) 26 N1 c) $$ H
  icases H with ⟨H, Hr26⟩
  ihave H := (cred_peel _ (.dma (recvSem 27)) 27 N1 c) $$ H
  icases H with ⟨H, Hr27⟩
  ihave H := (cred_peel _ (.dma (recvSem 28)) 28 N1 c) $$ H
  icases H with ⟨H, Hr28⟩
  ihave H := (cred_peel _ (.dma (recvSem 29)) 29 N1 c) $$ H
  icases H with ⟨H, Hr29⟩
  ihave Hr30 := (Pipeline.launchCred_tallyAt (.dma (recvSem 30)) (fun d => peer d 30) (fun d => src d 30) (fun x => peer_src x 30) (fun x => src_peer x 30) () N1 c) $$ H
  ihave HB := (cred_join (barCell c) 1 1) $$ [Hb0 Hb1]
  · isplitl [Hb0] <;> iassumption
  ihave HB := (cred_join (barCell c) 2 1) $$ [HB Hb2]
  · isplitl [HB] <;> iassumption
  ihave HB := (cred_join (barCell c) 3 1) $$ [HB Hb3]
  · isplitl [HB] <;> iassumption
  ihave HB := (cred_join (barCell c) 4 1) $$ [HB Hb4]
  · isplitl [HB] <;> iassumption
  ihave HB := (cred_join (barCell c) 5 1) $$ [HB Hb5]
  · isplitl [HB] <;> iassumption
  ihave HB := (cred_join (barCell c) 6 1) $$ [HB Hb6]
  · isplitl [HB] <;> iassumption
  ihave HB := (cred_join (barCell c) 7 1) $$ [HB Hb7]
  · isplitl [HB] <;> iassumption
  ihave HB := (cred_join (barCell c) 8 1) $$ [HB Hb8]
  · isplitl [HB] <;> iassumption
  ihave HB := (cred_join (barCell c) 9 1) $$ [HB Hb9]
  · isplitl [HB] <;> iassumption
  ihave HB := (cred_join (barCell c) 10 1) $$ [HB Hb10]
  · isplitl [HB] <;> iassumption
  ihave HB := (cred_join (barCell c) 11 1) $$ [HB Hb11]
  · isplitl [HB] <;> iassumption
  ihave HB := (cred_join (barCell c) 12 1) $$ [HB Hb12]
  · isplitl [HB] <;> iassumption
  ihave HB := (cred_join (barCell c) 13 1) $$ [HB Hb13]
  · isplitl [HB] <;> iassumption
  ihave HB := (cred_join (barCell c) 14 1) $$ [HB Hb14]
  · isplitl [HB] <;> iassumption
  ihave HB := (cred_join (barCell c) 15 1) $$ [HB Hb15]
  · isplitl [HB] <;> iassumption
  ihave HB := (cred_join (barCell c) 16 1) $$ [HB Hb16]
  · isplitl [HB] <;> iassumption
  ihave HB := (cred_join (barCell c) 17 1) $$ [HB Hb17]
  · isplitl [HB] <;> iassumption
  ihave HB := (cred_join (barCell c) 18 1) $$ [HB Hb18]
  · isplitl [HB] <;> iassumption
  ihave HB := (cred_join (barCell c) 19 1) $$ [HB Hb19]
  · isplitl [HB] <;> iassumption
  ihave HB := (cred_join (barCell c) 20 1) $$ [HB Hb20]
  · isplitl [HB] <;> iassumption
  ihave HB := (cred_join (barCell c) 21 1) $$ [HB Hb21]
  · isplitl [HB] <;> iassumption
  ihave HB := (cred_join (barCell c) 22 1) $$ [HB Hb22]
  · isplitl [HB] <;> iassumption
  ihave HB := (cred_join (barCell c) 23 1) $$ [HB Hb23]
  · isplitl [HB] <;> iassumption
  ihave HB := (cred_join (barCell c) 24 1) $$ [HB Hb24]
  · isplitl [HB] <;> iassumption
  ihave HB := (cred_join (barCell c) 25 1) $$ [HB Hb25]
  · isplitl [HB] <;> iassumption
  ihave HB := (cred_join (barCell c) 26 1) $$ [HB Hb26]
  · isplitl [HB] <;> iassumption
  ihave HB := (cred_join (barCell c) 27 1) $$ [HB Hb27]
  · isplitl [HB] <;> iassumption
  ihave HB := (cred_join (barCell c) 28 1) $$ [HB Hb28]
  · isplitl [HB] <;> iassumption
  ihave HB := (cred_join (barCell c) 29 1) $$ [HB Hb29]
  · isplitl [HB] <;> iassumption
  ihave HB := (cred_join (barCell c) 30 1) $$ [HB Hb30]
  · isplitl [HB] <;> iassumption
  isplitl [HB]; · iexact HB
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  iexact Hr30

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem ownZeros_to (c : Dev nD) : (ownZeros c : sProp 𝕄) ⊢ Pipeline.ownSems0 osem c := by
  unfold ownZeros Pipeline.ownSems0
  rw [bigSep_fin31, bigSep_fin31, bigSep_fin62]
  iintro ⟨⟨S0, S1, S2, S3, S4, S5, S6, S7, S8, S9, S10, S11, S12, S13, S14, S15, S16, S17, S18, S19, S20, S21, S22, S23, S24, S25, S26, S27, S28, S29, S30⟩, ⟨R0, R1, R2, R3, R4, R5, R6, R7, R8, R9, R10, R11, R12, R13, R14, R15, R16, R17, R18, R19, R20, R21, R22, R23, R24, R25, R26, R27, R28, R29, R30⟩⟩
  isplitl [S0]; · (rw [show ((c : Thread nD τ), osem 0) = sendCell c 0 from kcell_send c 0]; iexact S0)
  isplitl [S1]; · (rw [show ((c : Thread nD τ), osem 1) = sendCell c 1 from kcell_send c 1]; iexact S1)
  isplitl [S2]; · (rw [show ((c : Thread nD τ), osem 2) = sendCell c 2 from kcell_send c 2]; iexact S2)
  isplitl [S3]; · (rw [show ((c : Thread nD τ), osem 3) = sendCell c 3 from kcell_send c 3]; iexact S3)
  isplitl [S4]; · (rw [show ((c : Thread nD τ), osem 4) = sendCell c 4 from kcell_send c 4]; iexact S4)
  isplitl [S5]; · (rw [show ((c : Thread nD τ), osem 5) = sendCell c 5 from kcell_send c 5]; iexact S5)
  isplitl [S6]; · (rw [show ((c : Thread nD τ), osem 6) = sendCell c 6 from kcell_send c 6]; iexact S6)
  isplitl [S7]; · (rw [show ((c : Thread nD τ), osem 7) = sendCell c 7 from kcell_send c 7]; iexact S7)
  isplitl [S8]; · (rw [show ((c : Thread nD τ), osem 8) = sendCell c 8 from kcell_send c 8]; iexact S8)
  isplitl [S9]; · (rw [show ((c : Thread nD τ), osem 9) = sendCell c 9 from kcell_send c 9]; iexact S9)
  isplitl [S10]; · (rw [show ((c : Thread nD τ), osem 10) = sendCell c 10 from kcell_send c 10]; iexact S10)
  isplitl [S11]; · (rw [show ((c : Thread nD τ), osem 11) = sendCell c 11 from kcell_send c 11]; iexact S11)
  isplitl [S12]; · (rw [show ((c : Thread nD τ), osem 12) = sendCell c 12 from kcell_send c 12]; iexact S12)
  isplitl [S13]; · (rw [show ((c : Thread nD τ), osem 13) = sendCell c 13 from kcell_send c 13]; iexact S13)
  isplitl [S14]; · (rw [show ((c : Thread nD τ), osem 14) = sendCell c 14 from kcell_send c 14]; iexact S14)
  isplitl [S15]; · (rw [show ((c : Thread nD τ), osem 15) = sendCell c 15 from kcell_send c 15]; iexact S15)
  isplitl [S16]; · (rw [show ((c : Thread nD τ), osem 16) = sendCell c 16 from kcell_send c 16]; iexact S16)
  isplitl [S17]; · (rw [show ((c : Thread nD τ), osem 17) = sendCell c 17 from kcell_send c 17]; iexact S17)
  isplitl [S18]; · (rw [show ((c : Thread nD τ), osem 18) = sendCell c 18 from kcell_send c 18]; iexact S18)
  isplitl [S19]; · (rw [show ((c : Thread nD τ), osem 19) = sendCell c 19 from kcell_send c 19]; iexact S19)
  isplitl [S20]; · (rw [show ((c : Thread nD τ), osem 20) = sendCell c 20 from kcell_send c 20]; iexact S20)
  isplitl [S21]; · (rw [show ((c : Thread nD τ), osem 21) = sendCell c 21 from kcell_send c 21]; iexact S21)
  isplitl [S22]; · (rw [show ((c : Thread nD τ), osem 22) = sendCell c 22 from kcell_send c 22]; iexact S22)
  isplitl [S23]; · (rw [show ((c : Thread nD τ), osem 23) = sendCell c 23 from kcell_send c 23]; iexact S23)
  isplitl [S24]; · (rw [show ((c : Thread nD τ), osem 24) = sendCell c 24 from kcell_send c 24]; iexact S24)
  isplitl [S25]; · (rw [show ((c : Thread nD τ), osem 25) = sendCell c 25 from kcell_send c 25]; iexact S25)
  isplitl [S26]; · (rw [show ((c : Thread nD τ), osem 26) = sendCell c 26 from kcell_send c 26]; iexact S26)
  isplitl [S27]; · (rw [show ((c : Thread nD τ), osem 27) = sendCell c 27 from kcell_send c 27]; iexact S27)
  isplitl [S28]; · (rw [show ((c : Thread nD τ), osem 28) = sendCell c 28 from kcell_send c 28]; iexact S28)
  isplitl [S29]; · (rw [show ((c : Thread nD τ), osem 29) = sendCell c 29 from kcell_send c 29]; iexact S29)
  isplitl [S30]; · (rw [show ((c : Thread nD τ), osem 30) = sendCell c 30 from kcell_send c 30]; iexact S30)
  isplitl [R0]; · (rw [show ((c : Thread nD τ), osem 31) = recvCell c 0 from kcell_recv c 0]; iexact R0)
  isplitl [R1]; · (rw [show ((c : Thread nD τ), osem 32) = recvCell c 1 from kcell_recv c 1]; iexact R1)
  isplitl [R2]; · (rw [show ((c : Thread nD τ), osem 33) = recvCell c 2 from kcell_recv c 2]; iexact R2)
  isplitl [R3]; · (rw [show ((c : Thread nD τ), osem 34) = recvCell c 3 from kcell_recv c 3]; iexact R3)
  isplitl [R4]; · (rw [show ((c : Thread nD τ), osem 35) = recvCell c 4 from kcell_recv c 4]; iexact R4)
  isplitl [R5]; · (rw [show ((c : Thread nD τ), osem 36) = recvCell c 5 from kcell_recv c 5]; iexact R5)
  isplitl [R6]; · (rw [show ((c : Thread nD τ), osem 37) = recvCell c 6 from kcell_recv c 6]; iexact R6)
  isplitl [R7]; · (rw [show ((c : Thread nD τ), osem 38) = recvCell c 7 from kcell_recv c 7]; iexact R7)
  isplitl [R8]; · (rw [show ((c : Thread nD τ), osem 39) = recvCell c 8 from kcell_recv c 8]; iexact R8)
  isplitl [R9]; · (rw [show ((c : Thread nD τ), osem 40) = recvCell c 9 from kcell_recv c 9]; iexact R9)
  isplitl [R10]; · (rw [show ((c : Thread nD τ), osem 41) = recvCell c 10 from kcell_recv c 10]; iexact R10)
  isplitl [R11]; · (rw [show ((c : Thread nD τ), osem 42) = recvCell c 11 from kcell_recv c 11]; iexact R11)
  isplitl [R12]; · (rw [show ((c : Thread nD τ), osem 43) = recvCell c 12 from kcell_recv c 12]; iexact R12)
  isplitl [R13]; · (rw [show ((c : Thread nD τ), osem 44) = recvCell c 13 from kcell_recv c 13]; iexact R13)
  isplitl [R14]; · (rw [show ((c : Thread nD τ), osem 45) = recvCell c 14 from kcell_recv c 14]; iexact R14)
  isplitl [R15]; · (rw [show ((c : Thread nD τ), osem 46) = recvCell c 15 from kcell_recv c 15]; iexact R15)
  isplitl [R16]; · (rw [show ((c : Thread nD τ), osem 47) = recvCell c 16 from kcell_recv c 16]; iexact R16)
  isplitl [R17]; · (rw [show ((c : Thread nD τ), osem 48) = recvCell c 17 from kcell_recv c 17]; iexact R17)
  isplitl [R18]; · (rw [show ((c : Thread nD τ), osem 49) = recvCell c 18 from kcell_recv c 18]; iexact R18)
  isplitl [R19]; · (rw [show ((c : Thread nD τ), osem 50) = recvCell c 19 from kcell_recv c 19]; iexact R19)
  isplitl [R20]; · (rw [show ((c : Thread nD τ), osem 51) = recvCell c 20 from kcell_recv c 20]; iexact R20)
  isplitl [R21]; · (rw [show ((c : Thread nD τ), osem 52) = recvCell c 21 from kcell_recv c 21]; iexact R21)
  isplitl [R22]; · (rw [show ((c : Thread nD τ), osem 53) = recvCell c 22 from kcell_recv c 22]; iexact R22)
  isplitl [R23]; · (rw [show ((c : Thread nD τ), osem 54) = recvCell c 23 from kcell_recv c 23]; iexact R23)
  isplitl [R24]; · (rw [show ((c : Thread nD τ), osem 55) = recvCell c 24 from kcell_recv c 24]; iexact R24)
  isplitl [R25]; · (rw [show ((c : Thread nD τ), osem 56) = recvCell c 25 from kcell_recv c 25]; iexact R25)
  isplitl [R26]; · (rw [show ((c : Thread nD τ), osem 57) = recvCell c 26 from kcell_recv c 26]; iexact R26)
  isplitl [R27]; · (rw [show ((c : Thread nD τ), osem 58) = recvCell c 27 from kcell_recv c 27]; iexact R27)
  isplitl [R28]; · (rw [show ((c : Thread nD τ), osem 59) = recvCell c 28 from kcell_recv c 28]; iexact R28)
  isplitl [R29]; · (rw [show ((c : Thread nD τ), osem 60) = recvCell c 29 from kcell_recv c 29]; iexact R29)
  rw [show ((c : Thread nD τ), osem 61) = recvCell c 30 from kcell_recv c 30]; iexact R30

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  isplitr; · iempintro
  isplitl [Hz]; · iapply (ownZeros_to c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The body obligation -/

set_option maxRecDepth 65536 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, from any memory with zero counters: every weakly fair execution terminates,
    and every final state has each device's result array at its row sum plus the rows received, and its input unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- What the one point writes back to the result array is the result. -/
theorem flushed_out (c : Dev nD) (t : Fin cfg0.N) (hf : (cfg0.win 1).flush t = true) :
    (dats m ρ 0 c).flushed 1 t = ((cfg0.win 1).blk t).view.read (Elt F) (outVal m ρ c) := by
  rw [fin_N t]
  show (cfg0.win 1).cut (grid0.coords t₀) ((dats m ρ 0 c).after 1 t₀) = _
  have hz' : (fun a => win0_1.index t₀ a * main_v1.ty.shape.size a) = fun _ => 0 := funext fun a => Nat.zero_mul _
  exact (Memref.read_access_unit_zero (Elt F) main_v1 hz' (fun a => by rw [congrFun hz' a]; simp) (outVal m ρ c)).symm

/-- The result array after the run holds the device's row sum plus the rows received. -/
theorem finalA_out (c : Dev nD) : finalA m ρ c (1 : Fin 2) = outVal m ρ c :=
  (dats m ρ 0 c).arrAt_eq_of_cover 1 (outVal m ρ c) (flushed_out m ρ c) fun i =>
    ⟨t₀, rfl, by
      show i ∈ ((View.whole main_v1).slice (win0_1.rect t₀)).set
      rw [View.set_slice_whole, Rect.mem_set_unit]
      intro a
      have h0 : (i 0 : Nat) < 1 := (i 0).isLt
      have h1 : (i 1 : Nat) < 256 := (i 1).isLt
      match a with
      | ⟨0, _⟩ => show 0 * 1 ≤ (i 0 : Nat) ∧ (i 0 : Nat) < 0 * 1 + 1; omega
      | ⟨1, _⟩ => show 0 * 256 ≤ (i 1 : Nat) ∧ (i 1 : Nat) < 0 * 256 + 256; omega⟩

end Cert.Kernel.Coll

end
-- ==== Proof.KernelIdeal.Mesh.lean ====
import proofs.«900483_g7700000000000484_dist_sum_ax0_shard0_i_m512_n256_v7x_i32_f32_1_alg».proof.Proof.Gen.KernelIdeal

/-!
# The mesh: who talks to whom

Thirty-two devices in a line, read cyclically. For `i : Fin 31`, device `c`'s `i`-th peer is the device
`i + 1` places after it, `peer c i = c + (i + 1) mod 32`; `src c i = c - (i + 1) mod 32` is the device whose
`i`-th peer is `c`. Every device address the kernel computes is one of these: its `i`-th signal and its
`i`-th copy both go to `peer c i`.
-/

set_option Elab.async false

namespace Cert.KernelIdeal.Coll

open Idealize.ShloMosaic Idealize.SL.Sem Cert.KernelIdeal Cert.KernelIdeal.Gen

/-- The device `i + 1` places after `c`. -/
def peer (c : Dev nD) (i : Fin 31) : Dev nD := ⟨(c.val + (i.val + 1)) % 32, Nat.mod_lt _ (by decide)⟩
/-- The device `i + 1` places before `c`. -/
def src (c : Dev nD) (i : Fin 31) : Dev nD := ⟨(c.val + (31 - i.val)) % 32, Nat.mod_lt _ (by decide)⟩
/-- The index counted from the other end: `rev i = 30 - i`. Going `i + 1` places forward and then `rev i + 1`
    places forward is a full turn. -/
def rev (i : Fin 31) : Fin 31 := ⟨30 - i.val, by omega⟩

theorem rev_rev (i : Fin 31) : rev (rev i) = i := by revert i; decide
theorem src_peer (c : Dev nD) (i : Fin 31) : src (peer c i) i = c := by revert c i; decide
theorem peer_src (c : Dev nD) (i : Fin 31) : peer (src c i) i = c := by revert c i; decide
theorem peer_peer_rev (c : Dev nD) (i : Fin 31) : peer (peer c i) (rev i) = c := by revert c i; decide
theorem src_eq_peer_rev (c : Dev nD) (i : Fin 31) : src c i = peer c (rev i) := by revert c i; decide
theorem peer_injective (c : Dev nD) : Function.Injective (peer c) := by revert c; decide
theorem peer_ne_self (c : Dev nD) (i : Fin 31) : peer c i ≠ c := by revert c i; decide
theorem src_injective (c : Dev nD) : Function.Injective (src c) := by revert c; decide
theorem peer_left_injective (i : Fin 31) : Function.Injective (fun c => peer c i) := by revert i; decide
/-- Every device other than `c` is exactly one of `c`'s peers. -/
theorem exists_peer (c d : Dev nD) (h : d ≠ c) : ∃ i, d = peer c i := by revert c d; decide

/-! ## The kernel's device addresses -/

theorem k0_dev1_eq : ∀ c : Dev nD, k0_dev1 c = (peer c 0).val := by decide +kernel
theorem k0_dev2_eq : ∀ c : Dev nD, k0_dev2 c = (peer c 1).val := by decide +kernel
theorem k0_dev3_eq : ∀ c : Dev nD, k0_dev3 c = (peer c 2).val := by decide +kernel
theorem k0_dev4_eq : ∀ c : Dev nD, k0_dev4 c = (peer c 3).val := by decide +kernel
theorem k0_dev5_eq : ∀ c : Dev nD, k0_dev5 c = (peer c 4).val := by decide +kernel
theorem k0_dev6_eq : ∀ c : Dev nD, k0_dev6 c = (peer c 5).val := by decide +kernel
theorem k0_dev7_eq : ∀ c : Dev nD, k0_dev7 c = (peer c 6).val := by decide +kernel
theorem k0_dev8_eq : ∀ c : Dev nD, k0_dev8 c = (peer c 7).val := by decide +kernel
theorem k0_dev9_eq : ∀ c : Dev nD, k0_dev9 c = (peer c 8).val := by decide +kernel
theorem k0_dev10_eq : ∀ c : Dev nD, k0_dev10 c = (peer c 9).val := by decide +kernel
theorem k0_dev11_eq : ∀ c : Dev nD, k0_dev11 c = (peer c 10).val := by decide +kernel
theorem k0_dev12_eq : ∀ c : Dev nD, k0_dev12 c = (peer c 11).val := by decide +kernel
theorem k0_dev13_eq : ∀ c : Dev nD, k0_dev13 c = (peer c 12).val := by decide +kernel
theorem k0_dev14_eq : ∀ c : Dev nD, k0_dev14 c = (peer c 13).val := by decide +kernel
theorem k0_dev15_eq : ∀ c : Dev nD, k0_dev15 c = (peer c 14).val := by decide +kernel
theorem k0_dev16_eq : ∀ c : Dev nD, k0_dev16 c = (peer c 15).val := by decide +kernel
theorem k0_dev17_eq : ∀ c : Dev nD, k0_dev17 c = (peer c 16).val := by decide +kernel
theorem k0_dev18_eq : ∀ c : Dev nD, k0_dev18 c = (peer c 17).val := by decide +kernel
theorem k0_dev19_eq : ∀ c : Dev nD, k0_dev19 c = (peer c 18).val := by decide +kernel
theorem k0_dev20_eq : ∀ c : Dev nD, k0_dev20 c = (peer c 19).val := by decide +kernel
theorem k0_dev21_eq : ∀ c : Dev nD, k0_dev21 c = (peer c 20).val := by decide +kernel
theorem k0_dev22_eq : ∀ c : Dev nD, k0_dev22 c = (peer c 21).val := by decide +kernel
theorem k0_dev23_eq : ∀ c : Dev nD, k0_dev23 c = (peer c 22).val := by decide +kernel
theorem k0_dev24_eq : ∀ c : Dev nD, k0_dev24 c = (peer c 23).val := by decide +kernel
theorem k0_dev25_eq : ∀ c : Dev nD, k0_dev25 c = (peer c 24).val := by decide +kernel
theorem k0_dev26_eq : ∀ c : Dev nD, k0_dev26 c = (peer c 25).val := by decide +kernel
theorem k0_dev27_eq : ∀ c : Dev nD, k0_dev27 c = (peer c 26).val := by decide +kernel
theorem k0_dev28_eq : ∀ c : Dev nD, k0_dev28 c = (peer c 27).val := by decide +kernel
theorem k0_dev29_eq : ∀ c : Dev nD, k0_dev29 c = (peer c 28).val := by decide +kernel
theorem k0_dev30_eq : ∀ c : Dev nD, k0_dev30 c = (peer c 29).val := by decide +kernel
theorem k0_dev31_eq : ∀ c : Dev nD, k0_dev31 c = (peer c 30).val := by decide +kernel
theorem k0_dev32_eq : ∀ c : Dev nD, k0_dev32 c = (peer c 0).val := by decide +kernel
theorem k0_dev33_eq : ∀ c : Dev nD, k0_dev33 c = (peer c 1).val := by decide +kernel
theorem k0_dev34_eq : ∀ c : Dev nD, k0_dev34 c = (peer c 2).val := by decide +kernel
theorem k0_dev35_eq : ∀ c : Dev nD, k0_dev35 c = (peer c 3).val := by decide +kernel
theorem k0_dev36_eq : ∀ c : Dev nD, k0_dev36 c = (peer c 4).val := by decide +kernel
theorem k0_dev37_eq : ∀ c : Dev nD, k0_dev37 c = (peer c 5).val := by decide +kernel
theorem k0_dev38_eq : ∀ c : Dev nD, k0_dev38 c = (peer c 6).val := by decide +kernel
theorem k0_dev39_eq : ∀ c : Dev nD, k0_dev39 c = (peer c 7).val := by decide +kernel
theorem k0_dev40_eq : ∀ c : Dev nD, k0_dev40 c = (peer c 8).val := by decide +kernel
theorem k0_dev41_eq : ∀ c : Dev nD, k0_dev41 c = (peer c 9).val := by decide +kernel
theorem k0_dev42_eq : ∀ c : Dev nD, k0_dev42 c = (peer c 10).val := by decide +kernel
theorem k0_dev43_eq : ∀ c : Dev nD, k0_dev43 c = (peer c 11).val := by decide +kernel
theorem k0_dev44_eq : ∀ c : Dev nD, k0_dev44 c = (peer c 12).val := by decide +kernel
theorem k0_dev45_eq : ∀ c : Dev nD, k0_dev45 c = (peer c 13).val := by decide +kernel
theorem k0_dev46_eq : ∀ c : Dev nD, k0_dev46 c = (peer c 14).val := by decide +kernel
theorem k0_dev47_eq : ∀ c : Dev nD, k0_dev47 c = (peer c 15).val := by decide +kernel
theorem k0_dev48_eq : ∀ c : Dev nD, k0_dev48 c = (peer c 16).val := by decide +kernel
theorem k0_dev49_eq : ∀ c : Dev nD, k0_dev49 c = (peer c 17).val := by decide +kernel
theorem k0_dev50_eq : ∀ c : Dev nD, k0_dev50 c = (peer c 18).val := by decide +kernel
theorem k0_dev51_eq : ∀ c : Dev nD, k0_dev51 c = (peer c 19).val := by decide +kernel
theorem k0_dev52_eq : ∀ c : Dev nD, k0_dev52 c = (peer c 20).val := by decide +kernel
theorem k0_dev53_eq : ∀ c : Dev nD, k0_dev53 c = (peer c 21).val := by decide +kernel
theorem k0_dev54_eq : ∀ c : Dev nD, k0_dev54 c = (peer c 22).val := by decide +kernel
theorem k0_dev55_eq : ∀ c : Dev nD, k0_dev55 c = (peer c 23).val := by decide +kernel
theorem k0_dev56_eq : ∀ c : Dev nD, k0_dev56 c = (peer c 24).val := by decide +kernel
theorem k0_dev57_eq : ∀ c : Dev nD, k0_dev57 c = (peer c 25).val := by decide +kernel
theorem k0_dev58_eq : ∀ c : Dev nD, k0_dev58 c = (peer c 26).val := by decide +kernel
theorem k0_dev59_eq : ∀ c : Dev nD, k0_dev59 c = (peer c 27).val := by decide +kernel
theorem k0_dev60_eq : ∀ c : Dev nD, k0_dev60 c = (peer c 28).val := by decide +kernel
theorem k0_dev61_eq : ∀ c : Dev nD, k0_dev61 c = (peer c 29).val := by decide +kernel
theorem k0_dev62_eq : ∀ c : Dev nD, k0_dev62 c = (peer c 30).val := by decide +kernel

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 7 := Fin.ext (k0_dev8_eq c)
theorem dev9_eq (c : Dev nD) : (⟨k0_dev9 c, k0_dev9_lt c⟩ : Dev nD) = peer c 8 := Fin.ext (k0_dev9_eq c)
theorem dev10_eq (c : Dev nD) : (⟨k0_dev10 c, k0_dev10_lt c⟩ : Dev nD) = peer c 9 := Fin.ext (k0_dev10_eq c)
theorem dev11_eq (c : Dev nD) : (⟨k0_dev11 c, k0_dev11_lt c⟩ : Dev nD) = peer c 10 := Fin.ext (k0_dev11_eq c)
theorem dev12_eq (c : Dev nD) : (⟨k0_dev12 c, k0_dev12_lt c⟩ : Dev nD) = peer c 11 := Fin.ext (k0_dev12_eq c)
theorem dev13_eq (c : Dev nD) : (⟨k0_dev13 c, k0_dev13_lt c⟩ : Dev nD) = peer c 12 := Fin.ext (k0_dev13_eq c)
theorem dev14_eq (c : Dev nD) : (⟨k0_dev14 c, k0_dev14_lt c⟩ : Dev nD) = peer c 13 := Fin.ext (k0_dev14_eq c)
theorem dev15_eq (c : Dev nD) : (⟨k0_dev15 c, k0_dev15_lt c⟩ : Dev nD) = peer c 14 := Fin.ext (k0_dev15_eq c)
theorem dev16_eq (c : Dev nD) : (⟨k0_dev16 c, k0_dev16_lt c⟩ : Dev nD) = peer c 15 := Fin.ext (k0_dev16_eq c)
theorem dev17_eq (c : Dev nD) : (⟨k0_dev17 c, k0_dev17_lt c⟩ : Dev nD) = peer c 16 := Fin.ext (k0_dev17_eq c)
theorem dev18_eq (c : Dev nD) : (⟨k0_dev18 c, k0_dev18_lt c⟩ : Dev nD) = peer c 17 := Fin.ext (k0_dev18_eq c)
theorem dev19_eq (c : Dev nD) : (⟨k0_dev19 c, k0_dev19_lt c⟩ : Dev nD) = peer c 18 := Fin.ext (k0_dev19_eq c)
theorem dev20_eq (c : Dev nD) : (⟨k0_dev20 c, k0_dev20_lt c⟩ : Dev nD) = peer c 19 := Fin.ext (k0_dev20_eq c)
theorem dev21_eq (c : Dev nD) : (⟨k0_dev21 c, k0_dev21_lt c⟩ : Dev nD) = peer c 20 := Fin.ext (k0_dev21_eq c)
theorem dev22_eq (c : Dev nD) : (⟨k0_dev22 c, k0_dev22_lt c⟩ : Dev nD) = peer c 21 := Fin.ext (k0_dev22_eq c)
theorem dev23_eq (c : Dev nD) : (⟨k0_dev23 c, k0_dev23_lt c⟩ : Dev nD) = peer c 22 := Fin.ext (k0_dev23_eq c)
theorem dev24_eq (c : Dev nD) : (⟨k0_dev24 c, k0_dev24_lt c⟩ : Dev nD) = peer c 23 := Fin.ext (k0_dev24_eq c)
theorem dev25_eq (c : Dev nD) : (⟨k0_dev25 c, k0_dev25_lt c⟩ : Dev nD) = peer c 24 := Fin.ext (k0_dev25_eq c)
theorem dev26_eq (c : Dev nD) : (⟨k0_dev26 c, k0_dev26_lt c⟩ : Dev nD) = peer c 25 := Fin.ext (k0_dev26_eq c)
theorem dev27_eq (c : Dev nD) : (⟨k0_dev27 c, k0_dev27_lt c⟩ : Dev nD) = peer c 26 := Fin.ext (k0_dev27_eq c)
theorem dev28_eq (c : Dev nD) : (⟨k0_dev28 c, k0_dev28_lt c⟩ : Dev nD) = peer c 27 := Fin.ext (k0_dev28_eq c)
theorem dev29_eq (c : Dev nD) : (⟨k0_dev29 c, k0_dev29_lt c⟩ : Dev nD) = peer c 28 := Fin.ext (k0_dev29_eq c)
theorem dev30_eq (c : Dev nD) : (⟨k0_dev30 c, k0_dev30_lt c⟩ : Dev nD) = peer c 29 := Fin.ext (k0_dev30_eq c)
theorem dev31_eq (c : Dev nD) : (⟨k0_dev31 c, k0_dev31_lt c⟩ : Dev nD) = peer c 30 := Fin.ext (k0_dev31_eq c)
theorem dev32_eq (c : Dev nD) : (⟨k0_dev32 c, k0_dev32_lt c⟩ : Dev nD) = peer c 0 := Fin.ext (k0_dev32_eq c)
theorem dev33_eq (c : Dev nD) : (⟨k0_dev33 c, k0_dev33_lt c⟩ : Dev nD) = peer c 1 := Fin.ext (k0_dev33_eq c)
theorem dev34_eq (c : Dev nD) : (⟨k0_dev34 c, k0_dev34_lt c⟩ : Dev nD) = peer c 2 := Fin.ext (k0_dev34_eq c)
theorem dev35_eq (c : Dev nD) : (⟨k0_dev35 c, k0_dev35_lt c⟩ : Dev nD) = peer c 3 := Fin.ext (k0_dev35_eq c)
theorem dev36_eq (c : Dev nD) : (⟨k0_dev36 c, k0_dev36_lt c⟩ : Dev nD) = peer c 4 := Fin.ext (k0_dev36_eq c)
theorem dev37_eq (c : Dev nD) : (⟨k0_dev37 c, k0_dev37_lt c⟩ : Dev nD) = peer c 5 := Fin.ext (k0_dev37_eq c)
theorem dev38_eq (c : Dev nD) : (⟨k0_dev38 c, k0_dev38_lt c⟩ : Dev nD) = peer c 6 := Fin.ext (k0_dev38_eq c)
theorem dev39_eq (c : Dev nD) : (⟨k0_dev39 c, k0_dev39_lt c⟩ : Dev nD) = peer c 7 := Fin.ext (k0_dev39_eq c)
theorem dev40_eq (c : Dev nD) : (⟨k0_dev40 c, k0_dev40_lt c⟩ : Dev nD) = peer c 8 := Fin.ext (k0_dev40_eq c)
theorem dev41_eq (c : Dev nD) : (⟨k0_dev41 c, k0_dev41_lt c⟩ : Dev nD) = peer c 9 := Fin.ext (k0_dev41_eq c)
theorem dev42_eq (c : Dev nD) : (⟨k0_dev42 c, k0_dev42_lt c⟩ : Dev nD) = peer c 10 := Fin.ext (k0_dev42_eq c)
theorem dev43_eq (c : Dev nD) : (⟨k0_dev43 c, k0_dev43_lt c⟩ : Dev nD) = peer c 11 := Fin.ext (k0_dev43_eq c)
theorem dev44_eq (c : Dev nD) : (⟨k0_dev44 c, k0_dev44_lt c⟩ : Dev nD) = peer c 12 := Fin.ext (k0_dev44_eq c)
theorem dev45_eq (c : Dev nD) : (⟨k0_dev45 c, k0_dev45_lt c⟩ : Dev nD) = peer c 13 := Fin.ext (k0_dev45_eq c)
theorem dev46_eq (c : Dev nD) : (⟨k0_dev46 c, k0_dev46_lt c⟩ : Dev nD) = peer c 14 := Fin.ext (k0_dev46_eq c)
theorem dev47_eq (c : Dev nD) : (⟨k0_dev47 c, k0_dev47_lt c⟩ : Dev nD) = peer c 15 := Fin.ext (k0_dev47_eq c)
theorem dev48_eq (c : Dev nD) : (⟨k0_dev48 c, k0_dev48_lt c⟩ : Dev nD) = peer c 16 := Fin.ext (k0_dev48_eq c)
theorem dev49_eq (c : Dev nD) : (⟨k0_dev49 c, k0_dev49_lt c⟩ : Dev nD) = peer c 17 := Fin.ext (k0_dev49_eq c)
theorem dev50_eq (c : Dev nD) : (⟨k0_dev50 c, k0_dev50_lt c⟩ : Dev nD) = peer c 18 := Fin.ext (k0_dev50_eq c)
theorem dev51_eq (c : Dev nD) : (⟨k0_dev51 c, k0_dev51_lt c⟩ : Dev nD) = peer c 19 := Fin.ext (k0_dev51_eq c)
theorem dev52_eq (c : Dev nD) : (⟨k0_dev52 c, k0_dev52_lt c⟩ : Dev nD) = peer c 20 := Fin.ext (k0_dev52_eq c)
theorem dev53_eq (c : Dev nD) : (⟨k0_dev53 c, k0_dev53_lt c⟩ : Dev nD) = peer c 21 := Fin.ext (k0_dev53_eq c)
theorem dev54_eq (c : Dev nD) : (⟨k0_dev54 c, k0_dev54_lt c⟩ : Dev nD) = peer c 22 := Fin.ext (k0_dev54_eq c)
theorem dev55_eq (c : Dev nD) : (⟨k0_dev55 c, k0_dev55_lt c⟩ : Dev nD) = peer c 23 := Fin.ext (k0_dev55_eq c)
theorem dev56_eq (c : Dev nD) : (⟨k0_dev56 c, k0_dev56_lt c⟩ : Dev nD) = peer c 24 := Fin.ext (k0_dev56_eq c)
theorem dev57_eq (c : Dev nD) : (⟨k0_dev57 c, k0_dev57_lt c⟩ : Dev nD) = peer c 25 := Fin.ext (k0_dev57_eq c)
theorem dev58_eq (c : Dev nD) : (⟨k0_dev58 c, k0_dev58_lt c⟩ : Dev nD) = peer c 26 := Fin.ext (k0_dev58_eq c)
theorem dev59_eq (c : Dev nD) : (⟨k0_dev59 c, k0_dev59_lt c⟩ : Dev nD) = peer c 27 := Fin.ext (k0_dev59_eq c)
theorem dev60_eq (c : Dev nD) : (⟨k0_dev60 c, k0_dev60_lt c⟩ : Dev nD) = peer c 28 := Fin.ext (k0_dev60_eq c)
theorem dev61_eq (c : Dev nD) : (⟨k0_dev61 c, k0_dev61_lt c⟩ : Dev nD) = peer c 29 := Fin.ext (k0_dev61_eq c)
theorem dev62_eq (c : Dev nD) : (⟨k0_dev62 c, k0_dev62_lt c⟩ : Dev nD) = peer c 30 := Fin.ext (k0_dev62_eq c)

end Cert.KernelIdeal.Coll
-- ==== Proof.KernelIdeal.Sched.lean ====
import proofs.«900483_g7700000000000484_dist_sum_ax0_shard0_i_m512_n256_v7x_i32_f32_1_alg».proof.Proof.KernelIdeal.Mesh
import proofs.«900483_g7700000000000484_dist_sum_ax0_shard0_i_m512_n256_v7x_i32_f32_1_alg».proof.Proof.Gen.KernelIdeal.Skeleton
import proofs.«900483_g7700000000000484_dist_sum_ax0_shard0_i_m512_n256_v7x_i32_f32_1_alg».proof.Proof.Gen.KernelIdeal.Launch
import proofs.«900483_g7700000000000484_dist_sum_ax0_shard0_i_m512_n256_v7x_i32_f32_1_alg».proof.Proof.Gen.KernelIdeal.Points
import Idealize.ShloMosaic.Lib.Pipeline.Launch
import Idealize.ShloMosaic.Lib.Pipeline.Kit
import Idealize.ShloMosaic.Lib.Tactic

/-!
# The protocol

Per device there are 63 semaphore cells: the barrier semaphore, 31 send semaphores and 31 receive semaphores.

* The barrier cell of device `c` has one round of 31 duties of one unit. Duty `d` is paid by `peer c d`
  (its signal number `rev d`), and hands `c` slot `d` of `peer c d`'s receive buffer, at some contents, with
  the fact that `peer c d` is at round 0 of its receive cell `d`: what `c`'s copy `d` needs.
* Receive cell `i` of device `c` has one duty, paid by the copy `src c i` addresses to `c`. It hands `c` its own
  slot `i`, now holding `src c i`'s row sum.
* Send cell `i` of device `c` has one duty, paid by `c`'s own copy `i` once its source is read. It hands back
  the share of the send buffer the copy borrowed.

A device's send buffer is the source of 31 copies in flight at once and is loaded while they fly, so it is held
in 32 shares: one kept, 31 lent.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, slots and cells -/

abbrev xM : Memref sig .tc .vmem S512x256 .f32 := Memref.whole cc0_stg0_0
abbrev oM : Memref sig .tc .vmem S1x256 .f32 := Memref.whole cc0_stg1_0
/-- The send buffer: this device's row sum. -/
abbrev sM : Memref sig .tc .vmem S1x256 .f32 := Memref.whole cc0_scratch0
/-- The receive buffer: 31 rows, one per peer. -/
abbrev rM : Memref sig .tc .vmem S31x1x256 .f32 := Memref.whole cc0_scratch1

theorem slot_inb (i : Fin 31) : ∀ a, (![i.val, 0, 0] : Fin 3 → Nat) a + S1x1x256.size a ≤ S31x1x256.size a := by
  intro a
  have := i.isLt
  match a with
  | ⟨0, _⟩ => show i.val + 1 ≤ 31; omega
  | ⟨1, _⟩ => show 0 + 1 ≤ 1; omega
  | ⟨2, _⟩ => show 0 + 256 ≤ 256; omega
theorem sem_inb (i : Fin 31) : ∀ a, (![i.val] : Fin 1 → Nat) a + S1.size a ≤ S31.size a := by
  intro a
  have := i.isLt
  match a with
  | ⟨0, _⟩ => show i.val + 1 ≤ 31; omega

/-- Row `i` of the receive buffer as a 1×256 memref. -/
def slotM (i : Fin 31) : Memref sig .tc .vmem S1x256 .f32 :=
  (rM.slice (Rect.unit (s := S31x1x256) ![i.val, 0, 0] S1x1x256.size (slot_inb i)) (fun _ => rfl)).squeeze S1x256 squeezes_S1x1x256_S1x256
/-- Send semaphore `i`. -/
def sendSem (i : Fin 31) : DmaSem sig := ((cc0_scratch2.slice (Rect.unit (s := S31) ![i.val] S1.size (sem_inb i))).squeeze S_ squeezes_S1_S_).sem
/-- Receive semaphore `i`. -/
def recvSem (i : Fin 31) : DmaSem sig := ((cc0_scratch3.slice (Rect.unit (s := S31) ![i.val] S1.size (sem_inb i))).squeeze S_ squeezes_S1_S_).sem

theorem nDmaSem_eq : sig.nDmaSem = 64 := rfl
theorem sendSem_val (i : Fin 31) : (sendSem i).val = 2 + i.val := by revert i; decide
theorem recvSem_val (i : Fin 31) : (recvSem i).val = 33 + i.val := by revert i; decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (i : Fin 31) : GSem nD τ sig := ((c : Thread nD τ), .dma (sendSem i))
abbrev recvCell (c : Dev nD) (i : Fin 31) : GSem nD τ sig := ((c : Thread nD τ), .dma (recvSem i))

/-- The credit of one landed row. -/
abbrev N1 : ℕ := (slotM 0).view.dmaCredit
theorem N1_pos : 0 < N1 := View.dmaCredit_pos _ (by decide)
theorem slot_credit (i : Fin 31) : (slotM i).view.dmaCredit = N1 := rfl

/-! ## Contents -/

/-- Device `c`'s block of the input, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Device `c`'s row sum: what it stores in its send buffer. -/
def sendVal (c : Dev nD) : (cc0_scratch0 : Ref sig .tc).ty.Contents (Elt F) := k0_pay1 (xblk m ρ c)

/-- Row `i` of `c`'s receive buffer overwritten with `src c i`'s row sum, over contents `fd` elsewhere: what the
    landing of `src c i`'s copy leaves. -/
def rowFill (c : Dev nD) (i : Fin 31) (fd : Buf (Elt F) ((slotM i).view.loc (c : Thread nD τ))) : Buf (Elt F) ((slotM i).view.loc (c : Thread nD τ)) :=
  View.write (Elt F) (slotM i).view fd (View.read (Elt F) (sM : Memref sig .tc .vmem S1x256 .f32).view (sendVal m ρ (src c i))) Finset.univ

/-- What device `c`'s receive buffer holds once every row has landed: each element is what the landing on its row left there. -/
def recvVal (c : Dev nD) : (cc0_scratch1 : Ref sig .tc).ty.Contents (Elt F) :=
  fun x => rowFill m ρ c (x 0) (fun _ => sendVal m ρ c (fun a => match a with | ⟨0, _⟩ => (0 : Fin 1) | ⟨1, _⟩ => (0 : Fin 256))) x

/-- The result on device `c`: its own row sum plus the sum of the rows received. -/
def outVal (c : Dev nD) : (cc0_stg1_0 : Ref sig .tc).ty.Contents (Elt F) := k0_pay2 (sendVal m ρ c) (recvVal m ρ c)

/-! ## Points-to assertions -/

/-- Row `i` of `c`'s receive buffer, whole, at contents `f`. -/
def slotPts (c : Dev nD) (i : Fin 31) (f : Buf (Elt F) ((slotM i).view.loc (c : Thread nD τ))) : sProp 𝕄 :=
  (slotM i).view.loc (c : Thread nD τ) ↦[(slotM i).view.set]{fullShare} f
/-- Share `i` of `c`'s send buffer at its row sum. -/
def sendTokPts (c : Dev nD) (i : Fin 31) : sProp 𝕄 :=
  (sM : Memref sig .tc .vmem S1x256 .f32).view.loc (c : Thread nD τ) ↦[(sM : Memref sig .tc .vmem S1x256 .f32).view.set]{Transfers.shareTok fullShare 31 i} sendVal m ρ c

instance slotPts_storable (c : Dev nD) (i : Fin 31) (f) : BI.Storable (upEmb : UEmb _ 𝕄) (slotPts (F := F) c i f) := by unfold slotPts; infer_instance
instance sendTokPts_storable (c : Dev nD) (i : Fin 31) : BI.Storable (upEmb : UEmb _ 𝕄) (sendTokPts (F := F) m ρ c i) := by unfold sendTokPts; infer_instance

/-! ## The schedule -/

/-- What `peer c d`'s signal hands `c`. -/
def barPay (c : Dev nD) (d : Fin 31) : sProp 𝕄 := iprop((∃ f, slotPts (peer c d) d f) ∗ reached ER (recvCell (peer c d) d) 0)
/-- What the landing of `src c i`'s copy hands `c`: its row `i`, whatever it held, overwritten with `src c i`'s row sum. -/
def recvPay (c : Dev nD) (i : Fin 31) : sProp 𝕄 :=
  iprop(∃ fd : Buf (Elt F) ((slotM i).view.loc (c : Thread nD τ)),
    (slotM i).view.loc (c : Thread nD τ) ↦[(slotM i).view.set]{fullShare}
      View.write (Elt F) (slotM i).view fd (View.read (Elt F) (sM : Memref sig .tc .vmem S1x256 .f32).view (sendVal m ρ (src c i))) Finset.univ)
/-- What the departure of `c`'s copy `i` hands back. -/
def sendPay (c : Dev nD) (i : Fin 31) : sProp 𝕄 := sendTokPts m ρ c i

/-- Which of the protocol's DMA cells a semaphore is. -/
def isXfer : SemLoc sig → Bool
  | .dma q => decide (2 ≤ q.val)
  | .reg _ => false

def xferPay (c : Dev nD) : SemLoc sig → sProp 𝕄
  | .dma q =>
    if h : 33 ≤ q.val then recvPay m ρ c ⟨q.val - 33, by have : q.val < 64 := q.isLt; omega⟩
    else if h2 : 2 ≤ q.val then sendPay m ρ c ⟨q.val - 2, by omega⟩
    else iprop(emp)
  | .reg _ => iprop(emp)

/-- One round per cell. -/
def sched : Rounds.Schedule (GSem nD τ sig) (Fin 31) 𝕄 where
  duties g r := if r = 0 ∧ g.1.2 = .tc ∧ g.2 = .reg barS then Finset.univ else if r = 0 ∧ g.1.2 = .tc ∧ isXfer g.2 = true then {0} else ∅
  unitless _ := False
  amount g _ _ := if g.2 = .reg barS then 1 else N1
  payload g _ d := if g.2 = .reg barS then barPay g.1.1 d else xferPay m ρ g.1.1 g.2
  amount_pos g _ _ _ := by
    by_cases h : g.2 = .reg barS
    · rw [if_pos h]; exact Nat.one_pos
    · rw [if_neg h]; exact N1_pos

instance barPay_storable (c : Dev nD) (d : Fin 31) : BI.Storable (upEmb : UEmb _ 𝕄) (barPay (F := F) c d) := by unfold barPay; infer_instance
instance recvPay_storable (c : Dev nD) (i : Fin 31) : BI.Storable (upEmb : UEmb _ 𝕄) (recvPay (F := F) m ρ c i) := by unfold recvPay; infer_instance
instance sendPay_storable (c : Dev nD) (i : Fin 31) : BI.Storable (upEmb : UEmb _ 𝕄) (sendPay (F := F) m ρ c i) := sendTokPts_storable m ρ c i

instance xferPay_storable (c : Dev nD) (s : SemLoc sig) : BI.Storable (upEmb : UEmb _ 𝕄) (xferPay (F := F) m ρ c s) := by
  cases s with
  | reg _ => show BI.Storable upEmb (iprop(emp) : sProp 𝕄); infer_instance
  | dma q =>
    show BI.Storable upEmb (if h : 33 ≤ q.val then recvPay m ρ c ⟨q.val - 33, _⟩ else if h2 : 2 ≤ q.val then sendPay m ρ c ⟨q.val - 2, _⟩ else iprop(emp))
    split
    · exact recvPay_storable m ρ c _
    · split
      · exact sendPay_storable m ρ c _
      · infer_instance

instance sched_payload_storable (g : GSem nD τ sig) (r : ℕ) (d : Fin 31) :
    BI.Storable (upEmb : UEmb _ 𝕄) ((sched (F := F) m ρ).payload g r d) := by
  show BI.Storable upEmb (if g.2 = .reg barS then barPay g.1.1 d else xferPay m ρ g.1.1 g.2)
  split
  · exact barPay_storable g.1.1 d
  · exact xferPay_storable m ρ g.1.1 g.2

section Tables
variable (c : Dev nD) (i : Fin 31)

theorem dma_ne_bar (q : DmaSem sig) : (SemLoc.dma q : SemLoc sig) ≠ .reg barS := fun h => by cases h
theorem isXfer_send : isXfer (.dma (sendSem i) : SemLoc sig) = true := by
  show decide (2 ≤ (sendSem i).val) = true; rw [sendSem_val]; exact decide_eq_true (by omega)
theorem isXfer_recv : isXfer (.dma (recvSem i) : SemLoc sig) = true := by
  show decide (2 ≤ (recvSem i).val) = true; rw [recvSem_val]; exact decide_eq_true (by omega)

theorem duties_bar : (sched (F := F) m ρ).duties (barCell c) 0 = Finset.univ := by dsimp only [sched]; exact if_pos ⟨rfl, rfl, rfl⟩
theorem duties_send : (sched (F := F) m ρ).duties (sendCell c i) 0 = {0} := by
  dsimp only [sched]; rw [if_neg (fun h => dma_ne_bar _ h.2.2)]; exact if_pos ⟨rfl, rfl, isXfer_send i⟩
theorem duties_recv : (sched (F := F) m ρ).duties (recvCell c i) 0 = {0} := by
  dsimp only [sched]; rw [if_neg (fun h => dma_ne_bar _ h.2.2)]; exact if_pos ⟨rfl, rfl, isXfer_recv i⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 31) : (sched (F := F) m ρ).amount (barCell c) 0 d = 1 := by dsimp only [sched]; exact if_pos rfl
theorem amount_send (d : Fin 31) : (sched (F := F) m ρ).amount (sendCell c i) 0 d = N1 := by dsimp only [sched]; exact if_neg (dma_ne_bar _)
theorem amount_recv (d : Fin 31) : (sched (F := F) m ρ).amount (recvCell c i) 0 d = N1 := by dsimp only [sched]; exact if_neg (dma_ne_bar _)

theorem expect_bar : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c i) 0 = N1 := by
  unfold Schedule.expect Schedule.amountOf; rw [duties_send, Finset.sum_singleton, amount_send]
theorem expect_recv : (sched (F := F) m ρ).expect (recvCell c i) 0 = N1 := by
  unfold Schedule.expect Schedule.amountOf; rw [duties_recv, Finset.sum_singleton, amount_recv]

theorem payload_bar (d : Fin 31) : (sched (F := F) m ρ).payload (barCell c) 0 d = barPay c d := by dsimp only [sched]; rw [if_pos rfl]
theorem payload_recv (d : Fin 31) : (sched (F := F) m ρ).payload (recvCell c i) 0 d = recvPay m ρ c i := by
  dsimp only [sched]; rw [if_neg (dma_ne_bar _)]
  show (if h : 33 ≤ (recvSem i).val then recvPay m ρ c ⟨(recvSem i).val - 33, _⟩ else _) = _
  rw [dif_pos (by rw [recvSem_val]; omega)]
  congr 1; exact Fin.ext (by show (recvSem i).val - 33 = i.val; rw [recvSem_val]; omega)
theorem payload_send (d : Fin 31) : (sched (F := F) m ρ).payload (sendCell c i) 0 d = sendPay m ρ c i := by
  dsimp only [sched]; rw [if_neg (dma_ne_bar _)]
  show (if h : 33 ≤ (sendSem i).val then _ else if h2 : 2 ≤ (sendSem i).val then sendPay m ρ c ⟨(sendSem i).val - 2, _⟩ else _) = _
  rw [dif_neg (by rw [sendSem_val]; have := i.isLt; omega), dif_pos (by rw [sendSem_val]; omega)]
  congr 1; exact Fin.ext (by show (sendSem i).val - 2 = i.val; rw [sendSem_val]; omega)

end Tables

end Cert.KernelIdeal.Coll

end
-- ==== Proof.KernelIdeal.Tables.lean ====
import proofs.«900483_g7700000000000484_dist_sum_ax0_shard0_i_m512_n256_v7x_i32_f32_1_alg».proof.Proof.KernelIdeal.Sched

/-!
# The schedule's tables, spelt out

What each duty hands over, as the points-to assertions themselves, with `peer (peer c s) (rev s) = c` already
resolved, at each literal index; a conjunction over the 31 indices written out; and the program's spelling of a
device, a row or a semaphore equated with this proof's name for it.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads, raw -/

theorem payload_recv_raw (c : Dev nD) (i d : Fin 31) :
    (sched (F := F) m ρ).payload (recvCell c i) 0 d
      = (iprop(∃ fd : Buf (Elt F) ((slotM i).view.loc (c : Thread nD τ)),
          (slotM i).view.loc (c : Thread nD τ) ↦[(slotM i).view.set]{fullShare}
            View.write (Elt F) (slotM i).view fd (View.read (Elt F) (sM : Memref sig .tc .vmem S1x256 .f32).view (sendVal m ρ (src c i))) Finset.univ) : sProp 𝕄) :=
  payload_recv m ρ c i d

/-- Device `c`'s copy `i` pays the one duty of `peer c i`'s receive cell `i`: row `i` there, overwritten with `c`'s row sum. -/
theorem payload_recv_peer (c : Dev nD) (i d : Fin 31) :
    (sched (F := F) m ρ).payload (recvCell (peer c i) i) 0 d
      = (iprop(∃ fd : Buf (Elt F) ((slotM i).view.loc (peer c i : Thread nD τ)),
          (slotM i).view.loc (peer c i : Thread nD τ) ↦[(slotM i).view.set]{fullShare}
            View.write (Elt F) (slotM i).view fd (View.read (Elt F) (sM : Memref sig .tc .vmem S1x256 .f32).view (sendVal m ρ c)) Finset.univ) : sProp 𝕄) := by
  rw [payload_recv_raw, src_peer]

theorem payload_send_raw (c : Dev nD) (i d : Fin 31) :
    (sched (F := F) m ρ).payload (sendCell c i) 0 d
      = ((sM : Memref sig .tc .vmem S1x256 .f32).view.loc (c : Thread nD τ) ↦[(sM : Memref sig .tc .vmem S1x256 .f32).view.set]{Transfers.shareTok fullShare 31 i} sendVal m ρ c : sProp 𝕄) :=
  payload_send m ρ c i d

/-- Device `c`'s signal `s` pays duty `rev s` of `peer c s`'s barrier cell: it hands over `c`'s own slot `rev s`. -/
theorem payload_bar_sig (c : Dev nD) (s : Fin 31) :
    (sched (F := F) m ρ).payload (barCell (peer c s)) 0 (rev s)
      = (iprop((∃ f, (slotM (rev s)).view.loc (c : Thread nD τ) ↦[(slotM (rev s)).view.set]{fullShare} f) ∗ reached ER (recvCell c (rev s)) 0) : sProp 𝕄) := by
  rw [payload_bar]; unfold barPay slotPts
  have h := peer_peer_rev c s
  generalize peer (peer c s) (rev s) = x at h ⊢
  subst h; rfl

theorem payload_bar_sig_0 (c : Dev nD) :
    (sched (F := F) m ρ).payload (barCell (peer c 0)) 0 30
      = (iprop((∃ f, (slotM 30).view.loc (c : Thread nD τ) ↦[(slotM 30).view.set]{fullShare} f) ∗ reached ER (recvCell c 30) 0) : sProp 𝕄) :=
  payload_bar_sig m ρ c 0
theorem payload_bar_sig_1 (c : Dev nD) :
    (sched (F := F) m ρ).payload (barCell (peer c 1)) 0 29
      = (iprop((∃ f, (slotM 29).view.loc (c : Thread nD τ) ↦[(slotM 29).view.set]{fullShare} f) ∗ reached ER (recvCell c 29) 0) : sProp 𝕄) :=
  payload_bar_sig m ρ c 1
theorem payload_bar_sig_2 (c : Dev nD) :
    (sched (F := F) m ρ).payload (barCell (peer c 2)) 0 28
      = (iprop((∃ f, (slotM 28).view.loc (c : Thread nD τ) ↦[(slotM 28).view.set]{fullShare} f) ∗ reached ER (recvCell c 28) 0) : sProp 𝕄) :=
  payload_bar_sig m ρ c 2
theorem payload_bar_sig_3 (c : Dev nD) :
    (sched (F := F) m ρ).payload (barCell (peer c 3)) 0 27
      = (iprop((∃ f, (slotM 27).view.loc (c : Thread nD τ) ↦[(slotM 27).view.set]{fullShare} f) ∗ reached ER (recvCell c 27) 0) : sProp 𝕄) :=
  payload_bar_sig m ρ c 3
theorem payload_bar_sig_4 (c : Dev nD) :
    (sched (F := F) m ρ).payload (barCell (peer c 4)) 0 26
      = (iprop((∃ f, (slotM 26).view.loc (c : Thread nD τ) ↦[(slotM 26).view.set]{fullShare} f) ∗ reached ER (recvCell c 26) 0) : sProp 𝕄) :=
  payload_bar_sig m ρ c 4
theorem payload_bar_sig_5 (c : Dev nD) :
    (sched (F := F) m ρ).payload (barCell (peer c 5)) 0 25
      = (iprop((∃ f, (slotM 25).view.loc (c : Thread nD τ) ↦[(slotM 25).view.set]{fullShare} f) ∗ reached ER (recvCell c 25) 0) : sProp 𝕄) :=
  payload_bar_sig m ρ c 5
theorem payload_bar_sig_6 (c : Dev nD) :
    (sched (F := F) m ρ).payload (barCell (peer c 6)) 0 24
      = (iprop((∃ f, (slotM 24).view.loc (c : Thread nD τ) ↦[(slotM 24).view.set]{fullShare} f) ∗ reached ER (recvCell c 24) 0) : sProp 𝕄) :=
  payload_bar_sig m ρ c 6
theorem payload_bar_sig_7 (c : Dev nD) :
    (sched (F := F) m ρ).payload (barCell (peer c 7)) 0 23
      = (iprop((∃ f, (slotM 23).view.loc (c : Thread nD τ) ↦[(slotM 23).view.set]{fullShare} f) ∗ reached ER (recvCell c 23) 0) : sProp 𝕄) :=
  payload_bar_sig m ρ c 7
theorem payload_bar_sig_8 (c : Dev nD) :
    (sched (F := F) m ρ).payload (barCell (peer c 8)) 0 22
      = (iprop((∃ f, (slotM 22).view.loc (c : Thread nD τ) ↦[(slotM 22).view.set]{fullShare} f) ∗ reached ER (recvCell c 22) 0) : sProp 𝕄) :=
  payload_bar_sig m ρ c 8
theorem payload_bar_sig_9 (c : Dev nD) :
    (sched (F := F) m ρ).payload (barCell (peer c 9)) 0 21
      = (iprop((∃ f, (slotM 21).view.loc (c : Thread nD τ) ↦[(slotM 21).view.set]{fullShare} f) ∗ reached ER (recvCell c 21) 0) : sProp 𝕄) :=
  payload_bar_sig m ρ c 9
theorem payload_bar_sig_10 (c : Dev nD) :
    (sched (F := F) m ρ).payload (barCell (peer c 10)) 0 20
      = (iprop((∃ f, (slotM 20).view.loc (c : Thread nD τ) ↦[(slotM 20).view.set]{fullShare} f) ∗ reached ER (recvCell c 20) 0) : sProp 𝕄) :=
  payload_bar_sig m ρ c 10
theorem payload_bar_sig_11 (c : Dev nD) :
    (sched (F := F) m ρ).payload (barCell (peer c 11)) 0 19
      = (iprop((∃ f, (slotM 19).view.loc (c : Thread nD τ) ↦[(slotM 19).view.set]{fullShare} f) ∗ reached ER (recvCell c 19) 0) : sProp 𝕄) :=
  payload_bar_sig m ρ c 11
theorem payload_bar_sig_12 (c : Dev nD) :
    (sched (F := F) m ρ).payload (barCell (peer c 12)) 0 18
      = (iprop((∃ f, (slotM 18).view.loc (c : Thread nD τ) ↦[(slotM 18).view.set]{fullShare} f) ∗ reached ER (recvCell c 18) 0) : sProp 𝕄) :=
  payload_bar_sig m ρ c 12
theorem payload_bar_sig_13 (c : Dev nD) :
    (sched (F := F) m ρ).payload (barCell (peer c 13)) 0 17
      = (iprop((∃ f, (slotM 17).view.loc (c : Thread nD τ) ↦[(slotM 17).view.set]{fullShare} f) ∗ reached ER (recvCell c 17) 0) : sProp 𝕄) :=
  payload_bar_sig m ρ c 13
theorem payload_bar_sig_14 (c : Dev nD) :
    (sched (F := F) m ρ).payload (barCell (peer c 14)) 0 16
      = (iprop((∃ f, (slotM 16).view.loc (c : Thread nD τ) ↦[(slotM 16).view.set]{fullShare} f) ∗ reached ER (recvCell c 16) 0) : sProp 𝕄) :=
  payload_bar_sig m ρ c 14
theorem payload_bar_sig_15 (c : Dev nD) :
    (sched (F := F) m ρ).payload (barCell (peer c 15)) 0 15
      = (iprop((∃ f, (slotM 15).view.loc (c : Thread nD τ) ↦[(slotM 15).view.set]{fullShare} f) ∗ reached ER (recvCell c 15) 0) : sProp 𝕄) :=
  payload_bar_sig m ρ c 15
theorem payload_bar_sig_16 (c : Dev nD) :
    (sched (F := F) m ρ).payload (barCell (peer c 16)) 0 14
      = (iprop((∃ f, (slotM 14).view.loc (c : Thread nD τ) ↦[(slotM 14).view.set]{fullShare} f) ∗ reached ER (recvCell c 14) 0) : sProp 𝕄) :=
  payload_bar_sig m ρ c 16
theorem payload_bar_sig_17 (c : Dev nD) :
    (sched (F := F) m ρ).payload (barCell (peer c 17)) 0 13
      = (iprop((∃ f, (slotM 13).view.loc (c : Thread nD τ) ↦[(slotM 13).view.set]{fullShare} f) ∗ reached ER (recvCell c 13) 0) : sProp 𝕄) :=
  payload_bar_sig m ρ c 17
theorem payload_bar_sig_18 (c : Dev nD) :
    (sched (F := F) m ρ).payload (barCell (peer c 18)) 0 12
      = (iprop((∃ f, (slotM 12).view.loc (c : Thread nD τ) ↦[(slotM 12).view.set]{fullShare} f) ∗ reached ER (recvCell c 12) 0) : sProp 𝕄) :=
  payload_bar_sig m ρ c 18
theorem payload_bar_sig_19 (c : Dev nD) :
    (sched (F := F) m ρ).payload (barCell (peer c 19)) 0 11
      = (iprop((∃ f, (slotM 11).view.loc (c : Thread nD τ) ↦[(slotM 11).view.set]{fullShare} f) ∗ reached ER (recvCell c 11) 0) : sProp 𝕄) :=
  payload_bar_sig m ρ c 19
theorem payload_bar_sig_20 (c : Dev nD) :
    (sched (F := F) m ρ).payload (barCell (peer c 20)) 0 10
      = (iprop((∃ f, (slotM 10).view.loc (c : Thread nD τ) ↦[(slotM 10).view.set]{fullShare} f) ∗ reached ER (recvCell c 10) 0) : sProp 𝕄) :=
  payload_bar_sig m ρ c 20
theorem payload_bar_sig_21 (c : Dev nD) :
    (sched (F := F) m ρ).payload (barCell (peer c 21)) 0 9
      = (iprop((∃ f, (slotM 9).view.loc (c : Thread nD τ) ↦[(slotM 9).view.set]{fullShare} f) ∗ reached ER (recvCell c 9) 0) : sProp 𝕄) :=
  payload_bar_sig m ρ c 21
theorem payload_bar_sig_22 (c : Dev nD) :
    (sched (F := F) m ρ).payload (barCell (peer c 22)) 0 8
      = (iprop((∃ f, (slotM 8).view.loc (c : Thread nD τ) ↦[(slotM 8).view.set]{fullShare} f) ∗ reached ER (recvCell c 8) 0) : sProp 𝕄) :=
  payload_bar_sig m ρ c 22
theorem payload_bar_sig_23 (c : Dev nD) :
    (sched (F := F) m ρ).payload (barCell (peer c 23)) 0 7
      = (iprop((∃ f, (slotM 7).view.loc (c : Thread nD τ) ↦[(slotM 7).view.set]{fullShare} f) ∗ reached ER (recvCell c 7) 0) : sProp 𝕄) :=
  payload_bar_sig m ρ c 23
theorem payload_bar_sig_24 (c : Dev nD) :
    (sched (F := F) m ρ).payload (barCell (peer c 24)) 0 6
      = (iprop((∃ f, (slotM 6).view.loc (c : Thread nD τ) ↦[(slotM 6).view.set]{fullShare} f) ∗ reached ER (recvCell c 6) 0) : sProp 𝕄) :=
  payload_bar_sig m ρ c 24
theorem payload_bar_sig_25 (c : Dev nD) :
    (sched (F := F) m ρ).payload (barCell (peer c 25)) 0 5
      = (iprop((∃ f, (slotM 5).view.loc (c : Thread nD τ) ↦[(slotM 5).view.set]{fullShare} f) ∗ reached ER (recvCell c 5) 0) : sProp 𝕄) :=
  payload_bar_sig m ρ c 25
theorem payload_bar_sig_26 (c : Dev nD) :
    (sched (F := F) m ρ).payload (barCell (peer c 26)) 0 4
      = (iprop((∃ f, (slotM 4).view.loc (c : Thread nD τ) ↦[(slotM 4).view.set]{fullShare} f) ∗ reached ER (recvCell c 4) 0) : sProp 𝕄) :=
  payload_bar_sig m ρ c 26
theorem payload_bar_sig_27 (c : Dev nD) :
    (sched (F := F) m ρ).payload (barCell (peer c 27)) 0 3
      = (iprop((∃ f, (slotM 3).view.loc (c : Thread nD τ) ↦[(slotM 3).view.set]{fullShare} f) ∗ reached ER (recvCell c 3) 0) : sProp 𝕄) :=
  payload_bar_sig m ρ c 27
theorem payload_bar_sig_28 (c : Dev nD) :
    (sched (F := F) m ρ).payload (barCell (peer c 28)) 0 2
      = (iprop((∃ f, (slotM 2).view.loc (c : Thread nD τ) ↦[(slotM 2).view.set]{fullShare} f) ∗ reached ER (recvCell c 2) 0) : sProp 𝕄) :=
  payload_bar_sig m ρ c 28
theorem payload_bar_sig_29 (c : Dev nD) :
    (sched (F := F) m ρ).payload (barCell (peer c 29)) 0 1
      = (iprop((∃ f, (slotM 1).view.loc (c : Thread nD τ) ↦[(slotM 1).view.set]{fullShare} f) ∗ reached ER (recvCell c 1) 0) : sProp 𝕄) :=
  payload_bar_sig m ρ c 29
theorem payload_bar_sig_30 (c : Dev nD) :
    (sched (F := F) m ρ).payload (barCell (peer c 30)) 0 0
      = (iprop((∃ f, (slotM 0).view.loc (c : Thread nD τ) ↦[(slotM 0).view.set]{fullShare} f) ∗ reached ER (recvCell c 0) 0) : sProp 𝕄) :=
  payload_bar_sig m ρ c 30

/-! ## A conjunction over the 31 indices, written out -/

theorem bigSep_fin31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

theorem bigSep_fin31_rev (Φ : Fin 31 → sProp 𝕄) :
    bigSep Finset.univ Φ = iprop(Φ 30 ∗ Φ 29 ∗ Φ 28 ∗ Φ 27 ∗ Φ 26 ∗ Φ 25 ∗ Φ 24 ∗ Φ 23 ∗ Φ 22 ∗ Φ 21 ∗ Φ 20 ∗ Φ 19 ∗ Φ 18 ∗ Φ 17 ∗ Φ 16 ∗ Φ 15 ∗ Φ 14 ∗ Φ 13 ∗ Φ 12 ∗ Φ 11 ∗ Φ 10 ∗ Φ 9 ∗ Φ 8 ∗ Φ 7 ∗ Φ 6 ∗ Φ 5 ∗ Φ 4 ∗ Φ 3 ∗ Φ 2 ∗ Φ 1 ∗ Φ 0) :=
  bigSep_univ_eq_bigSepL [30, 29, 28, 27, 26, 25, 24, 23, 22, 21, 20, 19, 18, 17, 16, 15, 14, 13, 12, 11, 10, 9, 8, 7, 6, 5, 4, 3, 2, 1, 0] (by decide) (by decide) Φ

theorem rev_0 : rev 0 = 30 := by decide
theorem rev_1 : rev 1 = 29 := by decide
theorem rev_2 : rev 2 = 28 := by decide
theorem rev_3 : rev 3 = 27 := by decide
theorem rev_4 : rev 4 = 26 := by decide
theorem rev_5 : rev 5 = 25 := by decide
theorem rev_6 : rev 6 = 24 := by decide
theorem rev_7 : rev 7 = 23 := by decide
theorem rev_8 : rev 8 = 22 := by decide
theorem rev_9 : rev 9 = 21 := by decide
theorem rev_10 : rev 10 = 20 := by decide
theorem rev_11 : rev 11 = 19 := by decide
theorem rev_12 : rev 12 = 18 := by decide
theorem rev_13 : rev 13 = 17 := by decide
theorem rev_14 : rev 14 = 16 := by decide
theorem rev_15 : rev 15 = 15 := by decide
theorem rev_16 : rev 16 = 14 := by decide
theorem rev_17 : rev 17 = 13 := by decide
theorem rev_18 : rev 18 = 12 := by decide
theorem rev_19 : rev 19 = 11 := by decide
theorem rev_20 : rev 20 = 10 := by decide
theorem rev_21 : rev 21 = 9 := by decide
theorem rev_22 : rev 22 = 8 := by decide
theorem rev_23 : rev 23 = 7 := by decide
theorem rev_24 : rev 24 = 6 := by decide
theorem rev_25 : rev 25 = 5 := by decide
theorem rev_26 : rev 26 = 4 := by decide
theorem rev_27 : rev 27 = 3 := by decide
theorem rev_28 : rev 28 = 2 := by decide
theorem rev_29 : rev 29 = 1 := by decide
theorem rev_30 : rev 30 = 0 := by decide

/-- What the barrier wait hands device `c`: from each peer, the peer's row for `c` and that the peer is at round 0 of the
    matching receive cell. -/
def barRest (c : Dev nD) : sProp 𝕄 :=
  iprop(((∃ f, (slotM 0).view.loc (peer c 0 : Thread nD τ) ↦[(slotM 0).view.set]{fullShare} f) ∗ reached ER (recvCell (peer c 0) 0) 0)
    ∗ ((∃ f, (slotM 1).view.loc (peer c 1 : Thread nD τ) ↦[(slotM 1).view.set]{fullShare} f) ∗ reached ER (recvCell (peer c 1) 1) 0)
    ∗ ((∃ f, (slotM 2).view.loc (peer c 2 : Thread nD τ) ↦[(slotM 2).view.set]{fullShare} f) ∗ reached ER (recvCell (peer c 2) 2) 0)
    ∗ ((∃ f, (slotM 3).view.loc (peer c 3 : Thread nD τ) ↦[(slotM 3).view.set]{fullShare} f) ∗ reached ER (recvCell (peer c 3) 3) 0)
    ∗ ((∃ f, (slotM 4).view.loc (peer c 4 : Thread nD τ) ↦[(slotM 4).view.set]{fullShare} f) ∗ reached ER (recvCell (peer c 4) 4) 0)
    ∗ ((∃ f, (slotM 5).view.loc (peer c 5 : Thread nD τ) ↦[(slotM 5).view.set]{fullShare} f) ∗ reached ER (recvCell (peer c 5) 5) 0)
    ∗ ((∃ f, (slotM 6).view.loc (peer c 6 : Thread nD τ) ↦[(slotM 6).view.set]{fullShare} f) ∗ reached ER (recvCell (peer c 6) 6) 0)
    ∗ ((∃ f, (slotM 7).view.loc (peer c 7 : Thread nD τ) ↦[(slotM 7).view.set]{fullShare} f) ∗ reached ER (recvCell (peer c 7) 7) 0)
    ∗ ((∃ f, (slotM 8).view.loc (peer c 8 : Thread nD τ) ↦[(slotM 8).view.set]{fullShare} f) ∗ reached ER (recvCell (peer c 8) 8) 0)
    ∗ ((∃ f, (slotM 9).view.loc (peer c 9 : Thread nD τ) ↦[(slotM 9).view.set]{fullShare} f) ∗ reached ER (recvCell (peer c 9) 9) 0)
    ∗ ((∃ f, (slotM 10).view.loc (peer c 10 : Thread nD τ) ↦[(slotM 10).view.set]{fullShare} f) ∗ reached ER (recvCell (peer c 10) 10) 0)
    ∗ ((∃ f, (slotM 11).view.loc (peer c 11 : Thread nD τ) ↦[(slotM 11).view.set]{fullShare} f) ∗ reached ER (recvCell (peer c 11) 11) 0)
    ∗ ((∃ f, (slotM 12).view.loc (peer c 12 : Thread nD τ) ↦[(slotM 12).view.set]{fullShare} f) ∗ reached ER (recvCell (peer c 12) 12) 0)
    ∗ ((∃ f, (slotM 13).view.loc (peer c 13 : Thread nD τ) ↦[(slotM 13).view.set]{fullShare} f) ∗ reached ER (recvCell (peer c 13) 13) 0)
    ∗ ((∃ f, (slotM 14).view.loc (peer c 14 : Thread nD τ) ↦[(slotM 14).view.set]{fullShare} f) ∗ reached ER (recvCell (peer c 14) 14) 0)
    ∗ ((∃ f, (slotM 15).view.loc (peer c 15 : Thread nD τ) ↦[(slotM 15).view.set]{fullShare} f) ∗ reached ER (recvCell (peer c 15) 15) 0)
    ∗ ((∃ f, (slotM 16).view.loc (peer c 16 : Thread nD τ) ↦[(slotM 16).view.set]{fullShare} f) ∗ reached ER (recvCell (peer c 16) 16) 0)
    ∗ ((∃ f, (slotM 17).view.loc (peer c 17 : Thread nD τ) ↦[(slotM 17).view.set]{fullShare} f) ∗ reached ER (recvCell (peer c 17) 17) 0)
    ∗ ((∃ f, (slotM 18).view.loc (peer c 18 : Thread nD τ) ↦[(slotM 18).view.set]{fullShare} f) ∗ reached ER (recvCell (peer c 18) 18) 0)
    ∗ ((∃ f, (slotM 19).view.loc (peer c 19 : Thread nD τ) ↦[(slotM 19).view.set]{fullShare} f) ∗ reached ER (recvCell (peer c 19) 19) 0)
    ∗ ((∃ f, (slotM 20).view.loc (peer c 20 : Thread nD τ) ↦[(slotM 20).view.set]{fullShare} f) ∗ reached ER (recvCell (peer c 20) 20) 0)
    ∗ ((∃ f, (slotM 21).view.loc (peer c 21 : Thread nD τ) ↦[(slotM 21).view.set]{fullShare} f) ∗ reached ER (recvCell (peer c 21) 21) 0)
    ∗ ((∃ f, (slotM 22).view.loc (peer c 22 : Thread nD τ) ↦[(slotM 22).view.set]{fullShare} f) ∗ reached ER (recvCell (peer c 22) 22) 0)
    ∗ ((∃ f, (slotM 23).view.loc (peer c 23 : Thread nD τ) ↦[(slotM 23).view.set]{fullShare} f) ∗ reached ER (recvCell (peer c 23) 23) 0)
    ∗ ((∃ f, (slotM 24).view.loc (peer c 24 : Thread nD τ) ↦[(slotM 24).view.set]{fullShare} f) ∗ reached ER (recvCell (peer c 24) 24) 0)
    ∗ ((∃ f, (slotM 25).view.loc (peer c 25 : Thread nD τ) ↦[(slotM 25).view.set]{fullShare} f) ∗ reached ER (recvCell (peer c 25) 25) 0)
    ∗ ((∃ f, (slotM 26).view.loc (peer c 26 : Thread nD τ) ↦[(slotM 26).view.set]{fullShare} f) ∗ reached ER (recvCell (peer c 26) 26) 0)
    ∗ ((∃ f, (slotM 27).view.loc (peer c 27 : Thread nD τ) ↦[(slotM 27).view.set]{fullShare} f) ∗ reached ER (recvCell (peer c 27) 27) 0)
    ∗ ((∃ f, (slotM 28).view.loc (peer c 28 : Thread nD τ) ↦[(slotM 28).view.set]{fullShare} f) ∗ reached ER (recvCell (peer c 28) 28) 0)
    ∗ ((∃ f, (slotM 29).view.loc (peer c 29 : Thread nD τ) ↦[(slotM 29).view.set]{fullShare} f) ∗ reached ER (recvCell (peer c 29) 29) 0)
    ∗ ((∃ f, (slotM 30).view.loc (peer c 30 : Thread nD τ) ↦[(slotM 30).view.set]{fullShare} f) ∗ reached ER (recvCell (peer c 30) 30) 0))

theorem rest_bar_univ (c : Dev nD) :
    bigSep Finset.univ (fun d => (sched (F := F) m ρ).payload (barCell c) 0 d) = barRest (F := F) c := by
  rw [bigSep_fin31]; simp only [payload_bar]; rfl
theorem rest_bar_sdiff (c : Dev nD) :
    bigSep (Finset.univ \ ∅) (fun d => (sched (F := F) m ρ).payload (barCell c) 0 d) = barRest (F := F) c := by
  rw [Finset.sdiff_empty]; exact rest_bar_univ m ρ c
theorem rest_bar (c : Dev nD) :
    bigSep ((sched (F := F) m ρ).duties (barCell c) 0 \ ∅) (fun d => (sched (F := F) m ρ).payload (barCell c) 0 d) = barRest (F := F) c := by
  rw [duties_bar]; exact rest_bar_sdiff m ρ c

/-! ## The program's spellings -/

theorem slot_canon_0 : ((Memref.whole cc0_scratch1 : Memref sig .tc .vmem S31x1x256 .f32).slice (Rect.unit (s := S31x1x256) ![0, 0, 0] S1x1x256.size inb_S31x1x256_S1x1x256_0_0_0) (fun _ => rfl)).squeeze S1x256 squeezes_S1x1x256_S1x256 = slotM 0 := id rfl
theorem sendSem_canon_0 : ((cc0_scratch2.slice (Rect.unit (s := S31) ![0] S1.size inb_S31_S1_0)).squeeze S_ squeezes_S1_S_).sem = sendSem 0 := id rfl
theorem recvSem_canon_0 : ((cc0_scratch3.slice (Rect.unit (s := S31) ![0] S1.size inb_S31_S1_0)).squeeze S_ squeezes_S1_S_).sem = recvSem 0 := id rfl
theorem slot_canon_1 : ((Memref.whole cc0_scratch1 : Memref sig .tc .vmem S31x1x256 .f32).slice (Rect.unit (s := S31x1x256) ![1, 0, 0] S1x1x256.size inb_S31x1x256_S1x1x256_1_0_0) (fun _ => rfl)).squeeze S1x256 squeezes_S1x1x256_S1x256 = slotM 1 := id rfl
theorem sendSem_canon_1 : ((cc0_scratch2.slice (Rect.unit (s := S31) ![1] S1.size inb_S31_S1_1)).squeeze S_ squeezes_S1_S_).sem = sendSem 1 := id rfl
theorem recvSem_canon_1 : ((cc0_scratch3.slice (Rect.unit (s := S31) ![1] S1.size inb_S31_S1_1)).squeeze S_ squeezes_S1_S_).sem = recvSem 1 := id rfl
theorem slot_canon_2 : ((Memref.whole cc0_scratch1 : Memref sig .tc .vmem S31x1x256 .f32).slice (Rect.unit (s := S31x1x256) ![2, 0, 0] S1x1x256.size inb_S31x1x256_S1x1x256_2_0_0) (fun _ => rfl)).squeeze S1x256 squeezes_S1x1x256_S1x256 = slotM 2 := id rfl
theorem sendSem_canon_2 : ((cc0_scratch2.slice (Rect.unit (s := S31) ![2] S1.size inb_S31_S1_2)).squeeze S_ squeezes_S1_S_).sem = sendSem 2 := id rfl
theorem recvSem_canon_2 : ((cc0_scratch3.slice (Rect.unit (s := S31) ![2] S1.size inb_S31_S1_2)).squeeze S_ squeezes_S1_S_).sem = recvSem 2 := id rfl
theorem slot_canon_3 : ((Memref.whole cc0_scratch1 : Memref sig .tc .vmem S31x1x256 .f32).slice (Rect.unit (s := S31x1x256) ![3, 0, 0] S1x1x256.size inb_S31x1x256_S1x1x256_3_0_0) (fun _ => rfl)).squeeze S1x256 squeezes_S1x1x256_S1x256 = slotM 3 := id rfl
theorem sendSem_canon_3 : ((cc0_scratch2.slice (Rect.unit (s := S31) ![3] S1.size inb_S31_S1_3)).squeeze S_ squeezes_S1_S_).sem = sendSem 3 := id rfl
theorem recvSem_canon_3 : ((cc0_scratch3.slice (Rect.unit (s := S31) ![3] S1.size inb_S31_S1_3)).squeeze S_ squeezes_S1_S_).sem = recvSem 3 := id rfl
theorem slot_canon_4 : ((Memref.whole cc0_scratch1 : Memref sig .tc .vmem S31x1x256 .f32).slice (Rect.unit (s := S31x1x256) ![4, 0, 0] S1x1x256.size inb_S31x1x256_S1x1x256_4_0_0) (fun _ => rfl)).squeeze S1x256 squeezes_S1x1x256_S1x256 = slotM 4 := id rfl
theorem sendSem_canon_4 : ((cc0_scratch2.slice (Rect.unit (s := S31) ![4] S1.size inb_S31_S1_4)).squeeze S_ squeezes_S1_S_).sem = sendSem 4 := id rfl
theorem recvSem_canon_4 : ((cc0_scratch3.slice (Rect.unit (s := S31) ![4] S1.size inb_S31_S1_4)).squeeze S_ squeezes_S1_S_).sem = recvSem 4 := id rfl
theorem slot_canon_5 : ((Memref.whole cc0_scratch1 : Memref sig .tc .vmem S31x1x256 .f32).slice (Rect.unit (s := S31x1x256) ![5, 0, 0] S1x1x256.size inb_S31x1x256_S1x1x256_5_0_0) (fun _ => rfl)).squeeze S1x256 squeezes_S1x1x256_S1x256 = slotM 5 := id rfl
theorem sendSem_canon_5 : ((cc0_scratch2.slice (Rect.unit (s := S31) ![5] S1.size inb_S31_S1_5)).squeeze S_ squeezes_S1_S_).sem = sendSem 5 := id rfl
theorem recvSem_canon_5 : ((cc0_scratch3.slice (Rect.unit (s := S31) ![5] S1.size inb_S31_S1_5)).squeeze S_ squeezes_S1_S_).sem = recvSem 5 := id rfl
theorem slot_canon_6 : ((Memref.whole cc0_scratch1 : Memref sig .tc .vmem S31x1x256 .f32).slice (Rect.unit (s := S31x1x256) ![6, 0, 0] S1x1x256.size inb_S31x1x256_S1x1x256_6_0_0) (fun _ => rfl)).squeeze S1x256 squeezes_S1x1x256_S1x256 = slotM 6 := id rfl
theorem sendSem_canon_6 : ((cc0_scratch2.slice (Rect.unit (s := S31) ![6] S1.size inb_S31_S1_6)).squeeze S_ squeezes_S1_S_).sem = sendSem 6 := id rfl
theorem recvSem_canon_6 : ((cc0_scratch3.slice (Rect.unit (s := S31) ![6] S1.size inb_S31_S1_6)).squeeze S_ squeezes_S1_S_).sem = recvSem 6 := id rfl
theorem slot_canon_7 : ((Memref.whole cc0_scratch1 : Memref sig .tc .vmem S31x1x256 .f32).slice (Rect.unit (s := S31x1x256) ![7, 0, 0] S1x1x256.size inb_S31x1x256_S1x1x256_7_0_0) (fun _ => rfl)).squeeze S1x256 squeezes_S1x1x256_S1x256 = slotM 7 := id rfl
theorem sendSem_canon_7 : ((cc0_scratch2.slice (Rect.unit (s := S31) ![7] S1.size inb_S31_S1_7)).squeeze S_ squeezes_S1_S_).sem = sendSem 7 := id rfl
theorem recvSem_canon_7 : ((cc0_scratch3.slice (Rect.unit (s := S31) ![7] S1.size inb_S31_S1_7)).squeeze S_ squeezes_S1_S_).sem = recvSem 7 := id rfl
theorem slot_canon_8 : ((Memref.whole cc0_scratch1 : Memref sig .tc .vmem S31x1x256 .f32).slice (Rect.unit (s := S31x1x256) ![8, 0, 0] S1x1x256.size inb_S31x1x256_S1x1x256_8_0_0) (fun _ => rfl)).squeeze S1x256 squeezes_S1x1x256_S1x256 = slotM 8 := id rfl
theorem sendSem_canon_8 : ((cc0_scratch2.slice (Rect.unit (s := S31) ![8] S1.size inb_S31_S1_8)).squeeze S_ squeezes_S1_S_).sem = sendSem 8 := id rfl
theorem recvSem_canon_8 : ((cc0_scratch3.slice (Rect.unit (s := S31) ![8] S1.size inb_S31_S1_8)).squeeze S_ squeezes_S1_S_).sem = recvSem 8 := id rfl
theorem slot_canon_9 : ((Memref.whole cc0_scratch1 : Memref sig .tc .vmem S31x1x256 .f32).slice (Rect.unit (s := S31x1x256) ![9, 0, 0] S1x1x256.size inb_S31x1x256_S1x1x256_9_0_0) (fun _ => rfl)).squeeze S1x256 squeezes_S1x1x256_S1x256 = slotM 9 := id rfl
theorem sendSem_canon_9 : ((cc0_scratch2.slice (Rect.unit (s := S31) ![9] S1.size inb_S31_S1_9)).squeeze S_ squeezes_S1_S_).sem = sendSem 9 := id rfl
theorem recvSem_canon_9 : ((cc0_scratch3.slice (Rect.unit (s := S31) ![9] S1.size inb_S31_S1_9)).squeeze S_ squeezes_S1_S_).sem = recvSem 9 := id rfl
theorem slot_canon_10 : ((Memref.whole cc0_scratch1 : Memref sig .tc .vmem S31x1x256 .f32).slice (Rect.unit (s := S31x1x256) ![10, 0, 0] S1x1x256.size inb_S31x1x256_S1x1x256_10_0_0) (fun _ => rfl)).squeeze S1x256 squeezes_S1x1x256_S1x256 = slotM 10 := id rfl
theorem sendSem_canon_10 : ((cc0_scratch2.slice (Rect.unit (s := S31) ![10] S1.size inb_S31_S1_10)).squeeze S_ squeezes_S1_S_).sem = sendSem 10 := id rfl
theorem recvSem_canon_10 : ((cc0_scratch3.slice (Rect.unit (s := S31) ![10] S1.size inb_S31_S1_10)).squeeze S_ squeezes_S1_S_).sem = recvSem 10 := id rfl
theorem slot_canon_11 : ((Memref.whole cc0_scratch1 : Memref sig .tc .vmem S31x1x256 .f32).slice (Rect.unit (s := S31x1x256) ![11, 0, 0] S1x1x256.size inb_S31x1x256_S1x1x256_11_0_0) (fun _ => rfl)).squeeze S1x256 squeezes_S1x1x256_S1x256 = slotM 11 := id rfl
theorem sendSem_canon_11 : ((cc0_scratch2.slice (Rect.unit (s := S31) ![11] S1.size inb_S31_S1_11)).squeeze S_ squeezes_S1_S_).sem = sendSem 11 := id rfl
theorem recvSem_canon_11 : ((cc0_scratch3.slice (Rect.unit (s := S31) ![11] S1.size inb_S31_S1_11)).squeeze S_ squeezes_S1_S_).sem = recvSem 11 := id rfl
theorem slot_canon_12 : ((Memref.whole cc0_scratch1 : Memref sig .tc .vmem S31x1x256 .f32).slice (Rect.unit (s := S31x1x256) ![12, 0, 0] S1x1x256.size inb_S31x1x256_S1x1x256_12_0_0) (fun _ => rfl)).squeeze S1x256 squeezes_S1x1x256_S1x256 = slotM 12 := id rfl
theorem sendSem_canon_12 : ((cc0_scratch2.slice (Rect.unit (s := S31) ![12] S1.size inb_S31_S1_12)).squeeze S_ squeezes_S1_S_).sem = sendSem 12 := id rfl
theorem recvSem_canon_12 : ((cc0_scratch3.slice (Rect.unit (s := S31) ![12] S1.size inb_S31_S1_12)).squeeze S_ squeezes_S1_S_).sem = recvSem 12 := id rfl
theorem slot_canon_13 : ((Memref.whole cc0_scratch1 : Memref sig .tc .vmem S31x1x256 .f32).slice (Rect.unit (s := S31x1x256) ![13, 0, 0] S1x1x256.size inb_S31x1x256_S1x1x256_13_0_0) (fun _ => rfl)).squeeze S1x256 squeezes_S1x1x256_S1x256 = slotM 13 := id rfl
theorem sendSem_canon_13 : ((cc0_scratch2.slice (Rect.unit (s := S31) ![13] S1.size inb_S31_S1_13)).squeeze S_ squeezes_S1_S_).sem = sendSem 13 := id rfl
theorem recvSem_canon_13 : ((cc0_scratch3.slice (Rect.unit (s := S31) ![13] S1.size inb_S31_S1_13)).squeeze S_ squeezes_S1_S_).sem = recvSem 13 := id rfl
theorem slot_canon_14 : ((Memref.whole cc0_scratch1 : Memref sig .tc .vmem S31x1x256 .f32).slice (Rect.unit (s := S31x1x256) ![14, 0, 0] S1x1x256.size inb_S31x1x256_S1x1x256_14_0_0) (fun _ => rfl)).squeeze S1x256 squeezes_S1x1x256_S1x256 = slotM 14 := id rfl
theorem sendSem_canon_14 : ((cc0_scratch2.slice (Rect.unit (s := S31) ![14] S1.size inb_S31_S1_14)).squeeze S_ squeezes_S1_S_).sem = sendSem 14 := id rfl
theorem recvSem_canon_14 : ((cc0_scratch3.slice (Rect.unit (s := S31) ![14] S1.size inb_S31_S1_14)).squeeze S_ squeezes_S1_S_).sem = recvSem 14 := id rfl
theorem slot_canon_15 : ((Memref.whole cc0_scratch1 : Memref sig .tc .vmem S31x1x256 .f32).slice (Rect.unit (s := S31x1x256) ![15, 0, 0] S1x1x256.size inb_S31x1x256_S1x1x256_15_0_0) (fun _ => rfl)).squeeze S1x256 squeezes_S1x1x256_S1x256 = slotM 15 := id rfl
theorem sendSem_canon_15 : ((cc0_scratch2.slice (Rect.unit (s := S31) ![15] S1.size inb_S31_S1_15)).squeeze S_ squeezes_S1_S_).sem = sendSem 15 := id rfl
theorem recvSem_canon_15 : ((cc0_scratch3.slice (Rect.unit (s := S31) ![15] S1.size inb_S31_S1_15)).squeeze S_ squeezes_S1_S_).sem = recvSem 15 := id rfl
theorem slot_canon_16 : ((Memref.whole cc0_scratch1 : Memref sig .tc .vmem S31x1x256 .f32).slice (Rect.unit (s := S31x1x256) ![16, 0, 0] S1x1x256.size inb_S31x1x256_S1x1x256_16_0_0) (fun _ => rfl)).squeeze S1x256 squeezes_S1x1x256_S1x256 = slotM 16 := id rfl
theorem sendSem_canon_16 : ((cc0_scratch2.slice (Rect.unit (s := S31) ![16] S1.size inb_S31_S1_16)).squeeze S_ squeezes_S1_S_).sem = sendSem 16 := id rfl
theorem recvSem_canon_16 : ((cc0_scratch3.slice (Rect.unit (s := S31) ![16] S1.size inb_S31_S1_16)).squeeze S_ squeezes_S1_S_).sem = recvSem 16 := id rfl
theorem slot_canon_17 : ((Memref.whole cc0_scratch1 : Memref sig .tc .vmem S31x1x256 .f32).slice (Rect.unit (s := S31x1x256) ![17, 0, 0] S1x1x256.size inb_S31x1x256_S1x1x256_17_0_0) (fun _ => rfl)).squeeze S1x256 squeezes_S1x1x256_S1x256 = slotM 17 := id rfl
theorem sendSem_canon_17 : ((cc0_scratch2.slice (Rect.unit (s := S31) ![17] S1.size inb_S31_S1_17)).squeeze S_ squeezes_S1_S_).sem = sendSem 17 := id rfl
theorem recvSem_canon_17 : ((cc0_scratch3.slice (Rect.unit (s := S31) ![17] S1.size inb_S31_S1_17)).squeeze S_ squeezes_S1_S_).sem = recvSem 17 := id rfl
theorem slot_canon_18 : ((Memref.whole cc0_scratch1 : Memref sig .tc .vmem S31x1x256 .f32).slice (Rect.unit (s := S31x1x256) ![18, 0, 0] S1x1x256.size inb_S31x1x256_S1x1x256_18_0_0) (fun _ => rfl)).squeeze S1x256 squeezes_S1x1x256_S1x256 = slotM 18 := id rfl
theorem sendSem_canon_18 : ((cc0_scratch2.slice (Rect.unit (s := S31) ![18] S1.size inb_S31_S1_18)).squeeze S_ squeezes_S1_S_).sem = sendSem 18 := id rfl
theorem recvSem_canon_18 : ((cc0_scratch3.slice (Rect.unit (s := S31) ![18] S1.size inb_S31_S1_18)).squeeze S_ squeezes_S1_S_).sem = recvSem 18 := id rfl
theorem slot_canon_19 : ((Memref.whole cc0_scratch1 : Memref sig .tc .vmem S31x1x256 .f32).slice (Rect.unit (s := S31x1x256) ![19, 0, 0] S1x1x256.size inb_S31x1x256_S1x1x256_19_0_0) (fun _ => rfl)).squeeze S1x256 squeezes_S1x1x256_S1x256 = slotM 19 := id rfl
theorem sendSem_canon_19 : ((cc0_scratch2.slice (Rect.unit (s := S31) ![19] S1.size inb_S31_S1_19)).squeeze S_ squeezes_S1_S_).sem = sendSem 19 := id rfl
theorem recvSem_canon_19 : ((cc0_scratch3.slice (Rect.unit (s := S31) ![19] S1.size inb_S31_S1_19)).squeeze S_ squeezes_S1_S_).sem = recvSem 19 := id rfl
theorem slot_canon_20 : ((Memref.whole cc0_scratch1 : Memref sig .tc .vmem S31x1x256 .f32).slice (Rect.unit (s := S31x1x256) ![20, 0, 0] S1x1x256.size inb_S31x1x256_S1x1x256_20_0_0) (fun _ => rfl)).squeeze S1x256 squeezes_S1x1x256_S1x256 = slotM 20 := id rfl
theorem sendSem_canon_20 : ((cc0_scratch2.slice (Rect.unit (s := S31) ![20] S1.size inb_S31_S1_20)).squeeze S_ squeezes_S1_S_).sem = sendSem 20 := id rfl
theorem recvSem_canon_20 : ((cc0_scratch3.slice (Rect.unit (s := S31) ![20] S1.size inb_S31_S1_20)).squeeze S_ squeezes_S1_S_).sem = recvSem 20 := id rfl
theorem slot_canon_21 : ((Memref.whole cc0_scratch1 : Memref sig .tc .vmem S31x1x256 .f32).slice (Rect.unit (s := S31x1x256) ![21, 0, 0] S1x1x256.size inb_S31x1x256_S1x1x256_21_0_0) (fun _ => rfl)).squeeze S1x256 squeezes_S1x1x256_S1x256 = slotM 21 := id rfl
theorem sendSem_canon_21 : ((cc0_scratch2.slice (Rect.unit (s := S31) ![21] S1.size inb_S31_S1_21)).squeeze S_ squeezes_S1_S_).sem = sendSem 21 := id rfl
theorem recvSem_canon_21 : ((cc0_scratch3.slice (Rect.unit (s := S31) ![21] S1.size inb_S31_S1_21)).squeeze S_ squeezes_S1_S_).sem = recvSem 21 := id rfl
theorem slot_canon_22 : ((Memref.whole cc0_scratch1 : Memref sig .tc .vmem S31x1x256 .f32).slice (Rect.unit (s := S31x1x256) ![22, 0, 0] S1x1x256.size inb_S31x1x256_S1x1x256_22_0_0) (fun _ => rfl)).squeeze S1x256 squeezes_S1x1x256_S1x256 = slotM 22 := id rfl
theorem sendSem_canon_22 : ((cc0_scratch2.slice (Rect.unit (s := S31) ![22] S1.size inb_S31_S1_22)).squeeze S_ squeezes_S1_S_).sem = sendSem 22 := id rfl
theorem recvSem_canon_22 : ((cc0_scratch3.slice (Rect.unit (s := S31) ![22] S1.size inb_S31_S1_22)).squeeze S_ squeezes_S1_S_).sem = recvSem 22 := id rfl
theorem slot_canon_23 : ((Memref.whole cc0_scratch1 : Memref sig .tc .vmem S31x1x256 .f32).slice (Rect.unit (s := S31x1x256) ![23, 0, 0] S1x1x256.size inb_S31x1x256_S1x1x256_23_0_0) (fun _ => rfl)).squeeze S1x256 squeezes_S1x1x256_S1x256 = slotM 23 := id rfl
theorem sendSem_canon_23 : ((cc0_scratch2.slice (Rect.unit (s := S31) ![23] S1.size inb_S31_S1_23)).squeeze S_ squeezes_S1_S_).sem = sendSem 23 := id rfl
theorem recvSem_canon_23 : ((cc0_scratch3.slice (Rect.unit (s := S31) ![23] S1.size inb_S31_S1_23)).squeeze S_ squeezes_S1_S_).sem = recvSem 23 := id rfl
theorem slot_canon_24 : ((Memref.whole cc0_scratch1 : Memref sig .tc .vmem S31x1x256 .f32).slice (Rect.unit (s := S31x1x256) ![24, 0, 0] S1x1x256.size inb_S31x1x256_S1x1x256_24_0_0) (fun _ => rfl)).squeeze S1x256 squeezes_S1x1x256_S1x256 = slotM 24 := id rfl
theorem sendSem_canon_24 : ((cc0_scratch2.slice (Rect.unit (s := S31) ![24] S1.size inb_S31_S1_24)).squeeze S_ squeezes_S1_S_).sem = sendSem 24 := id rfl
theorem recvSem_canon_24 : ((cc0_scratch3.slice (Rect.unit (s := S31) ![24] S1.size inb_S31_S1_24)).squeeze S_ squeezes_S1_S_).sem = recvSem 24 := id rfl
theorem slot_canon_25 : ((Memref.whole cc0_scratch1 : Memref sig .tc .vmem S31x1x256 .f32).slice (Rect.unit (s := S31x1x256) ![25, 0, 0] S1x1x256.size inb_S31x1x256_S1x1x256_25_0_0) (fun _ => rfl)).squeeze S1x256 squeezes_S1x1x256_S1x256 = slotM 25 := id rfl
theorem sendSem_canon_25 : ((cc0_scratch2.slice (Rect.unit (s := S31) ![25] S1.size inb_S31_S1_25)).squeeze S_ squeezes_S1_S_).sem = sendSem 25 := id rfl
theorem recvSem_canon_25 : ((cc0_scratch3.slice (Rect.unit (s := S31) ![25] S1.size inb_S31_S1_25)).squeeze S_ squeezes_S1_S_).sem = recvSem 25 := id rfl
theorem slot_canon_26 : ((Memref.whole cc0_scratch1 : Memref sig .tc .vmem S31x1x256 .f32).slice (Rect.unit (s := S31x1x256) ![26, 0, 0] S1x1x256.size inb_S31x1x256_S1x1x256_26_0_0) (fun _ => rfl)).squeeze S1x256 squeezes_S1x1x256_S1x256 = slotM 26 := id rfl
theorem sendSem_canon_26 : ((cc0_scratch2.slice (Rect.unit (s := S31) ![26] S1.size inb_S31_S1_26)).squeeze S_ squeezes_S1_S_).sem = sendSem 26 := id rfl
theorem recvSem_canon_26 : ((cc0_scratch3.slice (Rect.unit (s := S31) ![26] S1.size inb_S31_S1_26)).squeeze S_ squeezes_S1_S_).sem = recvSem 26 := id rfl
theorem slot_canon_27 : ((Memref.whole cc0_scratch1 : Memref sig .tc .vmem S31x1x256 .f32).slice (Rect.unit (s := S31x1x256) ![27, 0, 0] S1x1x256.size inb_S31x1x256_S1x1x256_27_0_0) (fun _ => rfl)).squeeze S1x256 squeezes_S1x1x256_S1x256 = slotM 27 := id rfl
theorem sendSem_canon_27 : ((cc0_scratch2.slice (Rect.unit (s := S31) ![27] S1.size inb_S31_S1_27)).squeeze S_ squeezes_S1_S_).sem = sendSem 27 := id rfl
theorem recvSem_canon_27 : ((cc0_scratch3.slice (Rect.unit (s := S31) ![27] S1.size inb_S31_S1_27)).squeeze S_ squeezes_S1_S_).sem = recvSem 27 := id rfl
theorem slot_canon_28 : ((Memref.whole cc0_scratch1 : Memref sig .tc .vmem S31x1x256 .f32).slice (Rect.unit (s := S31x1x256) ![28, 0, 0] S1x1x256.size inb_S31x1x256_S1x1x256_28_0_0) (fun _ => rfl)).squeeze S1x256 squeezes_S1x1x256_S1x256 = slotM 28 := id rfl
theorem sendSem_canon_28 : ((cc0_scratch2.slice (Rect.unit (s := S31) ![28] S1.size inb_S31_S1_28)).squeeze S_ squeezes_S1_S_).sem = sendSem 28 := id rfl
theorem recvSem_canon_28 : ((cc0_scratch3.slice (Rect.unit (s := S31) ![28] S1.size inb_S31_S1_28)).squeeze S_ squeezes_S1_S_).sem = recvSem 28 := id rfl
theorem slot_canon_29 : ((Memref.whole cc0_scratch1 : Memref sig .tc .vmem S31x1x256 .f32).slice (Rect.unit (s := S31x1x256) ![29, 0, 0] S1x1x256.size inb_S31x1x256_S1x1x256_29_0_0) (fun _ => rfl)).squeeze S1x256 squeezes_S1x1x256_S1x256 = slotM 29 := id rfl
theorem sendSem_canon_29 : ((cc0_scratch2.slice (Rect.unit (s := S31) ![29] S1.size inb_S31_S1_29)).squeeze S_ squeezes_S1_S_).sem = sendSem 29 := id rfl
theorem recvSem_canon_29 : ((cc0_scratch3.slice (Rect.unit (s := S31) ![29] S1.size inb_S31_S1_29)).squeeze S_ squeezes_S1_S_).sem = recvSem 29 := id rfl
theorem slot_canon_30 : ((Memref.whole cc0_scratch1 : Memref sig .tc .vmem S31x1x256 .f32).slice (Rect.unit (s := S31x1x256) ![30, 0, 0] S1x1x256.size inb_S31x1x256_S1x1x256_30_0_0) (fun _ => rfl)).squeeze S1x256 squeezes_S1x1x256_S1x256 = slotM 30 := id rfl
theorem sendSem_canon_30 : ((cc0_scratch2.slice (Rect.unit (s := S31) ![30] S1.size inb_S31_S1_30)).squeeze S_ squeezes_S1_S_).sem = sendSem 30 := id rfl
theorem recvSem_canon_30 : ((cc0_scratch3.slice (Rect.unit (s := S31) ![30] S1.size inb_S31_S1_30)).squeeze S_ squeezes_S1_S_).sem = recvSem 30 := id rfl

end Cert.KernelIdeal.Coll

end
-- ==== Proof.KernelIdeal.Levels.lean ====
import proofs.«900483_g7700000000000484_dist_sum_ax0_shard0_i_m512_n256_v7x_i32_f32_1_alg».proof.Proof.KernelIdeal.Tables

/-!
# Levels and debts

A device waits on its barrier cell while it still owes its 31 copies' landing credit, and on the pipeline's staging
cells while it owes everything. So the barrier cells sit below the receive cells, and the staging and send cells
below both: a wait is always at a level below everything the waiter owes.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The landing credit device `c` owes its peers' receive cells, copy 0's last. -/
def Orecv (c : Dev nD) : CellTallies nD τ sig Unit :=
  tallyAt (recvCell (peer c 30) 30) () N1 + tallyAt (recvCell (peer c 29) 29) () N1 + tallyAt (recvCell (peer c 28) 28) () N1 + tallyAt (recvCell (peer c 27) 27) () N1 + tallyAt (recvCell (peer c 26) 26) () N1 + tallyAt (recvCell (peer c 25) 25) () N1 + tallyAt (recvCell (peer c 24) 24) () N1 + tallyAt (recvCell (peer c 23) 23) () N1 + tallyAt (recvCell (peer c 22) 22) () N1 + tallyAt (recvCell (peer c 21) 21) () N1 + tallyAt (recvCell (peer c 20) 20) () N1 + tallyAt (recvCell (peer c 19) 19) () N1 + tallyAt (recvCell (peer c 18) 18) () N1 + tallyAt (recvCell (peer c 17) 17) () N1 + tallyAt (recvCell (peer c 16) 16) () N1 + tallyAt (recvCell (peer c 15) 15) () N1 + tallyAt (recvCell (peer c 14) 14) () N1 + tallyAt (recvCell (peer c 13) 13) () N1 + tallyAt (recvCell (peer c 12) 12) () N1 + tallyAt (recvCell (peer c 11) 11) () N1 + tallyAt (recvCell (peer c 10) 10) () N1 + tallyAt (recvCell (peer c 9) 9) () N1 + tallyAt (recvCell (peer c 8) 8) () N1 + tallyAt (recvCell (peer c 7) 7) () N1 + tallyAt (recvCell (peer c 6) 6) () N1 + tallyAt (recvCell (peer c 5) 5) () N1 + tallyAt (recvCell (peer c 4) 4) () N1 + tallyAt (recvCell (peer c 3) 3) () N1 + tallyAt (recvCell (peer c 2) 2) () N1 + tallyAt (recvCell (peer c 1) 1) () N1 + tallyAt (recvCell (peer c 0) 0) () N1

/-- What device `c` owes at launch: the landing credits, then a unit to each peer's barrier cell, signal 0's last. -/
def O₀ (c : Dev nD) : CellTallies nD τ sig Unit :=
  Orecv c + tallyAt (barCell (peer c 30)) () 1 + tallyAt (barCell (peer c 29)) () 1 + tallyAt (barCell (peer c 28)) () 1 + tallyAt (barCell (peer c 27)) () 1 + tallyAt (barCell (peer c 26)) () 1 + tallyAt (barCell (peer c 25)) () 1 + tallyAt (barCell (peer c 24)) () 1 + tallyAt (barCell (peer c 23)) () 1 + tallyAt (barCell (peer c 22)) () 1 + tallyAt (barCell (peer c 21)) () 1 + tallyAt (barCell (peer c 20)) () 1 + tallyAt (barCell (peer c 19)) () 1 + tallyAt (barCell (peer c 18)) () 1 + tallyAt (barCell (peer c 17)) () 1 + tallyAt (barCell (peer c 16)) () 1 + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 + tallyAt (barCell (peer c 0)) () 1

def isRecv : SemLoc sig → Bool
  | .dma q => decide (33 ≤ q.val)
  | .reg _ => false

def L (g : GSem nD τ sig) : Finset Unit := if g.1.2 = .tc then {()} else ∅
/-- Barrier cells at 1, receive cells at 2, everything else at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (i : Fin 31) : lv (recvCell c i) () = 2 := by
  unfold lv; rw [if_neg (dma_ne_bar _), if_pos]
  show decide (33 ≤ (recvSem i).val) = true; rw [recvSem_val]; exact decide_eq_true (by omega)

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem Orecv_pos {c : Dev nD} {g : GSem nD τ sig} {u : Unit} (h : 0 < Orecv c g u) : ∃ i, g = recvCell (peer c i) i := by
  unfold Orecv at h
  rcases Pipeline.add_pos_cases h with h | h
  swap; · exact ⟨0, tally_pos h⟩
  rcases Pipeline.add_pos_cases h with h | h
  swap; · exact ⟨1, tally_pos h⟩
  rcases Pipeline.add_pos_cases h with h | h
  swap; · exact ⟨2, tally_pos h⟩
  rcases Pipeline.add_pos_cases h with h | h
  swap; · exact ⟨3, tally_pos h⟩
  rcases Pipeline.add_pos_cases h with h | h
  swap; · exact ⟨4, tally_pos h⟩
  rcases Pipeline.add_pos_cases h with h | h
  swap; · exact ⟨5, tally_pos h⟩
  rcases Pipeline.add_pos_cases h with h | h
  swap; · exact ⟨6, tally_pos h⟩
  rcases Pipeline.add_pos_cases h with h | h
  swap; · exact ⟨7, tally_pos h⟩
  rcases Pipeline.add_pos_cases h with h | h
  swap; · exact ⟨8, tally_pos h⟩
  rcases Pipeline.add_pos_cases h with h | h
  swap; · exact ⟨9, tally_pos h⟩
  rcases Pipeline.add_pos_cases h with h | h
  swap; · exact ⟨10, tally_pos h⟩
  rcases Pipeline.add_pos_cases h with h | h
  swap; · exact ⟨11, tally_pos h⟩
  rcases Pipeline.add_pos_cases h with h | h
  swap; · exact ⟨12, tally_pos h⟩
  rcases Pipeline.add_pos_cases h with h | h
  swap; · exact ⟨13, tally_pos h⟩
  rcases Pipeline.add_pos_cases h with h | h
  swap; · exact ⟨14, tally_pos h⟩
  rcases Pipeline.add_pos_cases h with h | h
  swap; · exact ⟨15, tally_pos h⟩
  rcases Pipeline.add_pos_cases h with h | h
  swap; · exact ⟨16, tally_pos h⟩
  rcases Pipeline.add_pos_cases h with h | h
  swap; · exact ⟨17, tally_pos h⟩
  rcases Pipeline.add_pos_cases h with h | h
  swap; · exact ⟨18, tally_pos h⟩
  rcases Pipeline.add_pos_cases h with h | h
  swap; · exact ⟨19, tally_pos h⟩
  rcases Pipeline.add_pos_cases h with h | h
  swap; · exact ⟨20, tally_pos h⟩
  rcases Pipeline.add_pos_cases h with h | h
  swap; · exact ⟨21, tally_pos h⟩
  rcases Pipeline.add_pos_cases h with h | h
  swap; · exact ⟨22, tally_pos h⟩
  rcases Pipeline.add_pos_cases h with h | h
  swap; · exact ⟨23, tally_pos h⟩
  rcases Pipeline.add_pos_cases h with h | h
  swap; · exact ⟨24, tally_pos h⟩
  rcases Pipeline.add_pos_cases h with h | h
  swap; · exact ⟨25, tally_pos h⟩
  rcases Pipeline.add_pos_cases h with h | h
  swap; · exact ⟨26, tally_pos h⟩
  rcases Pipeline.add_pos_cases h with h | h
  swap; · exact ⟨27, tally_pos h⟩
  rcases Pipeline.add_pos_cases h with h | h
  swap; · exact ⟨28, tally_pos h⟩
  rcases Pipeline.add_pos_cases h with h | h
  swap; · exact ⟨29, tally_pos h⟩
  exact ⟨30, tally_pos h⟩

theorem O₀_pos {c : Dev nD} {g : GSem nD τ sig} {u : Unit} (h : 0 < O₀ c g u) :
    (∃ i, g = recvCell (peer c i) i) ∨ (∃ s, g = barCell (peer c s)) := by
  unfold O₀ at h
  rcases Pipeline.add_pos_cases h with h | h
  swap; · exact .inr ⟨0, tally_pos h⟩
  rcases Pipeline.add_pos_cases h with h | h
  swap; · exact .inr ⟨1, tally_pos h⟩
  rcases Pipeline.add_pos_cases h with h | h
  swap; · exact .inr ⟨2, tally_pos h⟩
  rcases Pipeline.add_pos_cases h with h | h
  swap; · exact .inr ⟨3, tally_pos h⟩
  rcases Pipeline.add_pos_cases h with h | h
  swap; · exact .inr ⟨4, tally_pos h⟩
  rcases Pipeline.add_pos_cases h with h | h
  swap; · exact .inr ⟨5, tally_pos h⟩
  rcases Pipeline.add_pos_cases h with h | h
  swap; · exact .inr ⟨6, tally_pos h⟩
  rcases Pipeline.add_pos_cases h with h | h
  swap; · exact .inr ⟨7, tally_pos h⟩
  rcases Pipeline.add_pos_cases h with h | h
  swap; · exact .inr ⟨8, tally_pos h⟩
  rcases Pipeline.add_pos_cases h with h | h
  swap; · exact .inr ⟨9, tally_pos h⟩
  rcases Pipeline.add_pos_cases h with h | h
  swap; · exact .inr ⟨10, tally_pos h⟩
  rcases Pipeline.add_pos_cases h with h | h
  swap; · exact .inr ⟨11, tally_pos h⟩
  rcases Pipeline.add_pos_cases h with h | h
  swap; · exact .inr ⟨12, tally_pos h⟩
  rcases Pipeline.add_pos_cases h with h | h
  swap; · exact .inr ⟨13, tally_pos h⟩
  rcases Pipeline.add_pos_cases h with h | h
  swap; · exact .inr ⟨14, tally_pos h⟩
  rcases Pipeline.add_pos_cases h with h | h
  swap; · exact .inr ⟨15, tally_pos h⟩
  rcases Pipeline.add_pos_cases h with h | h
  swap; · exact .inr ⟨16, tally_pos h⟩
  rcases Pipeline.add_pos_cases h with h | h
  swap; · exact .inr ⟨17, tally_pos h⟩
  rcases Pipeline.add_pos_cases h with h | h
  swap; · exact .inr ⟨18, tally_pos h⟩
  rcases Pipeline.add_pos_cases h with h | h
  swap; · exact .inr ⟨19, tally_pos h⟩
  rcases Pipeline.add_pos_cases h with h | h
  swap; · exact .inr ⟨20, tally_pos h⟩
  rcases Pipeline.add_pos_cases h with h | h
  swap; · exact .inr ⟨21, tally_pos h⟩
  rcases Pipeline.add_pos_cases h with h | h
  swap; · exact .inr ⟨22, tally_pos h⟩
  rcases Pipeline.add_pos_cases h with h | h
  swap; · exact .inr ⟨23, tally_pos h⟩
  rcases Pipeline.add_pos_cases h with h | h
  swap; · exact .inr ⟨24, tally_pos h⟩
  rcases Pipeline.add_pos_cases h with h | h
  swap; · exact .inr ⟨25, tally_pos h⟩
  rcases Pipeline.add_pos_cases h with h | h
  swap; · exact .inr ⟨26, tally_pos h⟩
  rcases Pipeline.add_pos_cases h with h | h
  swap; · exact .inr ⟨27, tally_pos h⟩
  rcases Pipeline.add_pos_cases h with h | h
  swap; · exact .inr ⟨28, tally_pos h⟩
  rcases Pipeline.add_pos_cases h with h | h
  swap; · exact .inr ⟨29, tally_pos h⟩
  rcases Pipeline.add_pos_cases h with h | h
  swap; · exact .inr ⟨30, tally_pos h⟩
  exact .inl (Orecv_pos h)

/-- A wait on a cell at level 0 (a staging cell, a send cell), owing everything or nothing. -/
theorem mayWait_low (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    rw [h0]
    rcases O₀_pos hg with ⟨i, rfl⟩ | ⟨s, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

/-- At its barrier wait a device owes only landing credit: receive cells, above its barrier cell. -/
theorem mayWait_bar (c : Dev nD) :
    (levAts L lv : sProp 𝕄) ⊢ MayWait (c : Thread nD τ) (.reg barS) () (Orecv c) := by
  refine Pipeline.mayWait_of_levAts (by rw [L_tc]; exact Finset.mem_singleton_self _) fun g u hg => ?_
  obtain ⟨i, rfl⟩ := Orecv_pos hg
  exact ⟨by rw [L_tc]; exact Finset.mem_singleton_self _, by rw [lv_bar, lv_recv]; decide⟩

end Cert.KernelIdeal.Coll

end
-- ==== Proof.KernelIdeal.Ghost.lean ====
import proofs.«900483_g7700000000000484_dist_sum_ax0_shard0_i_m512_n256_v7x_i32_f32_1_alg».proof.Proof.KernelIdeal.Levels

/-!
# The proof data

What a device's body starts from and what it leaves. At entry: the invariants of its own 63 cells and of the
cells it pays into (each peer's barrier cell, and the receive cell its copy to that peer lands on); its position
at round 0 of its own cells; the tokens of the 93 duties it pays (31 signals, 31 landings, 31 departures); the
launch credit of its barrier cell (31 units) and of its 31 receive cells; the level facts; the two scratch
buffers at some contents. At exit: the scratch buffers at some contents and its 62 own DMA semaphores at zero.
The result block is the device's row sum plus the sum of the 31 rows received.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- How this proof indexes a device's 63 cells: the barrier, then the send cells, then the receive cells. -/
def sendK (i : Fin 31) : Fin 63 := ⟨1 + i.val, by omega⟩
def recvK (i : Fin 31) : Fin 63 := ⟨32 + i.val, by omega⟩

/-- The invariants device `c`'s body opens, under the names `K` they were allocated at. -/
def invs (K : Dev nD × Fin 63 → ℕ) (c : Dev nD) : sProp 𝕄 :=
  iprop(cellInv ER (sched m ρ) (K (c, 0)) (barCell c)
    ∗ (bigSep Finset.univ fun i : Fin 31 => cellInv ER (sched m ρ) (K (c, sendK i)) (sendCell c i))
    ∗ (bigSep Finset.univ fun i : Fin 31 => cellInv ER (sched m ρ) (K (c, recvK i)) (recvCell c i))
    ∗ (bigSep Finset.univ fun s : Fin 31 => cellInv ER (sched m ρ) (K (peer c s, 0)) (barCell (peer c s)))
    ∗ (bigSep Finset.univ fun i : Fin 31 => cellInv ER (sched m ρ) (K (peer c i, recvK i)) (recvCell (peer c i) i)))

instance invs_persistent (K : Dev nD × Fin 63 → ℕ) (c : Dev nD) : BI.Persistent (invs m ρ K c) := by unfold invs; infer_instance

/-- The rounds reached that device `c` relies on: round 0 of every cell it pays into and of its own DMA cells. -/
def marks (c : Dev nD) : sProp 𝕄 :=
  iprop((bigSep Finset.univ fun s : Fin 31 => reached ER (barCell (peer c s)) 0)
    ∗ (bigSep Finset.univ fun i : Fin 31 => reached ER (recvCell (peer c i) i) 0)
    ∗ (bigSep Finset.univ fun i : Fin 31 => reached ER (sendCell c i) 0)
    ∗ (bigSep Finset.univ fun i : Fin 31 => reached ER (recvCell c i) 0))

instance marks_persistent (c : Dev nD) : BI.Persistent (marks (F := F) c) := by unfold marks; infer_instance

/-- Device `c`'s positions at round 0 of its own cells. -/
def positions (c : Dev nD) : sProp 𝕄 :=
  iprop(atPos ER (barCell c) 0 ∅ 0
    ∗ (bigSep Finset.univ fun i : Fin 31 => atPos ER (sendCell c i) 0 ∅ 0)
    ∗ (bigSep Finset.univ fun i : Fin 31 => atPos ER (recvCell c i) 0 ∅ 0))

/-- The tokens of the duties device `c` pays: signal `s` pays duty `rev s` of `peer c s`'s barrier cell; copy `i` pays
    the one duty of `peer c i`'s receive cell `i` and the one duty of `c`'s own send cell `i`. -/
def payToks (c : Dev nD) : sProp 𝕄 :=
  iprop((bigSep Finset.univ fun s : Fin 31 => dutyTok ER (barCell (peer c s)) 0 (rev s))
    ∗ (bigSep Finset.univ fun i : Fin 31 => dutyTok ER (recvCell (peer c i) i) 0 0)
    ∗ (bigSep Finset.univ fun i : Fin 31 => dutyTok ER (sendCell c i) 0 0))

def ghost (K : Dev nD × Fin 63 → ℕ) (c : Dev nD) : sProp 𝕄 :=
  iprop(invs m ρ K c ∗ marks c ∗ positions c ∗ payToks c)

/-- The launch credit of device `c`'s cells. -/
def credits (c : Dev nD) : sProp 𝕄 :=
  iprop(cred (tallyAt (barCell c) () 31) ∗ bigSep Finset.univ fun i : Fin 31 => cred (tallyAt (recvCell c i) () N1))

def start (c : Dev nD) : sProp 𝕄 :=
  iprop((∃ K, ghost m ρ K c) ∗ credits c ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The device's own DMA semaphores at zero, closed. -/
def ownZeros (c : Dev nD) : sProp 𝕄 :=
  iprop((bigSep Finset.univ fun i : Fin 31 => semVal (sendCell c i) 0) ∗ (bigSep Finset.univ fun i : Fin 31 => semVal (recvCell c i) 0))

def Φ₀ (c : Dev nD) : sProp 𝕄 := iprop(start m ρ c ∗ scratch c)
def Φ₁ (c : Dev nD) : sProp 𝕄 := iprop(scratch c ∗ ownZeros c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outVal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 63 → ℕ) (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m ρ c) ∗ stg c cc0_stg1_0 (outVal m ρ c))

end Cert.KernelIdeal.Coll

end
-- ==== Proof.KernelIdeal.Slots.lean ====
import proofs.«900483_g7700000000000484_dist_sum_ax0_shard0_i_m512_n256_v7x_i32_f32_1_alg».proof.Proof.KernelIdeal.Ghost
import Idealize.ShloMosaic.Lib.Pipeline.Value

/-!
# The receive buffer as 31 rows

Row `i` of the 31×1×256 receive buffer is the set of elements whose first coordinate is `i`. The rows are pairwise
disjoint and together are the whole buffer, so holding the buffer is holding its 31 rows.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Row `i`'s element set, at the buffer's own index type. -/
def slotSet (i : Fin 31) : Finset S31x1x256.Idx := (slotM i).view.set

theorem slotSet_eq (i : Fin 31) :
    slotSet i = (Rect.unit (s := S31x1x256) ![i.val, 0, 0] S1x1x256.size (slot_inb i)).set := by
  show ((((Memref.whole cc0_scratch1 : Memref sig .tc .vmem S31x1x256 .f32).view.slice _).reshape _ _) : View sig .tc _ _ _).set = _
  rw [View.set_reshape]
  exact View.set_slice_whole cc0_scratch1 _

/-- An element is in row `i` exactly when its first coordinate is `i`. -/
theorem mem_slotSet (i : Fin 31) (x : S31x1x256.Idx) : x ∈ slotSet i ↔ (x 0).val = i.val := by
  rw [slotSet_eq, Rect.mem_set_unit]
  constructor
  · intro h
    have h0 := h 0
    have : (![i.val, 0, 0] : Fin 3 → Nat) 0 = i.val := rfl
    have hs : S1x1x256.size 0 = 1 := rfl
    rw [this, hs] at h0
    omega
  · intro h a
    match a with
    | ⟨0, _⟩ =>
      show i.val ≤ (x 0).val ∧ (x 0).val < i.val + 1
      omega
    | ⟨1, _⟩ =>
      have h1 : (x 1).val < 1 := (x 1).isLt
      show 0 ≤ (x 1).val ∧ (x 1).val < 0 + 1
      omega
    | ⟨2, _⟩ =>
      have h2 : (x 2).val < 256 := (x 2).isLt
      show 0 ≤ (x 2).val ∧ (x 2).val < 0 + 256
      omega

theorem slots_disjoint (i j : Fin 31) (h : i ≠ j) : Disjoint (slotSet i) (slotSet j) := by
  rw [Finset.disjoint_left]
  intro x hi hj
  rw [mem_slotSet] at hi hj
  exact h (Fin.ext (hi.symm.trans hj))

theorem slots_cover : (Finset.univ : Finset (Fin 31)).biUnion slotSet = Finset.univ := by
  ext x
  simp only [Finset.mem_biUnion, Finset.mem_univ, true_and, iff_true]
  exact ⟨⟨(x 0).val, (x 0).isLt⟩, (mem_slotSet _ x).mpr rfl⟩

/-- The receive buffer whole is its 31 rows. -/
theorem rM_split (c : Dev nD) (f : Buf (Elt F) ((c : Thread nD τ).loc cc0_scratch1)) :
    ((((c : Thread nD τ).loc cc0_scratch1) ↦{fullShare} f) : sProp 𝕄)
      = bigSep Finset.univ fun i : Fin 31 => ((slotM i).view.loc (c : Thread nD τ) ↦[(slotM i).view.set]{fullShare} f) := by
  have h := pointsTo_biUnion (Ix := Unit) (Name := ℕ) (U := UU) (Lvl := ℕ) (ℓ := (c : Thread nD τ).loc cc0_scratch1) (q := fullShare) (f := f) (Finset.univ : Finset (Fin 31))
    slotSet (fun i _ j _ hij => slots_disjoint i j hij)
  rw [slots_cover] at h
  exact h

variable (m : (ℓ : Loc nD τ sig) → Buf (Elt F) ℓ) (ρ : Dev nD → PrngReg)

/-- On a row's own elements, what a whole-row write leaves does not depend on what was there. -/
theorem write_row_congr (i : Fin 31) (fd fd' : S31x1x256.Idx → Elt F .f32) (w : S1x256.Idx → Elt F .f32)
    (x : S31x1x256.Idx) (hx : x ∈ slotSet i) :
    (View.write (Elt F) (slotM i).view fd w Finset.univ : S31x1x256.Idx → Elt F .f32) x
      = (View.write (Elt F) (slotM i).view fd' w Finset.univ : S31x1x256.Idx → Elt F .f32) x := by
  obtain ⟨y, rfl⟩ := View.exists_emb_of_mem_set (slotM i).view hx
  exact (View.write_emb_of_mem _ _ (Finset.mem_univ y)).trans (View.write_emb_of_mem _ _ (Finset.mem_univ y)).symm

/-- On row `i`'s elements the final contents are what the landing on row `i` left. -/
theorem recvVal_on_row (c : Dev nD) (i : Fin 31) (fd : S31x1x256.Idx → Elt F .f32) (x : S31x1x256.Idx) (hx : x ∈ slotSet i) :
    (View.write (Elt F) (slotM i).view fd (View.read (Elt F) (sM : Memref sig .tc .vmem S1x256 .f32).view (sendVal m ρ (src c i))) Finset.univ : S31x1x256.Idx → Elt F .f32) x
      = (recvVal m ρ c : S31x1x256.Idx → Elt F .f32) x := by
  have hx0 : (x 0 : Fin 31) = i := Fin.ext ((mem_slotSet i x).mp hx)
  unfold recvVal rowFill
  rw [hx0]
  exact write_row_congr i _ _ _ x hx

/-- A landed row is the final contents' row. -/
theorem row_landed (c : Dev nD) (i : Fin 31) (fd : Buf (Elt F) ((slotM i).view.loc (c : Thread nD τ))) :
    ((slotM i).view.loc (c : Thread nD τ) ↦[(slotM i).view.set]{fullShare}
        View.write (Elt F) (slotM i).view fd (View.read (Elt F) (sM : Memref sig .tc .vmem S1x256 .f32).view (sendVal m ρ (src c i))) Finset.univ : sProp 𝕄)
      = ((slotM i).view.loc (c : Thread nD τ) ↦[(slotM i).view.set]{fullShare} recvVal m ρ c) :=
  pointsTo_congr fun x hx => recvVal_on_row m ρ c i fd x hx

end Cert.KernelIdeal.Coll

end
-- ==== Proof.KernelIdeal.Launch1.lean ====
import proofs.«900483_g7700000000000484_dist_sum_ax0_shard0_i_m512_n256_v7x_i32_f32_1_alg».proof.Proof.KernelIdeal.Slots

/-!
# The launch

The ghost state is allocated once for all devices: each device's 63 cells at round 0, with the tokens of their
duties; the invariants are allocated together, since a cell's invariant is shared by its owner and its payers;
then the tokens are dealt to the devices that pay them. A barrier duty's token goes to the peer that signals it,
a receive duty's token to the device whose copy lands there, a send duty's token stays.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, indexed -/

/-- Cell `k` of a device: the barrier, then the 31 send cells, then the 31 receive cells. -/
def csem (k : Fin 63) : SemLoc sig :=
  if h : k.val = 0 then .reg barS
  else if h2 : k.val < 32 then .dma (sendSem ⟨k.val - 1, by omega⟩)
  else .dma (recvSem ⟨k.val - 32, by omega⟩)
abbrev kcell (ck : Dev nD × Fin 63) : GSem nD τ sig := ((ck.1 : Thread nD τ), csem ck.2)
/-- The kernel's own (scoped) semaphores: the send cells, then the receive cells. -/
def osem (k : Fin 62) : SemLoc sig := csem ⟨k.val + 1, by omega⟩

theorem csem_zero : csem 0 = .reg barS := rfl
theorem csem_send (i : Fin 31) : csem (sendK i) = .dma (sendSem i) := by
  unfold csem sendK
  rw [dif_neg (by show ¬ (1 + i.val = 0); omega), dif_pos (by show 1 + i.val < 32; omega)]
  congr 2; exact Fin.ext (by show 1 + i.val - 1 = i.val; omega)
theorem csem_recv (i : Fin 31) : csem (recvK i) = .dma (recvSem i) := by
  unfold csem recvK
  rw [dif_neg (by show ¬ (32 + i.val = 0); omega), dif_neg (by show ¬ (32 + i.val < 32); omega)]
  congr 2; exact Fin.ext (by show 32 + i.val - 32 = i.val; omega)
theorem kcell_bar (c : Dev nD) : kcell (c, 0) = barCell c := rfl
theorem kcell_send (c : Dev nD) (i : Fin 31) : kcell (c, sendK i) = sendCell c i := by unfold kcell; rw [csem_send]
theorem kcell_recv (c : Dev nD) (i : Fin 31) : kcell (c, recvK i) = recvCell c i := by unfold kcell; rw [csem_recv]

theorem csem_injective : Function.Injective csem := by decide
theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

theorem ownSemFacts : Pipeline.OwnSemFacts cfg0.spec osem := by decide

/-! ## The tokens as minted: each device's own cells' duties -/

abbrev tokOf (x : Dev nD × Fin 3 × Fin 31) : GSem nD τ sig × ℕ × Fin 31 := match x.2.1 with
  | 0 => (barCell x.1, 0, x.2.2) | 1 => (sendCell x.1 x.2.2, 0, 0) | 2 => (recvCell x.1 x.2.2, 0, 0)
theorem sendSem_injective : Function.Injective sendSem := by decide
theorem recvSem_injective : Function.Injective recvSem := by decide
theorem send_ne_recv (i j : Fin 31) : sendSem i ≠ recvSem j := by revert i j; decide
theorem tokOf_injective : Function.Injective (tokOf : Dev nD × Fin 3 × Fin 31 → GSem nD τ sig × ℕ × Fin 31) := by
  rintro ⟨c, t, i⟩ ⟨c', t', i'⟩ h
  have h1 : c = c' := by
    have := congrArg (fun x : GSem nD τ sig × ℕ × Fin 31 => x.1.1.1) h
    fin_cases t <;> fin_cases t' <;> exact this
  subst h1
  have hs := congrArg (fun x : GSem nD τ sig × ℕ × Fin 31 => x.1.2) h
  have hd := congrArg (fun x : GSem nD τ sig × ℕ × Fin 31 => x.2.2) h
  fin_cases t <;> fin_cases t'
  · have : i = i' := hd
    subst this; rfl
  · exact absurd hs (fun h' => by cases h')
  · exact absurd hs (fun h' => by cases h')
  · exact absurd hs (fun h' => by cases h')
  · have : i = i' := sendSem_injective (SemLoc.dma.inj hs)
    subst this; rfl
  · exact absurd (SemLoc.dma.inj hs) (send_ne_recv i i')
  · exact absurd hs (fun h' => by cases h')
  · exact absurd (SemLoc.dma.inj hs).symm (send_ne_recv i' i)
  · have : i = i' := recvSem_injective (SemLoc.dma.inj hs)
    subst this; rfl
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 31 => dutyTok ER (barCell c) 0 d)
    ∗ (bigSep Finset.univ fun i : Fin 31 => dutyTok ER (sendCell c i) 0 0)
    ∗ (bigSep Finset.univ fun i : Fin 31 => dutyTok ER (recvCell c i) 0 0))

/-- What the launch element deals device `c`. -/
def G (c : Dev nD) : sProp 𝕄 :=
  iprop((bigSep Finset.univ fun k : Fin 63 => roundState ER (sched m ρ) (kcell (c, k)) 0)
    ∗ (bigSep Finset.univ fun k : Fin 63 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      show bigSep Finset.univ (fun ti : Fin 3 × Fin 31 => (dutyTok ER (tokOf (c, ti)).1 (tokOf (c, ti)).2.1 (tokOf (c, ti)).2.2 : sProp 𝕄)) = _
      rw [bigSep_univ_prod, bigSep_fin3]
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Cert.KernelIdeal.Coll

end
-- ==== Proof.KernelIdeal.Launch2.lean ====
import proofs.«900483_g7700000000000484_dist_sum_ax0_shard0_i_m512_n256_v7x_i32_f32_1_alg».proof.Proof.KernelIdeal.Launch1

/-!
# The launch, continued: the invariants allocated and the tokens dealt
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin63 (Φ : Fin 63 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62] (by decide) (by decide) Φ
theorem bigSep_fin62 (Φ : Fin 62 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61] (by decide) (by decide) Φ

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore are the device's 63 cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  unfold Pipeline.ownSems0
  rw [unscopedSems0_eq, bigSep_fin62, bigSep_fin63]
  iintro ⟨⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  iexact H61

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 63 → ℕ) : sProp 𝕄 :=
  iprop((bigSep Finset.univ fun ck : Dev nD × Fin 63 => cellInv ER (sched m ρ) (K ck) (kcell ck))
    ∗ bigSep Finset.univ fun ck : Dev nD × Fin 63 => reached ER (kcell ck) 0)

instance records_persistent (K : Dev nD × Fin 63 → ℕ) : BI.Persistent (records m ρ K) := by unfold records; infer_instance

theorem inv_at (K : Dev nD × Fin 63 → ℕ) (ck : Dev nD × Fin 63) : records m ρ K ⊢ cellInv ER (sched m ρ) (K ck) (kcell ck) := by
  unfold records; iintro ⟨HI, -⟩
  iapply (show (bigSep Finset.univ fun ck : Dev nD × Fin 63 => (cellInv ER (sched m ρ) (K ck) (kcell ck) : sProp 𝕄)) ⊢ cellInv ER (sched m ρ) (K ck) (kcell ck) from bigSep_elim (Finset.mem_univ ck))
  iexact HI
theorem reached_at (K : Dev nD × Fin 63 → ℕ) (ck : Dev nD × Fin 63) : records m ρ K ⊢ reached ER (kcell ck) 0 := by
  unfold records; iintro ⟨-, HR⟩
  iapply (show (bigSep Finset.univ fun ck : Dev nD × Fin 63 => (reached ER (kcell ck) 0 : sProp 𝕄)) ⊢ reached ER (kcell ck) 0 from bigSep_elim (Finset.mem_univ ck))
  iexact HR

/-- A persistent fact gives every member of a family it entails. -/
theorem family_of_persistent {R : sProp 𝕄} [BI.Persistent R] {Φ : Fin 31 → sProp 𝕄} (h : ∀ i, R ⊢ Φ i) : R ⊢ bigSep Finset.univ Φ :=
  (BI.bigSep_of_persistent Finset.univ R).trans (bigSep_mono fun i _ => h i)

/-- What stays with device `c`: its positions, and the tokens of the duties IT pays. -/
def linear (c : Dev nD) : sProp 𝕄 := iprop(positions c ∗ payToks c)

theorem invs_of_records (K : Dev nD × Fin 63 → ℕ) (c : Dev nD) : records m ρ K ⊢ invs m ρ K c := by
  unfold invs
  iintro #HR
  isplitr; · iapply (inv_at m ρ K (c, 0)); iexact HR
  isplitr
  · iapply (family_of_persistent (R := records m ρ K) fun i => by rw [← kcell_send c i]; exact inv_at m ρ K (c, sendK i)); iexact HR
  isplitr
  · iapply (family_of_persistent (R := records m ρ K) fun i => by rw [← kcell_recv c i]; exact inv_at m ρ K (c, recvK i)); iexact HR
  isplitr
  · iapply (family_of_persistent (R := records m ρ K) fun s => inv_at m ρ K (peer c s, 0)); iexact HR
  · iapply (family_of_persistent (R := records m ρ K) fun i => by rw [← kcell_recv (peer c i) i]; exact inv_at m ρ K (peer c i, recvK i)); iexact HR

theorem marks_of_records (K : Dev nD × Fin 63 → ℕ) (c : Dev nD) : records m ρ K ⊢ marks (F := F) c := by
  unfold marks
  iintro #HR
  isplitr
  · iapply (family_of_persistent (R := records m ρ K) fun s => reached_at m ρ K (peer c s, 0)); iexact HR
  isplitr
  · iapply (family_of_persistent (R := records m ρ K) fun i => by rw [← kcell_recv (peer c i) i]; exact reached_at m ρ K (peer c i, recvK i)); iexact HR
  isplitr
  · iapply (family_of_persistent (R := records m ρ K) fun i => by rw [← kcell_send c i]; exact reached_at m ρ K (c, sendK i)); iexact HR
  · iapply (family_of_persistent (R := records m ρ K) fun i => by rw [← kcell_recv c i]; exact reached_at m ρ K (c, recvK i)); iexact HR

theorem ghost_intro (K : Dev nD × Fin 63 → ℕ) (c : Dev nD) : iprop(records m ρ K ∗ linear c) ⊢ G' m ρ c := by
  unfold linear G' ghost
  iintro ⟨#HR, Hp, Ht⟩
  iexists K
  isplitr; · iapply (invs_of_records m ρ K c); iexact HR
  isplitr; · iapply (marks_of_records m ρ K c); iexact HR
  isplitl [Hp]; · iexact Hp
  iexact Ht

/-! ## The tokens dealt -/

/-- A barrier duty and the signal that pays it: `(c, s) ↦ (peer c s, rev s)`, its own inverse. -/
def sigSwap : Dev nD × Fin 31 ≃ Dev nD × Fin 31 where
  toFun x := (peer x.1 x.2, rev x.2)
  invFun x := (peer x.1 x.2, rev x.2)
  left_inv x := by obtain ⟨c, s⟩ := x; exact Prod.ext (peer_peer_rev c s) (rev_rev s)
  right_inv x := by obtain ⟨c, s⟩ := x; exact Prod.ext (peer_peer_rev c s) (rev_rev s)
/-- A receive duty and the copy that pays it: `(c, i) ↦ (peer c i, i)`. -/
def landSwap : Dev nD × Fin 31 ≃ Dev nD × Fin 31 where
  toFun x := (peer x.1 x.2, x.2)
  invFun x := (src x.1 x.2, x.2)
  left_inv x := by obtain ⟨c, i⟩ := x; exact Prod.ext (src_peer c i) rfl
  right_inv x := by obtain ⟨c, i⟩ := x; exact Prod.ext (peer_src c i) rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun x : Dev nD × Fin 31 => (dutyTok ER (barCell x.1) 0 x.2 : sProp 𝕄)),
    ← bigSep_univ_prod (fun x : Dev nD × Fin 31 => (dutyTok ER (recvCell x.1 x.2) 0 0 : sProp 𝕄)),
    ← bigSep_univ_prod (fun x : Dev nD × Fin 31 => (dutyTok ER (barCell (peer x.1 x.2)) 0 (rev x.2) : sProp 𝕄)),
    ← bigSep_univ_prod (fun x : Dev nD × Fin 31 => (dutyTok ER (recvCell (peer x.1 x.2) x.2) 0 0 : sProp 𝕄)),
    bigSep_univ_equiv sigSwap (fun x : Dev nD × Fin 31 => (dutyTok ER (barCell x.1) 0 x.2 : sProp 𝕄)),
    bigSep_univ_equiv landSwap (fun x : Dev nD × Fin 31 => (dutyTok ER (recvCell x.1 x.2) 0 0 : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's 63 positions are its barrier position, its 31 send positions and its 31 receive positions. -/
theorem positions_of_fin63 (c : Dev nD) :
    (bigSep Finset.univ fun k : Fin 63 => (atPos ER (kcell (c, k)) 0 ∅ 0 : sProp 𝕄)) ⊢ positions c := by
  unfold positions
  rw [bigSep_fin63, bigSep_fin31, bigSep_fin31]
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62⟩
  isplitl [H0]; · iexact H0
  isplitl [H1 H2 H3 H4 H5 H6 H7 H8 H9 H10 H11 H12 H13 H14 H15 H16 H17 H18 H19 H20 H21 H22 H23 H24 H25 H26 H27 H28 H29 H30 H31]
  · isplitl [H1]; · (rw [← kcell_send c 0]; iexact H1)
    isplitl [H2]; · (rw [← kcell_send c 1]; iexact H2)
    isplitl [H3]; · (rw [← kcell_send c 2]; iexact H3)
    isplitl [H4]; · (rw [← kcell_send c 3]; iexact H4)
    isplitl [H5]; · (rw [← kcell_send c 4]; iexact H5)
    isplitl [H6]; · (rw [← kcell_send c 5]; iexact H6)
    isplitl [H7]; · (rw [← kcell_send c 6]; iexact H7)
    isplitl [H8]; · (rw [← kcell_send c 7]; iexact H8)
    isplitl [H9]; · (rw [← kcell_send c 8]; iexact H9)
    isplitl [H10]; · (rw [← kcell_send c 9]; iexact H10)
    isplitl [H11]; · (rw [← kcell_send c 10]; iexact H11)
    isplitl [H12]; · (rw [← kcell_send c 11]; iexact H12)
    isplitl [H13]; · (rw [← kcell_send c 12]; iexact H13)
    isplitl [H14]; · (rw [← kcell_send c 13]; iexact H14)
    isplitl [H15]; · (rw [← kcell_send c 14]; iexact H15)
    isplitl [H16]; · (rw [← kcell_send c 15]; iexact H16)
    isplitl [H17]; · (rw [← kcell_send c 16]; iexact H17)
    isplitl [H18]; · (rw [← kcell_send c 17]; iexact H18)
    isplitl [H19]; · (rw [← kcell_send c 18]; iexact H19)
    isplitl [H20]; · (rw [← kcell_send c 19]; iexact H20)
    isplitl [H21]; · (rw [← kcell_send c 20]; iexact H21)
    isplitl [H22]; · (rw [← kcell_send c 21]; iexact H22)
    isplitl [H23]; · (rw [← kcell_send c 22]; iexact H23)
    isplitl [H24]; · (rw [← kcell_send c 23]; iexact H24)
    isplitl [H25]; · (rw [← kcell_send c 24]; iexact H25)
    isplitl [H26]; · (rw [← kcell_send c 25]; iexact H26)
    isplitl [H27]; · (rw [← kcell_send c 26]; iexact H27)
    isplitl [H28]; · (rw [← kcell_send c 27]; iexact H28)
    isplitl [H29]; · (rw [← kcell_send c 28]; iexact H29)
    isplitl [H30]; · (rw [← kcell_send c 29]; iexact H30)
    rw [← kcell_send c 30]; iexact H31
  · isplitl [H32]; · (rw [← kcell_recv c 0]; iexact H32)
    isplitl [H33]; · (rw [← kcell_recv c 1]; iexact H33)
    isplitl [H34]; · (rw [← kcell_recv c 2]; iexact H34)
    isplitl [H35]; · (rw [← kcell_recv c 3]; iexact H35)
    isplitl [H36]; · (rw [← kcell_recv c 4]; iexact H36)
    isplitl [H37]; · (rw [← kcell_recv c 5]; iexact H37)
    isplitl [H38]; · (rw [← kcell_recv c 6]; iexact H38)
    isplitl [H39]; · (rw [← kcell_recv c 7]; iexact H39)
    isplitl [H40]; · (rw [← kcell_recv c 8]; iexact H40)
    isplitl [H41]; · (rw [← kcell_recv c 9]; iexact H41)
    isplitl [H42]; · (rw [← kcell_recv c 10]; iexact H42)
    isplitl [H43]; · (rw [← kcell_recv c 11]; iexact H43)
    isplitl [H44]; · (rw [← kcell_recv c 12]; iexact H44)
    isplitl [H45]; · (rw [← kcell_recv c 13]; iexact H45)
    isplitl [H46]; · (rw [← kcell_recv c 14]; iexact H46)
    isplitl [H47]; · (rw [← kcell_recv c 15]; iexact H47)
    isplitl [H48]; · (rw [← kcell_recv c 16]; iexact H48)
    isplitl [H49]; · (rw [← kcell_recv c 17]; iexact H49)
    isplitl [H50]; · (rw [← kcell_recv c 18]; iexact H50)
    isplitl [H51]; · (rw [← kcell_recv c 19]; iexact H51)
    isplitl [H52]; · (rw [← kcell_recv c 20]; iexact H52)
    isplitl [H53]; · (rw [← kcell_recv c 21]; iexact H53)
    isplitl [H54]; · (rw [← kcell_recv c 22]; iexact H54)
    isplitl [H55]; · (rw [← kcell_recv c 23]; iexact H55)
    isplitl [H56]; · (rw [← kcell_recv c 24]; iexact H56)
    isplitl [H57]; · (rw [← kcell_recv c 25]; iexact H57)
    isplitl [H58]; · (rw [← kcell_recv c 26]; iexact H58)
    isplitl [H59]; · (rw [← kcell_recv c 27]; iexact H59)
    isplitl [H60]; · (rw [← kcell_recv c 28]; iexact H60)
    isplitl [H61]; · (rw [← kcell_recv c 29]; iexact H61)
    rw [← kcell_recv c 30]; iexact H62

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 63 => iprop(∃ κ : ℕ, cellInv ER (sched m ρ) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 63 => (atPos ER (kcell (c, k)) 0 ∅ 0 : sProp 𝕄)) payToks).symm).trans
      (bigSep_mono fun c _ => show _ ⊢ linear c from sep_mono_left (positions_of_fin63 c)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Coll

end
-- ==== Proof.KernelIdeal.Closing.lean ====
import proofs.«900483_g7700000000000484_dist_sum_ax0_shard0_i_m512_n256_v7x_i32_f32_1_alg».proof.Proof.KernelIdeal.Slots

/-!
# The end of the body

At the return the device holds its own 62 DMA cells at round 1 with nothing further due: they close, and their
counters at zero are the device's again. The send buffer's 32 shares rejoin.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body holds at its return. -/
def atReturn (K : Dev nD × Fin 63 → ℕ) (c : Dev nD) (W : Waits sig Unit) : sProp 𝕄 :=
  iprop((bigSep Finset.univ fun i : Fin 31 => cellInv ER (sched m ρ) (K (c, sendK i)) (sendCell c i))
    ∗ (bigSep Finset.univ fun i : Fin 31 => cellInv ER (sched m ρ) (K (c, recvK i)) (recvCell c i))
    ∗ (bigSep Finset.univ fun i : Fin 31 => atPos ER (sendCell c i) 1 ∅ 0)
    ∗ (bigSep Finset.univ fun i : Fin 31 => atPos ER (recvCell c i) 1 ∅ 0)
    ∗ ((sM : Memref sig .tc .vmem S1x256 .f32).view.loc (c : Thread nD τ) ↦[(sM : Memref sig .tc .vmem S1x256 .f32).view.set]{Transfers.shareDrop fullShare 31} sendVal m ρ c)
    ∗ (bigSep Finset.univ fun i : Fin 31 => ((sM : Memref sig .tc .vmem S1x256 .f32).view.loc (c : Thread nD τ) ↦[(sM : Memref sig .tc .vmem S1x256 .f32).view.set]{Transfers.shareTok fullShare 31 i} sendVal m ρ c))
    ∗ ((rM : Memref sig .tc .vmem S31x1x256 .f32).view.loc (c : Thread nD τ) ↦{fullShare} recvVal m ρ c)
    ∗ ((xM : Memref sig .tc .vmem S512x256 .f32).view.loc (c : Thread nD τ) ↦{fullShare} xblk m ρ c)
    ∗ ((oM : Memref sig .tc .vmem S1x256 .f32).view.loc (c : Thread nD τ) ↦{fullShare} outVal m ρ c)
    ∗ owes (c : Thread nD τ) 0 W)

/-- Cells with nothing further due close, each giving back its counter at zero. -/
theorem close_cells (c : Dev nD) (κ : Fin 31 → ℕ) (g : Fin 31 → GSem nD τ sig) :
    iprop((bigSep Finset.univ fun i : Fin 31 => cellInv ER (sched m ρ) (κ i) (g i)) ∗ (bigSep Finset.univ fun i : Fin 31 => atPos ER (g i) 1 ∅ 0))
      ⊢ (|={Set.univ}=> bigSep Finset.univ fun i : Fin 31 => semVal (g i) 0 : sProp 𝕄) := by
  rw [← bigSep_sep']
  exact (bigSep_mono fun i _ => Rounds.cell_close ER (sched m ρ) (Set.mem_univ (κ i)) (fun h => h) (R := 1) (duties_later m ρ (g i))).trans (bigSep_fupd _ _)

theorem closing (K : Dev nD × Fin 63 → ℕ) (c : Dev nD) (W : Waits sig Unit) (Kt : PUnit → sProp 𝕄) :
    iprop(atReturn m ρ K c W ∗ (bodyPost m ρ c -∗ Kt ⟨⟩))
      ⊢ wp frame (wpE (defs₀ (F := F)) 𝒱₀ c none) Set.univ (Prog.ret ⟨⟩) Kt := by
  unfold atReturn
  iintro ⟨⟨HIs, HIr, Hats, Hatr, Hkeep, Htoks, Hr, Hx, Hout, HO⟩, Hk⟩
  imod (close_cells m ρ c (fun i => K (c, sendK i)) (fun i => sendCell c i)) $$ [HIs Hats] with Zs
  · isplitl [HIs] <;> iassumption
  imod (close_cells m ρ c (fun i => K (c, recvK i)) (fun i => recvCell c i)) $$ [HIr Hatr] with Zr
  · isplitl [HIr] <;> iassumption
  ihave Hs := (Transfers.pointsTo_toks_join fullShare 31) $$ [Hkeep Htoks]
  · isplitl [Hkeep] <;> iassumption
  ihave Hs := (Entails.of_eq (show ((sM : Memref sig .tc .vmem S1x256 .f32).view.loc (c : Thread nD τ) ↦[(sM : Memref sig .tc .vmem S1x256 .f32).view.set]{fullShare} sendVal m ρ c : sProp 𝕄)
      = (((c : Thread nD τ).loc cc0_scratch0) ↦{fullShare} sendVal m ρ c) by simp only [Memref.view_whole, View.set_whole])) $$ Hs
  rw [wp_ret]; imodintro
  iapply Hk
  unfold bodyPost Φ₁ scratch ownZeros Dat.owesAt Pipeline.owesWithin
  rw [show (dats m ρ 0 c).owed t₀.succ = 0 from rfl]
  isplitl [Hs Hr Zs Zr]
  · isplitl [Hs Hr]
    · isplitl [Hs]
      · iexists (sendVal m ρ c); iexact Hs
      · iexists (recvVal m ρ c); iexact Hr
    · isplitl [Zs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Coll

end
-- ==== Proof.KernelIdeal.Body.lean ====
import proofs.«900483_g7700000000000484_dist_sum_ax0_shard0_i_m512_n256_v7x_i32_f32_1_alg».proof.Proof.KernelIdeal.Closing

/-!
# One device's body

The body is run once at a symbolic device `c`: 31 signals, the row sum stored, the barrier wait, 31 copies, 31
waits for the rows to land, the final sum stored, 31 waits for the copies to depart.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv payload_recv_raw payload_send_raw src_peer rest_bar rest_bar_sdiff rest_bar_univ payload_bar_sig_0 payload_bar_sig_1 payload_bar_sig_2 payload_bar_sig_3 payload_bar_sig_4 payload_bar_sig_5 payload_bar_sig_6 payload_bar_sig_7 payload_bar_sig_8 payload_bar_sig_9 payload_bar_sig_10 payload_bar_sig_11 payload_bar_sig_12 payload_bar_sig_13 payload_bar_sig_14 payload_bar_sig_15 payload_bar_sig_16 payload_bar_sig_17 payload_bar_sig_18 payload_bar_sig_19 payload_bar_sig_20 payload_bar_sig_21 payload_bar_sig_22 payload_bar_sig_23 payload_bar_sig_24 payload_bar_sig_25 payload_bar_sig_26 payload_bar_sig_27 payload_bar_sig_28 payload_bar_sig_29 payload_bar_sig_30
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq slot_canon_0 sendSem_canon_0 recvSem_canon_0 slot_canon_1 sendSem_canon_1 recvSem_canon_1 slot_canon_2 sendSem_canon_2 recvSem_canon_2 slot_canon_3 sendSem_canon_3 recvSem_canon_3 slot_canon_4 sendSem_canon_4 recvSem_canon_4 slot_canon_5 sendSem_canon_5 recvSem_canon_5 slot_canon_6 sendSem_canon_6 recvSem_canon_6 slot_canon_7 sendSem_canon_7 recvSem_canon_7 slot_canon_8 sendSem_canon_8 recvSem_canon_8 slot_canon_9 sendSem_canon_9 recvSem_canon_9 slot_canon_10 sendSem_canon_10 recvSem_canon_10 slot_canon_11 sendSem_canon_11 recvSem_canon_11 slot_canon_12 sendSem_canon_12 recvSem_canon_12 slot_canon_13 sendSem_canon_13 recvSem_canon_13 slot_canon_14 sendSem_canon_14 recvSem_canon_14 slot_canon_15 sendSem_canon_15 recvSem_canon_15 slot_canon_16 sendSem_canon_16 recvSem_canon_16 slot_canon_17 sendSem_canon_17 recvSem_canon_17 slot_canon_18 sendSem_canon_18 recvSem_canon_18 slot_canon_19 sendSem_canon_19 recvSem_canon_19 slot_canon_20 sendSem_canon_20 recvSem_canon_20 slot_canon_21 sendSem_canon_21 recvSem_canon_21 slot_canon_22 sendSem_canon_22 recvSem_canon_22 slot_canon_23 sendSem_canon_23 recvSem_canon_23 slot_canon_24 sendSem_canon_24 recvSem_canon_24 slot_canon_25 sendSem_canon_25 recvSem_canon_25 slot_canon_26 sendSem_canon_26 recvSem_canon_26 slot_canon_27 sendSem_canon_27 recvSem_canon_27 slot_canon_28 sendSem_canon_28 recvSem_canon_28 slot_canon_29 sendSem_canon_29 recvSem_canon_29 slot_canon_30 sendSem_canon_30 recvSem_canon_30

attribute [local irreducible] peer src sendSem recvSem

set_option sl_exec.stepHeartbeats 400000

set_option maxHeartbeats 16000000 in
set_option maxRecDepth 65536 in
theorem sound_body (K : Dev nD × Fin 63 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs marks positions payToks credits scratch
  simp only [bigSep_fin31, rev_0, rev_1, rev_2, rev_3, rev_4, rev_5, rev_6, rev_7, rev_8, rev_9, rev_10, rev_11, rev_12, rev_13, rev_14, rev_15, rev_16, rev_17, rev_18, rev_19, rev_20, rev_21, rev_22, rev_23, rev_24, rev_25, rev_26, rev_27, rev_28, rev_29, rev_30]
  iintro ⟨⟨⟨⟨⟨#HIbar, ⟨#HIs0, #HIs1, #HIs2, #HIs3, #HIs4, #HIs5, #HIs6, #HIs7, #HIs8, #HIs9, #HIs10, #HIs11, #HIs12, #HIs13, #HIs14, #HIs15, #HIs16, #HIs17, #HIs18, #HIs19, #HIs20, #HIs21, #HIs22, #HIs23, #HIs24, #HIs25, #HIs26, #HIs27, #HIs28, #HIs29, #HIs30⟩, ⟨#HIr0, #HIr1, #HIr2, #HIr3, #HIr4, #HIr5, #HIr6, #HIr7, #HIr8, #HIr9, #HIr10, #HIr11, #HIr12, #HIr13, #HIr14, #HIr15, #HIr16, #HIr17, #HIr18, #HIr19, #HIr20, #HIr21, #HIr22, #HIr23, #HIr24, #HIr25, #HIr26, #HIr27, #HIr28, #HIr29, #HIr30⟩, ⟨#HIbp0, #HIbp1, #HIbp2, #HIbp3, #HIbp4, #HIbp5, #HIbp6, #HIbp7, #HIbp8, #HIbp9, #HIbp10, #HIbp11, #HIbp12, #HIbp13, #HIbp14, #HIbp15, #HIbp16, #HIbp17, #HIbp18, #HIbp19, #HIbp20, #HIbp21, #HIbp22, #HIbp23, #HIbp24, #HIbp25, #HIbp26, #HIbp27, #HIbp28, #HIbp29, #HIbp30⟩, ⟨#HIrp0, #HIrp1, #HIrp2, #HIrp3, #HIrp4, #HIrp5, #HIrp6, #HIrp7, #HIrp8, #HIrp9, #HIrp10, #HIrp11, #HIrp12, #HIrp13, #HIrp14, #HIrp15, #HIrp16, #HIrp17, #HIrp18, #HIrp19, #HIrp20, #HIrp21, #HIrp22, #HIrp23, #HIrp24, #HIrp25, #HIrp26, #HIrp27, #HIrp28, #HIrp29, #HIrp30⟩⟩,
      ⟨⟨#Hmbp0, #Hmbp1, #Hmbp2, #Hmbp3, #Hmbp4, #Hmbp5, #Hmbp6, #Hmbp7, #Hmbp8, #Hmbp9, #Hmbp10, #Hmbp11, #Hmbp12, #Hmbp13, #Hmbp14, #Hmbp15, #Hmbp16, #Hmbp17, #Hmbp18, #Hmbp19, #Hmbp20, #Hmbp21, #Hmbp22, #Hmbp23, #Hmbp24, #Hmbp25, #Hmbp26, #Hmbp27, #Hmbp28, #Hmbp29, #Hmbp30⟩, ⟨#Hmrp0, #Hmrp1, #Hmrp2, #Hmrp3, #Hmrp4, #Hmrp5, #Hmrp6, #Hmrp7, #Hmrp8, #Hmrp9, #Hmrp10, #Hmrp11, #Hmrp12, #Hmrp13, #Hmrp14, #Hmrp15, #Hmrp16, #Hmrp17, #Hmrp18, #Hmrp19, #Hmrp20, #Hmrp21, #Hmrp22, #Hmrp23, #Hmrp24, #Hmrp25, #Hmrp26, #Hmrp27, #Hmrp28, #Hmrp29, #Hmrp30⟩, ⟨#Hms0, #Hms1, #Hms2, #Hms3, #Hms4, #Hms5, #Hms6, #Hms7, #Hms8, #Hms9, #Hms10, #Hms11, #Hms12, #Hms13, #Hms14, #Hms15, #Hms16, #Hms17, #Hms18, #Hms19, #Hms20, #Hms21, #Hms22, #Hms23, #Hms24, #Hms25, #Hms26, #Hms27, #Hms28, #Hms29, #Hms30⟩, ⟨#Hmr0, #Hmr1, #Hmr2, #Hmr3, #Hmr4, #Hmr5, #Hmr6, #Hmr7, #Hmr8, #Hmr9, #Hmr10, #Hmr11, #Hmr12, #Hmr13, #Hmr14, #Hmr15, #Hmr16, #Hmr17, #Hmr18, #Hmr19, #Hmr20, #Hmr21, #Hmr22, #Hmr23, #Hmr24, #Hmr25, #Hmr26, #Hmr27, #Hmr28, #Hmr29, #Hmr30⟩⟩,
      ⟨HatB, ⟨Hats0, Hats1, Hats2, Hats3, Hats4, Hats5, Hats6, Hats7, Hats8, Hats9, Hats10, Hats11, Hats12, Hats13, Hats14, Hats15, Hats16, Hats17, Hats18, Hats19, Hats20, Hats21, Hats22, Hats23, Hats24, Hats25, Hats26, Hats27, Hats28, Hats29, Hats30⟩, ⟨Hatr0, Hatr1, Hatr2, Hatr3, Hatr4, Hatr5, Hatr6, Hatr7, Hatr8, Hatr9, Hatr10, Hatr11, Hatr12, Hatr13, Hatr14, Hatr15, Hatr16, Hatr17, Hatr18, Hatr19, Hatr20, Hatr21, Hatr22, Hatr23, Hatr24, Hatr25, Hatr26, Hatr27, Hatr28, Hatr29, Hatr30⟩⟩,
      ⟨⟨Htb0, Htb1, Htb2, Htb3, Htb4, Htb5, Htb6, Htb7, Htb8, Htb9, Htb10, Htb11, Htb12, Htb13, Htb14, Htb15, Htb16, Htb17, Htb18, Htb19, Htb20, Htb21, Htb22, Htb23, Htb24, Htb25, Htb26, Htb27, Htb28, Htb29, Htb30⟩, ⟨Htr0, Htr1, Htr2, Htr3, Htr4, Htr5, Htr6, Htr7, Htr8, Htr9, Htr10, Htr11, Htr12, Htr13, Htr14, Htr15, Htr16, Htr17, Htr18, Htr19, Htr20, Htr21, Htr22, Htr23, Htr24, Htr25, Htr26, Htr27, Htr28, Htr29, Htr30⟩, ⟨Hts0, Hts1, Hts2, Hts3, Hts4, Hts5, Hts6, Hts7, Hts8, Hts9, Hts10, Hts11, Hts12, Hts13, Hts14, Hts15, Hts16, Hts17, Hts18, Hts19, Hts20, Hts21, Hts22, Hts23, Hts24, Hts25, Hts26, Hts27, Hts28, Hts29, Hts30⟩⟩⟩,
      ⟨HcB, ⟨Hcr0, Hcr1, Hcr2, Hcr3, Hcr4, Hcr5, Hcr6, Hcr7, Hcr8, Hcr9, Hcr10, Hcr11, Hcr12, Hcr13, Hcr14, Hcr15, Hcr16, Hcr17, Hcr18, Hcr19, Hcr20, Hcr21, Hcr22, Hcr23, Hcr24, Hcr25, Hcr26, Hcr27, Hcr28, Hcr29, Hcr30⟩⟩, #Hlev, ⟨⟨%fs, Hs⟩, ⟨%fr, Hr⟩⟩⟩,
    Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Orecv
  -- the receive buffer as its 31 rows
  ihave Hrows := (Entails.of_eq ((rM_split c fr).trans (bigSep_fin31_rev _))) $$ Hr
  icases Hrows with ⟨Hrow30, Hrow29, Hrow28, Hrow27, Hrow26, Hrow25, Hrow24, Hrow23, Hrow22, Hrow21, Hrow20, Hrow19, Hrow18, Hrow17, Hrow16, Hrow15, Hrow14, Hrow13, Hrow12, Hrow11, Hrow10, Hrow9, Hrow8, Hrow7, Hrow6, Hrow5, Hrow4, Hrow3, Hrow2, Hrow1, Hrow0⟩
  -- the staging and send buffers, spelt through their memrefs
  ihave Hx := (show ((c : Thread nD τ).loc cc0_stg0_0 ↦{fullShare} xblk m ρ c : sProp 𝕄) ⊢ ((xM : Memref sig .tc .vmem S512x256 .f32).view.loc (c : Thread nD τ) ↦{fullShare} xblk m ρ c) from BI.Entails.refl _) $$ Hx
  ihave Hout := (show ((c : Thread nD τ).loc cc0_stg1_0 ↦{fullShare} g1 : sProp 𝕄) ⊢ ((oM : Memref sig .tc .vmem S1x256 .f32).view.loc (c : Thread nD τ) ↦{fullShare} g1) from BI.Entails.refl _) $$ Hout
  ihave Hs := (show ((c : Thread nD τ).loc cc0_scratch0 ↦{fullShare} fs : sProp 𝕄) ⊢ ((sM : Memref sig .tc .vmem S1x256 .f32).view.loc (c : Thread nD τ) ↦{fullShare} fs) from BI.Entails.refl _) $$ Hs
  have hmw := mayWait_bar (F := F) c
  unfold Orecv at hmw
  set_option sl_exec.maxSteps 142 in sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- what the send buffer holds after the store is this device's row sum
  have hz2 : (![0, 0] : Fin 2 → Nat) = fun _ => 0 := funext fun a => by fin_cases a <;> rfl
  have hstore : (sM : Memref sig .tc .vmem S1x256 .f32).view.writes (Elt F) fs (sound_body.sl.Hs_1 m ρ c) = sendVal m ρ c := by
    unfold sound_body.sl.Hs_1
    rw [View.writes_singleton]
    refine (Memref.write_access_unit_zero_univ (Elt F) cc0_scratch0 hz2 _ fs _).trans ?_
    unfold sendVal
    exact congrArg k0_pay1 (Memref.readAt_unit_zero (Elt F) cc0_stg0_0 hz2 _ _)
  ihave Hs := (Entails.of_eq (congrArg (fun f => ((sM : Memref sig .tc .vmem S1x256 .f32).view.loc (c : Thread nD τ) ↦{fullShare} f : sProp 𝕄)) hstore)) $$ Hs
  -- held in 32 shares: one kept for the final load, one lent to each copy
  ihave Hs := (Entails.of_eq (show ((sM : Memref sig .tc .vmem S1x256 .f32).view.loc (c : Thread nD τ) ↦{fullShare} sendVal m ρ c : sProp 𝕄)
      = ((sM : Memref sig .tc .vmem S1x256 .f32).view.loc (c : Thread nD τ) ↦[(sM : Memref sig .tc .vmem S1x256 .f32).view.set]{fullShare} sendVal m ρ c) by simp only [Memref.view_whole, View.set_whole])) $$ Hs
  ihave Hsh := (Transfers.pointsTo_toks_split fullShare 31) $$ Hs
  icases Hsh with ⟨Hkeep, Hsh⟩
  ihave Hsh := (Entails.of_eq (bigSep_fin31 _)) $$ Hsh
  icases Hsh with ⟨Hsh0, Hsh1, Hsh2, Hsh3, Hsh4, Hsh5, Hsh6, Hsh7, Hsh8, Hsh9, Hsh10, Hsh11, Hsh12, Hsh13, Hsh14, Hsh15, Hsh16, Hsh17, Hsh18, Hsh19, Hsh20, Hsh21, Hsh22, Hsh23, Hsh24, Hsh25, Hsh26, Hsh27, Hsh28, Hsh29, Hsh30⟩
  -- what the barrier wait handed over: each peer's row for this device
  unfold barRest
  icases HatB_pay1 with ⟨⟨⟨%fp0, Hp0⟩, #Hq0⟩, ⟨⟨%fp1, Hp1⟩, #Hq1⟩, ⟨⟨%fp2, Hp2⟩, #Hq2⟩, ⟨⟨%fp3, Hp3⟩, #Hq3⟩, ⟨⟨%fp4, Hp4⟩, #Hq4⟩, ⟨⟨%fp5, Hp5⟩, #Hq5⟩, ⟨⟨%fp6, Hp6⟩, #Hq6⟩, ⟨⟨%fp7, Hp7⟩, #Hq7⟩, ⟨⟨%fp8, Hp8⟩, #Hq8⟩, ⟨⟨%fp9, Hp9⟩, #Hq9⟩, ⟨⟨%fp10, Hp10⟩, #Hq10⟩, ⟨⟨%fp11, Hp11⟩, #Hq11⟩, ⟨⟨%fp12, Hp12⟩, #Hq12⟩, ⟨⟨%fp13, Hp13⟩, #Hq13⟩, ⟨⟨%fp14, Hp14⟩, #Hq14⟩, ⟨⟨%fp15, Hp15⟩, #Hq15⟩, ⟨⟨%fp16, Hp16⟩, #Hq16⟩, ⟨⟨%fp17, Hp17⟩, #Hq17⟩, ⟨⟨%fp18, Hp18⟩, #Hq18⟩, ⟨⟨%fp19, Hp19⟩, #Hq19⟩, ⟨⟨%fp20, Hp20⟩, #Hq20⟩, ⟨⟨%fp21, Hp21⟩, #Hq21⟩, ⟨⟨%fp22, Hp22⟩, #Hq22⟩, ⟨⟨%fp23, Hp23⟩, #Hq23⟩, ⟨⟨%fp24, Hp24⟩, #Hq24⟩, ⟨⟨%fp25, Hp25⟩, #Hq25⟩, ⟨⟨%fp26, Hp26⟩, #Hq26⟩, ⟨⟨%fp27, Hp27⟩, #Hq27⟩, ⟨⟨%fp28, Hp28⟩, #Hq28⟩, ⟨⟨%fp29, Hp29⟩, #Hq29⟩, ⟨⟨%fp30, Hp30⟩, #Hq30⟩⟩
  sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- the 31 landed rows are the receive buffer at its final contents
  ihave R0 := (Entails.of_eq (row_landed m ρ c 0 _)) $$ Hatr0_pay1
  ihave R1 := (Entails.of_eq (row_landed m ρ c 1 _)) $$ Hatr1_pay1
  ihave R2 := (Entails.of_eq (row_landed m ρ c 2 _)) $$ Hatr2_pay1
  ihave R3 := (Entails.of_eq (row_landed m ρ c 3 _)) $$ Hatr3_pay1
  ihave R4 := (Entails.of_eq (row_landed m ρ c 4 _)) $$ Hatr4_pay1
  ihave R5 := (Entails.of_eq (row_landed m ρ c 5 _)) $$ Hatr5_pay1
  ihave R6 := (Entails.of_eq (row_landed m ρ c 6 _)) $$ Hatr6_pay1
  ihave R7 := (Entails.of_eq (row_landed m ρ c 7 _)) $$ Hatr7_pay1
  ihave R8 := (Entails.of_eq (row_landed m ρ c 8 _)) $$ Hatr8_pay1
  ihave R9 := (Entails.of_eq (row_landed m ρ c 9 _)) $$ Hatr9_pay1
  ihave R10 := (Entails.of_eq (row_landed m ρ c 10 _)) $$ Hatr10_pay1
  ihave R11 := (Entails.of_eq (row_landed m ρ c 11 _)) $$ Hatr11_pay1
  ihave R12 := (Entails.of_eq (row_landed m ρ c 12 _)) $$ Hatr12_pay1
  ihave R13 := (Entails.of_eq (row_landed m ρ c 13 _)) $$ Hatr13_pay1
  ihave R14 := (Entails.of_eq (row_landed m ρ c 14 _)) $$ Hatr14_pay1
  ihave R15 := (Entails.of_eq (row_landed m ρ c 15 _)) $$ Hatr15_pay1
  ihave R16 := (Entails.of_eq (row_landed m ρ c 16 _)) $$ Hatr16_pay1
  ihave R17 := (Entails.of_eq (row_landed m ρ c 17 _)) $$ Hatr17_pay1
  ihave R18 := (Entails.of_eq (row_landed m ρ c 18 _)) $$ Hatr18_pay1
  ihave R19 := (Entails.of_eq (row_landed m ρ c 19 _)) $$ Hatr19_pay1
  ihave R20 := (Entails.of_eq (row_landed m ρ c 20 _)) $$ Hatr20_pay1
  ihave R21 := (Entails.of_eq (row_landed m ρ c 21 _)) $$ Hatr21_pay1
  ihave R22 := (Entails.of_eq (row_landed m ρ c 22 _)) $$ Hatr22_pay1
  ihave R23 := (Entails.of_eq (row_landed m ρ c 23 _)) $$ Hatr23_pay1
  ihave R24 := (Entails.of_eq (row_landed m ρ c 24 _)) $$ Hatr24_pay1
  ihave R25 := (Entails.of_eq (row_landed m ρ c 25 _)) $$ Hatr25_pay1
  ihave R26 := (Entails.of_eq (row_landed m ρ c 26 _)) $$ Hatr26_pay1
  ihave R27 := (Entails.of_eq (row_landed m ρ c 27 _)) $$ Hatr27_pay1
  ihave R28 := (Entails.of_eq (row_landed m ρ c 28 _)) $$ Hatr28_pay1
  ihave R29 := (Entails.of_eq (row_landed m ρ c 29 _)) $$ Hatr29_pay1
  ihave R30 := (Entails.of_eq (row_landed m ρ c 30 _)) $$ Hatr30_pay1
  ihave Hr := (Entails.of_eq ((rM_split c (recvVal m ρ c)).trans (bigSep_fin31 _)).symm) $$ [R0 R1 R2 R3 R4 R5 R6 R7 R8 R9 R10 R11 R12 R13 R14 R15 R16 R17 R18 R19 R20 R21 R22 R23 R24 R25 R26 R27 R28 R29 R30]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    iexact R30
  ihave Hr := (show ((c : Thread nD τ).loc cc0_scratch1 ↦{fullShare} recvVal m ρ c : sProp 𝕄) ⊢ ((rM : Memref sig .tc .vmem S31x1x256 .f32).view.loc (c : Thread nD τ) ↦{fullShare} recvVal m ρ c) from BI.Entails.refl _) $$ Hr
  sl_exec_parts! (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq])
  -- the result block holds the device's row sum plus the rows received
  have hz3 : (![0, 0, 0] : Fin 3 → Nat) = fun _ => 0 := funext fun a => by fin_cases a <;> rfl
  have hout : (oM : Memref sig .tc .vmem S1x256 .f32).view.writes (Elt F) (oM : Memref sig .tc .vmem S1x256 .f32).view.junk (sound_body.sl.Hout_1 m ρ c) = outVal m ρ c := by
    unfold sound_body.sl.Hout_1
    rw [View.writes_singleton]
    refine (Memref.write_access_unit_zero_univ (Elt F) cc0_stg1_0 hz2 _ _ _).trans ?_
    unfold outVal
    exact congrArg₂ k0_pay2 (Memref.readAt_unit_zero (Elt F) cc0_scratch0 hz2 _ _) (Memref.readAt_unit_zero (Elt F) cc0_scratch1 hz3 _ _)
  ihave Hout := (Entails.of_eq (congrArg (fun f => ((oM : Memref sig .tc .vmem S1x256 .f32).view.loc (c : Thread nD τ) ↦{fullShare} f : sProp 𝕄)) hout)) $$ Hout
  -- the return: the own cells close, the shares rejoin
  iapply (closing m ρ K c _ Kt)
  unfold atReturn
  simp only [bigSep_fin31]
  isplitr [Hk]
  · isplitr
    ·
      isplitr; · iexact HIs0
      isplitr; · iexact HIs1
      isplitr; · iexact HIs2
      isplitr; · iexact HIs3
      isplitr; · iexact HIs4
      isplitr; · iexact HIs5
      isplitr; · iexact HIs6
      isplitr; · iexact HIs7
      isplitr; · iexact HIs8
      isplitr; · iexact HIs9
      isplitr; · iexact HIs10
      isplitr; · iexact HIs11
      isplitr; · iexact HIs12
      isplitr; · iexact HIs13
      isplitr; · iexact HIs14
      isplitr; · iexact HIs15
      isplitr; · iexact HIs16
      isplitr; · iexact HIs17
      isplitr; · iexact HIs18
      isplitr; · iexact HIs19
      isplitr; · iexact HIs20
      isplitr; · iexact HIs21
      isplitr; · iexact HIs22
      isplitr; · iexact HIs23
      isplitr; · iexact HIs24
      isplitr; · iexact HIs25
      isplitr; · iexact HIs26
      isplitr; · iexact HIs27
      isplitr; · iexact HIs28
      isplitr; · iexact HIs29
      iexact HIs30
    isplitr
    ·
      isplitr; · iexact HIr0
      isplitr; · iexact HIr1
      isplitr; · iexact HIr2
      isplitr; · iexact HIr3
      isplitr; · iexact HIr4
      isplitr; · iexact HIr5
      isplitr; · iexact HIr6
      isplitr; · iexact HIr7
      isplitr; · iexact HIr8
      isplitr; · iexact HIr9
      isplitr; · iexact HIr10
      isplitr; · iexact HIr11
      isplitr; · iexact HIr12
      isplitr; · iexact HIr13
      isplitr; · iexact HIr14
      isplitr; · iexact HIr15
      isplitr; · iexact HIr16
      isplitr; · iexact HIr17
      isplitr; · iexact HIr18
      isplitr; · iexact HIr19
      isplitr; · iexact HIr20
      isplitr; · iexact HIr21
      isplitr; · iexact HIr22
      isplitr; · iexact HIr23
      isplitr; · iexact HIr24
      isplitr; · iexact HIr25
      isplitr; · iexact HIr26
      isplitr; · iexact HIr27
      isplitr; · iexact HIr28
      isplitr; · iexact HIr29
      iexact HIr30
    isplitl [Hats0 Hats1 Hats2 Hats3 Hats4 Hats5 Hats6 Hats7 Hats8 Hats9 Hats10 Hats11 Hats12 Hats13 Hats14 Hats15 Hats16 Hats17 Hats18 Hats19 Hats20 Hats21 Hats22 Hats23 Hats24 Hats25 Hats26 Hats27 Hats28 Hats29 Hats30]
    ·
      isplitl [Hats0]; · iexact Hats0
      isplitl [Hats1]; · iexact Hats1
      isplitl [Hats2]; · iexact Hats2
      isplitl [Hats3]; · iexact Hats3
      isplitl [Hats4]; · iexact Hats4
      isplitl [Hats5]; · iexact Hats5
      isplitl [Hats6]; · iexact Hats6
      isplitl [Hats7]; · iexact Hats7
      isplitl [Hats8]; · iexact Hats8
      isplitl [Hats9]; · iexact Hats9
      isplitl [Hats10]; · iexact Hats10
      isplitl [Hats11]; · iexact Hats11
      isplitl [Hats12]; · iexact Hats12
      isplitl [Hats13]; · iexact Hats13
      isplitl [Hats14]; · iexact Hats14
      isplitl [Hats15]; · iexact Hats15
      isplitl [Hats16]; · iexact Hats16
      isplitl [Hats17]; · iexact Hats17
      isplitl [Hats18]; · iexact Hats18
      isplitl [Hats19]; · iexact Hats19
      isplitl [Hats20]; · iexact Hats20
      isplitl [Hats21]; · iexact Hats21
      isplitl [Hats22]; · iexact Hats22
      isplitl [Hats23]; · iexact Hats23
      isplitl [Hats24]; · iexact Hats24
      isplitl [Hats25]; · iexact Hats25
      isplitl [Hats26]; · iexact Hats26
      isplitl [Hats27]; · iexact Hats27
      isplitl [Hats28]; · iexact Hats28
      isplitl [Hats29]; · iexact Hats29
      iexact Hats30
    isplitl [Hatr0 Hatr1 Hatr2 Hatr3 Hatr4 Hatr5 Hatr6 Hatr7 Hatr8 Hatr9 Hatr10 Hatr11 Hatr12 Hatr13 Hatr14 Hatr15 Hatr16 Hatr17 Hatr18 Hatr19 Hatr20 Hatr21 Hatr22 Hatr23 Hatr24 Hatr25 Hatr26 Hatr27 Hatr28 Hatr29 Hatr30]
    ·
      isplitl [Hatr0]; · iexact Hatr0
      isplitl [Hatr1]; · iexact Hatr1
      isplitl [Hatr2]; · iexact Hatr2
      isplitl [Hatr3]; · iexact Hatr3
      isplitl [Hatr4]; · iexact Hatr4
      isplitl [Hatr5]; · iexact Hatr5
      isplitl [Hatr6]; · iexact Hatr6
      isplitl [Hatr7]; · iexact Hatr7
      isplitl [Hatr8]; · iexact Hatr8
      isplitl [Hatr9]; · iexact Hatr9
      isplitl [Hatr10]; · iexact Hatr10
      isplitl [Hatr11]; · iexact Hatr11
      isplitl [Hatr12]; · iexact Hatr12
      isplitl [Hatr13]; · iexact Hatr13
      isplitl [Hatr14]; · iexact Hatr14
      isplitl [Hatr15]; · iexact Hatr15
      isplitl [Hatr16]; · iexact Hatr16
      isplitl [Hatr17]; · iexact Hatr17
      isplitl [Hatr18]; · iexact Hatr18
      isplitl [Hatr19]; · iexact Hatr19
      isplitl [Hatr20]; · iexact Hatr20
      isplitl [Hatr21]; · iexact Hatr21
      isplitl [Hatr22]; · iexact Hatr22
      isplitl [Hatr23]; · iexact Hatr23
      isplitl [Hatr24]; · iexact Hatr24
      isplitl [Hatr25]; · iexact Hatr25
      isplitl [Hatr26]; · iexact Hatr26
      isplitl [Hatr27]; · iexact Hatr27
      isplitl [Hatr28]; · iexact Hatr28
      isplitl [Hatr29]; · iexact Hatr29
      iexact Hatr30
    isplitl [Hkeep]; · iexact Hkeep
    isplitl [Hats0_pay1 Hats1_pay1 Hats2_pay1 Hats3_pay1 Hats4_pay1 Hats5_pay1 Hats6_pay1 Hats7_pay1 Hats8_pay1 Hats9_pay1 Hats10_pay1 Hats11_pay1 Hats12_pay1 Hats13_pay1 Hats14_pay1 Hats15_pay1 Hats16_pay1 Hats17_pay1 Hats18_pay1 Hats19_pay1 Hats20_pay1 Hats21_pay1 Hats22_pay1 Hats23_pay1 Hats24_pay1 Hats25_pay1 Hats26_pay1 Hats27_pay1 Hats28_pay1 Hats29_pay1 Hats30_pay1]
    ·
      isplitl [Hats0_pay1]; · iexact Hats0_pay1
      isplitl [Hats1_pay1]; · iexact Hats1_pay1
      isplitl [Hats2_pay1]; · iexact Hats2_pay1
      isplitl [Hats3_pay1]; · iexact Hats3_pay1
      isplitl [Hats4_pay1]; · iexact Hats4_pay1
      isplitl [Hats5_pay1]; · iexact Hats5_pay1
      isplitl [Hats6_pay1]; · iexact Hats6_pay1
      isplitl [Hats7_pay1]; · iexact Hats7_pay1
      isplitl [Hats8_pay1]; · iexact Hats8_pay1
      isplitl [Hats9_pay1]; · iexact Hats9_pay1
      isplitl [Hats10_pay1]; · iexact Hats10_pay1
      isplitl [Hats11_pay1]; · iexact Hats11_pay1
      isplitl [Hats12_pay1]; · iexact Hats12_pay1
      isplitl [Hats13_pay1]; · iexact Hats13_pay1
      isplitl [Hats14_pay1]; · iexact Hats14_pay1
      isplitl [Hats15_pay1]; · iexact Hats15_pay1
      isplitl [Hats16_pay1]; · iexact Hats16_pay1
      isplitl [Hats17_pay1]; · iexact Hats17_pay1
      isplitl [Hats18_pay1]; · iexact Hats18_pay1
      isplitl [Hats19_pay1]; · iexact Hats19_pay1
      isplitl [Hats20_pay1]; · iexact Hats20_pay1
      isplitl [Hats21_pay1]; · iexact Hats21_pay1
      isplitl [Hats22_pay1]; · iexact Hats22_pay1
      isplitl [Hats23_pay1]; · iexact Hats23_pay1
      isplitl [Hats24_pay1]; · iexact Hats24_pay1
      isplitl [Hats25_pay1]; · iexact Hats25_pay1
      isplitl [Hats26_pay1]; · iexact Hats26_pay1
      isplitl [Hats27_pay1]; · iexact Hats27_pay1
      isplitl [Hats28_pay1]; · iexact Hats28_pay1
      isplitl [Hats29_pay1]; · iexact Hats29_pay1
      iexact Hats30_pay1
    isplitl [Hr]; · iexact Hr
    isplitl [Hx]; · iexact Hx
    isplitl [Hout]; · iexact Hout
    iexact HO
  · iexact Hk

end Cert.KernelIdeal.Coll

end
-- ==== Proof.KernelIdeal.Launch3.lean ====
import proofs.«900483_g7700000000000484_dist_sum_ax0_shard0_i_m512_n256_v7x_i32_f32_1_alg».proof.Proof.KernelIdeal.Launch2
import proofs.«900483_g7700000000000484_dist_sum_ax0_shard0_i_m512_n256_v7x_i32_f32_1_alg».proof.Proof.KernelIdeal.Body
import Idealize.ShloMosaic.Lib.Pipeline.Value

/-!
# The launch, concluded: the credit dealt, the body obligation, and the run
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

/-- The last summand of what the devices owe, a tally on the cell of each device's `k`-th peer, comes to device `c` as
    that credit on its own cell. -/
theorem cred_peel (A : Dev nD → CellTallies nD τ sig Unit) (sm : SemLoc sig) (k : Fin 31) (n : ℕ) (c : Dev nD) :
    (Pipeline.launchCred (fun d => A d + tallyAt (((peer d k : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm (fun d => peer d k) (fun d => src d k) (fun x => peer_src x k) (fun x => src_peer x k) () n c)

/-- What the devices owe device `c`'s cells comes to it as credit: a unit from each of its 31 peers on its barrier
    cell, and a row's landing credit on each receive cell. -/
theorem creds (c : Dev nD) : (Pipeline.launchCred O₀ c : sProp 𝕄) ⊢ credits c := by
  unfold O₀ Orecv credits
  rw [bigSep_fin31]
  iintro H
  ihave H := (cred_peel _ (.reg barS) 0 1 c) $$ H
  icases H with ⟨H, Hb0⟩
  ihave H := (cred_peel _ (.reg barS) 1 1 c) $$ H
  icases H with ⟨H, Hb1⟩
  ihave H := (cred_peel _ (.reg barS) 2 1 c) $$ H
  icases H with ⟨H, Hb2⟩
  ihave H := (cred_peel _ (.reg barS) 3 1 c) $$ H
  icases H with ⟨H, Hb3⟩
  ihave H := (cred_peel _ (.reg barS) 4 1 c) $$ H
  icases H with ⟨H, Hb4⟩
  ihave H := (cred_peel _ (.reg barS) 5 1 c) $$ H
  icases H with ⟨H, Hb5⟩
  ihave H := (cred_peel _ (.reg barS) 6 1 c) $$ H
  icases H with ⟨H, Hb6⟩
  ihave H := (cred_peel _ (.reg barS) 7 1 c) $$ H
  icases H with ⟨H, Hb7⟩
  ihave H := (cred_peel _ (.reg barS) 8 1 c) $$ H
  icases H with ⟨H, Hb8⟩
  ihave H := (cred_peel _ (.reg barS) 9 1 c) $$ H
  icases H with ⟨H, Hb9⟩
  ihave H := (cred_peel _ (.reg barS) 10 1 c) $$ H
  icases H with ⟨H, Hb10⟩
  ihave H := (cred_peel _ (.reg barS) 11 1 c) $$ H
  icases H with ⟨H, Hb11⟩
  ihave H := (cred_peel _ (.reg barS) 12 1 c) $$ H
  icases H with ⟨H, Hb12⟩
  ihave H := (cred_peel _ (.reg barS) 13 1 c) $$ H
  icases H with ⟨H, Hb13⟩
  ihave H := (cred_peel _ (.reg barS) 14 1 c) $$ H
  icases H with ⟨H, Hb14⟩
  ihave H := (cred_peel _ (.reg barS) 15 1 c) $$ H
  icases H with ⟨H, Hb15⟩
  ihave H := (cred_peel _ (.reg barS) 16 1 c) $$ H
  icases H with ⟨H, Hb16⟩
  ihave H := (cred_peel _ (.reg barS) 17 1 c) $$ H
  icases H with ⟨H, Hb17⟩
  ihave H := (cred_peel _ (.reg barS) 18 1 c) $$ H
  icases H with ⟨H, Hb18⟩
  ihave H := (cred_peel _ (.reg barS) 19 1 c) $$ H
  icases H with ⟨H, Hb19⟩
  ihave H := (cred_peel _ (.reg barS) 20 1 c) $$ H
  icases H with ⟨H, Hb20⟩
  ihave H := (cred_peel _ (.reg barS) 21 1 c) $$ H
  icases H with ⟨H, Hb21⟩
  ihave H := (cred_peel _ (.reg barS) 22 1 c) $$ H
  icases H with ⟨H, Hb22⟩
  ihave H := (cred_peel _ (.reg barS) 23 1 c) $$ H
  icases H with ⟨H, Hb23⟩
  ihave H := (cred_peel _ (.reg barS) 24 1 c) $$ H
  icases H with ⟨H, Hb24⟩
  ihave H := (cred_peel _ (.reg barS) 25 1 c) $$ H
  icases H with ⟨H, Hb25⟩
  ihave H := (cred_peel _ (.reg barS) 26 1 c) $$ H
  icases H with ⟨H, Hb26⟩
  ihave H := (cred_peel _ (.reg barS) 27 1 c) $$ H
  icases H with ⟨H, Hb27⟩
  ihave H := (cred_peel _ (.reg barS) 28 1 c) $$ H
  icases H with ⟨H, Hb28⟩
  ihave H := (cred_peel _ (.reg barS) 29 1 c) $$ H
  icases H with ⟨H, Hb29⟩
  ihave H := (cred_peel _ (.reg barS) 30 1 c) $$ H
  icases H with ⟨H, Hb30⟩
  ihave H := (cred_peel _ (.dma (recvSem 0)) 0 N1 c) $$ H
  icases H with ⟨H, Hr0⟩
  ihave H := (cred_peel _ (.dma (recvSem 1)) 1 N1 c) $$ H
  icases H with ⟨H, Hr1⟩
  ihave H := (cred_peel _ (.dma (recvSem 2)) 2 N1 c) $$ H
  icases H with ⟨H, Hr2⟩
  ihave H := (cred_peel _ (.dma (recvSem 3)) 3 N1 c) $$ H
  icases H with ⟨H, Hr3⟩
  ihave H := (cred_peel _ (.dma (recvSem 4)) 4 N1 c) $$ H
  icases H with ⟨H, Hr4⟩
  ihave H := (cred_peel _ (.dma (recvSem 5)) 5 N1 c) $$ H
  icases H with ⟨H, Hr5⟩
  ihave H := (cred_peel _ (.dma (recvSem 6)) 6 N1 c) $$ H
  icases H with ⟨H, Hr6⟩
  ihave H := (cred_peel _ (.dma (recvSem 7)) 7 N1 c) $$ H
  icases H with ⟨H, Hr7⟩
  ihave H := (cred_peel _ (.dma (recvSem 8)) 8 N1 c) $$ H
  icases H with ⟨H, Hr8⟩
  ihave H := (cred_peel _ (.dma (recvSem 9)) 9 N1 c) $$ H
  icases H with ⟨H, Hr9⟩
  ihave H := (cred_peel _ (.dma (recvSem 10)) 10 N1 c) $$ H
  icases H with ⟨H, Hr10⟩
  ihave H := (cred_peel _ (.dma (recvSem 11)) 11 N1 c) $$ H
  icases H with ⟨H, Hr11⟩
  ihave H := (cred_peel _ (.dma (recvSem 12)) 12 N1 c) $$ H
  icases H with ⟨H, Hr12⟩
  ihave H := (cred_peel _ (.dma (recvSem 13)) 13 N1 c) $$ H
  icases H with ⟨H, Hr13⟩
  ihave H := (cred_peel _ (.dma (recvSem 14)) 14 N1 c) $$ H
  icases H with ⟨H, Hr14⟩
  ihave H := (cred_peel _ (.dma (recvSem 15)) 15 N1 c) $$ H
  icases H with ⟨H, Hr15⟩
  ihave H := (cred_peel _ (.dma (recvSem 16)) 16 N1 c) $$ H
  icases H with ⟨H, Hr16⟩
  ihave H := (cred_peel _ (.dma (recvSem 17)) 17 N1 c) $$ H
  icases H with ⟨H, Hr17⟩
  ihave H := (cred_peel _ (.dma (recvSem 18)) 18 N1 c) $$ H
  icases H with ⟨H, Hr18⟩
  ihave H := (cred_peel _ (.dma (recvSem 19)) 19 N1 c) $$ H
  icases H with ⟨H, Hr19⟩
  ihave H := (cred_peel _ (.dma (recvSem 20)) 20 N1 c) $$ H
  icases H with ⟨H, Hr20⟩
  ihave H := (cred_peel _ (.dma (recvSem 21)) 21 N1 c) $$ H
  icases H with ⟨H, Hr21⟩
  ihave H := (cred_peel _ (.dma (recvSem 22)) 22 N1 c) $$ H
  icases H with ⟨H, Hr22⟩
  ihave H := (cred_peel _ (.dma (recvSem 23)) 23 N1 c) $$ H
  icases H with ⟨H, Hr23⟩
  ihave H := (cred_peel _ (.dma (recvSem 24)) 24 N1 c) $$ H
  icases H with ⟨H, Hr24⟩
  ihave H := (cred_peel _ (.dma (recvSem 25)) 25 N1 c) $$ H
  icases H with ⟨H, Hr25⟩
  ihave H := (cred_peel _ (.dma (recvSem 26)) 26 N1 c) $$ H
  icases H with ⟨H, Hr26⟩
  ihave H := (cred_peel _ (.dma (recvSem 27)) 27 N1 c) $$ H
  icases H with ⟨H, Hr27⟩
  ihave H := (cred_peel _ (.dma (recvSem 28)) 28 N1 c) $$ H
  icases H with ⟨H, Hr28⟩
  ihave H := (cred_peel _ (.dma (recvSem 29)) 29 N1 c) $$ H
  icases H with ⟨H, Hr29⟩
  ihave Hr30 := (Pipeline.launchCred_tallyAt (.dma (recvSem 30)) (fun d => peer d 30) (fun d => src d 30) (fun x => peer_src x 30) (fun x => src_peer x 30) () N1 c) $$ H
  ihave HB := (cred_join (barCell c) 1 1) $$ [Hb0 Hb1]
  · isplitl [Hb0] <;> iassumption
  ihave HB := (cred_join (barCell c) 2 1) $$ [HB Hb2]
  · isplitl [HB] <;> iassumption
  ihave HB := (cred_join (barCell c) 3 1) $$ [HB Hb3]
  · isplitl [HB] <;> iassumption
  ihave HB := (cred_join (barCell c) 4 1) $$ [HB Hb4]
  · isplitl [HB] <;> iassumption
  ihave HB := (cred_join (barCell c) 5 1) $$ [HB Hb5]
  · isplitl [HB] <;> iassumption
  ihave HB := (cred_join (barCell c) 6 1) $$ [HB Hb6]
  · isplitl [HB] <;> iassumption
  ihave HB := (cred_join (barCell c) 7 1) $$ [HB Hb7]
  · isplitl [HB] <;> iassumption
  ihave HB := (cred_join (barCell c) 8 1) $$ [HB Hb8]
  · isplitl [HB] <;> iassumption
  ihave HB := (cred_join (barCell c) 9 1) $$ [HB Hb9]
  · isplitl [HB] <;> iassumption
  ihave HB := (cred_join (barCell c) 10 1) $$ [HB Hb10]
  · isplitl [HB] <;> iassumption
  ihave HB := (cred_join (barCell c) 11 1) $$ [HB Hb11]
  · isplitl [HB] <;> iassumption
  ihave HB := (cred_join (barCell c) 12 1) $$ [HB Hb12]
  · isplitl [HB] <;> iassumption
  ihave HB := (cred_join (barCell c) 13 1) $$ [HB Hb13]
  · isplitl [HB] <;> iassumption
  ihave HB := (cred_join (barCell c) 14 1) $$ [HB Hb14]
  · isplitl [HB] <;> iassumption
  ihave HB := (cred_join (barCell c) 15 1) $$ [HB Hb15]
  · isplitl [HB] <;> iassumption
  ihave HB := (cred_join (barCell c) 16 1) $$ [HB Hb16]
  · isplitl [HB] <;> iassumption
  ihave HB := (cred_join (barCell c) 17 1) $$ [HB Hb17]
  · isplitl [HB] <;> iassumption
  ihave HB := (cred_join (barCell c) 18 1) $$ [HB Hb18]
  · isplitl [HB] <;> iassumption
  ihave HB := (cred_join (barCell c) 19 1) $$ [HB Hb19]
  · isplitl [HB] <;> iassumption
  ihave HB := (cred_join (barCell c) 20 1) $$ [HB Hb20]
  · isplitl [HB] <;> iassumption
  ihave HB := (cred_join (barCell c) 21 1) $$ [HB Hb21]
  · isplitl [HB] <;> iassumption
  ihave HB := (cred_join (barCell c) 22 1) $$ [HB Hb22]
  · isplitl [HB] <;> iassumption
  ihave HB := (cred_join (barCell c) 23 1) $$ [HB Hb23]
  · isplitl [HB] <;> iassumption
  ihave HB := (cred_join (barCell c) 24 1) $$ [HB Hb24]
  · isplitl [HB] <;> iassumption
  ihave HB := (cred_join (barCell c) 25 1) $$ [HB Hb25]
  · isplitl [HB] <;> iassumption
  ihave HB := (cred_join (barCell c) 26 1) $$ [HB Hb26]
  · isplitl [HB] <;> iassumption
  ihave HB := (cred_join (barCell c) 27 1) $$ [HB Hb27]
  · isplitl [HB] <;> iassumption
  ihave HB := (cred_join (barCell c) 28 1) $$ [HB Hb28]
  · isplitl [HB] <;> iassumption
  ihave HB := (cred_join (barCell c) 29 1) $$ [HB Hb29]
  · isplitl [HB] <;> iassumption
  ihave HB := (cred_join (barCell c) 30 1) $$ [HB Hb30]
  · isplitl [HB] <;> iassumption
  isplitl [HB]; · iexact HB
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  iexact Hr30

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem ownZeros_to (c : Dev nD) : (ownZeros c : sProp 𝕄) ⊢ Pipeline.ownSems0 osem c := by
  unfold ownZeros Pipeline.ownSems0
  rw [bigSep_fin31, bigSep_fin31, bigSep_fin62]
  iintro ⟨⟨S0, S1, S2, S3, S4, S5, S6, S7, S8, S9, S10, S11, S12, S13, S14, S15, S16, S17, S18, S19, S20, S21, S22, S23, S24, S25, S26, S27, S28, S29, S30⟩, ⟨R0, R1, R2, R3, R4, R5, R6, R7, R8, R9, R10, R11, R12, R13, R14, R15, R16, R17, R18, R19, R20, R21, R22, R23, R24, R25, R26, R27, R28, R29, R30⟩⟩
  isplitl [S0]; · (rw [show ((c : Thread nD τ), osem 0) = sendCell c 0 from kcell_send c 0]; iexact S0)
  isplitl [S1]; · (rw [show ((c : Thread nD τ), osem 1) = sendCell c 1 from kcell_send c 1]; iexact S1)
  isplitl [S2]; · (rw [show ((c : Thread nD τ), osem 2) = sendCell c 2 from kcell_send c 2]; iexact S2)
  isplitl [S3]; · (rw [show ((c : Thread nD τ), osem 3) = sendCell c 3 from kcell_send c 3]; iexact S3)
  isplitl [S4]; · (rw [show ((c : Thread nD τ), osem 4) = sendCell c 4 from kcell_send c 4]; iexact S4)
  isplitl [S5]; · (rw [show ((c : Thread nD τ), osem 5) = sendCell c 5 from kcell_send c 5]; iexact S5)
  isplitl [S6]; · (rw [show ((c : Thread nD τ), osem 6) = sendCell c 6 from kcell_send c 6]; iexact S6)
  isplitl [S7]; · (rw [show ((c : Thread nD τ), osem 7) = sendCell c 7 from kcell_send c 7]; iexact S7)
  isplitl [S8]; · (rw [show ((c : Thread nD τ), osem 8) = sendCell c 8 from kcell_send c 8]; iexact S8)
  isplitl [S9]; · (rw [show ((c : Thread nD τ), osem 9) = sendCell c 9 from kcell_send c 9]; iexact S9)
  isplitl [S10]; · (rw [show ((c : Thread nD τ), osem 10) = sendCell c 10 from kcell_send c 10]; iexact S10)
  isplitl [S11]; · (rw [show ((c : Thread nD τ), osem 11) = sendCell c 11 from kcell_send c 11]; iexact S11)
  isplitl [S12]; · (rw [show ((c : Thread nD τ), osem 12) = sendCell c 12 from kcell_send c 12]; iexact S12)
  isplitl [S13]; · (rw [show ((c : Thread nD τ), osem 13) = sendCell c 13 from kcell_send c 13]; iexact S13)
  isplitl [S14]; · (rw [show ((c : Thread nD τ), osem 14) = sendCell c 14 from kcell_send c 14]; iexact S14)
  isplitl [S15]; · (rw [show ((c : Thread nD τ), osem 15) = sendCell c 15 from kcell_send c 15]; iexact S15)
  isplitl [S16]; · (rw [show ((c : Thread nD τ), osem 16) = sendCell c 16 from kcell_send c 16]; iexact S16)
  isplitl [S17]; · (rw [show ((c : Thread nD τ), osem 17) = sendCell c 17 from kcell_send c 17]; iexact S17)
  isplitl [S18]; · (rw [show ((c : Thread nD τ), osem 18) = sendCell c 18 from kcell_send c 18]; iexact S18)
  isplitl [S19]; · (rw [show ((c : Thread nD τ), osem 19) = sendCell c 19 from kcell_send c 19]; iexact S19)
  isplitl [S20]; · (rw [show ((c : Thread nD τ), osem 20) = sendCell c 20 from kcell_send c 20]; iexact S20)
  isplitl [S21]; · (rw [show ((c : Thread nD τ), osem 21) = sendCell c 21 from kcell_send c 21]; iexact S21)
  isplitl [S22]; · (rw [show ((c : Thread nD τ), osem 22) = sendCell c 22 from kcell_send c 22]; iexact S22)
  isplitl [S23]; · (rw [show ((c : Thread nD τ), osem 23) = sendCell c 23 from kcell_send c 23]; iexact S23)
  isplitl [S24]; · (rw [show ((c : Thread nD τ), osem 24) = sendCell c 24 from kcell_send c 24]; iexact S24)
  isplitl [S25]; · (rw [show ((c : Thread nD τ), osem 25) = sendCell c 25 from kcell_send c 25]; iexact S25)
  isplitl [S26]; · (rw [show ((c : Thread nD τ), osem 26) = sendCell c 26 from kcell_send c 26]; iexact S26)
  isplitl [S27]; · (rw [show ((c : Thread nD τ), osem 27) = sendCell c 27 from kcell_send c 27]; iexact S27)
  isplitl [S28]; · (rw [show ((c : Thread nD τ), osem 28) = sendCell c 28 from kcell_send c 28]; iexact S28)
  isplitl [S29]; · (rw [show ((c : Thread nD τ), osem 29) = sendCell c 29 from kcell_send c 29]; iexact S29)
  isplitl [S30]; · (rw [show ((c : Thread nD τ), osem 30) = sendCell c 30 from kcell_send c 30]; iexact S30)
  isplitl [R0]; · (rw [show ((c : Thread nD τ), osem 31) = recvCell c 0 from kcell_recv c 0]; iexact R0)
  isplitl [R1]; · (rw [show ((c : Thread nD τ), osem 32) = recvCell c 1 from kcell_recv c 1]; iexact R1)
  isplitl [R2]; · (rw [show ((c : Thread nD τ), osem 33) = recvCell c 2 from kcell_recv c 2]; iexact R2)
  isplitl [R3]; · (rw [show ((c : Thread nD τ), osem 34) = recvCell c 3 from kcell_recv c 3]; iexact R3)
  isplitl [R4]; · (rw [show ((c : Thread nD τ), osem 35) = recvCell c 4 from kcell_recv c 4]; iexact R4)
  isplitl [R5]; · (rw [show ((c : Thread nD τ), osem 36) = recvCell c 5 from kcell_recv c 5]; iexact R5)
  isplitl [R6]; · (rw [show ((c : Thread nD τ), osem 37) = recvCell c 6 from kcell_recv c 6]; iexact R6)
  isplitl [R7]; · (rw [show ((c : Thread nD τ), osem 38) = recvCell c 7 from kcell_recv c 7]; iexact R7)
  isplitl [R8]; · (rw [show ((c : Thread nD τ), osem 39) = recvCell c 8 from kcell_recv c 8]; iexact R8)
  isplitl [R9]; · (rw [show ((c : Thread nD τ), osem 40) = recvCell c 9 from kcell_recv c 9]; iexact R9)
  isplitl [R10]; · (rw [show ((c : Thread nD τ), osem 41) = recvCell c 10 from kcell_recv c 10]; iexact R10)
  isplitl [R11]; · (rw [show ((c : Thread nD τ), osem 42) = recvCell c 11 from kcell_recv c 11]; iexact R11)
  isplitl [R12]; · (rw [show ((c : Thread nD τ), osem 43) = recvCell c 12 from kcell_recv c 12]; iexact R12)
  isplitl [R13]; · (rw [show ((c : Thread nD τ), osem 44) = recvCell c 13 from kcell_recv c 13]; iexact R13)
  isplitl [R14]; · (rw [show ((c : Thread nD τ), osem 45) = recvCell c 14 from kcell_recv c 14]; iexact R14)
  isplitl [R15]; · (rw [show ((c : Thread nD τ), osem 46) = recvCell c 15 from kcell_recv c 15]; iexact R15)
  isplitl [R16]; · (rw [show ((c : Thread nD τ), osem 47) = recvCell c 16 from kcell_recv c 16]; iexact R16)
  isplitl [R17]; · (rw [show ((c : Thread nD τ), osem 48) = recvCell c 17 from kcell_recv c 17]; iexact R17)
  isplitl [R18]; · (rw [show ((c : Thread nD τ), osem 49) = recvCell c 18 from kcell_recv c 18]; iexact R18)
  isplitl [R19]; · (rw [show ((c : Thread nD τ), osem 50) = recvCell c 19 from kcell_recv c 19]; iexact R19)
  isplitl [R20]; · (rw [show ((c : Thread nD τ), osem 51) = recvCell c 20 from kcell_recv c 20]; iexact R20)
  isplitl [R21]; · (rw [show ((c : Thread nD τ), osem 52) = recvCell c 21 from kcell_recv c 21]; iexact R21)
  isplitl [R22]; · (rw [show ((c : Thread nD τ), osem 53) = recvCell c 22 from kcell_recv c 22]; iexact R22)
  isplitl [R23]; · (rw [show ((c : Thread nD τ), osem 54) = recvCell c 23 from kcell_recv c 23]; iexact R23)
  isplitl [R24]; · (rw [show ((c : Thread nD τ), osem 55) = recvCell c 24 from kcell_recv c 24]; iexact R24)
  isplitl [R25]; · (rw [show ((c : Thread nD τ), osem 56) = recvCell c 25 from kcell_recv c 25]; iexact R25)
  isplitl [R26]; · (rw [show ((c : Thread nD τ), osem 57) = recvCell c 26 from kcell_recv c 26]; iexact R26)
  isplitl [R27]; · (rw [show ((c : Thread nD τ), osem 58) = recvCell c 27 from kcell_recv c 27]; iexact R27)
  isplitl [R28]; · (rw [show ((c : Thread nD τ), osem 59) = recvCell c 28 from kcell_recv c 28]; iexact R28)
  isplitl [R29]; · (rw [show ((c : Thread nD τ), osem 60) = recvCell c 29 from kcell_recv c 29]; iexact R29)
  rw [show ((c : Thread nD τ), osem 61) = recvCell c 30 from kcell_recv c 30]; iexact R30

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  isplitr; · iempintro
  isplitl [Hz]; · iapply (ownZeros_to c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The body obligation -/

set_option maxRecDepth 65536 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, from any memory with zero counters: every weakly fair execution terminates,
    and every final state has each device's result array at its row sum plus the rows received, and its input unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- What the one point writes back to the result array is the result. -/
theorem flushed_out (c : Dev nD) (t : Fin cfg0.N) (hf : (cfg0.win 1).flush t = true) :
    (dats m ρ 0 c).flushed 1 t = ((cfg0.win 1).blk t).view.read (Elt F) (outVal m ρ c) := by
  rw [fin_N t]
  show (cfg0.win 1).cut (grid0.coords t₀) ((dats m ρ 0 c).after 1 t₀) = _
  have hz' : (fun a => win0_1.index t₀ a * main_v1.ty.shape.size a) = fun _ => 0 := funext fun a => Nat.zero_mul _
  exact (Memref.read_access_unit_zero (Elt F) main_v1 hz' (fun a => by rw [congrFun hz' a]; simp) (outVal m ρ c)).symm

/-- The result array after the run holds the device's row sum plus the rows received. -/
theorem finalA_out (c : Dev nD) : finalA m ρ c (1 : Fin 2) = outVal m ρ c :=
  (dats m ρ 0 c).arrAt_eq_of_cover 1 (outVal m ρ c) (flushed_out m ρ c) fun i =>
    ⟨t₀, rfl, by
      show i ∈ ((View.whole main_v1).slice (win0_1.rect t₀)).set
      rw [View.set_slice_whole, Rect.mem_set_unit]
      intro a
      have h0 : (i 0 : Nat) < 1 := (i 0).isLt
      have h1 : (i 1 : Nat) < 256 := (i 1).isLt
      match a with
      | ⟨0, _⟩ => show 0 * 1 ≤ (i 0 : Nat) ∧ (i 0 : Nat) < 0 * 1 + 1; omega
      | ⟨1, _⟩ => show 0 * 256 ≤ (i 1 : Nat) ∧ (i 1 : Nat) < 0 * 256 + 256; omega⟩

end Cert.KernelIdeal.Coll

end
-- ==== Proof.KernelIdeal.Value.lean ====
import proofs.«900483_g7700000000000484_dist_sum_ax0_shard0_i_m512_n256_v7x_i32_f32_1_alg».proof.Proof.KernelIdeal.Sched
import proofs.«900483_g7700000000000484_dist_sum_ax0_shard0_i_m512_n256_v7x_i32_f32_1_alg».proof.Proof.Gen.ReferenceIdeal.Read
import Idealize.ShloMosaic.PureOps.Ideal.Laws
import Idealize.ShloMosaic.Lib.Pipeline.Value
import Idealize.ShloMosaic.Lib.ValueIdx
import Idealize.ShloMosaic.Lib.Layout

/-!
# The value, at the ideal instance

Device `c`'s result at column `l` is its own row sum plus the sum of the 31 rows it received, and row `i` received
is `src c i`'s row sum. The devices `c, src c 0, …, src c 30` are all 32 devices, each once, so the result is the
sum over all devices of their row sums: the sum of column `l` over all 16384 rows of the whole array, device `d`
holding rows `512 d … 512 d + 511`. Only commutativity and associativity of `+` are used, so infinities do no harm.
-/

noncomputable section

namespace Cert.KernelIdeal.CollValue

open Cert.KernelIdeal Cert.KernelIdeal.Gen Cert.KernelIdeal.Coll
open Idealize.ShloMosaic Idealize.ShloMosaic.TcCoe Idealize.ShloMosaic.ValueIdx Idealize.SL.Sem

/-! ## The two payloads read at an index -/

/-- The row sum: entry `(0, l)` is the sum of column `l` of the block. -/
theorem pay1_apply (v : Vec Ideal S512x256 .f32) (j : S1x256.Idx) :
    (k0_pay1 (F := Ideal) v j : EReal) = ∑ r : Fin 512, (v (ix2 r (j 1)) : EReal) := by
  unfold k0_pay1
  refine (congrFun (shapeCast_self _ _) j).trans ?_
  refine (shapeCast_addUnit_apply (![256]) _ _ j).trans ?_
  refine (Ideal.multiReduction_add_single _ _ _ _ _ _).trans ?_
  refine Finset.sum_congr rfl fun r _ => ?_
  refine (congrFun (shapeCast_self _ _) _).trans ?_
  exact congrArg v (funext fun a => Fin.ext (by match a with | ⟨0, _⟩ => rfl | ⟨1, _⟩ => rfl))

/-- The final sum: entry `j` is the send buffer's entry plus the sum over the 31 rows received. -/
theorem pay2_apply (s : Vec Ideal S1x256 .f32) (r : Vec Ideal S31x1x256 .f32) (j : S1x256.Idx) :
    (k0_pay2 (F := Ideal) s r j : EReal) = (s j : EReal) + ∑ i : Fin 31, (r (ix3 i (j 0) (j 1)) : EReal) := by
  unfold k0_pay2
  refine (addf_apply _ _ j).trans ?_
  refine congrArg (fun z : EReal => (s j : EReal) + z) ?_
  refine (Ideal.multiReduction_add_single _ _ _ _ _ _).trans ?_
  refine Finset.sum_congr rfl fun i _ => ?_
  exact congrArg r (funext fun a => Fin.ext (by match a with | ⟨0, _⟩ => rfl | ⟨1, _⟩ => rfl | ⟨2, _⟩ => rfl))

/-! ## The sum over all devices -/

/-- A device and its 31 sources are all 32 devices, each once. -/
theorem sum_self_add_sources {M : Type} [AddCommMonoid M] (c : Dev nD) (f : Dev nD → M) :
    f c + ∑ i : Fin 31, f (src c i) = ∑ d : Dev nD, f d := by
  classical
  have himg : (Finset.univ : Finset (Fin 31)).image (src c) = Finset.univ.erase c := by
    ext d
    simp only [Finset.mem_image, Finset.mem_univ, true_and, Finset.mem_erase, and_true]
    constructor
    · rintro ⟨i, rfl⟩; rw [src_eq_peer_rev]; exact peer_ne_self c _
    · intro h; obtain ⟨i, hi⟩ := exists_peer c d h; exact ⟨rev i, by rw [src_eq_peer_rev, rev_rev]; exact hi.symm⟩
  rw [← Finset.add_sum_erase Finset.univ f (Finset.mem_univ c), ← himg, Finset.sum_image fun a _ b _ h => src_injective c h]

/-! ## A row of the receive buffer, by coordinates -/

/-- Entry `(a, b)` of row `i` is entry `(i, a, b)` of the receive buffer. -/
theorem slot_emb (i : Fin 31) (a : Fin 1) (b : Fin 256) :
    ((slotM i).view.emb (ix2 a b) : S31x1x256.Idx) = ix3 i a b := by
  have hr : Shape.reshapeEquiv (squeezes_S1x1x256_S1x256.numel_eq) (ix2 a b : S1x256.Idx) = (ix3 (0 : Fin 1) a b : S1x1x256.Idx) :=
    Shape.reshapeEquiv_eq_of_rowMajor _ (by
      rw [Shape.rowMajor_val_three, Shape.rowMajor_val_two]
      show ((0 : ℕ) * 1 + a.val) * 256 + b.val = a.val * 256 + b.val
      omega)
  show (Rect.unit (s := S31x1x256) ![i.val, 0, 0] S1x1x256.size (slot_inb i)).emb (Shape.reshapeEquiv _ (ix2 a b)) = _
  rw [hr]
  funext k; apply Fin.ext
  rw [Rect.emb_apply]
  match k with
  | ⟨0, _⟩ => show i.val + 1 * 0 = i.val; omega
  | ⟨1, _⟩ => show 0 + 1 * a.val = a.val; omega
  | ⟨2, _⟩ => show 0 + 1 * b.val = b.val; omega

variable (m : (ℓ : Loc nD τ sig) → Buf (Elt Ideal) ℓ) (ρ : Dev nD → PrngReg)

/-- The three buffers' contents as plain functions into the extended reals. -/
abbrev sendE (d : Dev nD) : S1x256.Idx → EReal := sendVal m ρ d
abbrev recvE (c : Dev nD) : S31x1x256.Idx → EReal := recvVal m ρ c
abbrev outE (c : Dev nD) : S1x256.Idx → EReal := outVal m ρ c
abbrev argE (d : Dev nD) : S512x256.Idx → EReal := m ((d : Thread nD τ).loc main_arg0)

/-- Row `i` received by device `c` is `src c i`'s row sum. -/
theorem recvE_at (c : Dev nD) (x : S31x1x256.Idx) (y : S1x256.Idx)
    (hy : ((slotM (x 0)).view.emb y : S31x1x256.Idx) = x) :
    recvE m ρ c x = sendE m ρ (src c (x 0)) y := by
  have h := View.write_emb_of_mem (v := (slotM (x 0)).view) (Val := Elt Ideal)
    (fun _ => sendVal m ρ c (fun a => match a with | ⟨0, _⟩ => (0 : Fin 1) | ⟨1, _⟩ => (0 : Fin 256)))
    (View.read (Elt Ideal) (sM : Memref sig .tc .vmem S1x256 .f32).view (sendVal m ρ (src c (x 0)))) (Finset.mem_univ y)
  rw [hy] at h
  refine h.trans ?_
  refine (cast_eq _ _).trans ?_
  rfl

theorem recvE_apply (c : Dev nD) (i : Fin 31) (a : Fin 1) (b : Fin 256) :
    recvE m ρ c (ix3 i a b) = sendE m ρ (src c i) (ix2 a b) :=
  recvE_at m ρ c (ix3 i a b) (ix2 a b) (slot_emb i a b)

/-- The staged input block is the device's argument array. -/
theorem xblk_eq (c : Dev nD) : xblk m ρ c = m ((c : Thread nD τ).loc main_arg0) := by
  unfold xblk
  exact Memref.read_access_unit_zero (Elt Ideal) main_arg0 (funext fun a => Nat.zero_mul _) _ _

/-- A device's row sum is the sum of its block's column. -/
theorem sendE_apply (d : Dev nD) (j : S1x256.Idx) : sendE m ρ d j = ∑ r : Fin 512, argE m d (ix2 r (j 1)) := by
  show (k0_pay1 (F := Ideal) (xblk m ρ d) j : EReal) = _
  rw [pay1_apply, xblk_eq]

/-- A device's result is its row sum plus the rows received. -/
theorem outE_apply (c : Dev nD) (j : S1x256.Idx) : outE m ρ c j = sendE m ρ c j + ∑ i : Fin 31, recvE m ρ c (ix3 i (j 0) (j 1)) := by
  show (k0_pay2 (F := Ideal) (sendVal m ρ c) (recvVal m ρ c) j : EReal) = _
  rw [pay2_apply]

/-! ## The bridge -/

/-- Device `c`'s result is the sum over all devices of their blocks' column sums. -/
theorem outE_total (c : Dev nD) (j : S1x256.Idx) : outE m ρ c j = ∑ d : Dev nD, ∑ r : Fin 512, argE m d (ix2 r (j 1)) := by
  rw [outE_apply]
  have hrow : ∀ i : Fin 31, recvE m ρ c (ix3 i (j 0) (j 1)) = sendE m ρ (src c i) j := fun i => by
    exact (recvE_apply m ρ c i (j 0) (j 1)).trans (congrArg (sendE m ρ (src c i)) (eq_ix2 j).symm)
  rw [Finset.sum_congr rfl fun i _ => hrow i, sum_self_add_sources c (fun d => sendE m ρ d j)]
  exact Finset.sum_congr rfl fun d _ => sendE_apply m ρ d j

/-- Device `c`'s result is the reference's: the sum of each column over all 16384 rows. -/
theorem outVal_eq (X : Cert.ReferenceIdeal.S16384x256.Idx → EReal)
    (hblk : ∀ d : Dev nD, argE m d = Layout.block ⟨2, ![512, 256]⟩ ⟨2, ![16384, 256]⟩ 0 32 d X)
    (c : Dev nD) :
    outE m ρ c = (Cert.ReferenceIdeal.Read.val_main_v1 (F := Ideal) X : S1x256.Idx → EReal) := by
  funext (j : S1x256.Idx)
  have hr : (Cert.ReferenceIdeal.Read.val_main_v1 (F := Ideal) X : S1x256.Idx → EReal) j = ∑ k : Fin 16384, X (ix2 k (j 1)) := by
    rw [Cert.ReferenceIdeal.Read.val_main_v1_apply, Cert.ReferenceIdeal.Read.val_main_v0_apply, Cert.ReferenceIdeal.Read.val_main_cst_apply]
    refine (congrArg (fun z : EReal => z + ∑ k : Fin 16384, X (Cert.ReferenceIdeal.Read.idx_main_v0 (Cert.ReferenceIdeal.Read.idx_main_v1 j) k)) Ideal.ofBits_zero_f32).trans ?_
    rw [zero_add]
    exact Finset.sum_congr rfl fun k _ => congrArg X (funext fun a => Fin.ext (by match a with | ⟨0, _⟩ => rfl | ⟨1, _⟩ => rfl))
  rw [outE_total, hr, ← Fintype.sum_prod_type' (fun (d : Dev nD) (r : Fin 512) => argE m d (ix2 r (j 1)))]
  refine Fintype.sum_equiv (finProdFinEquiv (m := 32) (n := 512)) _ _ fun dr => ?_
  obtain ⟨d, r⟩ := dr
  rw [hblk d]
  refine congrArg X (funext fun a => Fin.ext ?_)
  match a with
  | ⟨0, _⟩ =>
    show d.val * 512 + r.val = (finProdFinEquiv (m := 32) (n := 512) (d, r)).val
    rw [finProdFinEquiv_apply_val]
    show d.val * 512 + r.val = r.val + 512 * d.val
    omega
  | ⟨1, _⟩ => rfl

end Cert.KernelIdeal.CollValue

end
-- ==== Proof.lean ====
/-
  A row sum over 16384 rows, computed by 32 devices that hold 512 rows each.

  Every device sums its own 512 rows into a 1×256 row, tells each of its 31 peers that it has entered (one unit on the
  peer's barrier semaphore), waits for the 31 units its peers send it, copies its row into its own slot of each peer's
  31-row receive buffer, waits for the 31 rows sent to it, and adds them to its own. The 32 devices' rows are then
  summed on every device, each once: the sum of every column over all 16384 rows, which is what the one-device
  reference computes. At the ideal instance the two are equal by commutativity and associativity of addition on the
  extended reals alone, so the finiteness of the inputs is never used.

  The frames: one device's body is run once at a symbolic device (Proof/KernelIdeal/Body.lean and its word-level twin
  Proof/Kernel/Body.lean), under a rounds schedule of 63 semaphore cells per device (Sched.lean); a wait is always at a
  level below what the waiter still owes (Levels.lean), which is the whole deadlock argument; the launch allocates the
  cells' invariants for all devices at once and deals each duty's token to the device that pays it (Launch1–3.lean).
  The value: Proof/KernelIdeal/Value.lean. The reference's run and its reading at an index are generated modules.
-/
import proofs.«900483_g7700000000000484_dist_sum_ax0_shard0_i_m512_n256_v7x_i32_f32_1_alg».proof.Defs
import proofs.«900483_g7700000000000484_dist_sum_ax0_shard0_i_m512_n256_v7x_i32_f32_1_alg».proof.Proof.Kernel.Launch3
import proofs.«900483_g7700000000000484_dist_sum_ax0_shard0_i_m512_n256_v7x_i32_f32_1_alg».proof.Proof.KernelIdeal.Launch3
import proofs.«900483_g7700000000000484_dist_sum_ax0_shard0_i_m512_n256_v7x_i32_f32_1_alg».proof.Proof.KernelIdeal.Value
import proofs.«900483_g7700000000000484_dist_sum_ax0_shard0_i_m512_n256_v7x_i32_f32_1_alg».proof.Proof.Gen.ReferenceIdeal
import proofs.«900483_g7700000000000484_dist_sum_ax0_shard0_i_m512_n256_v7x_i32_f32_1_alg».proof.Proof.Gen.ReferenceIdeal.Run
import proofs.«900483_g7700000000000484_dist_sum_ax0_shard0_i_m512_n256_v7x_i32_f32_1_alg».proof.Proof.Gen.ReferenceIdeal.Read
import proofs.«900483_g7700000000000484_dist_sum_ax0_shard0_i_m512_n256_v7x_i32_f32_1_alg».proof.Proof.Gen.Pre_finite_inputs_Kernel
import proofs.«900483_g7700000000000484_dist_sum_ax0_shard0_i_m512_n256_v7x_i32_f32_1_alg».proof.Proof.Gen.Pre_finite_inputs_ReferenceIdeal
import Idealize.ShloMosaic.Adequacy
import Idealize.ShloMosaic.Init

noncomputable section

namespace Cert.Proof

open Idealize.ShloMosaic Idealize.ShloMosaic.TcCoe Idealize.SL.Sem

/-- The word-level kernel runs and leaves every device's block of the input as it was. -/
theorem frame_k : Cert.frame_Kernel := fun m g _ =>
  (θ_run (Cert.Kernel.defs (F := Bits)) _ _).mono (fun _ h c => (h c 0).trans (Cert.Kernel.Coll.finalA_x m g c))
    (Cert.Kernel.Coll.run_main (F := Bits) m g)

/-- So does the idealized kernel. -/
theorem frame_ki : Cert.frame_KernelIdeal := fun m g _ =>
  (θ_run (Cert.KernelIdeal.defs (F := Ideal)) _ _).mono (fun _ h c => (h c 0).trans (Cert.KernelIdeal.Coll.finalA_x m g c))
    (Cert.KernelIdeal.Coll.run_main (F := Ideal) m g)

/-- The reference's frame is its generated run with the result dropped. -/
theorem frame_ri : Cert.frame_ReferenceIdeal := fun m g _ =>
  (θ_run Cert.ReferenceIdeal.defs _ _).mono (fun _ h c => (h c).2) (Cert.ReferenceIdeal.Value.run (F := Ideal) m g)

/-- At the ideal instance every device's result array ends holding the reference's result: the sum of each column
    over all the rows of the whole array, of which the devices hold consecutive blocks of 512 rows. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨?_, ?_⟩) (Cert.KernelIdeal.Coll.run_main (F := Ideal) m g)
    · exact ((h c 1).trans (Cert.KernelIdeal.Coll.finalA_out m g c)).trans
        (Cert.KernelIdeal.CollValue.outVal_eq m g _ (fun d => hagree d) c)
    · exact (h c 0).trans (Cert.KernelIdeal.Coll.finalA_x m g c)
  · exact (θ_run Cert.ReferenceIdeal.defs _ _).mono (fun _ h => ⟨(h 0).1.trans (Cert.ReferenceIdeal.Read.val_main_v1_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
